-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v9_0)) (v2 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_v9_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x1024 : Shape := ⟨3, ![32, 8, 1024]⟩
abbrev S32x4096x1024 : Shape := ⟨3, ![32, 4096, 1024]⟩
abbrev S1024x1024 : Shape := ⟨2, ![1024, 1024]⟩
abbrev S1024 : Shape := ⟨1, ![1024]⟩
abbrev S_ : Shape := ⟨0, ![]⟩

class Facts : Prop where
  bcast_S_S32x8x1024 : S_.BroadcastsInDim S32x8x1024 (![] : Fin 0 → Fin S32x8x1024.rank)
  reducesTo_S32x8x1024_S_d0_1_2 : S32x8x1024.ReducesTo [0, 1, 2] S_
  h_S_ : 0 < S_.numel
  bcast_S_S32x4096x1024 : S_.BroadcastsInDim S32x4096x1024 (![] : Fin 0 → Fin S32x4096x1024.rank)
  reducesTo_S32x4096x1024_S_d0_1_2 : S32x4096x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S32x8x1024 .f32) (main_arg1 : FVec F S32x4096x1024 .f32) (main_arg2 : FVec F S32x4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S32x8x1024 .f32 := Host.absf main_arg0
  let main_cst : FVec F S_ .f32 := constant S_ .f32 0x7F800000#32
  let main_v1 : FVec F S32x8x1024 .f32 := broadcastInDim S32x8x1024 ![] bcast_S_S32x8x1024 main_cst
  let main_v2 : IVec S32x8x1024 1 := cmpf .olt main_v0 main_v1
  let main_c : IVec S_ 1 := constantI S_ 1 1#1
  let main_v3 : IVec S_ 1 := (fun x v => Host.reduce IntOp.andi x v reducesTo_S32x8x1024_S_d0_1_2 h_S_) main_v2 main_c
  let main_v4 : FVec F S32x4096x1024 .f32 := Host.absf main_arg1
  let main_cst_0 : FVec F S_ .f32 := constant S_ .f32 0x7F800000#32
  let main_v5 : FVec F S32x4096x1024 .f32 := broadcastInDim S32x4096x1024 ![] bcast_S_S32x4096x1024 main_cst_0
  let main_v6 : IVec S32x4096x1024 1 := cmpf .olt main_v4 main_v5
  let main_c_1 : IVec S_ 1 := constantI S_ 1 1#1
  let main_v7 : IVec S_ 1 := (fun x v => Host.reduce IntOp.andi x v reducesTo_S32x4096x1024_S_d0_1_2 h_S_) main_v6 main_c_1
  let main_v8 : IVec S_ 1 := andi main_v3 main_v7
  let main_v9 : FVec F S32x4096x1024 .f32 := Host.absf main_arg2
  let main_cst_2 : FVec F S_ .f32 := constant S_ .f32 0x7F800000#32
  let main_v10 : FVec F S32x4096x1024 .f32 := broadcastInDim S32x4096x1024 ![] bcast_S_S32x4096x1024 main_cst_2
  let main_v11 : IVec S32x4096x1024 1 := cmpf .olt main_v9 main_v10
  let main_c_3 : IVec S_ 1 := constantI S_ 1 1#1
  let main_v12 : IVec S_ 1 := (fun x v => Host.reduce IntOp.andi x v reducesTo_S32x4096x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S32x8x1024 : Shape := ⟨3, ![32, 8, 1024]⟩
abbrev S32x4096x1024 : Shape := ⟨3, ![32, 4096, 1024]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩
abbrev S32x4104x1024 : Shape := ⟨3, ![32, 4104, 1024]⟩
abbrev S1x8x1024 : Shape := ⟨3, ![1, 8, 1024]⟩
abbrev S1x1024x1024 : Shape := ⟨3, ![1, 1024, 1024]⟩
abbrev S1x8x1 : Shape := ⟨3, ![1, 8, 1]⟩
abbrev S1x8 : Shape := ⟨2, ![1, 8]⟩
abbrev S1x8x8 : Shape := ⟨3, ![1, 8, 8]⟩

abbrev nBuf : Space → Nat
  | .hbm => 24
  | .vmem => 37
  | .smem => 0
  | _ => 0

abbrev bufTy : (tb : Table) → Fin (tcTables nBuf tb) → BufTy
  | .hbm, ⟨0, _⟩ => ⟨S32x8x1024, .f32⟩
  | .hbm, ⟨1, _⟩ => ⟨S32x4096x1024, .f32⟩
  | .hbm, ⟨2, _⟩ => ⟨S32x4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S256x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S32x8x1024, .f32⟩
  | .hbm, ⟨17, _⟩ => ⟨S32x8x1024, .f32⟩
  | .hbm, ⟨18, _⟩ => ⟨S32x8x1024, .f32⟩
  | .hbm, ⟨19, _⟩ => ⟨S32x8x1024, .f32⟩
  | .hbm, ⟨20, _⟩ => ⟨S32x4104x1024, .f32⟩
  | .hbm, ⟨21, _⟩ => ⟨S32x4104x1024, .f32⟩
  | .hbm, ⟨22, _⟩ => ⟨S32x4104x1024, .f32⟩
  | .hbm, ⟨23, _⟩ => ⟨S32x4104x1024, .f32⟩
  | .local _ .vmem, ⟨0, _⟩ => ⟨S256x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x8x1024, .f32⟩
  | .local _ .vmem, ⟨11, _⟩ => ⟨S1x8x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1x1024x1024, .f32⟩
  | .local _ .vmem, ⟨15, _⟩ => ⟨S1x1024x1024, .f32⟩
  | .local _ .vmem, ⟨16, _⟩ => ⟨S1x8x1024, .f32⟩
  | .local _ .vmem, ⟨17, _⟩ => ⟨S1x8x1024, .f32⟩
  | .local _ .vmem, ⟨18, _⟩ => ⟨S1x8x1024, .f32⟩
  | .local _ .vmem, ⟨19, _⟩ => ⟨S1x8x1024, .f32⟩
  | .local _ .vmem, ⟨20, _⟩ => ⟨S1x8x1024, .f32⟩
  | .local _ .vmem, ⟨21, _⟩ => ⟨S1x8x1024, .f32⟩
  | .local _ .vmem, ⟨22, _⟩ => ⟨S1x1024x1024, .f32⟩
  | .local _ .vmem, ⟨23, _⟩ => ⟨S1x1024x1024, .f32⟩
  | .local _ .vmem, ⟨24, _⟩ => ⟨S1x1024x1024, .f32⟩
  | .local _ .vmem, ⟨25, _⟩ => ⟨S1x1024x1024, .f32⟩
  | .local _ .vmem, ⟨26, _⟩ => ⟨S1x8x1, .f32⟩
  | .local _ .vmem, ⟨27, _⟩ => ⟨S1x8x1, .f32⟩
  | .local _ .vmem, ⟨28, _⟩ => ⟨S1x8x1024, .f32⟩
  | .local _ .vmem, ⟨29, _⟩ => ⟨S1x8x1024, .f32⟩
  | .local _ .vmem, ⟨30, _⟩ => ⟨S1x8x1024, .f32⟩
  | .local _ .vmem, ⟨31, _⟩ => ⟨S1x8x1024, .f32⟩
  | .local _ .vmem, ⟨32, _⟩ => ⟨S1x8x1024, .f32⟩
  | .local _ .vmem, ⟨33, _⟩ => ⟨S1x8x1024, .f32⟩
  | .local _ .vmem, ⟨34, _⟩ => ⟨S1x8x1024, .f32⟩
  | .local _ .vmem, ⟨35, _⟩ => ⟨S1x8x1024, .f32⟩
  | .local _ .vmem, ⟨36, _⟩ => ⟨S1x8x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v9_0 : Ref sig .tc := ⟨.hbm, 22, rfl⟩
abbrev main_v9_1 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_scratch0 : Ref sig .tc := ⟨.vmem, 26, rfl⟩
abbrev cc1_scratch1 : Ref sig .tc := ⟨.vmem, 27, rfl⟩
abbrev cc1_scratch2 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg3_1 : Ref sig .tc := ⟨.vmem, 36, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨2, ![32, 4], ![false, false]⟩

def k1_cond2 (i : grid1.Coords) : BitVec 1 :=
  let arg1 : BitVec 32 := BitVec.ofNat 32 (i 1).val
  let c3_i32 : BitVec 32 := 3#32
  let v43 : BitVec 1 := Scalar.cmpi .eq arg1 c3_i32
  let v44 : BitVec 32 := Scalar.extui v43
  let c0_i32_46 : BitVec 32 := 0#32
  let v45 : BitVec 1 := Scalar.cmpi .ne v44 c0_i32_46
  v45

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x8x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x8x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x8x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x8x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1024x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨1, ![32], ![false]⟩

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c512_i32 : BitVec 32 := 512#32
  let c0_i32 : BitVec 32 := 0#32
  let c0_i32_0 : BitVec 32 := 0#32
  ![arg0.toNat, c512_i32.toNat, c0_i32.toNat]

def cc2_transform_5 (i : grid2.Coords) : Fin 3 → Nat :=
  let arg0 : BitVec 32 := BitVec.ofNat 32 (i 0).val
  let c512_i32 : BitVec 32 := 512#32
  let c0_i32 : BitVec 32 := 0#32
  let c0_i32_0 : BitVec 32 := 0#32
  ![arg0.toNat, c512_i32.toNat, c0_i32.toNat]

abbrev stage2_0 : Fin 2 → Memref sig .tc .vmem S1x8x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x8x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x8x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x8x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S32x8x1024_S256x1024 : S32x8x1024.ShapeCasts S256x1024
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x1024_S32x8x1024 : S256x1024.ShapeCasts S32x8x1024
  inb_S1x8x1_S1x8x1_0_0_0 : ∀ a, (![0, 0, 0] : Fin 3 → Nat) a + S1x8x1.size a ≤ S1x8x1.size a
  h_S1x8x1 : 0 < S1x8x1.numel
  shapeCasts_S1x8x1_S1x8x1 : S1x8x1.ShapeCasts S1x8x1
  inb_S1x8x1024_S1x8x1024_0_0_0 : ∀ a, (![0, 0, 0] : Fin 3 → Nat) a + S1x8x1024.size a ≤ S1x8x1024.size a
  h_S1x8x1024 : 0 < S1x8x1024.numel
  shapeCasts_S1x8x1024_S1x8x1024 : S1x8x1024.ShapeCasts S1x8x1024
  inb_S1x1024x1024_S1x1024x1024_0_0_0 : ∀ a, (![0, 0, 0] : Fin 3 → Nat) a + S1x1024x1024.size a ≤ S1x1024x1024.size a
  h_S1x1024x1024 : 0 < S1x1024x1024.numel
  reduces_S1x8x1024_S1x8 : S1x8x1024.Reduces [2] S1x8
  shapeCasts_S1x8_S1x8x1 : S1x8.ShapeCasts S1x8x1
  broadcasts_S1x8x1_S1x8x1024 : S1x8x1.Broadcasts S1x8x1024
  reduces_S1x8x8_S1x8 : S1x8x8.Reduces [2] S1x8
  broadcasts_S1x8x1_S1x8x8 : S1x8x1.Broadcasts S1x8x8
  dot_S256x1024_S1024x1024_S256x1024_1_0_0_1_n_n_wf : DotDims.WF S256x1024 S1024x1024 S256x1024 [1] [0] [0] [1] [] []
  dot_S1x8x1024_S1x1024x1024_S1x8x1024_2_2_1_1_0_0_wf : DotDims.WF S1x8x1024 S1x1024x1024 S1x8x1024 [2] [2] [1] [1] [0] [0]
  dot_S1x8x1024_S1x1024x1024_S1x8x1024_2_1_1_2_0_0_wf : DotDims.WF S1x8x1024 S1x1024x1024 S1x8x1024 [2] [1] [1] [2] [0] [0]
  dot_S1x8x1024_S1x8x1024_S1x8x8_2_2_1_1_0_0_wf : DotDims.WF S1x8x1024 S1x8x1024 S1x8x8 [2] [2] [1] [1] [0] [0]
  dot_S1x8x8_S1x8x1024_S1x8x1024_2_1_1_2_0_0_wf : DotDims.WF S1x8x8 S1x8x1024 S1x8x1024 [2] [1] [1] [2] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x1024.size a
  hwx0_0 : ∀ i : grid0.Coords, EltTy.bits .f32 = 32 ∨ (Rect.block (s := S256x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .f32 = 32 ∨ (Rect.block (s := S1024x1024) S1024x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S256x1024.size a
  hwx0_7 : ∀ i : grid0.Coords, EltTy.bits .f32 = 32 ∨ (Rect.block (s := S256x1024) S256x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S256x1024.size a
  hwx0_8 : ∀ i : grid0.Coords, EltTy.bits .f32 = 32 ∨ (Rect.block (s := S256x1024) S256x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S256x1024.size a
  hwx0_9 : ∀ i : grid0.Coords, EltTy.bits .f32 = 32 ∨ (Rect.block (s := S256x1024) S256x1024.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x1024.size a ≤ S32x8x1024.size a
  hwx1_0 : ∀ i : grid1.Coords, EltTy.bits .f32 = 32 ∨ (Rect.block (s := S32x8x1024) S1x8x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S32x4096x1024.size a
  hwx1_1 : ∀ i : grid1.Coords, EltTy.bits .f32 = 32 ∨ (Rect.block (s := S32x4096x1024) S1x1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S32x4096x1024.size a
  hwx1_2 : ∀ i : grid1.Coords, EltTy.bits .f32 = 32 ∨ (Rect.block (s := S32x4096x1024) S1x1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8x1024.size a ≤ S32x8x1024.size a
  hwx1_3 : ∀ i : grid1.Coords, EltTy.bits .f32 = 32 ∨ (Rect.block (s := S32x8x1024) S1x8x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x8x1024.size a ≤ S32x8x1024.size a
  hwx1_4 : ∀ i : grid1.Coords, EltTy.bits .f32 = 32 ∨ (Rect.block (s := S32x8x1024) S1x8x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x8x1024.size a ≤ S32x8x1024.size a
  hwx1_5 : ∀ i : grid1.Coords, EltTy.bits .f32 = 32 ∨ (Rect.block (s := S32x8x1024) S1x8x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hstart1_6 : ∀ (i : grid1.Coords) a, cc1_transform_6 i a * S1x1024x1024.size a < S32x4104x1024.size a
  hwx1_6 : ∀ i : grid1.Coords, EltTy.bits .f32 = 32 ∨ (Rect.unit (s := S32x4104x1024) (fun a => cc1_transform_6 i a * S1x1024x1024.size a) (fun a => (Pipeline.Clip.of (cc1_transform_6 i a) (S1x1024x1024.size a) (S32x4104x1024.size a)).extent (S1x1024x1024.size a)) fun a => Pipeline.Clip.inb (Pipeline.Clip.ok_of (hstart1_6 i a))).WholeWords (EltTy.packing .f32)
  hwxs1_6 : ∀ i : grid1.Coords, EltTy.bits .f32 = 32 ∨ (Rect.unit (s := S1x1024x1024) (fun _ => 0) (fun a => (Pipeline.Clip.of (cc1_transform_6 i a) (S1x1024x1024.size a) (S32x4104x1024.size a)).extent (S1x1024x1024.size a)) fun a => (Nat.zero_add _).trans_le (Pipeline.Clip.extent_le (Pipeline.Clip.ok_of (hstart1_6 i a)))).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hstart1_7 : ∀ (i : grid1.Coords) a, cc1_transform_7 i a * S1x1024x1024.size a < S32x4104x1024.size a
  hwx1_7 : ∀ i : grid1.Coords, EltTy.bits .f32 = 32 ∨ (Rect.unit (s := S32x4104x1024) (fun a => cc1_transform_7 i a * S1x1024x1024.size a) (fun a => (Pipeline.Clip.of (cc1_transform_7 i a) (S1x1024x1024.size a) (S32x4104x1024.size a)).extent (S1x1024x1024.size a)) fun a => Pipeline.Clip.inb (Pipeline.Clip.ok_of (hstart1_7 i a))).WholeWords (EltTy.packing .f32)
  hwxs1_7 : ∀ i : grid1.Coords, EltTy.bits .f32 = 32 ∨ (Rect.unit (s := S1x1024x1024) (fun _ => 0) (fun a => (Pipeline.Clip.of (cc1_transform_7 i a) (S1x1024x1024.size a) (S32x4104x1024.size a)).extent (S1x1024x1024.size a)) fun a => (Nat.zero_add _).trans_le (Pipeline.Clip.extent_le (Pipeline.Clip.ok_of (hstart1_7 i a)))).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_2 i = cc2_transform_2 i'
  hinb2_0 : ∀ (i : grid2.Coords) a, (cc2_transform_2 i a + 1) * S1x8x1024.size a ≤ S32x8x1024.size a
  hwx2_0 : ∀ i : grid2.Coords, EltTy.bits .f32 = 32 ∨ (Rect.block (s := S32x8x1024) S1x8x1024.size (cc2_transform_2 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_3 i = cc2_transform_3 i'
  hinb2_1 : ∀ (i : grid2.Coords) a, (cc2_transform_3 i a + 1) * S1x8x1024.size a ≤ S32x8x1024.size a
  hwx2_1 : ∀ i : grid2.Coords, EltTy.bits .f32 = 32 ∨ (Rect.block (s := S32x8x1024) S1x8x1024.size (cc2_transform_3 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_4 i = cc2_transform_4 i'
  hinb2_2 : ∀ (i : grid2.Coords) a, (cc2_transform_4 i a + 1) * S1x8x1024.size a ≤ S32x4104x1024.size a
  hwx2_2 : ∀ i : grid2.Coords, EltTy.bits .f32 = 32 ∨ (Rect.block (s := S32x4104x1024) S1x8x1024.size (cc2_transform_4 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_5 i = cc2_transform_5 i'
  hinb2_3 : ∀ (i : grid2.Coords) a, (cc2_transform_5 i a + 1) * S1x8x1024.size a ≤ S32x4104x1024.size a
  hwx2_3 : ∀ i : grid2.Coords, EltTy.bits .f32 = 32 ∨ (Rect.block (s := S32x4104x1024) S1x8x1024.size (cc2_transform_5 i) (hinb2_3 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S1x8x1024_S1x1024x1024_S1x8x1024_2_2_1_1_0_0 : DotDims S1x8x1024 S1x1024x1024 S1x8x1024 where
  lhsContracting := [2]
  rhsContracting := [2]
  lhsNonContracting := [1]
  rhsNonContracting := [1]
  lhsBatch := [0]
  rhsBatch := [0]
  wf := dot_S1x8x1024_S1x1024x1024_S1x8x1024_2_2_1_1_0_0_wf
def dot_S1x8x1024_S1x1024x1024_S1x8x1024_2_1_1_2_0_0 : DotDims S1x8x1024 S1x1024x1024 S1x8x1024 where
  lhsContracting := [2]
  rhsContracting := [1]
  lhsNonContracting := [1]
  rhsNonContracting := [2]
  lhsBatch := [0]
  rhsBatch := [0]
  wf := dot_S1x8x1024_S1x1024x1024_S1x8x1024_2_1_1_2_0_0_wf
def dot_S1x8x1024_S1x8x1024_S1x8x8_2_2_1_1_0_0 : DotDims S1x8x1024 S1x8x1024 S1x8x8 where
  lhsContracting := [2]
  rhsContracting := [2]
  lhsNonContracting := [1]
  rhsNonContracting := [1]
  lhsBatch := [0]
  rhsBatch := [0]
  wf := dot_S1x8x1024_S1x8x1024_S1x8x8_2_2_1_1_0_0_wf
def dot_S1x8x8_S1x8x1024_S1x8x1024_2_1_1_2_0_0 : DotDims S1x8x8 S1x8x1024 S1x8x1024 where
  lhsContracting := [2]
  rhsContracting := [1]
  lhsNonContracting := [1]
  rhsNonContracting := [2]
  lhsBatch := [0]
  rhsBatch := [0]
  wf := dot_S1x8x8_S1x8x1024_S1x8x1024_2_1_1_2_0_0_wf

abbrev win0_0 : Pipeline.Window sig grid0 :=
  Pipeline.Window.ofSpec (Memref.whole main_v0) S256x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S256x1024.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S256x1024.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4_2) S256x1024.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v7) S1x8x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x8x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x8x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v8_0) S1x8x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpecClip (Memref.whole main_v8_1) S1x1024x1024.size cc1_transform_6 reads1_6 true false 2 stage1_6 sem1_6
    hrank1 hreads1_6 hstart1_6 nbuf1_6 (Memref.isWhole_whole _) hwx1_6 hwxs1_6 hstage1_6

abbrev win1_7 : Pipeline.Window sig grid1 :=
  Pipeline.Window.ofSpecClip (Memref.whole main_v8_2) S1x1024x1024.size cc1_transform_7 reads1_7 true false 2 stage1_7 sem1_7
    hrank1 hreads1_7 hstart1_7 nbuf1_7 (Memref.isWhole_whole _) hwx1_7 hwxs1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun i => !(k1_cond2 i == 1#1) | 6 => fun _ => false | 7 => fun _ => false | ⟨_ + 8, h⟩ => absurd h (Nat.not_lt.2 (Nat.le_add_left _ _))

abbrev win2_0 : Pipeline.Window sig grid2 :=
  Pipeline.Window.ofSpec (Memref.whole main_v5) S1x8x1024.size cc2_transform_2 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1x8x1024.size cc2_transform_3 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9_0) S1x8x1024.size cc2_transform_4 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9_1) S1x8x1024.size cc2_transform_5 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S32x8x1024 : Shape := ⟨3, ![32, 8, 1024]⟩
abbrev S32x4096x1024 : Shape := ⟨3, ![32, 4096, 1024]⟩
abbrev S1024x1024 : Shape := ⟨2, ![1024, 1024]⟩
abbrev S1024 : Shape := ⟨1, ![1024]⟩
abbrev S1x1x1024 : Shape := ⟨3, ![1, 1, 1024]⟩
abbrev S32x4104x1024 : Shape := ⟨3, ![32, 4104, 1024]⟩
abbrev S_ : Shape := ⟨0, ![]⟩
abbrev S32x8x4104 : Shape := ⟨3, ![32, 8, 4104]⟩
abbrev S32x8 : Shape := ⟨2, ![32, 8]⟩
abbrev S32x8x1 : Shape := ⟨3, ![32, 8, 1]⟩

abbrev nBuf : Space → Nat
  | .hbm => 45
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x4096x1024, .f32⟩
  | .hbm, ⟨2, _⟩ => ⟨S32x4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S32x8x1024, .f32⟩
  | .hbm, ⟨10, _⟩ => ⟨S1x1x1024, .f32⟩
  | .hbm, ⟨11, _⟩ => ⟨S32x8x1024, .f32⟩
  | .hbm, ⟨12, _⟩ => ⟨S32x8x1024, .f32⟩
  | .hbm, ⟨13, _⟩ => ⟨S32x8x1024, .f32⟩
  | .hbm, ⟨14, _⟩ => ⟨S1x1x1024, .f32⟩
  | .hbm, ⟨15, _⟩ => ⟨S32x8x1024, .f32⟩
  | .hbm, ⟨16, _⟩ => ⟨S32x8x1024, .f32⟩
  | .hbm, ⟨17, _⟩ => ⟨S32x8x1024, .f32⟩
  | .hbm, ⟨18, _⟩ => ⟨S1x1x1024, .f32⟩
  | .hbm, ⟨19, _⟩ => ⟨S32x8x1024, .f32⟩
  | .hbm, ⟨20, _⟩ => ⟨S32x8x1024, .f32⟩
  | .hbm, ⟨21, _⟩ => ⟨S32x4104x1024, .f32⟩
  | .hbm, ⟨22, _⟩ => ⟨S32x4104x1024, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S32x8x4104, .f32⟩
  | .hbm, ⟨28, _⟩ => ⟨S32x8x4104, .f32⟩
  | .hbm, ⟨29, _⟩ => ⟨S32x8x4104, .f32⟩
  | .hbm, ⟨30, _⟩ => ⟨S_, .f32⟩
  | .hbm, ⟨31, _⟩ => ⟨S32x8, .f32⟩
  | .hbm, ⟨32, _⟩ => ⟨S_, .f32⟩
  | .hbm, ⟨33, _⟩ => ⟨S32x8, .f32⟩
  | .hbm, ⟨34, _⟩ => ⟨S32x8, .f32⟩
  | .hbm, ⟨35, _⟩ => ⟨S32x8x1, .f32⟩
  | .hbm, ⟨36, _⟩ => ⟨S32x8x4104, .f32⟩
  | .hbm, ⟨37, _⟩ => ⟨S32x8x4104, .f32⟩
  | .hbm, ⟨38, _⟩ => ⟨S32x8x4104, .f32⟩
  | .hbm, ⟨39, _⟩ => ⟨S_, .f32⟩
  | .hbm, ⟨40, _⟩ => ⟨S32x8, .f32⟩
  | .hbm, ⟨41, _⟩ => ⟨S32x8x1, .f32⟩
  | .hbm, ⟨42, _⟩ => ⟨S32x8x4104, .f32⟩
  | .hbm, ⟨43, _⟩ => ⟨S32x8x4104, .f32⟩
  | .hbm, ⟨44, _⟩ => ⟨S32x8x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S32x8x1024_0_1_2 : S1x1x1024.BroadcastsInDim S32x8x1024 (![0, 1, 2] : Fin 3 → Fin S32x8x1024.rank)
  concatenates_S32x4096x1024_S32x8x1024_S32x4104x1024_d1 : Shape.Concatenates [S32x4096x1024, S32x8x1024] S32x4104x1024 1
  bcast_S_S32x8x4104 : S_.BroadcastsInDim S32x8x4104 (![] : Fin 0 → Fin S32x8x4104.rank)
  reducesTo_S32x8x4104_S32x8_d2 : S32x8x4104.ReducesTo [2] S32x8
  h_S_ : 0 < S_.numel
  bcast_S_S32x8 : S_.BroadcastsInDim S32x8 (![] : Fin 0 → Fin S32x8.rank)
  bcast_S32x8_S32x8x1_0_1 : S32x8.BroadcastsInDim S32x8x1 (![0, 1] : Fin 2 → Fin S32x8x1.rank)
  bcast_S32x8x1_S32x8x4104_0_1_2 : S32x8x1.BroadcastsInDim S32x8x4104 (![0, 1, 2] : Fin 3 → Fin S32x8x4104.rank)
  dot_S32x8x1024_S1024x1024_S32x8x1024_2_0_01_1_n_n_wf : DotDims.WF S32x8x1024 S1024x1024 S32x8x1024 [2] [0] [0, 1] [1] [] []
  dot_S32x8x1024_S32x4104x1024_S32x8x4104_2_2_1_1_0_0_wf : DotDims.WF S32x8x1024 S32x4104x1024 S32x8x4104 [2] [2] [1] [1] [0] [0]
  dot_S32x8x4104_S32x4104x1024_S32x8x1024_2_1_1_2_0_0_wf : DotDims.WF S32x8x4104 S32x4104x1024 S32x8x1024 [2] [1] [1] [2] [0] [0]

variable [Facts₀]

def dot_S32x8x1024_S1024x1024_S32x8x1024_2_0_01_1_n_n : DotDims S32x8x1024 S1024x1024 S32x8x1024 where
  lhsContracting := [2]
  rhsContracting := [0]
  lhsNonContracting := [0, 1]
  rhsNonContracting := [1]
  lhsBatch := []
  rhsBatch := []
  wf := dot_S32x8x1024_S1024x1024_S32x8x1024_2_0_01_1_n_n_wf
def dot_S32x8x1024_S32x4104x1024_S32x8x4104_2_2_1_1_0_0 : DotDims S32x8x1024 S32x4104x1024 S32x8x4104 where
  lhsContracting := [2]
  rhsContracting := [2]
  lhsNonContracting := [1]
  rhsNonContracting := [1]
  lhsBatch := [0]
  rhsBatch := [0]
  wf := dot_S32x8x1024_S32x4104x1024_S32x8x4104_2_2_1_1_0_0_wf
def dot_S32x8x4104_S32x4104x1024_S32x8x1024_2_1_1_2_0_0 : DotDims S32x8x4104 S32x4104x1024 S32x8x1024 where
  lhsContracting := [2]
  rhsContracting := [1]
  lhsNonContracting := [1]
  rhsNonContracting := [2]
  lhsBatch := [0]
  rhsBatch := [0]
  wf := dot_S32x8x4104_S32x4104x1024_S32x8x1024_2_1_1_2_0_0_wf

class Facts : Prop extends Facts₀ where

variable [Facts]
-- ==== Proof.KI_Run.lean ====
/-
  The run of the three-launch program, given each launch's proof data.

  Between two items of the host program every unscoped buffer of a core is held at a known contents: the launch memory,
  then each host stretch applied (StableHlo.after), then, across a launch, the launch's windowed arrays replaced by what
  its write-backs leave (Dat.arrAt at the last point) and everything else untouched.  Each launch is a region of the
  pipeline library entered from that state and left at the next; the generator register rides along into the class
  invariant and out, nothing is owed, the kernels have no semaphore of their own.  The result: every weakly fair
  execution terminates and every final memory holds each unscoped buffer at the last contents of the fold.

  Stated for ANY proof data of the three launches that have their arrays at the entry contents, meet the body
  obligation, hold full shares, owe nothing, and whose invariant is the class's before the first point and gives it
  back after the last.
-/
import proofs.«107194_j39247411150862_2_alg».proof.Proof.Gen.KernelIdeal.Launch
import proofs.«107194_j39247411150862_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core-indexed contents of the TensorCore's buffers. -/
abbrev VT (F : FTy → Type) [FloatOps F] : Type := (c : Dev nD) → (b : Ref sig .tc) → Buf (Elt F) ((c : Thread nD τ).loc b)

/-- What the run asks of a launch's proof data (at any entry contents). -/
structure Half (cfg : Cfg sig Λ₀) (dat : VT F → (c : Dev nD) → Dat τ (Elt F) Unit ℕ (UR sig nD τ) ℕ cfg c) : Prop where
  A_eq : ∀ (V : VT F) (c : Dev nD) (w : Fin cfg.W), (dat V c).A w = V c (Pipeline.arrRef (fun w => (cfg.win w).toWinSpec) w)
  body : ∀ (V : VT F) (c : Dev nD), BodyObligation (dat V c) (defs₀ (F := F)) Variants.none () Set.univ
  q : ∀ (V : VT F) (c : Dev nD) (w : Fin cfg.W), (dat V c).q w = fullShare
  owed : ∀ (V : VT F) (c : Dev nD) (t : Fin (cfg.N + 1)), (dat V c).owed t = 0
  recorded : ∀ (V : VT F) (c : Dev nD) (t : Fin (cfg.N + 1)), (dat V c).recorded t = Set.univ
  Φ0 : ∀ (V : VT F) (c : Dev nD), (dat V c).Φ 0 = Pipeline.ΦA (fun w => (cfg.win w).toWinSpec) c
  Φn : ∀ (V : VT F) (c : Dev nD), (dat V c).Φ (Fin.last cfg.N) ⊢ (Pipeline.ΦA (fun w => (cfg.win w).toWinSpec) c : sProp 𝕄)

variable (dat0 : VT F → (c : Dev nD) → Dat τ (Elt F) Unit ℕ (UR sig nD τ) ℕ cfg0 c)
variable (dat1 : VT F → (c : Dev nD) → Dat τ (Elt F) Unit ℕ (UR sig nD τ) ℕ cfg1 c)
variable (dat2 : VT F → (c : Dev nD) → Dat τ (Elt F) Unit ℕ (UR sig nD τ) ℕ cfg2 c)
variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : VT F := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 dat0 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 dat0 m ρ c (Proc.devRef .tc b) = W1 m ρ c (Proc.devRef .tc b) := by
  unfold W2; exact Pipeline.withArrays_of_ne spec0 c _ _ b hb
abbrev V2 : VT F := fun c b => W2 dat0 m ρ c b
theorem hF0 (c : Dev nD) (w : Fin cfg0.W) : (dat0 (V1 m ρ) c).arrAt w cfg0.N = V2 dat0 m ρ c (Pipeline.arrRef spec0 w) :=
  (W2_arr dat0 m ρ c w).symm
theorem hrest0 (c : Dev nD) : ∀ b, b ∉ Finset.univ.image (Pipeline.arrRef spec0) → V2 dat0 m ρ c b = V1 m ρ c b :=
  fun b hb => W2_of_ne dat0 m ρ c b fun w e => hb (Finset.mem_image.mpr ⟨w, Finset.mem_univ _, e⟩)

abbrev W3 : Dev nD → Valuation τ sig (Elt F) := fun c => StableHlo.after hostOps1 (W2 dat0 m ρ c)
abbrev V3 : VT F := fun c b => W3 dat0 m ρ c b
def W4 (c : Dev nD) : Valuation τ sig (Elt F) :=
  Pipeline.withArrays spec1 c (W3 dat0 m ρ c) fun w => (dat1 (V3 dat0 m ρ) c).arrAt w cfg1.N
theorem W4_arr (c : Dev nD) (w : Fin cfg1.W) :
    W4 dat0 dat1 m ρ c (Proc.devRef .tc (Pipeline.arrRef spec1 w)) = (dat1 (V3 dat0 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 dat0 dat1 m ρ c (Proc.devRef .tc b) = W3 dat0 m ρ c (Proc.devRef .tc b) := by
  unfold W4; exact Pipeline.withArrays_of_ne spec1 c _ _ b hb
abbrev V4 : VT F := fun c b => W4 dat0 dat1 m ρ c b
theorem hF1 (c : Dev nD) (w : Fin cfg1.W) : (dat1 (V3 dat0 m ρ) c).arrAt w cfg1.N = V4 dat0 dat1 m ρ c (Pipeline.arrRef spec1 w) :=
  (W4_arr dat0 dat1 m ρ c w).symm
theorem hrest1 (c : Dev nD) : ∀ b, b ∉ Finset.univ.image (Pipeline.arrRef spec1) → V4 dat0 dat1 m ρ c b = V3 dat0 m ρ c b :=
  fun b hb => W4_of_ne dat0 dat1 m ρ c b fun w e => hb (Finset.mem_image.mpr ⟨w, Finset.mem_univ _, e⟩)

abbrev W5 : Dev nD → Valuation τ sig (Elt F) := fun c => StableHlo.after hostOps2 (W4 dat0 dat1 m ρ c)
abbrev V5 : VT F := fun c b => W5 dat0 dat1 m ρ c b
def W6 (c : Dev nD) : Valuation τ sig (Elt F) :=
  Pipeline.withArrays spec2 c (W5 dat0 dat1 m ρ c) fun w => (dat2 (V5 dat0 dat1 m ρ) c).arrAt w cfg2.N
theorem W6_arr (c : Dev nD) (w : Fin cfg2.W) :
    W6 dat0 dat1 dat2 m ρ c (Proc.devRef .tc (Pipeline.arrRef spec2 w)) = (dat2 (V5 dat0 dat1 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 dat0 dat1 dat2 m ρ c (Proc.devRef .tc b) = W5 dat0 dat1 m ρ c (Proc.devRef .tc b) := by
  unfold W6; exact Pipeline.withArrays_of_ne spec2 c _ _ b hb
abbrev V6 : VT F := fun c b => W6 dat0 dat1 dat2 m ρ c b
theorem hF2 (c : Dev nD) (w : Fin cfg2.W) : (dat2 (V5 dat0 dat1 m ρ) c).arrAt w cfg2.N = V6 dat0 dat1 dat2 m ρ c (Pipeline.arrRef spec2 w) :=
  (W6_arr dat0 dat1 dat2 m ρ c w).symm
theorem hrest2 (c : Dev nD) : ∀ b, b ∉ Finset.univ.image (Pipeline.arrRef spec2) → V6 dat0 dat1 dat2 m ρ c b = V5 dat0 dat1 m ρ c b :=
  fun b hb => W6_of_ne dat0 dat1 dat2 m ρ c b fun w e => hb (Finset.mem_image.mpr ⟨w, Finset.mem_univ _, e⟩)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 dat0 m ρ) c
  | ⟨2, _⟩ => fun c => dat2 (V5 dat0 dat1 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 :=
  iprop(StableHlo.held (c : Thread nD τ) (Pipeline.ucRefs τ sig) (W6 dat0 dat1 dat2 m ρ c) ∗ ∃ r, prngReg c r)

variable (H0 : Half cfg0 dat0) (H1 : Half cfg1 dat1) (H2 : Half cfg2 dat2)

/-! ## The launches as regions -/

set_option backward.isDefEq.respectTransparency.types false in
/-- Launch 0 as a region: its arrays split out of the unscoped buffers at entry and put back at the exit contents; the
    generator register into the class invariant and out; nothing owed; no semaphore of the kernel's own. -/
def reg0 : Pipeline.RegionSeg (pcfgs (F := F)) adm (pdats dat0 dat1 dat2 m ρ) () defs₀ 𝒱₀ L lv 0 where
  win := launch0.win.to₀
  block_pos := launch0.block_pos
  stage_whole := launch0.stage_whole
  K := PEmpty
  osem k := k.elim
  ho := Pipeline.OwnSemFacts.none _
  hbody c := (H0.body (V1 m ρ) c).loose
  hwaits := Pipeline.hwaits_of_owed_zero _ _ _ _ L lv 0 fun c t => H0.owed (V1 m ρ) c t
  pre c := iprop(StableHlo.held (c : Thread nD τ) (Pipeline.ucRefs τ sig) (W1 m ρ c) ∗ R c)
  post c := iprop(StableHlo.held (c : Thread nD τ) (Pipeline.ucRefs τ sig) (W2 dat0 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats dat0 dat1 dat2 m ρ) launch0.win launch0.arr_whole c
      ((pdats dat0 dat1 dat2 m ρ 0 c).share_full fun w => H0.q (V1 m ρ) c w) (V1 m ρ c) fun w => H0.A_eq (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl (by rw [show (pdats dat0 dat1 dat2 m ρ 0 c).recorded 0 = Set.univ from H0.recorded (V1 m ρ) c 0]; exact Set.mem_univ _)
      rw [show (pdats dat0 dat1 dat2 m ρ 0 c).owed 0 = 0 from H0.owed (V1 m ρ) c 0]
      iexact HO
    isplitl [Hp]; · iexact Hp
    iexact Hrest
  hin c := by
    rw [show (pdats dat0 dat1 dat2 m ρ 0 c).Φ 0 = Pipeline.ΦA spec0 c from H0.Φ0 (V1 m ρ) c]; unfold Pipeline.ΦA
    iintro ⟨Hp, -, Hr⟩
    isplitl [Hr]; · iexact Hr
    iexact Hp
  hout c := by
    rw [Pipeline.ownSems0_none]
    have hΦ : (pdats dat0 dat1 dat2 m ρ 0 c).Φ (Fin.last _) ⊢ (Pipeline.ΦA spec0 c : sProp 𝕄) := H0.Φn (V1 m ρ) c
    unfold Pipeline.ΦA at hΦ
    iintro HΦ
    ihave H := hΦ $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats dat0 dat1 dat2 m ρ) ((pdats dat0 dat1 dat2 m ρ 0 c).share_full fun w => H0.q (V1 m ρ) c w)
      (V1 m ρ c) (V2 dat0 m ρ c) ((pdats dat0 dat1 dat2 m ρ 0 c).arrAt · cfg0.N) (hF0 dat0 m ρ c) (hrest0 dat0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats dat0 dat1 dat2 m ρ 0 c).owed (Fin.last _) = 0 from H0.owed (V1 m ρ) c _]
    icases HO with ⟨%W, -, HO⟩; iexists W; iexact HO

set_option backward.isDefEq.respectTransparency.types false in
/-- Launch 1 as a region: its arrays split out of the unscoped buffers at entry and put back at the exit contents; the
    generator register into the class invariant and out; nothing owed; no semaphore of the kernel's own. -/
def reg1 : Pipeline.RegionSeg (pcfgs (F := F)) adm (pdats dat0 dat1 dat2 m ρ) () defs₀ 𝒱₀ L lv 1 where
  win := launch1.win.to₀
  block_pos := launch1.block_pos
  stage_whole := launch1.stage_whole
  K := PEmpty
  osem k := k.elim
  ho := Pipeline.OwnSemFacts.none _
  hbody c := (H1.body (V3 dat0 m ρ) c).loose
  hwaits := Pipeline.hwaits_of_owed_zero _ _ _ _ L lv 1 fun c t => H1.owed (V3 dat0 m ρ) c t
  pre c := iprop(StableHlo.held (c : Thread nD τ) (Pipeline.ucRefs τ sig) (W3 dat0 m ρ c) ∗ R c)
  post c := iprop(StableHlo.held (c : Thread nD τ) (Pipeline.ucRefs τ sig) (W4 dat0 dat1 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 dat0 m ρ c)
  hentry c := by
    rw [Pipeline.ownSems0_none]
    have hsplit := Pipeline.arrays_of_unscopedBufs (p := 1) (pcfgs (F := F)) adm (pdats dat0 dat1 dat2 m ρ) launch1.win launch1.arr_whole c
      ((pdats dat0 dat1 dat2 m ρ 1 c).share_full fun w => H1.q (V3 dat0 m ρ) c w) (V3 dat0 m ρ c) fun w => H1.A_eq (V3 dat0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl (by rw [show (pdats dat0 dat1 dat2 m ρ 1 c).recorded 0 = Set.univ from H1.recorded (V3 dat0 m ρ) c 0]; exact Set.mem_univ _)
      rw [show (pdats dat0 dat1 dat2 m ρ 1 c).owed 0 = 0 from H1.owed (V3 dat0 m ρ) c 0]
      iexact HO
    isplitl [Hp]; · iexact Hp
    iexact Hrest
  hin c := by
    rw [show (pdats dat0 dat1 dat2 m ρ 1 c).Φ 0 = Pipeline.ΦA spec1 c from H1.Φ0 (V3 dat0 m ρ) c]; unfold Pipeline.ΦA
    iintro ⟨Hp, -, Hr⟩
    isplitl [Hr]; · iexact Hr
    iexact Hp
  hout c := by
    rw [Pipeline.ownSems0_none]
    have hΦ : (pdats dat0 dat1 dat2 m ρ 1 c).Φ (Fin.last _) ⊢ (Pipeline.ΦA spec1 c : sProp 𝕄) := H1.Φn (V3 dat0 m ρ) c
    unfold Pipeline.ΦA at hΦ
    iintro HΦ
    ihave H := hΦ $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats dat0 dat1 dat2 m ρ) ((pdats dat0 dat1 dat2 m ρ 1 c).share_full fun w => H1.q (V3 dat0 m ρ) c w)
      (V3 dat0 m ρ c) (V4 dat0 dat1 m ρ c) ((pdats dat0 dat1 dat2 m ρ 1 c).arrAt · cfg1.N) (hF1 dat0 dat1 m ρ c) (hrest1 dat0 dat1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats dat0 dat1 dat2 m ρ 1 c).owed (Fin.last _) = 0 from H1.owed (V3 dat0 m ρ) c _]
    icases HO with ⟨%W, -, HO⟩; iexists W; iexact HO

set_option backward.isDefEq.respectTransparency.types false in
/-- Launch 2 as a region: its arrays split out of the unscoped buffers at entry and put back at the exit contents; the
    generator register into the class invariant and out; nothing owed; no semaphore of the kernel's own. -/
def reg2 : Pipeline.RegionSeg (pcfgs (F := F)) adm (pdats dat0 dat1 dat2 m ρ) () defs₀ 𝒱₀ L lv 2 where
  win := launch2.win.to₀
  block_pos := launch2.block_pos
  stage_whole := launch2.stage_whole
  K := PEmpty
  osem k := k.elim
  ho := Pipeline.OwnSemFacts.none _
  hbody c := (H2.body (V5 dat0 dat1 m ρ) c).loose
  hwaits := Pipeline.hwaits_of_owed_zero _ _ _ _ L lv 2 fun c t => H2.owed (V5 dat0 dat1 m ρ) c t
  pre c := iprop(StableHlo.held (c : Thread nD τ) (Pipeline.ucRefs τ sig) (W5 dat0 dat1 m ρ c) ∗ R c)
  post c := iprop(Tₙ dat0 dat1 dat2 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 dat0 dat1 m ρ c)
  hentry c := by
    rw [Pipeline.ownSems0_none]
    have hsplit := Pipeline.arrays_of_unscopedBufs (p := 2) (pcfgs (F := F)) adm (pdats dat0 dat1 dat2 m ρ) launch2.win launch2.arr_whole c
      ((pdats dat0 dat1 dat2 m ρ 2 c).share_full fun w => H2.q (V5 dat0 dat1 m ρ) c w) (V5 dat0 dat1 m ρ c) fun w => H2.A_eq (V5 dat0 dat1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl (by rw [show (pdats dat0 dat1 dat2 m ρ 2 c).recorded 0 = Set.univ from H2.recorded (V5 dat0 dat1 m ρ) c 0]; exact Set.mem_univ _)
      rw [show (pdats dat0 dat1 dat2 m ρ 2 c).owed 0 = 0 from H2.owed (V5 dat0 dat1 m ρ) c 0]
      iexact HO
    isplitl [Hp]; · iexact Hp
    iexact Hrest
  hin c := by
    rw [show (pdats dat0 dat1 dat2 m ρ 2 c).Φ 0 = Pipeline.ΦA spec2 c from H2.Φ0 (V5 dat0 dat1 m ρ) c]; unfold Pipeline.ΦA
    iintro ⟨Hp, -, Hr⟩
    isplitl [Hr]; · iexact Hr
    iexact Hp
  hout c := by
    rw [Pipeline.ownSems0_none]
    have hΦ : (pdats dat0 dat1 dat2 m ρ 2 c).Φ (Fin.last _) ⊢ (Pipeline.ΦA spec2 c : sProp 𝕄) := H2.Φn (V5 dat0 dat1 m ρ) c
    unfold Pipeline.ΦA at hΦ
    iintro HΦ
    ihave H := hΦ $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats dat0 dat1 dat2 m ρ) ((pdats dat0 dat1 dat2 m ρ 2 c).share_full fun w => H2.q (V5 dat0 dat1 m ρ) c w)
      (V5 dat0 dat1 m ρ c) (V6 dat0 dat1 dat2 m ρ c) ((pdats dat0 dat1 dat2 m ρ 2 c).arrAt · cfg2.N) (hF2 dat0 dat1 dat2 m ρ c) (hrest2 dat0 dat1 dat2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats dat0 dat1 dat2 m ρ 2 c).owed (Fin.last _) = 0 from H2.owed (V5 dat0 dat1 m ρ) c _]
    icases HO with ⟨%W, -, HO⟩; iexists W; iexact HO

/-! ## The host program as segments, and the launch -/

abbrev segs : List (Pipeline.Seg (pcfgs (F := F)) adm (pdats dat0 dat1 dat2 m ρ) () defs₀ 𝒱₀ L lv) :=
  [ .host (hseg hostOps0 hostOps0_sub hostOps0_fresh' (W0 m ρ)),
    .region (reg0 dat0 dat1 dat2 m ρ H0),
    .host (hseg hostOps1 hostOps1_sub hostOps1_fresh' (W2 dat0 m ρ)),
    .region (reg1 dat0 dat1 dat2 m ρ H1),
    .host (hseg hostOps2 hostOps2_sub hostOps2_fresh' (W4 dat0 dat1 m ρ)),
    .region (reg2 dat0 dat1 dat2 m ρ H2) ]

theorem main_run (c : Dev nD) : main (F := F) c = Pipeline.Seg.run (segs dat0 dat1 dat2 m ρ H0 H1 H2) :=
  (main_chain c).trans (by chain_rfl)

include H0 H1 H2 in
set_option backward.isDefEq.respectTransparency.types false in
/-- THE RUN: from any memory with zero counters every weakly fair execution of the host program on the TensorCores
    terminates, nothing faulting, and the final memory holds every unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 dat0 dat1 dat2 m ρ c b) :=
  Pipeline.θ_run_regions_kit (pcfgs (F := F)) adm (pdats dat0 dat1 dat2 m ρ) () cellOf_inj emb₁ defs₀ 𝒱₀ L lv m ρ main (segs dat0 dat1 dat2 m ρ H0 H1 H2)
    (fun c Q => by rw [main_run dat0 dat1 dat2 m ρ H0 H1 H2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ dat0 dat1 dat2 m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 dat0 dat1 dat2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 dat0 dat1 dat2 m ρ c) s')
      isplitl [Hh] <;> iassumption)
    (hQ := fun s h c => h c)

end Cert.KernelIdeal.Hand

end
-- ==== Proof.KI_Post.lean ====
/-
  The frame from the run.  An argument array is written by no host operation and is no launch's output array: a launch
  either does not stage it (its buffer bypasses the launch) or stages it through an input window, whose array ends as it
  was entered.  So the fold's last contents at an argument walk back to the launch memory, and the run's post, read at
  the nine arguments, is the frame claim's.
-/
import proofs.«107194_j39247411150862_2_alg».proof.Proof.KI_Run
import proofs.«107194_j39247411150862_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (dat0 : VT F → (c : Dev nD) → Dat τ (Elt F) Unit ℕ (UR sig nD τ) ℕ cfg0 c)
variable (dat1 : VT F → (c : Dev nD) → Dat τ (Elt F) Unit ℕ (UR sig nD τ) ℕ cfg1 c)
variable (dat2 : VT F → (c : Dev nD) → Dat τ (Elt F) Unit ℕ (UR sig nD τ) ℕ cfg2 c)
variable (m : (ℓ : Loc nD τ sig) → Buf (Elt F) ℓ) (ρ : Dev nD → PrngReg)
variable (H0 : Half cfg0 dat0) (H1 : Half cfg1 dat1) (H2 : Half cfg2 dat2)

/-! ## A buffer that is no output array of a launch crosses it unchanged -/

include H0 in
theorem W2_keep (c : Dev nD) (r : Ref sig .tc) (h : ∀ w, Pipeline.arrRef spec0 w = r → (cfg0.win w).isOut = false) :
    W2 dat0 m ρ c (Proc.devRef .tc r) = W1 m ρ c (Proc.devRef .tc r) := by
  by_cases hw : ∃ w, Pipeline.arrRef spec0 w = r
  · obtain ⟨w, rfl⟩ := hw
    exact (W2_arr dat0 m ρ c w).trans (((dat0 (V1 m ρ) c).arrAt_in w (h w rfl) _).trans (H0.A_eq (V1 m ρ) c w))
  · exact W2_of_ne dat0 m ρ c r fun w e => hw ⟨w, e⟩

include H1 in
theorem W4_keep (c : Dev nD) (r : Ref sig .tc) (h : ∀ w, Pipeline.arrRef spec1 w = r → (cfg1.win w).isOut = false) :
    W4 dat0 dat1 m ρ c (Proc.devRef .tc r) = W3 dat0 m ρ c (Proc.devRef .tc r) := by
  by_cases hw : ∃ w, Pipeline.arrRef spec1 w = r
  · obtain ⟨w, rfl⟩ := hw
    exact (W4_arr dat0 dat1 m ρ c w).trans (((dat1 (V3 dat0 m ρ) c).arrAt_in w (h w rfl) _).trans (H1.A_eq (V3 dat0 m ρ) c w))
  · exact W4_of_ne dat0 dat1 m ρ c r fun w e => hw ⟨w, e⟩

include H2 in
theorem W6_keep (c : Dev nD) (r : Ref sig .tc) (h : ∀ w, Pipeline.arrRef spec2 w = r → (cfg2.win w).isOut = false) :
    W6 dat0 dat1 dat2 m ρ c (Proc.devRef .tc r) = W5 dat0 dat1 m ρ c (Proc.devRef .tc r) := by
  by_cases hw : ∃ w, Pipeline.arrRef spec2 w = r
  · obtain ⟨w, rfl⟩ := hw
    exact (W6_arr dat0 dat1 dat2 m ρ c w).trans (((dat2 (V5 dat0 dat1 m ρ) c).arrAt_in w (h w rfl) _).trans (H2.A_eq (V5 dat0 dat1 m ρ) c w))
  · exact W6_of_ne dat0 dat1 dat2 m ρ c r fun w e => hw ⟨w, e⟩

/-! ## The host stretches write only their results -/

theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W3_keep (c : Dev nD) (r : Ref sig .tc) (h : r ∉ hostOps1_W) : W3 dat0 m ρ c (Proc.devRef .tc r) = W2 dat0 m ρ c (Proc.devRef .tc r) :=
  StableHlo.after_of_writes_sub hostOps1 _ hostOps1_writes h
theorem W5_keep (c : Dev nD) (r : Ref sig .tc) (h : r ∉ hostOps2_W) : W5 dat0 dat1 m ρ c (Proc.devRef .tc r) = W4 dat0 dat1 m ρ c (Proc.devRef .tc r) :=
  StableHlo.after_of_writes_sub hostOps2 _ hostOps2_writes h

include H0 H1 H2 in
/-- A buffer no host operation writes and no launch has as an output array ends as launched. -/
theorem W6_untouched (c : Dev nD) (r : Ref sig .tc) (h0 : r ∉ hostOps0_W) (h1 : r ∉ hostOps1_W) (h2 : r ∉ hostOps2_W)
    (k0 : ∀ w, Pipeline.arrRef spec0 w = r → (cfg0.win w).isOut = false)
    (k1 : ∀ w, Pipeline.arrRef spec1 w = r → (cfg1.win w).isOut = false)
    (k2 : ∀ w, Pipeline.arrRef spec2 w = r → (cfg2.win w).isOut = false) :
    W6 dat0 dat1 dat2 m ρ c (Proc.devRef .tc r) = m ((c : Thread nD τ).loc r) :=
  (W6_keep dat0 dat1 dat2 m ρ H2 c r k2).trans <| (W5_keep dat0 dat1 m ρ c r h2).trans <| (W4_keep dat0 dat1 m ρ H1 c r k1).trans <|
    (W3_keep dat0 m ρ c r h1).trans <| (W2_keep dat0 m ρ H0 c r k0).trans <| (W1_keep m ρ c r h0).trans rfl

include H0 H1 H2 in
/-- THE FRAME at any float instance: every weakly fair execution terminates, nothing faulting, and the nine argument
    arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
      (h c _ (mem_uc main_arg0 (by decide))).trans (W6_untouched dat0 dat1 dat2 m ρ H0 H1 H2 c main_arg0 (by decide) (by decide) (by decide) (by decide) (by decide) (by decide)),
      (h c _ (mem_uc main_arg1 (by decide))).trans (W6_untouched dat0 dat1 dat2 m ρ H0 H1 H2 c main_arg1 (by decide) (by decide) (by decide) (by decide) (by decide) (by decide)),
      (h c _ (mem_uc main_arg2 (by decide))).trans (W6_untouched dat0 dat1 dat2 m ρ H0 H1 H2 c main_arg2 (by decide) (by decide) (by decide) (by decide) (by decide) (by decide)),
      (h c _ (mem_uc main_arg3 (by decide))).trans (W6_untouched dat0 dat1 dat2 m ρ H0 H1 H2 c main_arg3 (by decide) (by decide) (by decide) (by decide) (by decide) (by decide)),
      (h c _ (mem_uc main_arg4 (by decide))).trans (W6_untouched dat0 dat1 dat2 m ρ H0 H1 H2 c main_arg4 (by decide) (by decide) (by decide) (by decide) (by decide) (by decide)),
      (h c _ (mem_uc main_arg5 (by decide))).trans (W6_untouched dat0 dat1 dat2 m ρ H0 H1 H2 c main_arg5 (by decide) (by decide) (by decide) (by decide) (by decide) (by decide)),
      (h c _ (mem_uc main_arg6 (by decide))).trans (W6_untouched dat0 dat1 dat2 m ρ H0 H1 H2 c main_arg6 (by decide) (by decide) (by decide) (by decide) (by decide) (by decide)),
      (h c _ (mem_uc main_arg7 (by decide))).trans (W6_untouched dat0 dat1 dat2 m ρ H0 H1 H2 c main_arg7 (by decide) (by decide) (by decide) (by decide) (by decide) (by decide)),
      (h c _ (mem_uc main_arg8 (by decide))).trans (W6_untouched dat0 dat1 dat2 m ρ H0 H1 H2 c main_arg8 (by decide) (by decide) (by decide) (by decide) (by decide) (by decide))⟩)
    (run_all dat0 dat1 dat2 m ρ H0 H1 H2)

end Cert.KernelIdeal.Hand

end
-- ==== Proof.KI_R0.lean ====
import proofs.«107194_j39247411150862_2_alg».proof.Proof.Gen.KernelIdeal.Launch
import proofs.«107194_j39247411150862_2_alg».proof.Proof.Gen.KernelIdeal.Skeleton
import proofs.«107194_j39247411150862_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The projection region (first TensorCore call, a single grid point, 10 whole-array windows), at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is the entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is the entry contents and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each is a whole buffer (activations 256×1024, a weight 1024×1024, a bias 1×1024). -/
abbrev r0_0 : Rect S256x1024 := Rect.unit (s := S256x1024) ![0, 0] S256x1024.size inb_S256x1024_S256x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0

/-- Window 7's buffer after the body: x·W + b for the first weight and bias (windows 1, 2), stored whole. -/
def out0_7 (x0 : Vec F S256x1024 .f32) (x1 : Vec F S1024x1024 .f32) (x2 : Vec F S1x1024 .f32) : Vec F S256x1024 .f32 :=
  View.canon [⟨r0_0, k0_pay2 (View.ld x0 r0_0) (View.ld x1 r0_1) (View.ld x2 r0_2)⟩]

/-- Window 8's buffer after the body: x·W + b for the second weight and bias (windows 3, 4), stored whole. -/
def out0_8 (x0 : Vec F S256x1024 .f32) (x3 : Vec F S1024x1024 .f32) (x4 : Vec F S1x1024 .f32) : Vec F S256x1024 .f32 :=
  View.canon [⟨r0_0, k0_pay3 (View.ld x0 r0_0) (View.ld x3 r0_1) (View.ld x4 r0_2)⟩]

/-- Window 9's buffer after the body: x·W + b for the third weight and bias (windows 5, 6), stored whole. -/
def out0_9 (x0 : Vec F S256x1024 .f32) (x5 : Vec F S1024x1024 .f32) (x6 : Vec F S1x1024 .f32) : Vec F S256x1024 .f32 :=
  View.canon [⟨r0_0, k0_pay4 (View.ld x0 r0_0) (View.ld x5 r0_1) (View.ld x6 r0_2)⟩]

/-- A single whole-buffer store covers the buffer. -/
theorem cover0 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

set_option maxHeartbeats 4000000 in
/-- The body on whole staging memrefs, the inputs' at contents `x0 … x6` and the outputs' at anything, leaves the inputs
    as they were and each output at its `out0_W`. -/
theorem sound_kernel0 (c : Dev nD) (E : Set ℕ) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole)
    (x0 : Vec F S256x1024 .f32) (x1 : Vec F S1024x1024 .f32) (x2 : Vec F S1x1024 .f32) (x3 : Vec F S1024x1024 .f32) (x4 : Vec F S1x1024 .f32) (x5 : Vec F S1024x1024 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2) ∗ owns (c : Thread nD τ) arg9 fullShare (out0_8 x0 x3 x4) ∗ owns (c : Thread nD τ) arg10 fullShare (out0_9 x0 x5 x6)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

/-- The proof data of the projection pipeline on core `c`: the arrays as the region finds them; after the body each
    input's buffer at its block and each output's at `out0_W` of the input blocks; the class's invariant; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so `sound_kernel0` applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI_R2.lean ====
import proofs.«107194_j39247411150862_2_alg».proof.Proof.Gen.KernelIdeal.Launch
import proofs.«107194_j39247411150862_2_alg».proof.Proof.Gen.KernelIdeal.Skeleton
import proofs.«107194_j39247411150862_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The tail region (third TensorCore call, grid of 32 points, 4 windows), at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body reads and writes: the whole 1×8×1024 buffer. -/
abbrev r2_0 : Rect S1x8x1024 := Rect.unit (s := S1x8x1024) ![0, 0, 0] S1x8x1024.size inb_S1x8x1024_S1x8x1024_0_0_0

/-- Window 2's buffer after the body: the new key rows (window 0's block), stored whole. -/
def out2_2 (x0 : Vec F S1x8x1024 .f32) : Vec F S1x8x1024 .f32 :=
  View.canon [⟨r2_0, k2_pay1 (View.ld x0 r2_0)⟩]

/-- Window 3's buffer after the body: the new value rows (window 1's block), stored whole. -/
def out2_3 (x1 : Vec F S1x8x1024 .f32) : Vec F S1x8x1024 .f32 :=
  View.canon [⟨r2_0, k2_pay2 (View.ld x1 r2_0)⟩]

/-- A single whole-buffer store covers the buffer. -/
theorem cover2 (p0 : Vec F S1x8x1024 .f32) (y : S1x8x1024.Idx) :
    ∃ pc ∈ ([⟨r2_0, p0⟩] : List (View.Piece (Elt F) S1x8x1024 .f32)), y ∈ pc.1.set :=
  View.cover_of_tiled [⟨r2_0, p0⟩] S1x8x1024.size (by rfl) y

set_option maxHeartbeats 1000000 in
/-- The body on whole staging memrefs, the inputs' at contents `x0`, `x1` and the outputs' at anything, leaves the inputs
    as they were and each output at its `out2_W`; the two cache arrays it is also handed are never accessed. -/
theorem sound_kernel2 (c : Dev nD) (E : Set ℕ) (i : grid2.Coords) (arg1 : Memref sig .tc .hbm S32x4104x1024 .f32) (harg1 : arg1.IsWhole) (arg2 : Memref sig .tc .hbm S32x4104x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole)
    (x0 : Vec F S1x8x1024 .f32) (x1 : Vec F S1x8x1024 .f32) (K : PUnit → sProp 𝕄) :
    iprop(owns (c : Thread nD τ) arg3 fullShare x0 ∗ owns (c : Thread nD τ) arg4 fullShare x1 ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1 ∗ owns (c : Thread nD τ) arg5 fullShare (out2_2 x0) ∗ owns (c : Thread nD τ) arg6 fullShare (out2_3 x1)) -∗ K ⟨⟩))
      ⊢ wp frame (wpE (defs₀ (F := F)) Variants.none c none) E (cc2__tail_kernel i arg1 harg1 arg2 harg2 arg3 harg3 arg4 harg4 arg5 harg5 arg6 harg6) K := by
  simp only [cc2__tail_kernel_eq_skeleton]; unfold cc2__tail_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2 _)
  iexists _; isplitr
  swap; · iexact H3
  ipureintro
  exact View.read_writes_eq_canon _ _ _ (cover2 _)

/-- The proof data of the tail pipeline on core `c`: the arrays as the region finds them; after the body each input's
    buffer at its block and each output's at `out2_W` of the input blocks; the class's invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t)
    | ⟨3, _⟩ => out2_3 (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) := by dsimp only [dat2]
theorem after2_3 (c : Dev nD) (t : Fin cfg2.N) : (dat2 V c).after 3 t = out2_3 (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ _ _ _ _ (iblk2 V c 0 t) (iblk2 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI_Halves.lean ====
/-
  The three launches' proof data meet what the run asks.
-/
import proofs.«107194_j39247411150862_2_alg».proof.Proof.KI_Post
import proofs.«107194_j39247411150862_2_alg».proof.Proof.KI_R0
import proofs.«107194_j39247411150862_2_alg».proof.Proof.KI_R2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem half0 : Half cfg0 (dat0 (F := F)) where
  A_eq := A_eq0
  body := body_obligation0
  q := fun _ _ _ => rfl
  owed := fun _ _ _ => rfl
  recorded := fun _ _ _ => rfl
  Φ0 := fun _ _ => rfl
  Φn := fun _ _ => .rfl

theorem half2 : Half cfg2 (dat2 (F := F)) where
  A_eq := A_eq2
  body := body_obligation2
  q := fun _ _ _ => rfl
  owed := fun _ _ _ => rfl
  recorded := fun _ _ _ => rfl
  Φ0 := fun _ _ => rfl
  Φn := fun _ _ => .rfl

end Cert.KernelIdeal.Hand

end
-- ==== Proof.KI_R1Runs.lean ====
import proofs.«107194_j39247411150862_2_alg».proof.Proof.Gen.KernelIdeal.Launch
import proofs.«107194_j39247411150862_2_alg».proof.Proof.Gen.KernelIdeal.Skeleton
import proofs.«107194_j39247411150862_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks, read off the arrays as the region finds them -/

/-- Window `w`'s block at point `t`, read off its array at the region-entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is
    not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is
    not fetched the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is
    not fetched the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is
    not fetched the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is
    not fetched the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, in closed form over the grid -/

/-- The first conditional: the cache-tile coordinate is 0 (the scratch is reset there). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional: the cache-tile coordinate is 3 (the last tile of a batch: the new rows are folded in and
    the result is stored). -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
/-- Where the second conditional fails the result window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- Where it holds the result window is live. -/
theorem liveAt1_5 : ∀ t : Fin cfg1.N, cond1_1 (grid1.coords t) → cfg1.idle 5 (grid1.coords t) = false := by decide +kernel

/-! ## Views and memrefs the runs are stated over -/

abbrev VO1_5 : View sig .tc .vmem S1x8x1024 .f32 := (Memref.whole cc1_stg5_0 : Memref sig .tc .vmem S1x8x1024 .f32).view
abbrev VO1_6 : View sig .tc .vmem S1x1024x1024 .f32 := (Memref.whole cc1_stg6_0 : Memref sig .tc .vmem S1x1024x1024 .f32).view
abbrev VO1_7 : View sig .tc .vmem S1x1024x1024 .f32 := (Memref.whole cc1_stg7_0 : Memref sig .tc .vmem S1x1024x1024 .f32).view
abbrev ms1_0 (t : Fin cfg1.N) : Memref sig .tc .vmem S1x8x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x8x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x8x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1024x1024 .f32 := win1_7.stage (cfg1.slots t 7)
abbrev hs1_7 (t : Fin cfg1.N) : (ms1_7 t).IsWhole := hstage1_7 ((cfg1.slots t 7).cast nbuf1_7)
/-- The three scratch operands (running maximum, running sum, accumulator): whole scoped buffers. -/
abbrev scM1_0 : Memref sig .tc .vmem S1x8x1 .f32 := Memref.whole cc1_scratch0
abbrev scM1_1 : Memref sig .tc .vmem S1x8x1 .f32 := Memref.whole cc1_scratch1
abbrev scM1_2 : Memref sig .tc .vmem S1x8x1024 .f32 := Memref.whole cc1_scratch2
abbrev VS1_0 : View sig .tc .vmem S1x8x1 .f32 := scM1_0.view
abbrev VS1_1 : View sig .tc .vmem S1x8x1 .f32 := scM1_1.view
abbrev VS1_2 : View sig .tc .vmem S1x8x1024 .f32 := scM1_2.view

end Cert.KernelIdeal.Hand

end
-- ==== Proof.KI_R1RunB.lean ====
import proofs.«107194_j39247411150862_2_alg».proof.Proof.KI_R1Runs
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- The body on whole memrefs in case B: from the inputs at their contents, the result window at any contents, handed back untouched, the two
    copy windows at anything, the three scratch buffers at what the point before left, it runs to the continuation
    holding the inputs as they were and every buffer it stored into with its pieces written; the pieces are found by
    the run. -/
noncomputable def kernelRun1_B (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) :
    Σ' (L6 : List (View.Piece (Elt F) S1x1024x1024 .f32)), Σ' (L7 : List (View.Piece (Elt F) S1x1024x1024 .f32)), Σ' (LS0 : List (View.Piece (Elt F) S1x8x1 .f32)), Σ' (LS1 : List (View.Piece (Elt F) S1x8x1 .f32)), { LS2 : List (View.Piece (Elt F) S1x8x1024 .f32) //
      ∀ (xi5 : Vec F S1x8x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun xi5 E K => ?run⟩
  case run =>
    simp only [cc1__attn_kernel_eq_skeleton]; unfold cc1__attn_kernel_skel
    simp only [k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    iexists _; iexact H10

end Cert.KernelIdeal.Hand

end
-- ==== Proof.KI_R1RunA.lean ====
import proofs.«107194_j39247411150862_2_alg».proof.Proof.KI_R1RunB
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- The body on whole memrefs in case A: from the inputs at their contents, the result window at any contents, handed back untouched, the two
    copy windows at anything, the three scratch buffers at anything, it runs to the continuation
    holding the inputs as they were and every buffer it stored into with its pieces written; the pieces are found by
    the run. -/
noncomputable def kernelRun1_A (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) :
    Σ' (L6 : List (View.Piece (Elt F) S1x1024x1024 .f32)), Σ' (L7 : List (View.Piece (Elt F) S1x1024x1024 .f32)), Σ' (LS0 : List (View.Piece (Elt F) S1x8x1 .f32)), Σ' (LS1 : List (View.Piece (Elt F) S1x8x1 .f32)), { LS2 : List (View.Piece (Elt F) S1x8x1024 .f32) //
      ∀ (xi5 : Vec F S1x8x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun xi5 E K => ?run⟩
  case run =>
    simp only [cc1__attn_kernel_eq_skeleton]; unfold cc1__attn_kernel_skel
    simp only [k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    iexists _; iexact H10

end Cert.KernelIdeal.Hand

end
-- ==== Proof.KI_R1RunC.lean ====
import proofs.«107194_j39247411150862_2_alg».proof.Proof.KI_R1RunA
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- The body on whole memrefs in case C: from the inputs at their contents, the result window at anything, the two
    copy windows at anything, the three scratch buffers at what the point before left, it runs to the continuation
    holding the inputs as they were and every buffer it stored into with its pieces written; the pieces are found by
    the run. -/
noncomputable def kernelRun1_C (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) :
    Σ' (L5 : List (View.Piece (Elt F) S1x8x1024 .f32)), Σ' (L6 : List (View.Piece (Elt F) S1x1024x1024 .f32)), Σ' (L7 : List (View.Piece (Elt F) S1x1024x1024 .f32)), Σ' (LS0 : List (View.Piece (Elt F) S1x8x1 .f32)), Σ' (LS1 : List (View.Piece (Elt F) S1x8x1 .f32)), { LS2 : List (View.Piece (Elt F) S1x8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc1__attn_kernel_eq_skeleton]; unfold cc1__attn_kernel_skel
    simp only [k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    iexists _; iexact H10

end Cert.KernelIdeal.Hand

end
-- ==== Proof.KI_R1.lean ====
import proofs.«107194_j39247411150862_2_alg».proof.Proof.KI_R1RunC
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## What each case leaves in the buffers it stores into: the run's pieces, read back -/

/-- Where the result window is idle nothing is stored into it: a placeholder that nothing consults (the window is
    neither written back there nor read at the next point). -/
def out1_idle_5 : Vec F S1x8x1024 .f32 := VO1_5.read (Elt F) (VO1_5.writes (Elt F) VO1_5.junk [])

/-- Case A's pieces for output window 6 cover it (a store of the whole shape). -/
theorem cover1_A_6 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (y : S1x1024x1024.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4).1 S1x1024x1024.size (by sl_kernel_rfl) y

/-- What case A leaves there: its pieces read back. -/
def out1_A_6 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) : Vec F S1x1024x1024 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 arg11 harg11 arg12 harg12 hc0 hc1 x0 x1 x2 x3 x4).1)

/-- Case A's pieces for output window 7 cover it (a store of the whole shape). -/
theorem cover1_A_7 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (y : S1x1024x1024.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4).2.1 S1x1024x1024.size (by sl_kernel_rfl) y

/-- What case A leaves there: its pieces read back. -/
def out1_A_7 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) : Vec F S1x1024x1024 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 arg12 harg12 hc0 hc1 x0 x1 x2 x3 x4).2.1)

/-- Case A's pieces for scratch 0 cover it (a store of the whole shape). -/
theorem scover1_A_0 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (y : S1x8x1.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.1 S1x8x1.size (by sl_kernel_rfl) y

/-- What case A leaves there: its pieces read back. -/
def sout1_A_0 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) : Vec F S1x8x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.1)

/-- Case A's pieces for scratch 1 cover it (a store of the whole shape). -/
theorem scover1_A_1 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (y : S1x8x1.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.1 S1x8x1.size (by sl_kernel_rfl) y

/-- What case A leaves there: its pieces read back. -/
def sout1_A_1 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) : Vec F S1x8x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.1)

/-- Case A's pieces for scratch 2 cover it (a store of the whole shape). -/
theorem scover1_A_2 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (y : S1x8x1024.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.2.1 S1x8x1024.size (by sl_kernel_rfl) y

/-- What case A leaves there: its pieces read back. -/
def sout1_A_2 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) : Vec F S1x8x1024 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.2.1)

/-- Case B's pieces for output window 6 cover it (a store of the whole shape). -/
theorem cover1_B_6 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) (y : S1x1024x1024.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1 S1x1024x1024.size (by sl_kernel_rfl) y

/-- What case B leaves there: its pieces read back. -/
def out1_B_6 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) : Vec F S1x1024x1024 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1)

/-- Case B's pieces for output window 7 cover it (a store of the whole shape). -/
theorem cover1_B_7 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) (y : S1x1024x1024.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1 S1x1024x1024.size (by sl_kernel_rfl) y

/-- What case B leaves there: its pieces read back. -/
def out1_B_7 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) : Vec F S1x1024x1024 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1)

/-- Case B's pieces for scratch 0 cover it (a store of the whole shape). -/
theorem scover1_B_0 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) (y : S1x8x1.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1 S1x8x1.size (by sl_kernel_rfl) y

/-- What case B leaves there: its pieces read back. -/
def sout1_B_0 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) : Vec F S1x8x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1)

/-- Case B's pieces for scratch 1 cover it (a store of the whole shape). -/
theorem scover1_B_1 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) (y : S1x8x1.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1 S1x8x1.size (by sl_kernel_rfl) y

/-- What case B leaves there: its pieces read back. -/
def sout1_B_1 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) : Vec F S1x8x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1)

/-- Case B's pieces for scratch 2 cover it (a store of the whole shape). -/
theorem scover1_B_2 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) (y : S1x8x1024.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1 S1x8x1024.size (by sl_kernel_rfl) y

/-- What case B leaves there: its pieces read back. -/
def sout1_B_2 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) : Vec F S1x8x1024 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1)

/-- Case C's pieces for output window 5 cover it (a store of the whole shape). -/
theorem cover1_C_5 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) (y : S1x8x1024.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1 S1x8x1024.size (by sl_kernel_rfl) y

/-- What case C leaves there: its pieces read back. -/
def out1_C_5 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) : Vec F S1x8x1024 .f32 :=
  VO1_5.read (Elt F) (VO1_5.writes (Elt F) VO1_5.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1)

/-- Case C's pieces for output window 6 cover it (a store of the whole shape). -/
theorem cover1_C_6 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) (y : S1x1024x1024.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1 S1x1024x1024.size (by sl_kernel_rfl) y

/-- What case C leaves there: its pieces read back. -/
def out1_C_6 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) : Vec F S1x1024x1024 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1)

/-- Case C's pieces for output window 7 cover it (a store of the whole shape). -/
theorem cover1_C_7 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) (y : S1x1024x1024.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1 S1x1024x1024.size (by sl_kernel_rfl) y

/-- What case C leaves there: its pieces read back. -/
def out1_C_7 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) : Vec F S1x1024x1024 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1)

/-- Case C's pieces for scratch 0 cover it (a store of the whole shape). -/
theorem scover1_C_0 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) (y : S1x8x1.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1 S1x8x1.size (by sl_kernel_rfl) y

/-- What case C leaves there: its pieces read back. -/
def sout1_C_0 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) : Vec F S1x8x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1)

/-- Case C's pieces for scratch 1 cover it (a store of the whole shape). -/
theorem scover1_C_1 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) (y : S1x8x1.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1 S1x8x1.size (by sl_kernel_rfl) y

/-- What case C leaves there: its pieces read back. -/
def sout1_C_1 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) : Vec F S1x8x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1)

/-- Case C's pieces for scratch 2 cover it (a store of the whole shape). -/
theorem scover1_C_2 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) (y : S1x8x1024.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.2.1 S1x8x1024.size (by sl_kernel_rfl) y

/-- What case C leaves there: its pieces read back. -/
def sout1_C_2 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) : Vec F S1x8x1024 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.2.1)

/-! ## What the outputs and the scratch hold after each point -/

/-- The contents after a point: the result window, the two copy windows, then the three scratch buffers. -/
abbrev Tup1 (F : FTy → Type) [FloatOps F] : Type := Vec F S1x8x1024 .f32 × Vec F S1x1024x1024 .f32 × Vec F S1x1024x1024 .f32 × Vec F S1x8x1 .f32 × Vec F S1x8x1 .f32 × Vec F S1x8x1024 .f32

/-- Case A at point `t`. -/
def pt1_A (c : Dev nD) (t : Fin cfg1.N) (h0 : t.val % 4 = 0) (h1 : ¬t.val % 4 = 3) : Tup1 F :=
  (out1_idle_5, out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t))

/-- Case B at point `t`, over what the point before left (\`p\`: its scratch components are read). -/
def pt1_B (c : Dev nD) (t : Fin cfg1.N) (h0 : ¬t.val % 4 = 0) (h1 : ¬t.val % 4 = 3) (p : Tup1 F) : Tup1 F :=
  (out1_idle_5, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.2.2.1 p.2.2.2.2.1 p.2.2.2.2.2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.2.2.1 p.2.2.2.2.1 p.2.2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.2.2.1 p.2.2.2.2.1 p.2.2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.2.2.1 p.2.2.2.2.1 p.2.2.2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.2.2.1 p.2.2.2.2.1 p.2.2.2.2.2)

/-- Case C at point `t`, over what the point before left (\`p\`: its scratch components are read). -/
def pt1_C (c : Dev nD) (t : Fin cfg1.N) (h0 : ¬t.val % 4 = 0) (h1 : t.val % 4 = 3) (p : Tup1 F) : Tup1 F :=
  (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.2.2.1 p.2.2.2.2.1 p.2.2.2.2.2, out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.2.2.1 p.2.2.2.2.1 p.2.2.2.2.2, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.2.2.1 p.2.2.2.2.1 p.2.2.2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.2.2.1 p.2.2.2.2.1 p.2.2.2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.2.2.1 p.2.2.2.2.1 p.2.2.2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.2.2.1 p.2.2.2.2.1 p.2.2.2.2.2)

/-- THE ACCUMULATION: what the outputs' staging buffers and the carried scratch hold after the body at position `n`:
    the case the closed forms select there, the carried scratch at what position `n - 1` left. -/
def outsAt1 (c : Dev nD) : (n : ℕ) → n < cfg1.N → Tup1 F
  | 0, hn => pt1_A V c ⟨0, hn⟩ (Nat.zero_mod _) (show ¬ 0 % 4 = 3 from by decide)
  | n + 1, hn =>
    if h0 : (n + 1) % 4 = 0 then
      if h1 : (n + 1) % 4 = 3 then False.elim (by omega)
      else pt1_A V c ⟨n + 1, hn⟩ h0 h1
    else
      if h1 : (n + 1) % 4 = 3 then pt1_C V c ⟨n + 1, hn⟩ h0 h1 (outsAt1 c n (Nat.lt_of_succ_lt hn))
      else pt1_B V c ⟨n + 1, hn⟩ h0 h1 (outsAt1 c n (Nat.lt_of_succ_lt hn))

theorem outsAt1_A (c : Dev nD) (t : Fin cfg1.N) (h0 : t.val % 4 = 0) (h1 : ¬t.val % 4 = 3) :
    outsAt1 V c t.val t.isLt = pt1_A V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = pt1_B V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = pt1_C V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region invariant with the scratch carried between points -/

/-- The core's other scoped buffers (the other calls' staging buffers), each at some contents, and the generator
    register at some state: what the invariant holds beside the three scratch buffers. -/
def RestR1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ r, prngReg c r))

/-- The class's invariant, with the three scratch buffers (at anything) set apart from the rest. -/
theorem PhiA1_eq (c : Dev nD) :
    (Pipeline.ΦA spec1 c : sProp 𝕄) = iprop(iprop((∃ d, owns (c : Thread nD τ) scM1_0 fullShare d) ∗ (∃ d, owns (c : Thread nD τ) scM1_1 fullShare d) ∗ (∃ d, owns (c : Thread nD τ) scM1_2 fullShare d)) ∗ RestR1 (F := F) c) := by
  unfold Pipeline.ΦA RestR1; rw [scopedRest1_eq]; simp only [scM1_0, scM1_1, scM1_2, owns_whole]
  refine Entails.antisymm ?_ ?_
  · show (_ : sProp 𝕄) ⊢ (_ : sProp 𝕄)
    iintro ⟨⟨A0, A1, A2, A3, A4, A5, A6, A7, A8, A9, S0, S1, S2, B0, B1, B2, B3, B4, B5, B6, B7⟩, Hg⟩
    isplitl [S0 S1 S2]
    · isplitl [S0]; · iexact S0
      isplitl [S1]; · iexact S1
      iexact S2
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact Hg
  · show (_ : sProp 𝕄) ⊢ (_ : sProp 𝕄)
    iintro ⟨⟨S0, S1, S2⟩, A0, A1, A2, A3, A4, A5, A6, A7, A8, A9, B0, B1, B2, B3, B4, B5, B6, B7, Hg⟩
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [S0]; · iexact S0
    isplitl [S1]; · iexact S1
    isplitl [S2]; · iexact S2
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7

/-- The region invariant before position `n`: before the first point the class's (every scratch at anything);
    afterwards the three scratch buffers at what the point before left in them, and the rest. -/
def PhiS1 (c : Dev nD) : (n : ℕ) → n ≤ cfg1.N → sProp 𝕄
  | 0, _ => Pipeline.ΦA spec1 c
  | n + 1, hn => iprop(iprop(owns (c : Thread nD τ) scM1_0 fullShare (outsAt1 V c n hn).2.2.2.1 ∗ owns (c : Thread nD τ) scM1_1 fullShare (outsAt1 V c n hn).2.2.2.2.1 ∗ owns (c : Thread nD τ) scM1_2 fullShare (outsAt1 V c n hn).2.2.2.2.2) ∗ RestR1 (F := F) c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (outsAt1 V c n hn).2.2.2.1 ∗ owns (c : Thread nD τ) scM1_1 fullShare (outsAt1 V c n hn).2.2.2.2.1 ∗ owns (c : Thread nD τ) scM1_2 fullShare (outsAt1 V c n hn).2.2.2.2.2) ∗ RestR1 (F := F) c) := rfl

theorem PhiS1_pos (c : Dev nD) (n : ℕ) (h : n ≤ cfg1.N) (hz : n ≠ 0) :
    PhiS1 V c n h = iprop(iprop(owns (c : Thread nD τ) scM1_0 fullShare (outsAt1 V c (n - 1) (by omega)).2.2.2.1 ∗ owns (c : Thread nD τ) scM1_1 fullShare (outsAt1 V c (n - 1) (by omega)).2.2.2.2.1 ∗ owns (c : Thread nD τ) scM1_2 fullShare (outsAt1 V c (n - 1) (by omega)).2.2.2.2.2) ∗ RestR1 (F := F) c) := by
  cases n with
  | zero => exact absurd rfl hz
  | succ n => rfl

/-! ## The pipeline's proof data -/

/-- The proof data of the region on core `c`: the arrays as the region finds them; after the body at point `t`
    each input's buffer at its block and the outputs' at `outsAt1`'s components; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
    | ⟨7, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]
theorem after1_7 (c : Dev nD) (t : Fin cfg1.N) : (dat1 V c).after 7 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
/-- The body at any point: the inputs' memrefs hold their blocks; the closed forms say which case the point is in; the
    invariant hands the body the scratch at what the point before left (at anything at the first point of a batch),
    and takes it back at this point's contents; where the result window is idle its buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [outsAt1_A V c t h0 h1]
      unfold pt1_A out1_A_6 out1_A_7 sout1_A_0 sout1_A_1 sout1_A_2; (try dsimp only)
      by_cases hz : t.val = 0
      · rw [PhiS1_castSucc V c t, PhiS1_zero V c _ _ hz, PhiA1_eq]
        iintro ⟨⟨⟨HS0, HS1, HS2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        isplitl [HS2]; · iexact HS2
        iintro ⟨H0, H1, H2, H3, H4, H5, ⟨%e6, H6⟩, ⟨%e7, H7⟩, ⟨%es0, HS0⟩, ⟨%es1, HS1⟩, ⟨%es2, HS2⟩⟩
        isplitl [HS0 HS1 HS2 HR]
        · isplitl [HS0 HS1 HS2]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]
        · unfold owns; iexists _; isplitr
          swap; · iexact H6
          ipureintro; exact View.read_writes_of_cover _ _ _ _ _ (cover1_A_6 c _ _ _ _ _ _ _ _ _ _ _ _ _ _ _ _ _ _ _ _ _ _ _ _ _ _ _ _ _ _)
        unfold owns; iexists _; isplitr
        swap; · iexact H7
        ipureintro; exact View.read_writes_of_cover _ _ _ _ _ (cover1_A_7 c _ _ _ _ _ _ _ _ _ _ _ _ _ _ _ _ _ _ _ _ _ _ _ _ _ _ _ _ _ _)
      · rw [PhiS1_castSucc V c t, PhiS1_pos V c _ _ hz]
        iintro ⟨⟨⟨HS0, HS1, HS2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexists _; iexact HS0
        isplitl [HS1]; · iexists _; iexact HS1
        isplitl [HS2]; · iexists _; iexact HS2
        iintro ⟨H0, H1, H2, H3, H4, H5, ⟨%e6, H6⟩, ⟨%e7, H7⟩, ⟨%es0, HS0⟩, ⟨%es1, HS1⟩, ⟨%es2, HS2⟩⟩
        isplitl [HS0 HS1 HS2 HR]
        · isplitl [HS0 HS1 HS2]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]
        · unfold owns; iexists _; isplitr
          swap; · iexact H6
          ipureintro; exact View.read_writes_of_cover _ _ _ _ _ (cover1_A_6 c _ _ _ _ _ _ _ _ _ _ _ _ _ _ _ _ _ _ _ _ _ _ _ _ _ _ _ _ _ _)
        unfold owns; iexists _; isplitr
        swap; · iexact H7
        ipureintro; exact View.read_writes_of_cover _ _ _ _ _ (cover1_A_7 c _ _ _ _ _ _ _ _ _ _ _ _ _ _ _ _ _ _ _ _ _ _ _ _ _ _ _ _ _ _)

  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [outsAt1_C V c t h0 h1]
      unfold pt1_C out1_C_5 out1_C_6 out1_C_7 sout1_C_0 sout1_C_1 sout1_C_2; (try dsimp only)
      have hz : t.val ≠ 0 := fun e => h0 (by omega)
      · rw [PhiS1_castSucc V c t, PhiS1_pos V c _ _ hz]
        iintro ⟨⟨⟨HS0, HS1, HS2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_C c (grid1.coords t) _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _).2.2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        isplitl [HS1]; · iexact HS1
        isplitl [HS2]; · iexact HS2
        iintro ⟨H0, H1, H2, H3, H4, ⟨%e5, H5⟩, ⟨%e6, H6⟩, ⟨%e7, H7⟩, ⟨%es0, HS0⟩, ⟨%es1, HS1⟩, ⟨%es2, HS2⟩⟩
        isplitl [HS0 HS1 HS2 HR]
        · isplitl [HS0 HS1 HS2]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover1_C_5 c _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover1_C_6 c _ _ _ _ _ _ _ _ _ _ _ _ _ _ _ _ _ _ _ _ _ _ _ _ _ _ _ _ _ _ _ _ _)
        unfold owns; iexists _; isplitr
        swap; · iexact H7
        ipureintro; exact View.read_writes_of_cover _ _ _ _ _ (cover1_C_7 c _ _ _ _ _ _ _ _ _ _ _ _ _ _ _ _ _ _ _ _ _ _ _ _ _ _ _ _ _ _ _ _ _)

    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [outsAt1_B V c t h0 h1]
      unfold pt1_B out1_B_6 out1_B_7 sout1_B_0 sout1_B_1 sout1_B_2; (try dsimp only)
      have hz : t.val ≠ 0 := fun e => h0 (by omega)
      · rw [PhiS1_castSucc V c t, PhiS1_pos V c _ _ hz]
        iintro ⟨⟨⟨HS0, HS1, HS2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_B c (grid1.coords t) _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        isplitl [HS2]; · iexact HS2
        iintro ⟨H0, H1, H2, H3, H4, H5, ⟨%e6, H6⟩, ⟨%e7, H7⟩, ⟨%es0, HS0⟩, ⟨%es1, HS1⟩, ⟨%es2, HS2⟩⟩
        isplitl [HS0 HS1 HS2 HR]
        · isplitl [HS0 HS1 HS2]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]
        · unfold owns; iexists _; isplitr
          swap; · iexact H6
          ipureintro; exact View.read_writes_of_cover _ _ _ _ _ (cover1_B_6 c _ _ _ _ _ _ _ _ _ _ _ _ _ _ _ _ _ _ _ _ _ _ _ _ _ _ _ _ _ _ _ _ _)
        unfold owns; iexists _; isplitr
        swap; · iexact H7
        ipureintro; exact View.read_writes_of_cover _ _ _ _ _ (cover1_B_7 c _ _ _ _ _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The invariant before the first point is the class's. -/
theorem Phi1_zero (c : Dev nD) : (dat1 V c).Φ 0 = Pipeline.ΦA spec1 c := by
  rw [show (dat1 V c).Φ 0 = PhiS1 V c 0 (Nat.zero_le _) from rfl, PhiS1_zero V c 0 _ rfl]

/-- After any point but the first the invariant gives the class's back: the scratch's named contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HS1, HS2⟩, HR⟩
  isplitl [HS0 HS1 HS2]
  · isplitl [HS0]; · iexists _; iexact HS0
    isplitl [HS1]; · iexists _; iexact HS1
    iexists _; iexact HS2
  iexact HR

/-- The same after the last point. -/
theorem Phi1_last (c : Dev nD) : (dat1 V c).Φ (Fin.last cfg1.N) ⊢ Pipeline.ΦA spec1 c :=
  Phi1_out V c _ (by rw [Fin.val_last]; have : cfg1.N = 128 := N_1; omega)

end Cert.KernelIdeal.Hand

end
-- ==== Proof.KI_Half1.lean ====
/-
  The attention launch's proof data meet what the run asks: its invariant is the class's before the first point and
  gives it back after the last (the carried scratch's named contents are forgotten there).
-/
import proofs.«107194_j39247411150862_2_alg».proof.Proof.KI_Halves
import proofs.«107194_j39247411150862_2_alg».proof.Proof.KI_R1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem half1 : Half cfg1 (dat1 (F := F)) where
  A_eq := A_eq1
  body := body_obligation1
  q := fun _ _ _ => rfl
  owed := fun _ _ _ => rfl
  recorded := fun _ _ _ => rfl
  Φ0 := Phi1_zero
  Φn := Phi1_last

variable (m : (ℓ : Loc nD τ sig) → Buf (Elt F) ℓ) (ρ : Dev nD → PrngReg)

/-- THE FRAME of the three-launch program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_all (dat0 (F := F)) (dat1 (F := F)) (dat2 (F := F)) m ρ half0 half1 half2

end Cert.KernelIdeal.Hand

end
-- ==== Proof.KW_Run.lean ====
/-
  The run of the three-launch program, given each launch's proof data.

  Between two items of the host program every unscoped buffer of a core is held at a known contents: the launch memory,
  then each host stretch applied (StableHlo.after), then, across a launch, the launch's windowed arrays replaced by what
  its write-backs leave (Dat.arrAt at the last point) and everything else untouched.  Each launch is a region of the
  pipeline library entered from that state and left at the next; the generator register rides along into the class
  invariant and out, nothing is owed, the kernels have no semaphore of their own.  The result: every weakly fair
  execution terminates and every final memory holds each unscoped buffer at the last contents of the fold.

  Stated for ANY proof data of the three launches that have their arrays at the entry contents, meet the body
  obligation, hold full shares, owe nothing, and whose invariant is the class's before the first point and gives it
  back after the last.
-/
import proofs.«107194_j39247411150862_2_alg».proof.Proof.Gen.Kernel.Launch
import proofs.«107194_j39247411150862_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core-indexed contents of the TensorCore's buffers. -/
abbrev VT (F : FTy → Type) [FloatOps F] : Type := (c : Dev nD) → (b : Ref sig .tc) → Buf (Elt F) ((c : Thread nD τ).loc b)

/-- What the run asks of a launch's proof data (at any entry contents). -/
structure Half (cfg : Cfg sig Λ₀) (dat : VT F → (c : Dev nD) → Dat τ (Elt F) Unit ℕ (UR sig nD τ) ℕ cfg c) : Prop where
  A_eq : ∀ (V : VT F) (c : Dev nD) (w : Fin cfg.W), (dat V c).A w = V c (Pipeline.arrRef (fun w => (cfg.win w).toWinSpec) w)
  body : ∀ (V : VT F) (c : Dev nD), BodyObligation (dat V c) (defs₀ (F := F)) Variants.none () Set.univ
  q : ∀ (V : VT F) (c : Dev nD) (w : Fin cfg.W), (dat V c).q w = fullShare
  owed : ∀ (V : VT F) (c : Dev nD) (t : Fin (cfg.N + 1)), (dat V c).owed t = 0
  recorded : ∀ (V : VT F) (c : Dev nD) (t : Fin (cfg.N + 1)), (dat V c).recorded t = Set.univ
  Φ0 : ∀ (V : VT F) (c : Dev nD), (dat V c).Φ 0 = Pipeline.ΦA (fun w => (cfg.win w).toWinSpec) c
  Φn : ∀ (V : VT F) (c : Dev nD), (dat V c).Φ (Fin.last cfg.N) ⊢ (Pipeline.ΦA (fun w => (cfg.win w).toWinSpec) c : sProp 𝕄)

variable (dat0 : VT F → (c : Dev nD) → Dat τ (Elt F) Unit ℕ (UR sig nD τ) ℕ cfg0 c)
variable (dat1 : VT F → (c : Dev nD) → Dat τ (Elt F) Unit ℕ (UR sig nD τ) ℕ cfg1 c)
variable (dat2 : VT F → (c : Dev nD) → Dat τ (Elt F) Unit ℕ (UR sig nD τ) ℕ cfg2 c)
variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : VT F := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 dat0 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 dat0 m ρ c (Proc.devRef .tc b) = W1 m ρ c (Proc.devRef .tc b) := by
  unfold W2; exact Pipeline.withArrays_of_ne spec0 c _ _ b hb
abbrev V2 : VT F := fun c b => W2 dat0 m ρ c b
theorem hF0 (c : Dev nD) (w : Fin cfg0.W) : (dat0 (V1 m ρ) c).arrAt w cfg0.N = V2 dat0 m ρ c (Pipeline.arrRef spec0 w) :=
  (W2_arr dat0 m ρ c w).symm
theorem hrest0 (c : Dev nD) : ∀ b, b ∉ Finset.univ.image (Pipeline.arrRef spec0) → V2 dat0 m ρ c b = V1 m ρ c b :=
  fun b hb => W2_of_ne dat0 m ρ c b fun w e => hb (Finset.mem_image.mpr ⟨w, Finset.mem_univ _, e⟩)

abbrev W3 : Dev nD → Valuation τ sig (Elt F) := fun c => StableHlo.after hostOps1 (W2 dat0 m ρ c)
abbrev V3 : VT F := fun c b => W3 dat0 m ρ c b
def W4 (c : Dev nD) : Valuation τ sig (Elt F) :=
  Pipeline.withArrays spec1 c (W3 dat0 m ρ c) fun w => (dat1 (V3 dat0 m ρ) c).arrAt w cfg1.N
theorem W4_arr (c : Dev nD) (w : Fin cfg1.W) :
    W4 dat0 dat1 m ρ c (Proc.devRef .tc (Pipeline.arrRef spec1 w)) = (dat1 (V3 dat0 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 dat0 dat1 m ρ c (Proc.devRef .tc b) = W3 dat0 m ρ c (Proc.devRef .tc b) := by
  unfold W4; exact Pipeline.withArrays_of_ne spec1 c _ _ b hb
abbrev V4 : VT F := fun c b => W4 dat0 dat1 m ρ c b
theorem hF1 (c : Dev nD) (w : Fin cfg1.W) : (dat1 (V3 dat0 m ρ) c).arrAt w cfg1.N = V4 dat0 dat1 m ρ c (Pipeline.arrRef spec1 w) :=
  (W4_arr dat0 dat1 m ρ c w).symm
theorem hrest1 (c : Dev nD) : ∀ b, b ∉ Finset.univ.image (Pipeline.arrRef spec1) → V4 dat0 dat1 m ρ c b = V3 dat0 m ρ c b :=
  fun b hb => W4_of_ne dat0 dat1 m ρ c b fun w e => hb (Finset.mem_image.mpr ⟨w, Finset.mem_univ _, e⟩)

abbrev W5 : Dev nD → Valuation τ sig (Elt F) := fun c => StableHlo.after hostOps2 (W4 dat0 dat1 m ρ c)
abbrev V5 : VT F := fun c b => W5 dat0 dat1 m ρ c b
def W6 (c : Dev nD) : Valuation τ sig (Elt F) :=
  Pipeline.withArrays spec2 c (W5 dat0 dat1 m ρ c) fun w => (dat2 (V5 dat0 dat1 m ρ) c).arrAt w cfg2.N
theorem W6_arr (c : Dev nD) (w : Fin cfg2.W) :
    W6 dat0 dat1 dat2 m ρ c (Proc.devRef .tc (Pipeline.arrRef spec2 w)) = (dat2 (V5 dat0 dat1 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 dat0 dat1 dat2 m ρ c (Proc.devRef .tc b) = W5 dat0 dat1 m ρ c (Proc.devRef .tc b) := by
  unfold W6; exact Pipeline.withArrays_of_ne spec2 c _ _ b hb
abbrev V6 : VT F := fun c b => W6 dat0 dat1 dat2 m ρ c b
theorem hF2 (c : Dev nD) (w : Fin cfg2.W) : (dat2 (V5 dat0 dat1 m ρ) c).arrAt w cfg2.N = V6 dat0 dat1 dat2 m ρ c (Pipeline.arrRef spec2 w) :=
  (W6_arr dat0 dat1 dat2 m ρ c w).symm
theorem hrest2 (c : Dev nD) : ∀ b, b ∉ Finset.univ.image (Pipeline.arrRef spec2) → V6 dat0 dat1 dat2 m ρ c b = V5 dat0 dat1 m ρ c b :=
  fun b hb => W6_of_ne dat0 dat1 dat2 m ρ c b fun w e => hb (Finset.mem_image.mpr ⟨w, Finset.mem_univ _, e⟩)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 dat0 m ρ) c
  | ⟨2, _⟩ => fun c => dat2 (V5 dat0 dat1 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 :=
  iprop(StableHlo.held (c : Thread nD τ) (Pipeline.ucRefs τ sig) (W6 dat0 dat1 dat2 m ρ c) ∗ ∃ r, prngReg c r)

variable (H0 : Half cfg0 dat0) (H1 : Half cfg1 dat1) (H2 : Half cfg2 dat2)

/-! ## The launches as regions -/

set_option backward.isDefEq.respectTransparency.types false in
/-- Launch 0 as a region: its arrays split out of the unscoped buffers at entry and put back at the exit contents; the
    generator register into the class invariant and out; nothing owed; no semaphore of the kernel's own. -/
def reg0 : Pipeline.RegionSeg (pcfgs (F := F)) adm (pdats dat0 dat1 dat2 m ρ) () defs₀ 𝒱₀ L lv 0 where
  win := launch0.win.to₀
  block_pos := launch0.block_pos
  stage_whole := launch0.stage_whole
  K := PEmpty
  osem k := k.elim
  ho := Pipeline.OwnSemFacts.none _
  hbody c := (H0.body (V1 m ρ) c).loose
  hwaits := Pipeline.hwaits_of_owed_zero _ _ _ _ L lv 0 fun c t => H0.owed (V1 m ρ) c t
  pre c := iprop(StableHlo.held (c : Thread nD τ) (Pipeline.ucRefs τ sig) (W1 m ρ c) ∗ R c)
  post c := iprop(StableHlo.held (c : Thread nD τ) (Pipeline.ucRefs τ sig) (W2 dat0 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats dat0 dat1 dat2 m ρ) launch0.win launch0.arr_whole c
      ((pdats dat0 dat1 dat2 m ρ 0 c).share_full fun w => H0.q (V1 m ρ) c w) (V1 m ρ c) fun w => H0.A_eq (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl (by rw [show (pdats dat0 dat1 dat2 m ρ 0 c).recorded 0 = Set.univ from H0.recorded (V1 m ρ) c 0]; exact Set.mem_univ _)
      rw [show (pdats dat0 dat1 dat2 m ρ 0 c).owed 0 = 0 from H0.owed (V1 m ρ) c 0]
      iexact HO
    isplitl [Hp]; · iexact Hp
    iexact Hrest
  hin c := by
    rw [show (pdats dat0 dat1 dat2 m ρ 0 c).Φ 0 = Pipeline.ΦA spec0 c from H0.Φ0 (V1 m ρ) c]; unfold Pipeline.ΦA
    iintro ⟨Hp, -, Hr⟩
    isplitl [Hr]; · iexact Hr
    iexact Hp
  hout c := by
    rw [Pipeline.ownSems0_none]
    have hΦ : (pdats dat0 dat1 dat2 m ρ 0 c).Φ (Fin.last _) ⊢ (Pipeline.ΦA spec0 c : sProp 𝕄) := H0.Φn (V1 m ρ) c
    unfold Pipeline.ΦA at hΦ
    iintro HΦ
    ihave H := hΦ $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats dat0 dat1 dat2 m ρ) ((pdats dat0 dat1 dat2 m ρ 0 c).share_full fun w => H0.q (V1 m ρ) c w)
      (V1 m ρ c) (V2 dat0 m ρ c) ((pdats dat0 dat1 dat2 m ρ 0 c).arrAt · cfg0.N) (hF0 dat0 m ρ c) (hrest0 dat0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats dat0 dat1 dat2 m ρ 0 c).owed (Fin.last _) = 0 from H0.owed (V1 m ρ) c _]
    icases HO with ⟨%W, -, HO⟩; iexists W; iexact HO

set_option backward.isDefEq.respectTransparency.types false in
/-- Launch 1 as a region: its arrays split out of the unscoped buffers at entry and put back at the exit contents; the
    generator register into the class invariant and out; nothing owed; no semaphore of the kernel's own. -/
def reg1 : Pipeline.RegionSeg (pcfgs (F := F)) adm (pdats dat0 dat1 dat2 m ρ) () defs₀ 𝒱₀ L lv 1 where
  win := launch1.win.to₀
  block_pos := launch1.block_pos
  stage_whole := launch1.stage_whole
  K := PEmpty
  osem k := k.elim
  ho := Pipeline.OwnSemFacts.none _
  hbody c := (H1.body (V3 dat0 m ρ) c).loose
  hwaits := Pipeline.hwaits_of_owed_zero _ _ _ _ L lv 1 fun c t => H1.owed (V3 dat0 m ρ) c t
  pre c := iprop(StableHlo.held (c : Thread nD τ) (Pipeline.ucRefs τ sig) (W3 dat0 m ρ c) ∗ R c)
  post c := iprop(StableHlo.held (c : Thread nD τ) (Pipeline.ucRefs τ sig) (W4 dat0 dat1 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 dat0 m ρ c)
  hentry c := by
    rw [Pipeline.ownSems0_none]
    have hsplit := Pipeline.arrays_of_unscopedBufs (p := 1) (pcfgs (F := F)) adm (pdats dat0 dat1 dat2 m ρ) launch1.win launch1.arr_whole c
      ((pdats dat0 dat1 dat2 m ρ 1 c).share_full fun w => H1.q (V3 dat0 m ρ) c w) (V3 dat0 m ρ c) fun w => H1.A_eq (V3 dat0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl (by rw [show (pdats dat0 dat1 dat2 m ρ 1 c).recorded 0 = Set.univ from H1.recorded (V3 dat0 m ρ) c 0]; exact Set.mem_univ _)
      rw [show (pdats dat0 dat1 dat2 m ρ 1 c).owed 0 = 0 from H1.owed (V3 dat0 m ρ) c 0]
      iexact HO
    isplitl [Hp]; · iexact Hp
    iexact Hrest
  hin c := by
    rw [show (pdats dat0 dat1 dat2 m ρ 1 c).Φ 0 = Pipeline.ΦA spec1 c from H1.Φ0 (V3 dat0 m ρ) c]; unfold Pipeline.ΦA
    iintro ⟨Hp, -, Hr⟩
    isplitl [Hr]; · iexact Hr
    iexact Hp
  hout c := by
    rw [Pipeline.ownSems0_none]
    have hΦ : (pdats dat0 dat1 dat2 m ρ 1 c).Φ (Fin.last _) ⊢ (Pipeline.ΦA spec1 c : sProp 𝕄) := H1.Φn (V3 dat0 m ρ) c
    unfold Pipeline.ΦA at hΦ
    iintro HΦ
    ihave H := hΦ $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats dat0 dat1 dat2 m ρ) ((pdats dat0 dat1 dat2 m ρ 1 c).share_full fun w => H1.q (V3 dat0 m ρ) c w)
      (V3 dat0 m ρ c) (V4 dat0 dat1 m ρ c) ((pdats dat0 dat1 dat2 m ρ 1 c).arrAt · cfg1.N) (hF1 dat0 dat1 m ρ c) (hrest1 dat0 dat1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats dat0 dat1 dat2 m ρ 1 c).owed (Fin.last _) = 0 from H1.owed (V3 dat0 m ρ) c _]
    icases HO with ⟨%W, -, HO⟩; iexists W; iexact HO

set_option backward.isDefEq.respectTransparency.types false in
/-- Launch 2 as a region: its arrays split out of the unscoped buffers at entry and put back at the exit contents; the
    generator register into the class invariant and out; nothing owed; no semaphore of the kernel's own. -/
def reg2 : Pipeline.RegionSeg (pcfgs (F := F)) adm (pdats dat0 dat1 dat2 m ρ) () defs₀ 𝒱₀ L lv 2 where
  win := launch2.win.to₀
  block_pos := launch2.block_pos
  stage_whole := launch2.stage_whole
  K := PEmpty
  osem k := k.elim
  ho := Pipeline.OwnSemFacts.none _
  hbody c := (H2.body (V5 dat0 dat1 m ρ) c).loose
  hwaits := Pipeline.hwaits_of_owed_zero _ _ _ _ L lv 2 fun c t => H2.owed (V5 dat0 dat1 m ρ) c t
  pre c := iprop(StableHlo.held (c : Thread nD τ) (Pipeline.ucRefs τ sig) (W5 dat0 dat1 m ρ c) ∗ R c)
  post c := iprop(Tₙ dat0 dat1 dat2 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 dat0 dat1 m ρ c)
  hentry c := by
    rw [Pipeline.ownSems0_none]
    have hsplit := Pipeline.arrays_of_unscopedBufs (p := 2) (pcfgs (F := F)) adm (pdats dat0 dat1 dat2 m ρ) launch2.win launch2.arr_whole c
      ((pdats dat0 dat1 dat2 m ρ 2 c).share_full fun w => H2.q (V5 dat0 dat1 m ρ) c w) (V5 dat0 dat1 m ρ c) fun w => H2.A_eq (V5 dat0 dat1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl (by rw [show (pdats dat0 dat1 dat2 m ρ 2 c).recorded 0 = Set.univ from H2.recorded (V5 dat0 dat1 m ρ) c 0]; exact Set.mem_univ _)
      rw [show (pdats dat0 dat1 dat2 m ρ 2 c).owed 0 = 0 from H2.owed (V5 dat0 dat1 m ρ) c 0]
      iexact HO
    isplitl [Hp]; · iexact Hp
    iexact Hrest
  hin c := by
    rw [show (pdats dat0 dat1 dat2 m ρ 2 c).Φ 0 = Pipeline.ΦA spec2 c from H2.Φ0 (V5 dat0 dat1 m ρ) c]; unfold Pipeline.ΦA
    iintro ⟨Hp, -, Hr⟩
    isplitl [Hr]; · iexact Hr
    iexact Hp
  hout c := by
    rw [Pipeline.ownSems0_none]
    have hΦ : (pdats dat0 dat1 dat2 m ρ 2 c).Φ (Fin.last _) ⊢ (Pipeline.ΦA spec2 c : sProp 𝕄) := H2.Φn (V5 dat0 dat1 m ρ) c
    unfold Pipeline.ΦA at hΦ
    iintro HΦ
    ihave H := hΦ $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats dat0 dat1 dat2 m ρ) ((pdats dat0 dat1 dat2 m ρ 2 c).share_full fun w => H2.q (V5 dat0 dat1 m ρ) c w)
      (V5 dat0 dat1 m ρ c) (V6 dat0 dat1 dat2 m ρ c) ((pdats dat0 dat1 dat2 m ρ 2 c).arrAt · cfg2.N) (hF2 dat0 dat1 dat2 m ρ c) (hrest2 dat0 dat1 dat2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats dat0 dat1 dat2 m ρ 2 c).owed (Fin.last _) = 0 from H2.owed (V5 dat0 dat1 m ρ) c _]
    icases HO with ⟨%W, -, HO⟩; iexists W; iexact HO

/-! ## The host program as segments, and the launch -/

abbrev segs : List (Pipeline.Seg (pcfgs (F := F)) adm (pdats dat0 dat1 dat2 m ρ) () defs₀ 𝒱₀ L lv) :=
  [ .host (hseg hostOps0 hostOps0_sub hostOps0_fresh' (W0 m ρ)),
    .region (reg0 dat0 dat1 dat2 m ρ H0),
    .host (hseg hostOps1 hostOps1_sub hostOps1_fresh' (W2 dat0 m ρ)),
    .region (reg1 dat0 dat1 dat2 m ρ H1),
    .host (hseg hostOps2 hostOps2_sub hostOps2_fresh' (W4 dat0 dat1 m ρ)),
    .region (reg2 dat0 dat1 dat2 m ρ H2) ]

theorem main_run (c : Dev nD) : main (F := F) c = Pipeline.Seg.run (segs dat0 dat1 dat2 m ρ H0 H1 H2) :=
  (main_chain c).trans (by chain_rfl)

include H0 H1 H2 in
set_option backward.isDefEq.respectTransparency.types false in
/-- THE RUN: from any memory with zero counters every weakly fair execution of the host program on the TensorCores
    terminates, nothing faulting, and the final memory holds every unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 dat0 dat1 dat2 m ρ c b) :=
  Pipeline.θ_run_regions_kit (pcfgs (F := F)) adm (pdats dat0 dat1 dat2 m ρ) () cellOf_inj emb₁ defs₀ 𝒱₀ L lv m ρ main (segs dat0 dat1 dat2 m ρ H0 H1 H2)
    (fun c Q => by rw [main_run dat0 dat1 dat2 m ρ H0 H1 H2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ dat0 dat1 dat2 m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 dat0 dat1 dat2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 dat0 dat1 dat2 m ρ c) s')
      isplitl [Hh] <;> iassumption)
    (hQ := fun s h c => h c)

end Cert.Kernel.Hand

end
-- ==== Proof.KW_Post.lean ====
/-
  The frame from the run.  An argument array is written by no host operation and is no launch's output array: a launch
  either does not stage it (its buffer bypasses the launch) or stages it through an input window, whose array ends as it
  was entered.  So the fold's last contents at an argument walk back to the launch memory, and the run's post, read at
  the nine arguments, is the frame claim's.
-/
import proofs.«107194_j39247411150862_2_alg».proof.Proof.KW_Run
import proofs.«107194_j39247411150862_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (dat0 : VT F → (c : Dev nD) → Dat τ (Elt F) Unit ℕ (UR sig nD τ) ℕ cfg0 c)
variable (dat1 : VT F → (c : Dev nD) → Dat τ (Elt F) Unit ℕ (UR sig nD τ) ℕ cfg1 c)
variable (dat2 : VT F → (c : Dev nD) → Dat τ (Elt F) Unit ℕ (UR sig nD τ) ℕ cfg2 c)
variable (m : (ℓ : Loc nD τ sig) → Buf (Elt F) ℓ) (ρ : Dev nD → PrngReg)
variable (H0 : Half cfg0 dat0) (H1 : Half cfg1 dat1) (H2 : Half cfg2 dat2)

/-! ## A buffer that is no output array of a launch crosses it unchanged -/

include H0 in
theorem W2_keep (c : Dev nD) (r : Ref sig .tc) (h : ∀ w, Pipeline.arrRef spec0 w = r → (cfg0.win w).isOut = false) :
    W2 dat0 m ρ c (Proc.devRef .tc r) = W1 m ρ c (Proc.devRef .tc r) := by
  by_cases hw : ∃ w, Pipeline.arrRef spec0 w = r
  · obtain ⟨w, rfl⟩ := hw
    exact (W2_arr dat0 m ρ c w).trans (((dat0 (V1 m ρ) c).arrAt_in w (h w rfl) _).trans (H0.A_eq (V1 m ρ) c w))
  · exact W2_of_ne dat0 m ρ c r fun w e => hw ⟨w, e⟩

include H1 in
theorem W4_keep (c : Dev nD) (r : Ref sig .tc) (h : ∀ w, Pipeline.arrRef spec1 w = r → (cfg1.win w).isOut = false) :
    W4 dat0 dat1 m ρ c (Proc.devRef .tc r) = W3 dat0 m ρ c (Proc.devRef .tc r) := by
  by_cases hw : ∃ w, Pipeline.arrRef spec1 w = r
  · obtain ⟨w, rfl⟩ := hw
    exact (W4_arr dat0 dat1 m ρ c w).trans (((dat1 (V3 dat0 m ρ) c).arrAt_in w (h w rfl) _).trans (H1.A_eq (V3 dat0 m ρ) c w))
  · exact W4_of_ne dat0 dat1 m ρ c r fun w e => hw ⟨w, e⟩

include H2 in
theorem W6_keep (c : Dev nD) (r : Ref sig .tc) (h : ∀ w, Pipeline.arrRef spec2 w = r → (cfg2.win w).isOut = false) :
    W6 dat0 dat1 dat2 m ρ c (Proc.devRef .tc r) = W5 dat0 dat1 m ρ c (Proc.devRef .tc r) := by
  by_cases hw : ∃ w, Pipeline.arrRef spec2 w = r
  · obtain ⟨w, rfl⟩ := hw
    exact (W6_arr dat0 dat1 dat2 m ρ c w).trans (((dat2 (V5 dat0 dat1 m ρ) c).arrAt_in w (h w rfl) _).trans (H2.A_eq (V5 dat0 dat1 m ρ) c w))
  · exact W6_of_ne dat0 dat1 dat2 m ρ c r fun w e => hw ⟨w, e⟩

/-! ## The host stretches write only their results -/

theorem W1_keep (c : Dev nD) (r : Ref sig .tc) (h : r ∉ hostOps0_W) : W1 m ρ c (Proc.devRef .tc r) = W0 m ρ c (Proc.devRef .tc r) :=
  StableHlo.after_of_writes_sub hostOps0 _ hostOps0_writes h
theorem W3_keep (c : Dev nD) (r : Ref sig .tc) (h : r ∉ hostOps1_W) : W3 dat0 m ρ c (Proc.devRef .tc r) = W2 dat0 m ρ c (Proc.devRef .tc r) :=
  StableHlo.after_of_writes_sub hostOps1 _ hostOps1_writes h
theorem W5_keep (c : Dev nD) (r : Ref sig .tc) (h : r ∉ hostOps2_W) : W5 dat0 dat1 m ρ c (Proc.devRef .tc r) = W4 dat0 dat1 m ρ c (Proc.devRef .tc r) :=
  StableHlo.after_of_writes_sub hostOps2 _ hostOps2_writes h

include H0 H1 H2 in
/-- A buffer no host operation writes and no launch has as an output array ends as launched. -/
theorem W6_untouched (c : Dev nD) (r : Ref sig .tc) (h0 : r ∉ hostOps0_W) (h1 : r ∉ hostOps1_W) (h2 : r ∉ hostOps2_W)
    (k0 : ∀ w, Pipeline.arrRef spec0 w = r → (cfg0.win w).isOut = false)
    (k1 : ∀ w, Pipeline.arrRef spec1 w = r → (cfg1.win w).isOut = false)
    (k2 : ∀ w, Pipeline.arrRef spec2 w = r → (cfg2.win w).isOut = false) :
    W6 dat0 dat1 dat2 m ρ c (Proc.devRef .tc r) = m ((c : Thread nD τ).loc r) :=
  (W6_keep dat0 dat1 dat2 m ρ H2 c r k2).trans <| (W5_keep dat0 dat1 m ρ c r h2).trans <| (W4_keep dat0 dat1 m ρ H1 c r k1).trans <|
    (W3_keep dat0 m ρ c r h1).trans <| (W2_keep dat0 m ρ H0 c r k0).trans <| (W1_keep m ρ c r h0).trans rfl

include H0 H1 H2 in
/-- THE FRAME at any float instance: every weakly fair execution terminates, nothing faulting, and the nine argument
    arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
      (h c _ (mem_uc main_arg0 (by decide))).trans (W6_untouched dat0 dat1 dat2 m ρ H0 H1 H2 c main_arg0 (by decide) (by decide) (by decide) (by decide) (by decide) (by decide)),
      (h c _ (mem_uc main_arg1 (by decide))).trans (W6_untouched dat0 dat1 dat2 m ρ H0 H1 H2 c main_arg1 (by decide) (by decide) (by decide) (by decide) (by decide) (by decide)),
      (h c _ (mem_uc main_arg2 (by decide))).trans (W6_untouched dat0 dat1 dat2 m ρ H0 H1 H2 c main_arg2 (by decide) (by decide) (by decide) (by decide) (by decide) (by decide)),
      (h c _ (mem_uc main_arg3 (by decide))).trans (W6_untouched dat0 dat1 dat2 m ρ H0 H1 H2 c main_arg3 (by decide) (by decide) (by decide) (by decide) (by decide) (by decide)),
      (h c _ (mem_uc main_arg4 (by decide))).trans (W6_untouched dat0 dat1 dat2 m ρ H0 H1 H2 c main_arg4 (by decide) (by decide) (by decide) (by decide) (by decide) (by decide)),
      (h c _ (mem_uc main_arg5 (by decide))).trans (W6_untouched dat0 dat1 dat2 m ρ H0 H1 H2 c main_arg5 (by decide) (by decide) (by decide) (by decide) (by decide) (by decide)),
      (h c _ (mem_uc main_arg6 (by decide))).trans (W6_untouched dat0 dat1 dat2 m ρ H0 H1 H2 c main_arg6 (by decide) (by decide) (by decide) (by decide) (by decide) (by decide)),
      (h c _ (mem_uc main_arg7 (by decide))).trans (W6_untouched dat0 dat1 dat2 m ρ H0 H1 H2 c main_arg7 (by decide) (by decide) (by decide) (by decide) (by decide) (by decide)),
      (h c _ (mem_uc main_arg8 (by decide))).trans (W6_untouched dat0 dat1 dat2 m ρ H0 H1 H2 c main_arg8 (by decide) (by decide) (by decide) (by decide) (by decide) (by decide))⟩)
    (run_all dat0 dat1 dat2 m ρ H0 H1 H2)

end Cert.Kernel.Hand

end
-- ==== Proof.KW_R0.lean ====
import proofs.«107194_j39247411150862_2_alg».proof.Proof.Gen.Kernel.Launch
import proofs.«107194_j39247411150862_2_alg».proof.Proof.Gen.Kernel.Skeleton
import proofs.«107194_j39247411150862_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The projection region (first TensorCore call, a single grid point, 10 whole-array windows), at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof
    data whose array is the entry contents and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof
    data whose array is the entry contents and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The rectangles the body reads and writes: each is a whole buffer (activations 256×1024, a weight 1024×1024, a bias 1×1024). -/
abbrev r0_0 : Rect S256x1024 := Rect.unit (s := S256x1024) ![0, 0] S256x1024.size inb_S256x1024_S256x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0

/-- Window 7's buffer after the body: x·W + b for the first weight and bias (windows 1, 2), stored whole. -/
def out0_7 (x0 : Vec F S256x1024 .f32) (x1 : Vec F S1024x1024 .f32) (x2 : Vec F S1x1024 .f32) : Vec F S256x1024 .f32 :=
  View.canon [⟨r0_0, k0_pay2 (View.ld x0 r0_0) (View.ld x1 r0_1) (View.ld x2 r0_2)⟩]

/-- Window 8's buffer after the body: x·W + b for the second weight and bias (windows 3, 4), stored whole. -/
def out0_8 (x0 : Vec F S256x1024 .f32) (x3 : Vec F S1024x1024 .f32) (x4 : Vec F S1x1024 .f32) : Vec F S256x1024 .f32 :=
  View.canon [⟨r0_0, k0_pay3 (View.ld x0 r0_0) (View.ld x3 r0_1) (View.ld x4 r0_2)⟩]

/-- Window 9's buffer after the body: x·W + b for the third weight and bias (windows 5, 6), stored whole. -/
def out0_9 (x0 : Vec F S256x1024 .f32) (x5 : Vec F S1024x1024 .f32) (x6 : Vec F S1x1024 .f32) : Vec F S256x1024 .f32 :=
  View.canon [⟨r0_0, k0_pay4 (View.ld x0 r0_0) (View.ld x5 r0_1) (View.ld x6 r0_2)⟩]

/-- A single whole-buffer store covers the buffer. -/
theorem cover0 (p0 : Vec F S256x1024 .f32) (y : S256x1024.Idx) :
    ∃ pc ∈ ([⟨r0_0, p0⟩] : List (View.Piece (Elt F) S256x1024 .f32)), y ∈ pc.1.set :=
  View.cover_of_tiled [⟨r0_0, p0⟩] S256x1024.size (by rfl) y

set_option maxHeartbeats 4000000 in
/-- The body on whole staging memrefs, the inputs' at contents `x0 … x6` and the outputs' at anything, leaves the inputs
    as they were and each output at its `out0_W`. -/
theorem sound_kernel0 (c : Dev nD) (E : Set ℕ) (i : grid0.Coords) (arg1 : Memref sig .tc .vmem S256x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole)
    (x0 : Vec F S256x1024 .f32) (x1 : Vec F S1024x1024 .f32) (x2 : Vec F S1x1024 .f32) (x3 : Vec F S1024x1024 .f32) (x4 : Vec F S1x1024 .f32) (x5 : Vec F S1024x1024 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2) ∗ owns (c : Thread nD τ) arg9 fullShare (out0_8 x0 x3 x4) ∗ owns (c : Thread nD τ) arg10 fullShare (out0_9 x0 x5 x6)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

/-- The proof data of the projection pipeline on core `c`: the arrays as the region finds them; after the body each
    input's buffer at its block and each output's at `out0_W` of the input blocks; the class's invariant; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks, so `sound_kernel0` applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KW_R2.lean ====
import proofs.«107194_j39247411150862_2_alg».proof.Proof.Gen.Kernel.Launch
import proofs.«107194_j39247411150862_2_alg».proof.Proof.Gen.Kernel.Skeleton
import proofs.«107194_j39247411150862_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The tail region (third TensorCore call, grid of 32 points, 4 windows), at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body reads and writes: the whole 1×8×1024 buffer. -/
abbrev r2_0 : Rect S1x8x1024 := Rect.unit (s := S1x8x1024) ![0, 0, 0] S1x8x1024.size inb_S1x8x1024_S1x8x1024_0_0_0

/-- Window 2's buffer after the body: the new key rows (window 0's block), stored whole. -/
def out2_2 (x0 : Vec F S1x8x1024 .f32) : Vec F S1x8x1024 .f32 :=
  View.canon [⟨r2_0, k2_pay1 (View.ld x0 r2_0)⟩]

/-- Window 3's buffer after the body: the new value rows (window 1's block), stored whole. -/
def out2_3 (x1 : Vec F S1x8x1024 .f32) : Vec F S1x8x1024 .f32 :=
  View.canon [⟨r2_0, k2_pay2 (View.ld x1 r2_0)⟩]

/-- A single whole-buffer store covers the buffer. -/
theorem cover2 (p0 : Vec F S1x8x1024 .f32) (y : S1x8x1024.Idx) :
    ∃ pc ∈ ([⟨r2_0, p0⟩] : List (View.Piece (Elt F) S1x8x1024 .f32)), y ∈ pc.1.set :=
  View.cover_of_tiled [⟨r2_0, p0⟩] S1x8x1024.size (by rfl) y

set_option maxHeartbeats 1000000 in
/-- The body on whole staging memrefs, the inputs' at contents `x0`, `x1` and the outputs' at anything, leaves the inputs
    as they were and each output at its `out2_W`; the two cache arrays it is also handed are never accessed. -/
theorem sound_kernel2 (c : Dev nD) (E : Set ℕ) (i : grid2.Coords) (arg1 : Memref sig .tc .hbm S32x4104x1024 .f32) (harg1 : arg1.IsWhole) (arg2 : Memref sig .tc .hbm S32x4104x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x8x1024 .f32) (harg5 : arg5.IsWhole) (arg6 : Memref sig .tc .vmem S1x8x1024 .f32) (harg6 : arg6.IsWhole)
    (x0 : Vec F S1x8x1024 .f32) (x1 : Vec F S1x8x1024 .f32) (K : PUnit → sProp 𝕄) :
    iprop(owns (c : Thread nD τ) arg3 fullShare x0 ∗ owns (c : Thread nD τ) arg4 fullShare x1 ∗ (∃ d, owns (c : Thread nD τ) arg5 fullShare d) ∗ (∃ d, owns (c : Thread nD τ) arg6 fullShare d)
        ∗ (iprop(owns (c : Thread nD τ) arg3 fullShare x0 ∗ owns (c : Thread nD τ) arg4 fullShare x1 ∗ owns (c : Thread nD τ) arg5 fullShare (out2_2 x0) ∗ owns (c : Thread nD τ) arg6 fullShare (out2_3 x1)) -∗ K ⟨⟩))
      ⊢ wp frame (wpE (defs₀ (F := F)) Variants.none c none) E (cc2__tail_kernel i arg1 harg1 arg2 harg2 arg3 harg3 arg4 harg4 arg5 harg5 arg6 harg6) K := by
  simp only [cc2__tail_kernel_eq_skeleton]; unfold cc2__tail_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2 _)
  iexists _; isplitr
  swap; · iexact H3
  ipureintro
  exact View.read_writes_eq_canon _ _ _ (cover2 _)

/-- The proof data of the tail pipeline on core `c`: the arrays as the region finds them; after the body each input's
    buffer at its block and each output's at `out2_W` of the input blocks; the class's invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t)
    | ⟨3, _⟩ => out2_3 (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) := by dsimp only [dat2]
theorem after2_3 (c : Dev nD) (t : Fin cfg2.N) : (dat2 V c).after 3 t = out2_3 (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so `sound_kernel2` applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ _ _ _ _ (iblk2 V c 0 t) (iblk2 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KW_Halves.lean ====
/-
  The three launches' proof data meet what the run asks.
-/
import proofs.«107194_j39247411150862_2_alg».proof.Proof.KW_Post
import proofs.«107194_j39247411150862_2_alg».proof.Proof.KW_R0
import proofs.«107194_j39247411150862_2_alg».proof.Proof.KW_R2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem half0 : Half cfg0 (dat0 (F := F)) where
  A_eq := A_eq0
  body := body_obligation0
  q := fun _ _ _ => rfl
  owed := fun _ _ _ => rfl
  recorded := fun _ _ _ => rfl
  Φ0 := fun _ _ => rfl
  Φn := fun _ _ => .rfl

theorem half2 : Half cfg2 (dat2 (F := F)) where
  A_eq := A_eq2
  body := body_obligation2
  q := fun _ _ _ => rfl
  owed := fun _ _ _ => rfl
  recorded := fun _ _ _ => rfl
  Φ0 := fun _ _ => rfl
  Φn := fun _ _ => .rfl

end Cert.Kernel.Hand

end
-- ==== Proof.KW_R1Runs.lean ====
import proofs.«107194_j39247411150862_2_alg».proof.Proof.Gen.Kernel.Launch
import proofs.«107194_j39247411150862_2_alg».proof.Proof.Gen.Kernel.Skeleton
import proofs.«107194_j39247411150862_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## The windows' blocks, read off the arrays as the region finds them -/

/-- Window `w`'s block at point `t`, read off its array at the region-entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is
    not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is
    not fetched the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is
    not fetched the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is
    not fetched the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is
    not fetched the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, in closed form over the grid -/

/-- The first conditional: the cache-tile coordinate is 0 (the scratch is reset there). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional: the cache-tile coordinate is 3 (the last tile of a batch: the new rows are folded in and
    the result is stored). -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
/-- Where the second conditional fails the result window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- Where it holds the result window is live. -/
theorem liveAt1_5 : ∀ t : Fin cfg1.N, cond1_1 (grid1.coords t) → cfg1.idle 5 (grid1.coords t) = false := by decide +kernel

/-! ## Views and memrefs the runs are stated over -/

abbrev VO1_5 : View sig .tc .vmem S1x8x1024 .f32 := (Memref.whole cc1_stg5_0 : Memref sig .tc .vmem S1x8x1024 .f32).view
abbrev VO1_6 : View sig .tc .vmem S1x1024x1024 .f32 := (Memref.whole cc1_stg6_0 : Memref sig .tc .vmem S1x1024x1024 .f32).view
abbrev VO1_7 : View sig .tc .vmem S1x1024x1024 .f32 := (Memref.whole cc1_stg7_0 : Memref sig .tc .vmem S1x1024x1024 .f32).view
abbrev ms1_0 (t : Fin cfg1.N) : Memref sig .tc .vmem S1x8x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x8x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x8x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x8x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1024x1024 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1024x1024 .f32 := win1_7.stage (cfg1.slots t 7)
abbrev hs1_7 (t : Fin cfg1.N) : (ms1_7 t).IsWhole := hstage1_7 ((cfg1.slots t 7).cast nbuf1_7)
/-- The three scratch operands (running maximum, running sum, accumulator): whole scoped buffers. -/
abbrev scM1_0 : Memref sig .tc .vmem S1x8x1 .f32 := Memref.whole cc1_scratch0
abbrev scM1_1 : Memref sig .tc .vmem S1x8x1 .f32 := Memref.whole cc1_scratch1
abbrev scM1_2 : Memref sig .tc .vmem S1x8x1024 .f32 := Memref.whole cc1_scratch2
abbrev VS1_0 : View sig .tc .vmem S1x8x1 .f32 := scM1_0.view
abbrev VS1_1 : View sig .tc .vmem S1x8x1 .f32 := scM1_1.view
abbrev VS1_2 : View sig .tc .vmem S1x8x1024 .f32 := scM1_2.view

end Cert.Kernel.Hand

end
-- ==== Proof.KW_R1RunB.lean ====
import proofs.«107194_j39247411150862_2_alg».proof.Proof.KW_R1Runs
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- The body on whole memrefs in case B: from the inputs at their contents, the result window at any contents, handed back untouched, the two
    copy windows at anything, the three scratch buffers at what the point before left, it runs to the continuation
    holding the inputs as they were and every buffer it stored into with its pieces written; the pieces are found by
    the run. -/
noncomputable def kernelRun1_B (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) :
    Σ' (L6 : List (View.Piece (Elt F) S1x1024x1024 .f32)), Σ' (L7 : List (View.Piece (Elt F) S1x1024x1024 .f32)), Σ' (LS0 : List (View.Piece (Elt F) S1x8x1 .f32)), Σ' (LS1 : List (View.Piece (Elt F) S1x8x1 .f32)), { LS2 : List (View.Piece (Elt F) S1x8x1024 .f32) //
      ∀ (xi5 : Vec F S1x8x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun xi5 E K => ?run⟩
  case run =>
    simp only [cc1__attn_kernel_eq_skeleton]; unfold cc1__attn_kernel_skel
    simp only [k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    iexists _; iexact H10

end Cert.Kernel.Hand

end
-- ==== Proof.KW_R1RunA.lean ====
import proofs.«107194_j39247411150862_2_alg».proof.Proof.KW_R1RunB
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- The body on whole memrefs in case A: from the inputs at their contents, the result window at any contents, handed back untouched, the two
    copy windows at anything, the three scratch buffers at anything, it runs to the continuation
    holding the inputs as they were and every buffer it stored into with its pieces written; the pieces are found by
    the run. -/
noncomputable def kernelRun1_A (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) :
    Σ' (L6 : List (View.Piece (Elt F) S1x1024x1024 .f32)), Σ' (L7 : List (View.Piece (Elt F) S1x1024x1024 .f32)), Σ' (LS0 : List (View.Piece (Elt F) S1x8x1 .f32)), Σ' (LS1 : List (View.Piece (Elt F) S1x8x1 .f32)), { LS2 : List (View.Piece (Elt F) S1x8x1024 .f32) //
      ∀ (xi5 : Vec F S1x8x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun xi5 E K => ?run⟩
  case run =>
    simp only [cc1__attn_kernel_eq_skeleton]; unfold cc1__attn_kernel_skel
    simp only [k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [H9]; · iexists _; iexact H9
    iexists _; iexact H10

end Cert.Kernel.Hand

end
-- ==== Proof.KW_R1RunC.lean ====
import proofs.«107194_j39247411150862_2_alg».proof.Proof.KW_R1RunA
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

set_option maxHeartbeats 4000000 in
/-- The body on whole memrefs in case C: from the inputs at their contents, the result window at anything, the two
    copy windows at anything, the three scratch buffers at what the point before left, it runs to the continuation
    holding the inputs as they were and every buffer it stored into with its pieces written; the pieces are found by
    the run. -/
noncomputable def kernelRun1_C (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) :
    Σ' (L5 : List (View.Piece (Elt F) S1x8x1024 .f32)), Σ' (L6 : List (View.Piece (Elt F) S1x1024x1024 .f32)), Σ' (L7 : List (View.Piece (Elt F) S1x1024x1024 .f32)), Σ' (LS0 : List (View.Piece (Elt F) S1x8x1 .f32)), Σ' (LS1 : List (View.Piece (Elt F) S1x8x1 .f32)), { LS2 : List (View.Piece (Elt F) S1x8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc1__attn_kernel_eq_skeleton]; unfold cc1__attn_kernel_skel
    simp only [k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, ⟨%f9, %hf9, H9⟩, ⟨%f10, %hf10, H10⟩, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hf8; obtain rfl := harg11.eq_unread hf9; obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    iexists _; iexact H10

end Cert.Kernel.Hand

end
-- ==== Proof.KW_R1.lean ====
import proofs.«107194_j39247411150862_2_alg».proof.Proof.KW_R1RunC
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! ## What each case leaves in the buffers it stores into: the run's pieces, read back -/

/-- Where the result window is idle nothing is stored into it: a placeholder that nothing consults (the window is
    neither written back there nor read at the next point). -/
def out1_idle_5 : Vec F S1x8x1024 .f32 := VO1_5.read (Elt F) (VO1_5.writes (Elt F) VO1_5.junk [])

/-- Case A's pieces for output window 6 cover it (a store of the whole shape). -/
theorem cover1_A_6 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (y : S1x1024x1024.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4).1 S1x1024x1024.size (by sl_kernel_rfl) y

/-- What case A leaves there: its pieces read back. -/
def out1_A_6 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) : Vec F S1x1024x1024 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 arg11 harg11 arg12 harg12 hc0 hc1 x0 x1 x2 x3 x4).1)

/-- Case A's pieces for output window 7 cover it (a store of the whole shape). -/
theorem cover1_A_7 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (y : S1x1024x1024.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4).2.1 S1x1024x1024.size (by sl_kernel_rfl) y

/-- What case A leaves there: its pieces read back. -/
def out1_A_7 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) : Vec F S1x1024x1024 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 arg12 harg12 hc0 hc1 x0 x1 x2 x3 x4).2.1)

/-- Case A's pieces for scratch 0 cover it (a store of the whole shape). -/
theorem scover1_A_0 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (y : S1x8x1.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.1 S1x8x1.size (by sl_kernel_rfl) y

/-- What case A leaves there: its pieces read back. -/
def sout1_A_0 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) : Vec F S1x8x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.1)

/-- Case A's pieces for scratch 1 cover it (a store of the whole shape). -/
theorem scover1_A_1 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (y : S1x8x1.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.1 S1x8x1.size (by sl_kernel_rfl) y

/-- What case A leaves there: its pieces read back. -/
def sout1_A_1 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) : Vec F S1x8x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.1)

/-- Case A's pieces for scratch 2 cover it (a store of the whole shape). -/
theorem scover1_A_2 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (y : S1x8x1024.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.2.1 S1x8x1024.size (by sl_kernel_rfl) y

/-- What case A leaves there: its pieces read back. -/
def sout1_A_2 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) : Vec F S1x8x1024 .f32 :=
  VS1_2.read (Elt F) (VS1_2.writes (Elt F) VS1_2.junk (kernelRun1_A c i arg2 harg2 arg3 harg3 arg4 harg4 arg5 harg5 arg6 harg6 arg7 harg7 arg8 harg8 arg9 harg9 arg10 harg10 arg11 harg11 arg12 harg12 hc0 hc1 x0 x1 x2 x3 x4).2.2.2.2.1)

/-- Case B's pieces for output window 6 cover it (a store of the whole shape). -/
theorem cover1_B_6 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) (y : S1x1024x1024.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1 S1x1024x1024.size (by sl_kernel_rfl) y

/-- What case B leaves there: its pieces read back. -/
def out1_B_6 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) : Vec F S1x1024x1024 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1)

/-- Case B's pieces for output window 7 cover it (a store of the whole shape). -/
theorem cover1_B_7 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) (y : S1x1024x1024.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1 S1x1024x1024.size (by sl_kernel_rfl) y

/-- What case B leaves there: its pieces read back. -/
def out1_B_7 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) : Vec F S1x1024x1024 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1)

/-- Case B's pieces for scratch 0 cover it (a store of the whole shape). -/
theorem scover1_B_0 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) (y : S1x8x1.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1 S1x8x1.size (by sl_kernel_rfl) y

/-- What case B leaves there: its pieces read back. -/
def sout1_B_0 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) : Vec F S1x8x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1)

/-- Case B's pieces for scratch 1 cover it (a store of the whole shape). -/
theorem scover1_B_1 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) (y : S1x8x1.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1 S1x8x1.size (by sl_kernel_rfl) y

/-- What case B leaves there: its pieces read back. -/
def sout1_B_1 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) : Vec F S1x8x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1)

/-- Case B's pieces for scratch 2 cover it (a store of the whole shape). -/
theorem scover1_B_2 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) (y : S1x8x1024.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1 S1x8x1024.size (by sl_kernel_rfl) y

/-- What case B leaves there: its pieces read back. -/
def sout1_B_2 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) : Vec F S1x8x1024 .f32 :=
  VS1_2.read (Elt F) (VS1_2.writes (Elt F) VS1_2.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1)

/-- Case C's pieces for output window 5 cover it (a store of the whole shape). -/
theorem cover1_C_5 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) (y : S1x8x1024.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1 S1x8x1024.size (by sl_kernel_rfl) y

/-- What case C leaves there: its pieces read back. -/
def out1_C_5 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) : Vec F S1x8x1024 .f32 :=
  VO1_5.read (Elt F) (VO1_5.writes (Elt F) VO1_5.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).1)

/-- Case C's pieces for output window 6 cover it (a store of the whole shape). -/
theorem cover1_C_6 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) (y : S1x1024x1024.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1 S1x1024x1024.size (by sl_kernel_rfl) y

/-- What case C leaves there: its pieces read back. -/
def out1_C_6 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) : Vec F S1x1024x1024 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.1)

/-- Case C's pieces for output window 7 cover it (a store of the whole shape). -/
theorem cover1_C_7 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) (y : S1x1024x1024.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1 S1x1024x1024.size (by sl_kernel_rfl) y

/-- What case C leaves there: its pieces read back. -/
def out1_C_7 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) : Vec F S1x1024x1024 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.1)

/-- Case C's pieces for scratch 0 cover it (a store of the whole shape). -/
theorem scover1_C_0 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) (y : S1x8x1.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1 S1x8x1.size (by sl_kernel_rfl) y

/-- What case C leaves there: its pieces read back. -/
def sout1_C_0 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) : Vec F S1x8x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.1)

/-- Case C's pieces for scratch 1 cover it (a store of the whole shape). -/
theorem scover1_C_1 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) (y : S1x8x1.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1 S1x8x1.size (by sl_kernel_rfl) y

/-- What case C leaves there: its pieces read back. -/
def sout1_C_1 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) : Vec F S1x8x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.1)

/-- Case C's pieces for scratch 2 cover it (a store of the whole shape). -/
theorem scover1_C_2 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) (y : S1x8x1024.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.2.1 S1x8x1024.size (by sl_kernel_rfl) y

/-- What case C leaves there: its pieces read back. -/
def sout1_C_2 (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) : Vec F S1x8x1024 .f32 :=
  VS1_2.read (Elt F) (VS1_2.writes (Elt F) VS1_2.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 xs0 xs1 xs2).2.2.2.2.2.1)

/-! ## What the outputs and the scratch hold after each point -/

/-- The contents after a point: the result window, the two copy windows, then the three scratch buffers. -/
abbrev Tup1 (F : FTy → Type) [FloatOps F] : Type := Vec F S1x8x1024 .f32 × Vec F S1x1024x1024 .f32 × Vec F S1x1024x1024 .f32 × Vec F S1x8x1 .f32 × Vec F S1x8x1 .f32 × Vec F S1x8x1024 .f32

/-- Case A at point `t`. -/
def pt1_A (c : Dev nD) (t : Fin cfg1.N) (h0 : t.val % 4 = 0) (h1 : ¬t.val % 4 = 3) : Tup1 F :=
  (out1_idle_5, out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t))

/-- Case B at point `t`, over what the point before left (\`p\`: its scratch components are read). -/
def pt1_B (c : Dev nD) (t : Fin cfg1.N) (h0 : ¬t.val % 4 = 0) (h1 : ¬t.val % 4 = 3) (p : Tup1 F) : Tup1 F :=
  (out1_idle_5, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.2.2.1 p.2.2.2.2.1 p.2.2.2.2.2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.2.2.1 p.2.2.2.2.1 p.2.2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.2.2.1 p.2.2.2.2.1 p.2.2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.2.2.1 p.2.2.2.2.1 p.2.2.2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.2.2.1 p.2.2.2.2.1 p.2.2.2.2.2)

/-- Case C at point `t`, over what the point before left (\`p\`: its scratch components are read). -/
def pt1_C (c : Dev nD) (t : Fin cfg1.N) (h0 : ¬t.val % 4 = 0) (h1 : t.val % 4 = 3) (p : Tup1 F) : Tup1 F :=
  (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.2.2.1 p.2.2.2.2.1 p.2.2.2.2.2, out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.2.2.1 p.2.2.2.2.1 p.2.2.2.2.2, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.2.2.1 p.2.2.2.2.1 p.2.2.2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.2.2.1 p.2.2.2.2.1 p.2.2.2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.2.2.1 p.2.2.2.2.1 p.2.2.2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.2.2.1 p.2.2.2.2.1 p.2.2.2.2.2)

/-- THE ACCUMULATION: what the outputs' staging buffers and the carried scratch hold after the body at position `n`:
    the case the closed forms select there, the carried scratch at what position `n - 1` left. -/
def outsAt1 (c : Dev nD) : (n : ℕ) → n < cfg1.N → Tup1 F
  | 0, hn => pt1_A V c ⟨0, hn⟩ (Nat.zero_mod _) (show ¬ 0 % 4 = 3 from by decide)
  | n + 1, hn =>
    if h0 : (n + 1) % 4 = 0 then
      if h1 : (n + 1) % 4 = 3 then False.elim (by omega)
      else pt1_A V c ⟨n + 1, hn⟩ h0 h1
    else
      if h1 : (n + 1) % 4 = 3 then pt1_C V c ⟨n + 1, hn⟩ h0 h1 (outsAt1 c n (Nat.lt_of_succ_lt hn))
      else pt1_B V c ⟨n + 1, hn⟩ h0 h1 (outsAt1 c n (Nat.lt_of_succ_lt hn))

theorem outsAt1_A (c : Dev nD) (t : Fin cfg1.N) (h0 : t.val % 4 = 0) (h1 : ¬t.val % 4 = 3) :
    outsAt1 V c t.val t.isLt = pt1_A V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = pt1_B V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = pt1_C V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region invariant with the scratch carried between points -/

/-- The core's other scoped buffers (the other calls' staging buffers), each at some contents, and the generator
    register at some state: what the invariant holds beside the three scratch buffers. -/
def RestR1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ r, prngReg c r))

/-- The class's invariant, with the three scratch buffers (at anything) set apart from the rest. -/
theorem PhiA1_eq (c : Dev nD) :
    (Pipeline.ΦA spec1 c : sProp 𝕄) = iprop(iprop((∃ d, owns (c : Thread nD τ) scM1_0 fullShare d) ∗ (∃ d, owns (c : Thread nD τ) scM1_1 fullShare d) ∗ (∃ d, owns (c : Thread nD τ) scM1_2 fullShare d)) ∗ RestR1 (F := F) c) := by
  unfold Pipeline.ΦA RestR1; rw [scopedRest1_eq]; simp only [scM1_0, scM1_1, scM1_2, owns_whole]
  refine Entails.antisymm ?_ ?_
  · show (_ : sProp 𝕄) ⊢ (_ : sProp 𝕄)
    iintro ⟨⟨A0, A1, A2, A3, A4, A5, A6, A7, A8, A9, S0, S1, S2, B0, B1, B2, B3, B4, B5, B6, B7⟩, Hg⟩
    isplitl [S0 S1 S2]
    · isplitl [S0]; · iexact S0
      isplitl [S1]; · iexact S1
      iexact S2
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    iexact Hg
  · show (_ : sProp 𝕄) ⊢ (_ : sProp 𝕄)
    iintro ⟨⟨S0, S1, S2⟩, A0, A1, A2, A3, A4, A5, A6, A7, A8, A9, B0, B1, B2, B3, B4, B5, B6, B7, Hg⟩
    isplitr [Hg]
    swap; · iexact Hg
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [S0]; · iexact S0
    isplitl [S1]; · iexact S1
    isplitl [S2]; · iexact S2
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7

/-- The region invariant before position `n`: before the first point the class's (every scratch at anything);
    afterwards the three scratch buffers at what the point before left in them, and the rest. -/
def PhiS1 (c : Dev nD) : (n : ℕ) → n ≤ cfg1.N → sProp 𝕄
  | 0, _ => Pipeline.ΦA spec1 c
  | n + 1, hn => iprop(iprop(owns (c : Thread nD τ) scM1_0 fullShare (outsAt1 V c n hn).2.2.2.1 ∗ owns (c : Thread nD τ) scM1_1 fullShare (outsAt1 V c n hn).2.2.2.2.1 ∗ owns (c : Thread nD τ) scM1_2 fullShare (outsAt1 V c n hn).2.2.2.2.2) ∗ RestR1 (F := F) c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (outsAt1 V c n hn).2.2.2.1 ∗ owns (c : Thread nD τ) scM1_1 fullShare (outsAt1 V c n hn).2.2.2.2.1 ∗ owns (c : Thread nD τ) scM1_2 fullShare (outsAt1 V c n hn).2.2.2.2.2) ∗ RestR1 (F := F) c) := rfl

theorem PhiS1_pos (c : Dev nD) (n : ℕ) (h : n ≤ cfg1.N) (hz : n ≠ 0) :
    PhiS1 V c n h = iprop(iprop(owns (c : Thread nD τ) scM1_0 fullShare (outsAt1 V c (n - 1) (by omega)).2.2.2.1 ∗ owns (c : Thread nD τ) scM1_1 fullShare (outsAt1 V c (n - 1) (by omega)).2.2.2.2.1 ∗ owns (c : Thread nD τ) scM1_2 fullShare (outsAt1 V c (n - 1) (by omega)).2.2.2.2.2) ∗ RestR1 (F := F) c) := by
  cases n with
  | zero => exact absurd rfl hz
  | succ n => rfl

/-! ## The pipeline's proof data -/

/-- The proof data of the region on core `c`: the arrays as the region finds them; after the body at point `t`
    each input's buffer at its block and the outputs' at `outsAt1`'s components; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
    | ⟨7, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem after1_6 (c : Dev nD) (t : Fin cfg1.N) : (dat1 V c).after 6 t = (outsAt1 V c t.val t.isLt).2.1 := by dsimp only [dat1]
theorem after1_7 (c : Dev nD) (t : Fin cfg1.N) : (dat1 V c).after 7 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 8000000 in
/-- The body at any point: the inputs' memrefs hold their blocks; the closed forms say which case the point is in; the
    invariant hands the body the scratch at what the point before left (at anything at the first point of a batch),
    and takes it back at this point's contents; where the result window is idle its buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [outsAt1_A V c t h0 h1]
      unfold pt1_A out1_A_6 out1_A_7 sout1_A_0 sout1_A_1 sout1_A_2; (try dsimp only)
      by_cases hz : t.val = 0
      · rw [PhiS1_castSucc V c t, PhiS1_zero V c _ _ hz, PhiA1_eq]
        iintro ⟨⟨⟨HS0, HS1, HS2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        isplitl [HS2]; · iexact HS2
        iintro ⟨H0, H1, H2, H3, H4, H5, ⟨%e6, H6⟩, ⟨%e7, H7⟩, ⟨%es0, HS0⟩, ⟨%es1, HS1⟩, ⟨%es2, HS2⟩⟩
        isplitl [HS0 HS1 HS2 HR]
        · isplitl [HS0 HS1 HS2]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]
        · unfold owns; iexists _; isplitr
          swap; · iexact H6
          ipureintro; exact View.read_writes_of_cover _ _ _ _ _ (cover1_A_6 c _ _ _ _ _ _ _ _ _ _ _ _ _ _ _ _ _ _ _ _ _ _ _ _ _ _ _ _ _ _)
        unfold owns; iexists _; isplitr
        swap; · iexact H7
        ipureintro; exact View.read_writes_of_cover _ _ _ _ _ (cover1_A_7 c _ _ _ _ _ _ _ _ _ _ _ _ _ _ _ _ _ _ _ _ _ _ _ _ _ _ _ _ _ _)
      · rw [PhiS1_castSucc V c t, PhiS1_pos V c _ _ hz]
        iintro ⟨⟨⟨HS0, HS1, HS2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexists _; iexact HS0
        isplitl [HS1]; · iexists _; iexact HS1
        isplitl [HS2]; · iexists _; iexact HS2
        iintro ⟨H0, H1, H2, H3, H4, H5, ⟨%e6, H6⟩, ⟨%e7, H7⟩, ⟨%es0, HS0⟩, ⟨%es1, HS1⟩, ⟨%es2, HS2⟩⟩
        isplitl [HS0 HS1 HS2 HR]
        · isplitl [HS0 HS1 HS2]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]
        · unfold owns; iexists _; isplitr
          swap; · iexact H6
          ipureintro; exact View.read_writes_of_cover _ _ _ _ _ (cover1_A_6 c _ _ _ _ _ _ _ _ _ _ _ _ _ _ _ _ _ _ _ _ _ _ _ _ _ _ _ _ _ _)
        unfold owns; iexists _; isplitr
        swap; · iexact H7
        ipureintro; exact View.read_writes_of_cover _ _ _ _ _ (cover1_A_7 c _ _ _ _ _ _ _ _ _ _ _ _ _ _ _ _ _ _ _ _ _ _ _ _ _ _ _ _ _ _)

  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [outsAt1_C V c t h0 h1]
      unfold pt1_C out1_C_5 out1_C_6 out1_C_7 sout1_C_0 sout1_C_1 sout1_C_2; (try dsimp only)
      have hz : t.val ≠ 0 := fun e => h0 (by omega)
      · rw [PhiS1_castSucc V c t, PhiS1_pos V c _ _ hz]
        iintro ⟨⟨⟨HS0, HS1, HS2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_C c (grid1.coords t) _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _).2.2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        isplitl [HS1]; · iexact HS1
        isplitl [HS2]; · iexact HS2
        iintro ⟨H0, H1, H2, H3, H4, ⟨%e5, H5⟩, ⟨%e6, H6⟩, ⟨%e7, H7⟩, ⟨%es0, HS0⟩, ⟨%es1, HS1⟩, ⟨%es2, HS2⟩⟩
        isplitl [HS0 HS1 HS2 HR]
        · isplitl [HS0 HS1 HS2]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover1_C_5 c _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover1_C_6 c _ _ _ _ _ _ _ _ _ _ _ _ _ _ _ _ _ _ _ _ _ _ _ _ _ _ _ _ _ _ _ _ _)
        unfold owns; iexists _; isplitr
        swap; · iexact H7
        ipureintro; exact View.read_writes_of_cover _ _ _ _ _ (cover1_C_7 c _ _ _ _ _ _ _ _ _ _ _ _ _ _ _ _ _ _ _ _ _ _ _ _ _ _ _ _ _ _ _ _ _)

    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5 t (fun h => h1 ((hcond1_1 t).mp h))) (noFlush1_5 t (fun h => h1 ((hcond1_1 t).mp h)))]
      rw [show (dat1 V c).leavesExact 6 t = owns (c : Thread nD τ) (ms1_6 t) fullShare ((dat1 V c).after 6 t) from by
        unfold Dat.leavesExact; rw [liveAt1_6 t], after1_6]
      rw [show (dat1 V c).leavesExact 7 t = owns (c : Thread nD τ) (ms1_7 t) fullShare ((dat1 V c).after 7 t) from by
        unfold Dat.leavesExact; rw [liveAt1_7 t], after1_7]
      rw [outsAt1_B V c t h0 h1]
      unfold pt1_B out1_B_6 out1_B_7 sout1_B_0 sout1_B_1 sout1_B_2; (try dsimp only)
      have hz : t.val ≠ 0 := fun e => h0 (by omega)
      · rw [PhiS1_castSucc V c t, PhiS1_pos V c _ _ hz]
        iintro ⟨⟨⟨HS0, HS1, HS2⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun1_B c (grid1.coords t) _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        isplitl [HS2]; · iexact HS2
        iintro ⟨H0, H1, H2, H3, H4, H5, ⟨%e6, H6⟩, ⟨%e7, H7⟩, ⟨%es0, HS0⟩, ⟨%es1, HS1⟩, ⟨%es2, HS2⟩⟩
        isplitl [HS0 HS1 HS2 HR]
        · isplitl [HS0 HS1 HS2]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _ _ _ _ _ _ _ _ _ _ _)
          iexact HR
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]
        · unfold owns; iexists _; isplitr
          swap; · iexact H6
          ipureintro; exact View.read_writes_of_cover _ _ _ _ _ (cover1_B_6 c _ _ _ _ _ _ _ _ _ _ _ _ _ _ _ _ _ _ _ _ _ _ _ _ _ _ _ _ _ _ _ _ _)
        unfold owns; iexists _; isplitr
        swap; · iexact H7
        ipureintro; exact View.read_writes_of_cover _ _ _ _ _ (cover1_B_7 c _ _ _ _ _ _ _ _ _ _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The invariant before the first point is the class's. -/
theorem Phi1_zero (c : Dev nD) : (dat1 V c).Φ 0 = Pipeline.ΦA spec1 c := by
  rw [show (dat1 V c).Φ 0 = PhiS1 V c 0 (Nat.zero_le _) from rfl, PhiS1_zero V c 0 _ rfl]

/-- After any point but the first the invariant gives the class's back: the scratch's named contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HS1, HS2⟩, HR⟩
  isplitl [HS0 HS1 HS2]
  · isplitl [HS0]; · iexists _; iexact HS0
    isplitl [HS1]; · iexists _; iexact HS1
    iexists _; iexact HS2
  iexact HR

/-- The same after the last point. -/
theorem Phi1_last (c : Dev nD) : (dat1 V c).Φ (Fin.last cfg1.N) ⊢ Pipeline.ΦA spec1 c :=
  Phi1_out V c _ (by rw [Fin.val_last]; have : cfg1.N = 128 := N_1; omega)

end Cert.Kernel.Hand

end
-- ==== Proof.KW_Half1.lean ====
/-
  The attention launch's proof data meet what the run asks: its invariant is the class's before the first point and
  gives it back after the last (the carried scratch's named contents are forgotten there).
-/
import proofs.«107194_j39247411150862_2_alg».proof.Proof.KW_Halves
import proofs.«107194_j39247411150862_2_alg».proof.Proof.KW_R1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem half1 : Half cfg1 (dat1 (F := F)) where
  A_eq := A_eq1
  body := body_obligation1
  q := fun _ _ _ => rfl
  owed := fun _ _ _ => rfl
  recorded := fun _ _ _ => rfl
  Φ0 := Phi1_zero
  Φn := Phi1_last

variable (m : (ℓ : Loc nD τ sig) → Buf (Elt F) ℓ) (ρ : Dev nD → PrngReg)

/-- THE FRAME of the three-launch program, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_all (dat0 (F := F)) (dat1 (F := F)) (dat2 (F := F)) m ρ half0 half1 half2

end Cert.Kernel.Hand

end
-- ==== Proof.KI_Val0.lean ====
import proofs.«107194_j39247411150862_2_alg».proof.Proof.KI_R0
import Idealize.ShloMosaic.Lib.Pipeline.Value
import Idealize.ShloMosaic.Lib.ValueIdx
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The arrays the projection region leaves: each output window's one block is its whole array -/

theorem hz0 : (![0, 0] : Fin 2 → Nat) = fun _ => 0 := funext fun a => by fin_cases a <;> rfl

/-- Every window's block index is (0, 0) at the one grid point (decided over the grid). -/
theorem idx0_zero : ∀ t : Fin cfg0.N, win0_0.index t (0 : Fin 2) = 0
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0 :=
  (by decide +kernel : ∀ t : Fin grid0.N, _)

/-- Window 0's block at the one point is its whole array. -/
theorem iblk0_0_eq (c : Dev nD) (t : Fin cfg0.N) : (iblk0 V c 0 t : Vec F S256x1024 .f32) = V c main_v0 := by
  funext j
  show V c main_v0 (((cfg0.win 0).blk t).view.emb j) = V c main_v0 j
  refine congrArg _ ?_
  obtain ⟨e0_0, e0_1, e1_0, e1_1, e2_0, e2_1, e3_0, e3_1, e4_0, e4_1, e5_0, e5_1, e6_0, e6_1, e7_0, e7_1, e8_0, e8_1, e9_0, e9_1⟩ := idx0_zero t
  funext a; apply Fin.ext
  match a with
  | ⟨0, _⟩ => show win0_0.index t (0 : Fin 2) * 256 + 1 * (j 0).val = (j 0).val; omega
  | ⟨1, _⟩ => show win0_0.index t (1 : Fin 2) * 1024 + 1 * (j 1).val = (j 1).val; omega

/-- Window 1's block at the one point is its whole array. -/
theorem iblk0_1_eq (c : Dev nD) (t : Fin cfg0.N) : (iblk0 V c 1 t : Vec F S1024x1024 .f32) = V c main_arg3 := by
  funext j
  show V c main_arg3 (((cfg0.win 1).blk t).view.emb j) = V c main_arg3 j
  refine congrArg _ ?_
  obtain ⟨e0_0, e0_1, e1_0, e1_1, e2_0, e2_1, e3_0, e3_1, e4_0, e4_1, e5_0, e5_1, e6_0, e6_1, e7_0, e7_1, e8_0, e8_1, e9_0, e9_1⟩ := idx0_zero t
  funext a; apply Fin.ext
  match a with
  | ⟨0, _⟩ => show win0_1.index t (0 : Fin 2) * 1024 + 1 * (j 0).val = (j 0).val; omega
  | ⟨1, _⟩ => show win0_1.index t (1 : Fin 2) * 1024 + 1 * (j 1).val = (j 1).val; omega

/-- Window 2's block at the one point is its whole array. -/
theorem iblk0_2_eq (c : Dev nD) (t : Fin cfg0.N) : (iblk0 V c 2 t : Vec F S1x1024 .f32) = V c main_v1 := by
  funext j
  show V c main_v1 (((cfg0.win 2).blk t).view.emb j) = V c main_v1 j
  refine congrArg _ ?_
  obtain ⟨e0_0, e0_1, e1_0, e1_1, e2_0, e2_1, e3_0, e3_1, e4_0, e4_1, e5_0, e5_1, e6_0, e6_1, e7_0, e7_1, e8_0, e8_1, e9_0, e9_1⟩ := idx0_zero t
  funext a; apply Fin.ext
  match a with
  | ⟨0, _⟩ => show win0_2.index t (0 : Fin 2) * 1 + 1 * (j 0).val = (j 0).val; omega
  | ⟨1, _⟩ => show win0_2.index t (1 : Fin 2) * 1024 + 1 * (j 1).val = (j 1).val; omega

/-- Window 3's block at the one point is its whole array. -/
theorem iblk0_3_eq (c : Dev nD) (t : Fin cfg0.N) : (iblk0 V c 3 t : Vec F S1024x1024 .f32) = V c main_arg5 := by
  funext j
  show V c main_arg5 (((cfg0.win 3).blk t).view.emb j) = V c main_arg5 j
  refine congrArg _ ?_
  obtain ⟨e0_0, e0_1, e1_0, e1_1, e2_0, e2_1, e3_0, e3_1, e4_0, e4_1, e5_0, e5_1, e6_0, e6_1, e7_0, e7_1, e8_0, e8_1, e9_0, e9_1⟩ := idx0_zero t
  funext a; apply Fin.ext
  match a with
  | ⟨0, _⟩ => show win0_3.index t (0 : Fin 2) * 1024 + 1 * (j 0).val = (j 0).val; omega
  | ⟨1, _⟩ => show win0_3.index t (1 : Fin 2) * 1024 + 1 * (j 1).val = (j 1).val; omega

/-- Window 4's block at the one point is its whole array. -/
theorem iblk0_4_eq (c : Dev nD) (t : Fin cfg0.N) : (iblk0 V c 4 t : Vec F S1x1024 .f32) = V c main_v2 := by
  funext j
  show V c main_v2 (((cfg0.win 4).blk t).view.emb j) = V c main_v2 j
  refine congrArg _ ?_
  obtain ⟨e0_0, e0_1, e1_0, e1_1, e2_0, e2_1, e3_0, e3_1, e4_0, e4_1, e5_0, e5_1, e6_0, e6_1, e7_0, e7_1, e8_0, e8_1, e9_0, e9_1⟩ := idx0_zero t
  funext a; apply Fin.ext
  match a with
  | ⟨0, _⟩ => show win0_4.index t (0 : Fin 2) * 1 + 1 * (j 0).val = (j 0).val; omega
  | ⟨1, _⟩ => show win0_4.index t (1 : Fin 2) * 1024 + 1 * (j 1).val = (j 1).val; omega

/-- Window 5's block at the one point is its whole array. -/
theorem iblk0_5_eq (c : Dev nD) (t : Fin cfg0.N) : (iblk0 V c 5 t : Vec F S1024x1024 .f32) = V c main_arg7 := by
  funext j
  show V c main_arg7 (((cfg0.win 5).blk t).view.emb j) = V c main_arg7 j
  refine congrArg _ ?_
  obtain ⟨e0_0, e0_1, e1_0, e1_1, e2_0, e2_1, e3_0, e3_1, e4_0, e4_1, e5_0, e5_1, e6_0, e6_1, e7_0, e7_1, e8_0, e8_1, e9_0, e9_1⟩ := idx0_zero t
  funext a; apply Fin.ext
  match a with
  | ⟨0, _⟩ => show win0_5.index t (0 : Fin 2) * 1024 + 1 * (j 0).val = (j 0).val; omega
  | ⟨1, _⟩ => show win0_5.index t (1 : Fin 2) * 1024 + 1 * (j 1).val = (j 1).val; omega

/-- Window 6's block at the one point is its whole array. -/
theorem iblk0_6_eq (c : Dev nD) (t : Fin cfg0.N) : (iblk0 V c 6 t : Vec F S1x1024 .f32) = V c main_v3 := by
  funext j
  show V c main_v3 (((cfg0.win 6).blk t).view.emb j) = V c main_v3 j
  refine congrArg _ ?_
  obtain ⟨e0_0, e0_1, e1_0, e1_1, e2_0, e2_1, e3_0, e3_1, e4_0, e4_1, e5_0, e5_1, e6_0, e6_1, e7_0, e7_1, e8_0, e8_1, e9_0, e9_1⟩ := idx0_zero t
  funext a; apply Fin.ext
  match a with
  | ⟨0, _⟩ => show win0_6.index t (0 : Fin 2) * 1 + 1 * (j 0).val = (j 0).val; omega
  | ⟨1, _⟩ => show win0_6.index t (1 : Fin 2) * 1024 + 1 * (j 1).val = (j 1).val; omega

/-- What window 7's array ends holding: the body's payload of the three arrays it reads, as the region finds them. -/
def G0_7 (c : Dev nD) : Vec F S256x1024 .f32 := k0_pay2 (V c main_v0) (V c main_arg3) (V c main_v1)

/-- What the one point writes back is its block of `G0_7`: the block is the whole array. -/
theorem flushed0_7_eq (c : Dev nD) (t : Fin cfg0.N) :
    (dat0 V c).flushed 7 t = ((cfg0.win 7).blk t).view.read (Elt F) (G0_7 V c) := by
  show (cfg0.win 7).cut (grid0.coords t) ((dat0 V c).after 7 t) = _
  rw [after0_7]
  unfold out0_7
  rw [View.canon_unit_zero hz0]
  simp only [View.ld_unit_zero (S := S256x1024) hz0, View.ld_unit_zero (S := S1024x1024) hz0, View.ld_unit_zero (S := S1x1024) hz0]
  rw [iblk0_0_eq, iblk0_1_eq, iblk0_2_eq]
  unfold G0_7
  funext j
  show k0_pay2 (V c main_v0) (V c main_arg3) (V c main_v1) j = k0_pay2 (V c main_v0) (V c main_arg3) (V c main_v1) (((cfg0.win 7).blk t).view.emb j)
  refine congrArg _ ?_
  obtain ⟨e0_0, e0_1, e1_0, e1_1, e2_0, e2_1, e3_0, e3_1, e4_0, e4_1, e5_0, e5_1, e6_0, e6_1, e7_0, e7_1, e8_0, e8_1, e9_0, e9_1⟩ := idx0_zero t
  funext a; apply Fin.ext
  match a with
  | ⟨0, _⟩ => show (j 0).val = win0_7.index t (0 : Fin 2) * 256 + 1 * (j 0).val; omega
  | ⟨1, _⟩ => show (j 1).val = win0_7.index t (1 : Fin 2) * 1024 + 1 * (j 1).val; omega

/-- An index of the array is in the point's block iff each coordinate is in the block's range on its axis. -/
theorem mem_blk0_7 (t : Fin cfg0.N) (i : S256x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v4_0).slice (win0_7.rect t)).set ↔ _
  rw [View.set_slice_whole, Rect.mem_set_unit]
  exact Iff.rfl

/-- The one point's block is the whole array, so every index is covered. -/
theorem cover0_7_arr (i : S256x1024.Idx) : ∃ t : Fin cfg0.N, (cfg0.win 7).flush t = true ∧ i ∈ ((cfg0.win 7).blk t).view.set := by
  refine ⟨t0_0, flush0_7 t0_0, ?_⟩
  rw [mem_blk0_7]
  have t := t0_0
  obtain ⟨e0_0, e0_1, e1_0, e1_1, e2_0, e2_1, e3_0, e3_1, e4_0, e4_1, e5_0, e5_1, e6_0, e6_1, e7_0, e7_1, e8_0, e8_1, e9_0, e9_1⟩ := idx0_zero t0_0
  have hi0 : (i 0).val < 256 := (i 0).isLt
  have hi1 : (i 1).val < 1024 := (i 1).isLt
  intro a
  match a with
  | ⟨0, _⟩ => show win0_7.index t0_0 (0 : Fin 2) * 256 ≤ (i 0).val ∧ (i 0).val < win0_7.index t0_0 (0 : Fin 2) * 256 + 256; omega
  | ⟨1, _⟩ => show win0_7.index t0_0 (1 : Fin 2) * 1024 ≤ (i 1).val ∧ (i 1).val < win0_7.index t0_0 (1 : Fin 2) * 1024 + 1024; omega

/-- The array window 7 leaves after the region: `G0_7`. -/
theorem arrAt0_7 (c : Dev nD) : (dat0 V c).arrAt 7 cfg0.N = G0_7 V c :=
  (dat0 V c).arrAt_eq_of_cover 7 (G0_7 V c) (fun t _ => flushed0_7_eq V c t) cover0_7_arr

/-- What window 8's array ends holding: the body's payload of the three arrays it reads, as the region finds them. -/
def G0_8 (c : Dev nD) : Vec F S256x1024 .f32 := k0_pay3 (V c main_v0) (V c main_arg5) (V c main_v2)

/-- What the one point writes back is its block of `G0_8`: the block is the whole array. -/
theorem flushed0_8_eq (c : Dev nD) (t : Fin cfg0.N) :
    (dat0 V c).flushed 8 t = ((cfg0.win 8).blk t).view.read (Elt F) (G0_8 V c) := by
  show (cfg0.win 8).cut (grid0.coords t) ((dat0 V c).after 8 t) = _
  rw [after0_8]
  unfold out0_8
  rw [View.canon_unit_zero hz0]
  simp only [View.ld_unit_zero (S := S256x1024) hz0, View.ld_unit_zero (S := S1024x1024) hz0, View.ld_unit_zero (S := S1x1024) hz0]
  rw [iblk0_0_eq, iblk0_3_eq, iblk0_4_eq]
  unfold G0_8
  funext j
  show k0_pay3 (V c main_v0) (V c main_arg5) (V c main_v2) j = k0_pay3 (V c main_v0) (V c main_arg5) (V c main_v2) (((cfg0.win 8).blk t).view.emb j)
  refine congrArg _ ?_
  obtain ⟨e0_0, e0_1, e1_0, e1_1, e2_0, e2_1, e3_0, e3_1, e4_0, e4_1, e5_0, e5_1, e6_0, e6_1, e7_0, e7_1, e8_0, e8_1, e9_0, e9_1⟩ := idx0_zero t
  funext a; apply Fin.ext
  match a with
  | ⟨0, _⟩ => show (j 0).val = win0_8.index t (0 : Fin 2) * 256 + 1 * (j 0).val; omega
  | ⟨1, _⟩ => show (j 1).val = win0_8.index t (1 : Fin 2) * 1024 + 1 * (j 1).val; omega

/-- An index of the array is in the point's block iff each coordinate is in the block's range on its axis. -/
theorem mem_blk0_8 (t : Fin cfg0.N) (i : S256x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v4_1).slice (win0_8.rect t)).set ↔ _
  rw [View.set_slice_whole, Rect.mem_set_unit]
  exact Iff.rfl

/-- The one point's block is the whole array, so every index is covered. -/
theorem cover0_8_arr (i : S256x1024.Idx) : ∃ t : Fin cfg0.N, (cfg0.win 8).flush t = true ∧ i ∈ ((cfg0.win 8).blk t).view.set := by
  refine ⟨t0_0, flush0_8 t0_0, ?_⟩
  rw [mem_blk0_8]
  have t := t0_0
  obtain ⟨e0_0, e0_1, e1_0, e1_1, e2_0, e2_1, e3_0, e3_1, e4_0, e4_1, e5_0, e5_1, e6_0, e6_1, e7_0, e7_1, e8_0, e8_1, e9_0, e9_1⟩ := idx0_zero t0_0
  have hi0 : (i 0).val < 256 := (i 0).isLt
  have hi1 : (i 1).val < 1024 := (i 1).isLt
  intro a
  match a with
  | ⟨0, _⟩ => show win0_8.index t0_0 (0 : Fin 2) * 256 ≤ (i 0).val ∧ (i 0).val < win0_8.index t0_0 (0 : Fin 2) * 256 + 256; omega
  | ⟨1, _⟩ => show win0_8.index t0_0 (1 : Fin 2) * 1024 ≤ (i 1).val ∧ (i 1).val < win0_8.index t0_0 (1 : Fin 2) * 1024 + 1024; omega

/-- The array window 8 leaves after the region: `G0_8`. -/
theorem arrAt0_8 (c : Dev nD) : (dat0 V c).arrAt 8 cfg0.N = G0_8 V c :=
  (dat0 V c).arrAt_eq_of_cover 8 (G0_8 V c) (fun t _ => flushed0_8_eq V c t) cover0_8_arr

/-- What window 9's array ends holding: the body's payload of the three arrays it reads, as the region finds them. -/
def G0_9 (c : Dev nD) : Vec F S256x1024 .f32 := k0_pay4 (V c main_v0) (V c main_arg7) (V c main_v3)

/-- What the one point writes back is its block of `G0_9`: the block is the whole array. -/
theorem flushed0_9_eq (c : Dev nD) (t : Fin cfg0.N) :
    (dat0 V c).flushed 9 t = ((cfg0.win 9).blk t).view.read (Elt F) (G0_9 V c) := by
  show (cfg0.win 9).cut (grid0.coords t) ((dat0 V c).after 9 t) = _
  rw [after0_9]
  unfold out0_9
  rw [View.canon_unit_zero hz0]
  simp only [View.ld_unit_zero (S := S256x1024) hz0, View.ld_unit_zero (S := S1024x1024) hz0, View.ld_unit_zero (S := S1x1024) hz0]
  rw [iblk0_0_eq, iblk0_5_eq, iblk0_6_eq]
  unfold G0_9
  funext j
  show k0_pay4 (V c main_v0) (V c main_arg7) (V c main_v3) j = k0_pay4 (V c main_v0) (V c main_arg7) (V c main_v3) (((cfg0.win 9).blk t).view.emb j)
  refine congrArg _ ?_
  obtain ⟨e0_0, e0_1, e1_0, e1_1, e2_0, e2_1, e3_0, e3_1, e4_0, e4_1, e5_0, e5_1, e6_0, e6_1, e7_0, e7_1, e8_0, e8_1, e9_0, e9_1⟩ := idx0_zero t
  funext a; apply Fin.ext
  match a with
  | ⟨0, _⟩ => show (j 0).val = win0_9.index t (0 : Fin 2) * 256 + 1 * (j 0).val; omega
  | ⟨1, _⟩ => show (j 1).val = win0_9.index t (1 : Fin 2) * 1024 + 1 * (j 1).val; omega

/-- An index of the array is in the point's block iff each coordinate is in the block's range on its axis. -/
theorem mem_blk0_9 (t : Fin cfg0.N) (i : S256x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v4_2).slice (win0_9.rect t)).set ↔ _
  rw [View.set_slice_whole, Rect.mem_set_unit]
  exact Iff.rfl

/-- The one point's block is the whole array, so every index is covered. -/
theorem cover0_9_arr (i : S256x1024.Idx) : ∃ t : Fin cfg0.N, (cfg0.win 9).flush t = true ∧ i ∈ ((cfg0.win 9).blk t).view.set := by
  refine ⟨t0_0, flush0_9 t0_0, ?_⟩
  rw [mem_blk0_9]
  have t := t0_0
  obtain ⟨e0_0, e0_1, e1_0, e1_1, e2_0, e2_1, e3_0, e3_1, e4_0, e4_1, e5_0, e5_1, e6_0, e6_1, e7_0, e7_1, e8_0, e8_1, e9_0, e9_1⟩ := idx0_zero t0_0
  have hi0 : (i 0).val < 256 := (i 0).isLt
  have hi1 : (i 1).val < 1024 := (i 1).isLt
  intro a
  match a with
  | ⟨0, _⟩ => show win0_9.index t0_0 (0 : Fin 2) * 256 ≤ (i 0).val ∧ (i 0).val < win0_9.index t0_0 (0 : Fin 2) * 256 + 256; omega
  | ⟨1, _⟩ => show win0_9.index t0_0 (1 : Fin 2) * 1024 ≤ (i 1).val ∧ (i 1).val < win0_9.index t0_0 (1 : Fin 2) * 1024 + 1024; omega

/-- The array window 9 leaves after the region: `G0_9`. -/
theorem arrAt0_9 (c : Dev nD) : (dat0 V c).arrAt 9 cfg0.N = G0_9 V c :=
  (dat0 V c).arrAt_eq_of_cover 9 (G0_9 V c) (fun t _ => flushed0_9_eq V c t) cover0_9_arr

end Cert.KernelIdeal.Hand

end
-- ==== Proof.LibDotBatchT.lean ====
/-
  A batched matrix product against a TRANSPOSED right operand, read at an entry: for rank-three operands
  [B, M, K] × [B, N, K] → [B, M, N] whose dimension numbers pair axis 0 of both operands as the batch axis and
  contract axis 2 of the left operand with axis 2 of the right one (rows against rows: `q · kᵀ`), the sum over the
  record's contraction index is the sum over `k : Fin K` of left entry `(e, r, k)` times right entry `(e, c, k)`.
  The coordinate facts about the record's operand indices are hypotheses; for a record with literal dimension
  lists each is decided or the library's single-axis lemma. The host's product (`dotGeneral_ix3`) and the kernel's
  product into a zero accumulator (`matmul_ix3`) are both that sum.
-/
import Mathlib
import Idealize.ShloMosaic.Lib.ValueIdx
import Idealize.ShloMosaic.PureOps.Ideal.Laws

namespace Cert.LibDotBatchT

open Idealize.ShloMosaic Idealize.ShloMosaic.ValueIdx

/-- The coordinate facts of a batched rows-by-rows product's dimension numbers. -/
structure BatchedT {B M K N : Nat} (d : DotDims ⟨3, ![B, M, K]⟩ ⟨3, ![B, N, K]⟩ ⟨3, ![B, M, N]⟩) : Prop where
  hrank : d.contr.rank = 1
  hs : d.contr.size ⟨0, by omega⟩ = K
  hl0 : ∀ j k, (d.lhsIdx j k 0).val = (j 0).val
  hl1 : ∀ j k, (d.lhsIdx j k 1).val = (j 1).val
  hl2 : ∀ j k, (d.lhsIdx j k 2).val = (k ⟨0, by omega⟩).val
  hr0 : ∀ j k, (d.rhsIdx j k 0).val = (j 0).val
  hr1 : ∀ j k, (d.rhsIdx j k 1).val = (j 2).val
  hr2 : ∀ j k, (d.rhsIdx j k 2).val = (k ⟨0, by omega⟩).val

theorem dot_sum {B M K N : Nat} {d : DotDims ⟨3, ![B, M, K]⟩ ⟨3, ![B, N, K]⟩ ⟨3, ![B, M, N]⟩} (hd : BatchedT d)
    (lhs : (⟨3, ![B, M, K]⟩ : Shape).Idx → EReal) (rhs : (⟨3, ![B, N, K]⟩ : Shape).Idx → EReal)
    (e : Fin B) (r : Fin M) (c : Fin N) :
    ∑ k : d.contr.Idx, lhs (d.lhsIdx (ix3 e r c) k) * rhs (d.rhsIdx (ix3 e r c) k)
      = ∑ k : Fin K, lhs (ix3 e r k) * rhs (ix3 e c k) := by
  rw [← Equiv.sum_comp (contrEquiv1 d K hd.hrank hd.hs).symm]
  refine Finset.sum_congr rfl fun k _ => ?_
  have ek := contrEquiv1_symm_val d K hd.hrank hd.hs k
  have el : d.lhsIdx (ix3 e r c) ((contrEquiv1 d K hd.hrank hd.hs).symm k) = ix3 e r k := by
    funext a; apply Fin.ext
    match a with
    | ⟨0, _⟩ => exact hd.hl0 _ _
    | ⟨1, _⟩ => exact hd.hl1 _ _
    | ⟨2, _⟩ => exact (hd.hl2 _ _).trans ek
  have er : d.rhsIdx (ix3 e r c) ((contrEquiv1 d K hd.hrank hd.hs).symm k) = ix3 e c k := by
    funext a; apply Fin.ext
    match a with
    | ⟨0, _⟩ => exact hd.hr0 _ _
    | ⟨1, _⟩ => exact hd.hr1 _ _
    | ⟨2, _⟩ => exact (hd.hr2 _ _).trans ek
  rw [el, er]

/-- The host's batched product against a transposed right operand, at entry (e, r, c). -/
theorem dotGeneral_ix3 {B M K N : Nat} {d : DotDims ⟨3, ![B, M, K]⟩ ⟨3, ![B, N, K]⟩ ⟨3, ![B, M, N]⟩} (hd : BatchedT d)
    {φ₁ φ₂ : FTy} (prec : Option ContractPrecision) (a : FVec Ideal ⟨3, ![B, M, K]⟩ φ₁) (b : FVec Ideal ⟨3, ![B, N, K]⟩ φ₂)
    (e : Fin B) (r : Fin M) (c : Fin N) :
    Host.dotGeneral d prec a b (ix3 e r c) = ∑ k : Fin K, a (ix3 e r k) * b (ix3 e c k) :=
  (Ideal.dotGeneral_apply d prec _ a b (ix3 e r c)).trans (dot_sum hd a b e r c)

/-- The kernel's batched product against a transposed right operand into a zero accumulator, at entry (e, r, c). -/
theorem matmul_ix3 {B M K N : Nat} {d : DotDims ⟨3, ![B, M, K]⟩ ⟨3, ![B, N, K]⟩ ⟨3, ![B, M, N]⟩} (hd : BatchedT d)
    {φ₁ φ₂ : FTy} (prec : Option ContractPrecision) (a : FVec Ideal ⟨3, ![B, M, K]⟩ φ₁) (b : FVec Ideal ⟨3, ![B, N, K]⟩ φ₂)
    (e : Fin B) (r : Fin M) (c : Fin N) :
    matmul d prec a b (constant ⟨3, ![B, M, N]⟩ .f32 0x00000000#32) (ix3 e r c) = ∑ k : Fin K, a (ix3 e r k) * b (ix3 e c k) :=
  (Ideal.matmul_constant_zero_apply d prec a b (ix3 e r c)).trans (dot_sum hd a b e r c)

end Cert.LibDotBatchT
-- ==== Proof.LibDotBatch.lean ====
/-
  A batched matrix product with one batch axis and one contracted axis, read at an entry: for rank-three
  operands [B, M, K] × [B, K, N] → [B, M, N] whose dimension numbers pair axis 0 of both operands as the
  batch axis and contract axis 2 of the left operand with axis 1 of the right one, the sum over the record's
  contraction index is the sum over `k : Fin K` of left entry `(e, r, k)` times right entry `(e, k, c)`.
  The eight coordinate facts about the record's operand indices are hypotheses; for a record with literal
  dimension lists each is `fun _ _ => rfl` or the library's single-axis lemma. The host's product
  (`dotGeneral_ix3`) and the kernel's product into a zero accumulator (`matmul_ix3`) are both that sum.
-/
import Mathlib
import Idealize.ShloMosaic.Lib.ValueIdx
import Idealize.ShloMosaic.PureOps.Ideal.Laws

namespace Cert.LibDotBatch

open Idealize.ShloMosaic Idealize.ShloMosaic.ValueIdx

/-- The coordinate facts of a batched rows-by-columns product's dimension numbers. -/
structure Batched {B M K N : Nat} (d : DotDims ⟨3, ![B, M, K]⟩ ⟨3, ![B, K, N]⟩ ⟨3, ![B, M, N]⟩) : Prop where
  hrank : d.contr.rank = 1
  hs : d.contr.size ⟨0, by omega⟩ = K
  hl0 : ∀ j k, (d.lhsIdx j k 0).val = (j 0).val
  hl1 : ∀ j k, (d.lhsIdx j k 1).val = (j 1).val
  hl2 : ∀ j k, (d.lhsIdx j k 2).val = (k ⟨0, by omega⟩).val
  hr0 : ∀ j k, (d.rhsIdx j k 0).val = (j 0).val
  hr1 : ∀ j k, (d.rhsIdx j k 1).val = (k ⟨0, by omega⟩).val
  hr2 : ∀ j k, (d.rhsIdx j k 2).val = (j 2).val

theorem dot_sum {B M K N : Nat} {d : DotDims ⟨3, ![B, M, K]⟩ ⟨3, ![B, K, N]⟩ ⟨3, ![B, M, N]⟩} (hd : Batched d)
    (lhs : (⟨3, ![B, M, K]⟩ : Shape).Idx → EReal) (rhs : (⟨3, ![B, K, N]⟩ : Shape).Idx → EReal)
    (e : Fin B) (r : Fin M) (c : Fin N) :
    ∑ k : d.contr.Idx, lhs (d.lhsIdx (ix3 e r c) k) * rhs (d.rhsIdx (ix3 e r c) k)
      = ∑ k : Fin K, lhs (ix3 e r k) * rhs (ix3 e k c) := by
  rw [← Equiv.sum_comp (contrEquiv1 d K hd.hrank hd.hs).symm]
  refine Finset.sum_congr rfl fun k _ => ?_
  have ek := contrEquiv1_symm_val d K hd.hrank hd.hs k
  have el : d.lhsIdx (ix3 e r c) ((contrEquiv1 d K hd.hrank hd.hs).symm k) = ix3 e r k := by
    funext a; apply Fin.ext
    match a with
    | ⟨0, _⟩ => exact hd.hl0 _ _
    | ⟨1, _⟩ => exact hd.hl1 _ _
    | ⟨2, _⟩ => exact (hd.hl2 _ _).trans ek
  have er : d.rhsIdx (ix3 e r c) ((contrEquiv1 d K hd.hrank hd.hs).symm k) = ix3 e k c := by
    funext a; apply Fin.ext
    match a with
    | ⟨0, _⟩ => exact hd.hr0 _ _
    | ⟨1, _⟩ => exact (hd.hr1 _ _).trans ek
    | ⟨2, _⟩ => exact hd.hr2 _ _
  rw [el, er]

/-- The host's batched product, at entry (e, r, c). -/
theorem dotGeneral_ix3 {B M K N : Nat} {d : DotDims ⟨3, ![B, M, K]⟩ ⟨3, ![B, K, N]⟩ ⟨3, ![B, M, N]⟩} (hd : Batched d)
    {φ₁ φ₂ : FTy} (prec : Option ContractPrecision) (a : FVec Ideal ⟨3, ![B, M, K]⟩ φ₁) (b : FVec Ideal ⟨3, ![B, K, N]⟩ φ₂)
    (e : Fin B) (r : Fin M) (c : Fin N) :
    Host.dotGeneral d prec a b (ix3 e r c) = ∑ k : Fin K, a (ix3 e r k) * b (ix3 e k c) :=
  (Ideal.dotGeneral_apply d prec _ a b (ix3 e r c)).trans (dot_sum hd a b e r c)

/-- The kernel's batched product into a zero accumulator, at entry (e, r, c). -/
theorem matmul_ix3 {B M K N : Nat} {d : DotDims ⟨3, ![B, M, K]⟩ ⟨3, ![B, K, N]⟩ ⟨3, ![B, M, N]⟩} (hd : Batched d)
    {φ₁ φ₂ : FTy} (prec : Option ContractPrecision) (a : FVec Ideal ⟨3, ![B, M, K]⟩ φ₁) (b : FVec Ideal ⟨3, ![B, K, N]⟩ φ₂)
    (e : Fin B) (r : Fin M) (c : Fin N) :
    matmul d prec a b (constant ⟨3, ![B, M, N]⟩ .f32 0x00000000#32) (ix3 e r c) = ∑ k : Fin K, a (ix3 e r k) * b (ix3 e k c) :=
  (Ideal.matmul_constant_zero_apply d prec a b (ix3 e r c)).trans (dot_sum hd a b e r c)

end Cert.LibDotBatch
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LibLastMax.lean ====
/-
  A maximum along the last axis of a rank-3 array, read at an entry.

  An index of a rank-3 shape is determined by its three coordinates' values.  A lane reduction
  `multi_reduction <maximumf>` of an [a, b, c] array along its last axis, read at (p, q) over the extended reals, is the
  fold of `max`, from the accumulator word's value, over l of the entries (p, q, l).
-/
import Idealize.ShloMosaic.PureOps.Ideal.Laws
import Idealize.ShloMosaic.Lib.ValueIdx

namespace Idealize.ShloMosaic.ValueIdx

open Idealize.ShloMosaic

/-- An index of a rank-3 shape is the one with the same three coordinates. -/
theorem idx3_ext' {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun d => Fin.ext (by match d with | ⟨0, _⟩ => exact h0 | ⟨1, _⟩ => exact h1 | ⟨2, _⟩ => exact h2)

/-- A maximum along the last axis of an [a, b, c] array, from the word `acc`, read at `(p, q)`: the fold of `max` over
    `l` of `src (p, q, l)`. The shape fact, the format fact and the accumulator's neutrality are whatever proofs the
    printed operation carries. -/
theorem multiReduction_max_last_apply {a b c : ℕ} (src : FVec Ideal ⟨3, ![a, b, c]⟩ .f32) (acc : BitVec 32)
    (hr : (⟨3, ![a, b, c]⟩ : Shape).Reduces [2] ⟨2, ![a, b]⟩) (hφ : FKind.Formats .f32)
    (hacc : acc = FKind.maximumf.neutral .f32 hφ) (p : Fin a) (q : Fin b) :
    multiReduction .maximumf [2] ⟨2, ![a, b]⟩ src acc hr hφ hacc (ix2 p q)
      = (Finset.univ : Finset (Fin c)).fold max (Ideal.ofBits .f32 acc) (fun l => src (ix3 p q l)) :=
  (Ideal.multiReduction_maximumf_single src acc hr hφ hacc (ix2 p q)).trans
    (Finset.fold_congr fun l _ => congrArg src (idx3_ext' _ p q l rfl rfl rfl))

end Idealize.ShloMosaic.ValueIdx
-- ==== Proof.LibReshape.lean ====
/-
  Row-major reshapes and one broadcast read at an index given by coordinates.
  • A trailing unit axis added, [a, b] → [a, b, 1]: entry (p, q, u) of the result is entry (p, q) of the operand.
  • That unit axis broadcast, [a, b, 1] → [a, b, c]: entry (p, q, r) of the result is entry (p, q, 0) of the operand.
  • MERGING the two trailing axes, [a, b, c] → [a, d] with d = b · c: entry (o, i) of the result is entry
    (o, i / c, i % c) of the operand.
  • SPLITTING the leading axis, [n, c] → [a, b, c] with n = a · b: entry (p, q, k) of the result is entry
    (p · b + q, k) of the operand.
  The reshapes are the library's `shapeCast_apply` with the row-major positions written out, the broadcast its
  `broadcastTo_apply` axis by axis.
-/
import Idealize.ShloMosaic.Lib.Pipeline.Value
import Idealize.ShloMosaic.Lib.ValueIdx

namespace Idealize.ShloMosaic.ValueIdx

open Idealize.ShloMosaic

variable {α : Type}

/-- `[a, b]` viewed as `[a, b, 1]`: at `(p, q, u)` the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- `[a, b, 1]` broadcast to `[a, b, c]`: at `(p, q, r)` the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- `[a, b, c]` viewed as `[a, d]`, `d = b · c`: at `(o, i)` the operand at `(o, i / c, i % c)`. -/
theorem shapeCast_abc_ad_apply {a b c d : ℕ} (hd : d = b * c) (hc : 0 < c) (x : (⟨3, ![a, b, c]⟩ : Shape).Idx → α)
    (h : (⟨3, ![a, b, c]⟩ : Shape).ShapeCasts ⟨2, ![a, d]⟩) (o : Fin a) (i : Fin d) :
    shapeCast ⟨2, ![a, d]⟩ x h (ix2 o i)
      = x (ix3 o (⟨i.val / c, Nat.div_lt_of_lt_mul (lt_of_lt_of_eq i.isLt (hd.trans (Nat.mul_comm b c)))⟩ : Fin b)
          (⟨i.val % c, Nat.mod_lt _ hc⟩ : Fin c)) :=
  shapeCast_apply x h _ _ (by
    rw [Shape.rowMajor_val_three, Shape.rowMajor_val_two]
    show (o.val * b + i.val / c) * c + i.val % c = o.val * d + i.val
    rw [Nat.add_mul, Nat.add_assoc, Nat.div_add_mod' i.val c, Nat.mul_assoc, ← hd])

/-- `[n, c]` viewed as `[a, b, c]`, `n = a · b`: at `(p, q, k)` the operand at `(p · b + q, k)`. -/
theorem shapeCast_nc_abc_apply {a b c n : ℕ} (hn : n = a * b) (x : (⟨2, ![n, c]⟩ : Shape).Idx → α)
    (h : (⟨2, ![n, c]⟩ : Shape).ShapeCasts ⟨3, ![a, b, c]⟩) (p : Fin a) (q : Fin b) (k : Fin c) :
    shapeCast ⟨3, ![a, b, c]⟩ x h (ix3 p q k)
      = x (ix2 (⟨p.val * b + q.val, by
            rw [hn]
            calc p.val * b + q.val < p.val * b + b := Nat.add_lt_add_left q.isLt _
              _ = (p.val + 1) * b := by rw [Nat.add_mul, Nat.one_mul]
              _ ≤ a * b := Nat.mul_le_mul_right b p.isLt⟩ : Fin n) k) :=
  shapeCast_apply x h _ _ (by
    rw [Shape.rowMajor_val_three, Shape.rowMajor_val_two]
    rfl)

end Idealize.ShloMosaic.ValueIdx
-- ==== Proof.LibLastAxis.lean ====
/-
  Arrays whose LAST axis is the one that moves, read at an index written by its coordinates.

  * a slice along the last axis of a rank-4 array: at (a, b, c, j) it reads the source at (a, b, c, o + j);
  * a trailing unit axis dropped or added by a shape cast ([a,b,c,1] ↔ [a,b,c], [a] → [a,1]), and a trailing unit axis
    broadcast ([a,b,c,1] → [a,b,c,d], as a vector broadcast and as the host's broadcast_in_dim), the host's
    broadcast_in_dim that adds the trailing unit axis, and a scalar broadcast to any shape;
  * four [a,b,c,1] arrays joined along the last axis: channel k of the result is the k-th operand;
  * a sum over all indices of a rank-3 / rank-4 shape is the iterated sum over the coordinates;
  * a sum-reduction along the last axis (rank 4 → 3, rank 3 → 2) and of an [a,1] column along axis 0, from the zero
    word, over the extended reals.
-/
import Idealize.ShloMosaic.Lib.ValueIdx
import Idealize.ShloMosaic.Lib.Pipeline.Value
import Idealize.ShloMosaic.PureOps.Ideal.Laws

namespace Idealize.ShloMosaic.ValueIdx

open Idealize.ShloMosaic

variable {α : Type}

/-! ## Indices named by their coordinates -/

/-- An index of a rank-3 shape is the one with the same three coordinates. -/
theorem idx3_eq {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun d => Fin.ext (by match d with | ⟨0, _⟩ => exact h0 | ⟨1, _⟩ => exact h1 | ⟨2, _⟩ => exact h2)

/-- An index of a rank-4 shape is the one with the same four coordinates. -/
theorem idx4_eq {n0 n1 n2 n3 : Nat} (j : (⟨4, ![n0, n1, n2, n3]⟩ : Shape).Idx) (a : Fin n0) (b : Fin n1) (c : Fin n2)
    (d : Fin n3) (h0 : (j 0).val = a.val) (h1 : (j 1).val = b.val) (h2 : (j 2).val = c.val) (h3 : (j 3).val = d.val) :
    j = ix4 a b c d :=
  funext fun e => Fin.ext (by
    match e with | ⟨0, _⟩ => exact h0 | ⟨1, _⟩ => exact h1 | ⟨2, _⟩ => exact h2 | ⟨3, _⟩ => exact h3)

/-- An index of a rank-2 shape is the one with the same two coordinates. -/
theorem idx2_eq {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-! ## A slice along the last axis -/

/-- The slice stays inside the source's last axis. -/
theorem slice4_axis3_lt {n0 n1 n2 n3 m o : Nat}
    (h : (⟨4, ![n0, n1, n2, n3]⟩ : Shape).Slices ![0, 0, 0, o] ⟨4, ![n0, n1, n2, m]⟩) (j : Fin m) : o + j.val < n3 := by
  have h3 : o + m ≤ n3 := h.2 (3 : Fin 4)
  have := j.isLt
  omega

/-- A rank-4 array cut along its last axis from `o` reads, at `(a, b, c, j)`, the source at `(a, b, c, o + j)`. -/
theorem slice4_axis3_apply {n0 n1 n2 n3 m : Nat} (o : Nat) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (c : Fin n2) (j : Fin m) :
    extractStridedSlice ⟨4, ![n0, n1, n2, m]⟩ ![0, 0, 0, o] X h (ix4 a b c j)
      = X (ix4 a b c ⟨o + j.val, slice4_axis3_lt h j⟩) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => rfl)

/-! ## A trailing unit axis -/

/-- An `[a, b, c, 1]` array cast to `[a, b, c]` reads, at `(i, j, k)`, the operand at `(i, j, k, 0)`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- An `[a, b, c]` array cast to `[a, b, c, 1]` reads, at `(i, j, k, u)`, the operand at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- An `[a]` array cast to `[a, 1]` reads, at `(i, u)`, the operand at `i`. -/
theorem shapeCast_a_a1_apply' {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, b, c, 1]` array broadcast to `[a, b, c, d]` reads, at `(i, j, k, l)`, the operand at `(i, j, k, 0)`. -/
theorem broadcastTo_abc1_abcd_apply {a b c d : ℕ} (x : (⟨4, ![a, b, c, 1]⟩ : Shape).Idx → α)
    (h : (⟨4, ![a, b, c, 1]⟩ : Shape).Broadcasts ⟨4, ![a, b, c, d]⟩) (i : Fin a) (j : Fin b) (k : Fin c) (l : Fin d) :
    broadcastTo ⟨4, ![a, b, c, d]⟩ x h (ix4 i j k l) = x (ix4 i j k (0 : Fin 1)) := by
  refine broadcastTo_apply x h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- The host's `broadcast_in_dim` of an `[a, b, c, 1]` array to `[a, b, c, d]` along the identity: the same reading. -/
theorem broadcastInDim_abc1_abcd_apply {a b c d : ℕ} (x : (⟨4, ![a, b, c, 1]⟩ : Shape).Idx → α)
    (h : (⟨4, ![a, b, c, 1]⟩ : Shape).BroadcastsInDim ⟨4, ![a, b, c, d]⟩ ![0, 1, 2, 3])
    (i : Fin a) (j : Fin b) (k : Fin c) (l : Fin d) :
    broadcastInDim ⟨4, ![a, b, c, d]⟩ (no_index ![0, 1, 2, 3]) h x (ix4 i j k l) = x (ix4 i j k (0 : Fin 1)) := by
  refine broadcastInDim_apply ![0, 1, 2, 3] h x (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- The host's `broadcast_in_dim` of an `[a, b, c]` array to `[a, b, c, 1]` (a new trailing unit axis) reads, at
    `(i, j, k, u)`, the operand at `(i, j, k)`. -/
theorem broadcastInDim_abc_abc1_apply {a b c : ℕ} (x : (⟨3, ![a, b, c]⟩ : Shape).Idx → α)
    (h : (⟨3, ![a, b, c]⟩ : Shape).BroadcastsInDim ⟨4, ![a, b, c, 1]⟩ ![0, 1, 2])
    (i : Fin a) (j : Fin b) (k : Fin c) (u : Fin 1) :
    broadcastInDim ⟨4, ![a, b, c, 1]⟩ (no_index ![0, 1, 2]) h x (ix4 i j k u) = x (ix3 i j k) := by
  refine broadcastInDim_apply ![0, 1, 2] h x (ix4 i j k u) (ix3 i j k) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A scalar broadcast by the host to any shape reads the scalar everywhere. -/
theorem broadcastInDim_scalar_apply {t : Shape} (x : (⟨0, ![]⟩ : Shape).Idx → α)
    (dims : Fin (⟨0, ![]⟩ : Shape).rank → Fin t.rank) (h : (⟨0, ![]⟩ : Shape).BroadcastsInDim t dims) (j : t.Idx) :
    broadcastInDim t (no_index dims) h x j = x ix0 :=
  broadcastInDim_apply dims h x j ix0 (fun ax => ax.elim0)

/-! ## Four unit-channel arrays joined along the last axis -/

/-- Four `[a, b, c, 1]` arrays joined along the last axis: channel `k` of the result is the `k`-th operand. -/
theorem concatenate4_last_apply {a b c : ℕ} (x0 x1 x2 x3 : (⟨4, ![a, b, c, 1]⟩ : Shape).Idx → α)
    (h : Shape.Concatenates (([⟨⟨4, ![a, b, c, 1]⟩, x0⟩, ⟨⟨4, ![a, b, c, 1]⟩, x1⟩, ⟨⟨4, ![a, b, c, 1]⟩, x2⟩,
      ⟨⟨4, ![a, b, c, 1]⟩, x3⟩] : List ((s : Shape) × (s.Idx → α))).map (·.1)) ⟨4, ![a, b, c, 4]⟩ (3 : Fin 4))
    (i : Fin a) (j : Fin b) (k : Fin c) (l : Fin 4) :
    concatenate ⟨4, ![a, b, c, 4]⟩ (3 : Fin 4) [⟨⟨4, ![a, b, c, 1]⟩, x0⟩, ⟨⟨4, ![a, b, c, 1]⟩, x1⟩,
        ⟨⟨4, ![a, b, c, 1]⟩, x2⟩, ⟨⟨4, ![a, b, c, 1]⟩, x3⟩] h (ix4 i j k l)
      = ![x0 (ix4 i j k (0 : Fin 1)), x1 (ix4 i j k (0 : Fin 1)), x2 (ix4 i j k (0 : Fin 1)),
          x3 (ix4 i j k (0 : Fin 1))] l := by
  have hi : ∀ bx : Fin (⟨4, ![a, b, c, 1]⟩ : Shape).rank, bx.cast rfl ≠ (3 : Fin 4) →
      ((ix4 i j k (0 : Fin 1)) bx).val = ((ix4 i j k l) (bx.cast rfl)).val := fun bx hb => by
    match bx with
    | ⟨0, _⟩ => rfl
    | ⟨1, _⟩ => rfl
    | ⟨2, _⟩ => rfl
    | ⟨3, _⟩ => exact absurd rfl hb
  let xs : List ((s : Shape) × (s.Idx → α)) := [⟨⟨4, ![a, b, c, 1]⟩, x0⟩, ⟨⟨4, ![a, b, c, 1]⟩, x1⟩,
    ⟨⟨4, ![a, b, c, 1]⟩, x2⟩, ⟨⟨4, ![a, b, c, 1]⟩, x3⟩]
  match l with
  | ⟨0, hl⟩ =>
    exact concatenate_apply_piece (3 : Fin 4) xs h (ix4 i j k ⟨0, hl⟩) 0 (by show (0 : Nat) < 4; decide) _ x0 rfl rfl 0 rfl (ix4 i j k (0 : Fin 1)) hi (by rfl)
  | ⟨1, hl⟩ =>
    exact concatenate_apply_piece (3 : Fin 4) xs h (ix4 i j k ⟨1, hl⟩) 1 (by show (1 : Nat) < 4; decide) _ x1 rfl rfl 1 rfl (ix4 i j k (0 : Fin 1)) hi (by rfl)
  | ⟨2, hl⟩ =>
    exact concatenate_apply_piece (3 : Fin 4) xs h (ix4 i j k ⟨2, hl⟩) 2 (by show (2 : Nat) < 4; decide) _ x2 rfl rfl 2 rfl (ix4 i j k (0 : Fin 1)) hi (by rfl)
  | ⟨3, hl⟩ =>
    exact concatenate_apply_piece (3 : Fin 4) xs h (ix4 i j k ⟨3, hl⟩) 3 (by show (3 : Nat) < 4; decide) _ x3 rfl rfl 3 rfl (ix4 i j k (0 : Fin 1)) hi (by rfl)

/-! ## Sums over all indices -/

/-- A rank-3 index set is the product of its coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## Sum-reductions from the zero word, over the extended reals

The accumulator's neutrality is stated as the printed operations carry it: the zero word equals itself. -/

/-- A sum along the last axis of an `[a, b, c, K]` array read at `(i, j, k)`: `∑ l, src (i, j, k, l)`. -/
theorem multiReduction_add_last4_apply {a b c K : ℕ} (src : FVec Ideal ⟨4, ![a, b, c, K]⟩ .f32)
    (hr : (⟨4, ![a, b, c, K]⟩ : Shape).Reduces [3] ⟨3, ![a, b, c]⟩) (hφ : FKind.Formats .f32)
    (hacc : (0x00000000#32 : BitVec 32) = 0x00000000#32) (i : Fin a) (j : Fin b) (k : Fin c) :
    multiReduction .add [3] ⟨3, ![a, b, c]⟩ src 0x00000000#32 hr hφ hacc (ix3 i j k)
      = ∑ l : Fin K, src (ix4 i j k l) :=
  (Ideal.multiReduction_add_single src _ hr hφ hacc (ix3 i j k)).trans
    (Finset.sum_congr rfl fun l _ => congrArg src (idx4_eq _ i j k l rfl rfl rfl rfl))

/-- A sum along the last axis of an `[a, b, K]` array read at `(i, j)`: `∑ l, src (i, j, l)`. -/
theorem multiReduction_add_last3_apply {a b K : ℕ} (src : FVec Ideal ⟨3, ![a, b, K]⟩ .f32)
    (hr : (⟨3, ![a, b, K]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 hr hφ hacc (ix2 i j) = ∑ l : Fin K, src (ix3 i j l) :=
  (Ideal.multiReduction_add_single src _ hr hφ hacc (ix2 i j)).trans
    (Finset.sum_congr rfl fun l _ => congrArg src (idx3_eq _ i j l rfl rfl rfl))

/-- A sum along the last axis of an `[a, K]` array read at `i`: `∑ l, src (i, l)`. -/
theorem multiReduction_add_last2_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 hr hφ hacc (ix1 i) = ∑ l : Fin K, src (ix2 i l) :=
  (Ideal.multiReduction_add_single src _ hr hφ hacc (ix1 i)).trans
    (Finset.sum_congr rfl fun l _ => congrArg src (idx2_eq _ i l rfl rfl))

/-- A sum down an `[a, 1]` column (axis 0) read at its one index: `∑ i, src (i, 0)`. -/
theorem multiReduction_add_col_apply {a : ℕ} (src : FVec Ideal ⟨2, ![a, 1]⟩ .f32)
    (hr : (⟨2, ![a, 1]⟩ : Shape).Reduces [0] ⟨1, ![1]⟩) (hφ : FKind.Formats .f32)
    (hacc : (0x00000000#32 : BitVec 32) = 0x00000000#32) (u : Fin 1) :
    multiReduction .add [0] ⟨1, ![1]⟩ src 0x00000000#32 hr hφ hacc (ix1 u) = ∑ i : Fin a, src (ix2 i (0 : Fin 1)) :=
  (Ideal.multiReduction_add_single src _ hr hφ hacc (ix1 u)).trans
    (Finset.sum_congr rfl fun i _ => congrArg src (idx2_eq _ i (0 : Fin 1) rfl (by
      have h1 : ((hr.lift (ix1 u) i) 1).val < 1 := ((hr.lift (ix1 u) i) 1).isLt
      show ((hr.lift (ix1 u) i) 1).val = 0
      omega)))

/-! ## Summing a whole array one axis at a time

A rank-3 (rank-4) array is summed entirely by reducing its last axis repeatedly down to a vector, casting the vector to
a column, reducing the column and casting the one entry to a 1×1 matrix: that entry is the iterated sum. -/

/-- Every entry of an `[a, b, c]` array, summed axis by axis into a 1×1 matrix. -/
theorem sumAll3_apply {a b c : ℕ} (v : FVec Ideal ⟨3, ![a, b, c]⟩ .f32)
    (h2 : (⟨3, ![a, b, c]⟩ : Shape).Reduces [2] ⟨2, ![a, b]⟩) (h1 : (⟨2, ![a, b]⟩ : Shape).Reduces [1] ⟨1, ![a]⟩)
    (hc : (⟨1, ![a]⟩ : Shape).ShapeCasts ⟨2, ![a, 1]⟩) (h0 : (⟨2, ![a, 1]⟩ : Shape).Reduces [0] ⟨1, ![1]⟩)
    (hc' : (⟨1, ![1]⟩ : Shape).ShapeCasts ⟨2, ![1, 1]⟩) (hφ : FKind.Formats .f32)
    (hacc : (0x00000000#32 : BitVec 32) = 0x00000000#32) :
    shapeCast ⟨2, ![1, 1]⟩ (multiReduction .add [0] ⟨1, ![1]⟩ (shapeCast ⟨2, ![a, 1]⟩
        (multiReduction .add [1] ⟨1, ![a]⟩ (multiReduction .add [2] ⟨2, ![a, b]⟩ v 0x00000000#32 h2 hφ hacc)
          0x00000000#32 h1 hφ hacc) hc) 0x00000000#32 h0 hφ hacc) hc' (ix2 (0 : Fin 1) (0 : Fin 1))
      = ∑ i : Fin a, ∑ j : Fin b, ∑ k : Fin c, v (ix3 i j k) := by
  rw [shapeCast_a_a1_apply', multiReduction_add_col_apply]
  refine Finset.sum_congr rfl fun i _ => ?_
  rw [shapeCast_a_a1_apply', multiReduction_add_last2_apply]
  refine Finset.sum_congr rfl fun j _ => ?_
  rw [multiReduction_add_last3_apply]

/-- Every entry of an `[a, b, c, d]` array, summed axis by axis into a 1×1 matrix. -/
theorem sumAll4_apply {a b c d : ℕ} (v : FVec Ideal ⟨4, ![a, b, c, d]⟩ .f32)
    (h3 : (⟨4, ![a, b, c, d]⟩ : Shape).Reduces [3] ⟨3, ![a, b, c]⟩)
    (h2 : (⟨3, ![a, b, c]⟩ : Shape).Reduces [2] ⟨2, ![a, b]⟩) (h1 : (⟨2, ![a, b]⟩ : Shape).Reduces [1] ⟨1, ![a]⟩)
    (hc : (⟨1, ![a]⟩ : Shape).ShapeCasts ⟨2, ![a, 1]⟩) (h0 : (⟨2, ![a, 1]⟩ : Shape).Reduces [0] ⟨1, ![1]⟩)
    (hc' : (⟨1, ![1]⟩ : Shape).ShapeCasts ⟨2, ![1, 1]⟩) (hφ : FKind.Formats .f32)
    (hacc : (0x00000000#32 : BitVec 32) = 0x00000000#32) :
    shapeCast ⟨2, ![1, 1]⟩ (multiReduction .add [0] ⟨1, ![1]⟩ (shapeCast ⟨2, ![a, 1]⟩
        (multiReduction .add [1] ⟨1, ![a]⟩ (multiReduction .add [2] ⟨2, ![a, b]⟩
          (multiReduction .add [3] ⟨3, ![a, b, c]⟩ v 0x00000000#32 h3 hφ hacc) 0x00000000#32 h2 hφ hacc)
          0x00000000#32 h1 hφ hacc) hc) 0x00000000#32 h0 hφ hacc) hc' (ix2 (0 : Fin 1) (0 : Fin 1))
      = ∑ i : Fin a, ∑ j : Fin b, ∑ k : Fin c, ∑ l : Fin d, v (ix4 i j k l) := by
  rw [shapeCast_a_a1_apply', multiReduction_add_col_apply]
  refine Finset.sum_congr rfl fun i _ => ?_
  rw [shapeCast_a_a1_apply', multiReduction_add_last2_apply]
  refine Finset.sum_congr rfl fun j _ => ?_
  rw [multiReduction_add_last3_apply]
  refine Finset.sum_congr rfl fun k _ => ?_
  rw [multiReduction_add_last4_apply]

/-! ## The host's pointwise operations at an index (definitional) -/

section Pointwise
variable {F : FTy → Type} [FloatOps F] {s : Shape} {φ : FTy}

theorem hostDivf_apply (x y : FVec F s φ) (i : s.Idx) : Host.divf x y i = FloatOps.hostDivf (x i) (y i) := rfl
theorem hostSqrt_apply (x : FVec F s φ) (i : s.Idx) : Host.sqrt x i = FloatOps.hostUnary .sqrt (x i) := rfl
theorem sqrt_apply (x : FVec F s φ) (i : s.Idx) : sqrt x i = FloatOps.sqrt (x i) := rfl
theorem uitofp_apply {w : Nat} (x : IVec s w) (i : s.Idx) : (uitofp φ x : FVec F s φ) i = FloatOps.uitofp φ (x i) := rfl

end Pointwise

end Idealize.ShloMosaic.ValueIdx
-- ==== Proof.PayIdeal.lean ====
/-
  The kernel's arithmetic, read at an index over the extended reals.

  Each payload of the three kernel bodies is a short composition of vector operations.  Here every payload is read at an
  entry named by its coordinates: the projections are a row-by-column sum plus the bias; a tile step of the streaming
  softmax is the scaled row-by-row scores q·kᵀ, the running maximum against the tile's maximum, the rescaling factor
  exp(m − m'), the shifted scores, and the two rescaled sums  a·l + Σ exp(e)  and  a·acc + Σ exp(e)·v ; the closing
  quotient is acc / l ; the resets are −∞, 0, 0 ; the remaining payloads are same-shape casts, i.e. identities.
-/
import proofs.«107194_j39247411150862_2_alg».proof.Proof.Gen.KernelIdeal.Skeleton
import Idealize.ShloMosaic.Lib.ValueIdx
import Idealize.ShloMosaic.Lib.ValueLayout
import Idealize.ShloMosaic.PureOps.Ideal.Laws
import proofs.«107194_j39247411150862_2_alg».proof.Proof.LibDotBatchT
import proofs.«107194_j39247411150862_2_alg».proof.Proof.LibDotBatch
import proofs.«107194_j39247411150862_2_alg».proof.Proof.LibDot
import proofs.«107194_j39247411150862_2_alg».proof.Proof.LibLastMax
import proofs.«107194_j39247411150862_2_alg».proof.Proof.LibReshape
import proofs.«107194_j39247411150862_2_alg».proof.Proof.LibLastAxis

namespace Cert.Proof.PayIdeal

open Idealize.ShloMosaic Idealize.ShloMosaic.ValueIdx Cert.KernelIdeal Cert.KernelIdeal.Gen

/-! ## Words -/

/-- The word 0xFF800000 is −∞. -/
theorem ofBits_neg_inf : Ideal.ofBits .f32 0xFF800000#32 = ⊥ := by simp [Ideal.ofBits, Ideal.ieee]

/-- An exponential at an index is the exponential of the element. -/
theorem expv_apply {s : Shape} {φ : FTy} (a : FVec Ideal s φ) (i : s.Idx) : exp a i = Ideal.exp (a i) := rfl

/-! ## The dimension numbers of the four batched products and of the projections' product -/

/-- Scores of a tile: [1,8,1024] against [1,1024,1024], rows against rows. -/
theorem dims_scores_tile :
    Cert.LibDotBatchT.BatchedT (B := 1) (M := 8) (K := 1024) (N := 1024)
      dot_S1x8x1024_S1x1024x1024_S1x8x1024_2_2_1_1_0_0 where
  hrank := rfl
  hs := rfl
  hl0 := fun j k => by
    unfold DotDims.lhsIdx
    rw [dif_pos (show (0 : Fin S1x8x1024.rank) ∈ dot_S1x8x1024_S1x1024x1024_S1x8x1024_2_2_1_1_0_0.lhsBatch by decide)]
    rfl
  hl1 := fun j k => by
    unfold DotDims.lhsIdx
    rw [dif_neg (show ¬(1 : Fin S1x8x1024.rank) ∈ dot_S1x8x1024_S1x1024x1024_S1x8x1024_2_2_1_1_0_0.lhsBatch by decide),
      dif_pos (show (1 : Fin S1x8x1024.rank) ∈ dot_S1x8x1024_S1x1024x1024_S1x8x1024_2_2_1_1_0_0.lhsNonContracting by decide)]
    rfl
  hl2 := fun j k => dot_S1x8x1024_S1x1024x1024_S1x8x1024_2_2_1_1_0_0.lhsIdx_val_of_single rfl j k
  hr0 := fun j k => by
    unfold DotDims.rhsIdx
    rw [dif_pos (show (0 : Fin S1x1024x1024.rank) ∈ dot_S1x8x1024_S1x1024x1024_S1x8x1024_2_2_1_1_0_0.rhsBatch by decide)]
    rfl
  hr1 := fun j k => by
    unfold DotDims.rhsIdx
    rw [dif_neg (show ¬(1 : Fin S1x1024x1024.rank) ∈ dot_S1x8x1024_S1x1024x1024_S1x8x1024_2_2_1_1_0_0.rhsBatch by decide),
      dif_pos (show (1 : Fin S1x1024x1024.rank) ∈ dot_S1x8x1024_S1x1024x1024_S1x8x1024_2_2_1_1_0_0.rhsNonContracting by decide)]
    rfl
  hr2 := fun j k => dot_S1x8x1024_S1x1024x1024_S1x8x1024_2_2_1_1_0_0.rhsIdx_val_of_single rfl j k

/-- Weights against a tile's values: [1,8,1024] against [1,1024,1024], rows against columns. -/
theorem dims_pv_tile :
    Cert.LibDotBatch.Batched (B := 1) (M := 8) (K := 1024) (N := 1024)
      dot_S1x8x1024_S1x1024x1024_S1x8x1024_2_1_1_2_0_0 where
  hrank := rfl
  hs := rfl
  hl0 := fun j k => by
    unfold DotDims.lhsIdx
    rw [dif_pos (show (0 : Fin S1x8x1024.rank) ∈ dot_S1x8x1024_S1x1024x1024_S1x8x1024_2_1_1_2_0_0.lhsBatch by decide)]
    rfl
  hl1 := fun j k => by
    unfold DotDims.lhsIdx
    rw [dif_neg (show ¬(1 : Fin S1x8x1024.rank) ∈ dot_S1x8x1024_S1x1024x1024_S1x8x1024_2_1_1_2_0_0.lhsBatch by decide),
      dif_pos (show (1 : Fin S1x8x1024.rank) ∈ dot_S1x8x1024_S1x1024x1024_S1x8x1024_2_1_1_2_0_0.lhsNonContracting by decide)]
    rfl
  hl2 := fun j k => dot_S1x8x1024_S1x1024x1024_S1x8x1024_2_1_1_2_0_0.lhsIdx_val_of_single rfl j k
  hr0 := fun j k => by
    unfold DotDims.rhsIdx
    rw [dif_pos (show (0 : Fin S1x1024x1024.rank) ∈ dot_S1x8x1024_S1x1024x1024_S1x8x1024_2_1_1_2_0_0.rhsBatch by decide)]
    rfl
  hr1 := fun j k => dot_S1x8x1024_S1x1024x1024_S1x8x1024_2_1_1_2_0_0.rhsIdx_val_of_single rfl j k
  hr2 := fun j k => by
    unfold DotDims.rhsIdx
    rw [dif_neg (show ¬(2 : Fin S1x1024x1024.rank) ∈ dot_S1x8x1024_S1x1024x1024_S1x8x1024_2_1_1_2_0_0.rhsBatch by decide),
      dif_pos (show (2 : Fin S1x1024x1024.rank) ∈ dot_S1x8x1024_S1x1024x1024_S1x8x1024_2_1_1_2_0_0.rhsNonContracting by decide)]
    rfl

/-- Scores of the eight new rows: [1,8,1024] against [1,8,1024], rows against rows. -/
theorem dims_scores_tail :
    Cert.LibDotBatchT.BatchedT (B := 1) (M := 8) (K := 1024) (N := 8)
      dot_S1x8x1024_S1x8x1024_S1x8x8_2_2_1_1_0_0 where
  hrank := rfl
  hs := rfl
  hl0 := fun j k => by
    unfold DotDims.lhsIdx
    rw [dif_pos (show (0 : Fin S1x8x1024.rank) ∈ dot_S1x8x1024_S1x8x1024_S1x8x8_2_2_1_1_0_0.lhsBatch by decide)]
    rfl
  hl1 := fun j k => by
    unfold DotDims.lhsIdx
    rw [dif_neg (show ¬(1 : Fin S1x8x1024.rank) ∈ dot_S1x8x1024_S1x8x1024_S1x8x8_2_2_1_1_0_0.lhsBatch by decide),
      dif_pos (show (1 : Fin S1x8x1024.rank) ∈ dot_S1x8x1024_S1x8x1024_S1x8x8_2_2_1_1_0_0.lhsNonContracting by decide)]
    rfl
  hl2 := fun j k => dot_S1x8x1024_S1x8x1024_S1x8x8_2_2_1_1_0_0.lhsIdx_val_of_single rfl j k
  hr0 := fun j k => by
    unfold DotDims.rhsIdx
    rw [dif_pos (show (0 : Fin S1x8x1024.rank) ∈ dot_S1x8x1024_S1x8x1024_S1x8x8_2_2_1_1_0_0.rhsBatch by decide)]
    rfl
  hr1 := fun j k => by
    unfold DotDims.rhsIdx
    rw [dif_neg (show ¬(1 : Fin S1x8x1024.rank) ∈ dot_S1x8x1024_S1x8x1024_S1x8x8_2_2_1_1_0_0.rhsBatch by decide),
      dif_pos (show (1 : Fin S1x8x1024.rank) ∈ dot_S1x8x1024_S1x8x1024_S1x8x8_2_2_1_1_0_0.rhsNonContracting by decide)]
    rfl
  hr2 := fun j k => dot_S1x8x1024_S1x8x1024_S1x8x8_2_2_1_1_0_0.rhsIdx_val_of_single rfl j k

/-- Weights against the eight new value rows: [1,8,8] against [1,8,1024], rows against columns. -/
theorem dims_pv_tail :
    Cert.LibDotBatch.Batched (B := 1) (M := 8) (K := 8) (N := 1024)
      dot_S1x8x8_S1x8x1024_S1x8x1024_2_1_1_2_0_0 where
  hrank := rfl
  hs := rfl
  hl0 := fun j k => by
    unfold DotDims.lhsIdx
    rw [dif_pos (show (0 : Fin S1x8x8.rank) ∈ dot_S1x8x8_S1x8x1024_S1x8x1024_2_1_1_2_0_0.lhsBatch by decide)]
    rfl
  hl1 := fun j k => by
    unfold DotDims.lhsIdx
    rw [dif_neg (show ¬(1 : Fin S1x8x8.rank) ∈ dot_S1x8x8_S1x8x1024_S1x8x1024_2_1_1_2_0_0.lhsBatch by decide),
      dif_pos (show (1 : Fin S1x8x8.rank) ∈ dot_S1x8x8_S1x8x1024_S1x8x1024_2_1_1_2_0_0.lhsNonContracting by decide)]
    rfl
  hl2 := fun j k => dot_S1x8x8_S1x8x1024_S1x8x1024_2_1_1_2_0_0.lhsIdx_val_of_single rfl j k
  hr0 := fun j k => by
    unfold DotDims.rhsIdx
    rw [dif_pos (show (0 : Fin S1x8x1024.rank) ∈ dot_S1x8x8_S1x8x1024_S1x8x1024_2_1_1_2_0_0.rhsBatch by decide)]
    rfl
  hr1 := fun j k => dot_S1x8x8_S1x8x1024_S1x8x1024_2_1_1_2_0_0.rhsIdx_val_of_single rfl j k
  hr2 := fun j k => by
    unfold DotDims.rhsIdx
    rw [dif_neg (show ¬(2 : Fin S1x8x1024.rank) ∈ dot_S1x8x8_S1x8x1024_S1x8x1024_2_1_1_2_0_0.rhsBatch by decide),
      dif_pos (show (2 : Fin S1x8x1024.rank) ∈ dot_S1x8x8_S1x8x1024_S1x8x1024_2_1_1_2_0_0.rhsNonContracting by decide)]
    rfl

/-- The projections: [256,1024] against [1024,1024], rows against columns. -/
theorem dims_proj :
    Cert.LibDot.Plain (M := 256) (K := 1024) (N := 1024) dot_S256x1024_S1024x1024_S256x1024_1_0_0_1_n_n where
  hrank := rfl
  hs := rfl
  hl0 := fun j k => by
    unfold DotDims.lhsIdx
    rw [dif_neg (show ¬(0 : Fin S256x1024.rank) ∈ dot_S256x1024_S1024x1024_S256x1024_1_0_0_1_n_n.lhsBatch by decide),
      dif_pos (show (0 : Fin S256x1024.rank) ∈ dot_S256x1024_S1024x1024_S256x1024_1_0_0_1_n_n.lhsNonContracting by decide)]
    rfl
  hl1 := fun j k => dot_S256x1024_S1024x1024_S256x1024_1_0_0_1_n_n.lhsIdx_val_of_single rfl j k
  hr0 := fun j k => dot_S256x1024_S1024x1024_S256x1024_1_0_0_1_n_n.rhsIdx_val_of_single rfl j k
  hr1 := fun j k => by
    unfold DotDims.rhsIdx
    rw [dif_neg (show ¬(1 : Fin S1024x1024.rank) ∈ dot_S256x1024_S1024x1024_S256x1024_1_0_0_1_n_n.rhsBatch by decide),
      dif_pos (show (1 : Fin S1024x1024.rank) ∈ dot_S256x1024_S1024x1024_S256x1024_1_0_0_1_n_n.rhsNonContracting by decide)]
    rfl

/-! ## The tile step (1024 cached keys) -/

/-- The scaled scores of a tile: q · kᵀ into the zero accumulator, times the scale. -/
theorem pay18_apply (Qb : Vec Ideal S1x8x1024 .f32) (Kt : Vec Ideal S1x1024x1024 .f32) (q : Fin 8) (j : Fin 1024) :
    k1_pay18 (F := Ideal) Qb Kt (ix3 (0 : Fin 1) q j)
      = (∑ d : Fin 1024, Qb (ix3 (0 : Fin 1) q d) * Kt (ix3 (0 : Fin 1) j d)) * Ideal.ofBits .f32 0x3D000000#32 := by
  unfold k1_pay18 k1_pay17
  rw [mulf_apply, broadcast_apply, shapeCast_self]
  exact congrArg (· * Ideal.ofBits .f32 0x3D000000#32)
    (Cert.LibDotBatchT.matmul_ix3 dims_scores_tile (some .fp32) Qb Kt (0 : Fin 1) q j)

/-- The new running maximum: the old one against the tile's maximum, folded from −∞. -/
theorem pay19_apply (Qb : Vec Ideal S1x8x1024 .f32) (Kt : Vec Ideal S1x1024x1024 .f32) (m : Vec Ideal S1x8x1 .f32)
    (q : Fin 8) :
    k1_pay19 (F := Ideal) Qb Kt m (ix3 (0 : Fin 1) q (0 : Fin 1))
      = max (m (ix3 (0 : Fin 1) q (0 : Fin 1)) : EReal)
          ((Finset.univ : Finset (Fin 1024)).fold max (⊥ : EReal)
            fun j => (k1_pay18 (F := Ideal) Qb Kt (ix3 (0 : Fin 1) q j) : EReal)) := by
  unfold k1_pay19
  rw [maximumf_apply]
  refine congrArg (max (m (ix3 (0 : Fin 1) q (0 : Fin 1)) : EReal)) ?_
  refine (shapeCast_ab_ab1_apply _ _ (0 : Fin 1) q (0 : Fin 1)).trans ?_
  refine (multiReduction_max_last_apply _ _ _ _ _ (0 : Fin 1) q).trans ?_
  rw [ofBits_neg_inf]

/-- The rescaling factor exp(m − m'). -/
theorem pay20_apply (Qb : Vec Ideal S1x8x1024 .f32) (Kt : Vec Ideal S1x1024x1024 .f32) (m m' : Vec Ideal S1x8x1 .f32)
    (q : Fin 8) :
    k1_pay20 (F := Ideal) Qb Kt m m' (ix3 (0 : Fin 1) q (0 : Fin 1))
      = Ideal.exp ((m' (ix3 (0 : Fin 1) q (0 : Fin 1)) : EReal) - k1_pay19 (F := Ideal) Qb Kt m (ix3 (0 : Fin 1) q (0 : Fin 1))) := rfl

/-- The shifted scores. -/
theorem pay21_apply (Qb : Vec Ideal S1x8x1024 .f32) (Kt : Vec Ideal S1x1024x1024 .f32) (m : Vec Ideal S1x8x1 .f32)
    (q : Fin 8) (j : Fin 1024) :
    k1_pay21 (F := Ideal) Qb Kt m (ix3 (0 : Fin 1) q j)
      = (k1_pay18 (F := Ideal) Qb Kt (ix3 (0 : Fin 1) q j) : EReal) - k1_pay19 (F := Ideal) Qb Kt m (ix3 (0 : Fin 1) q (0 : Fin 1)) := by
  unfold k1_pay21
  rw [subf_apply, broadcastTo_ab1_abc_apply]

/-- The exponentials of the shifted scores. -/
theorem pay1_apply (e : FVec Ideal S1x8x1024 .f32) (i : S1x8x1024.Idx) :
    k1_pay1 (F := Ideal) e i = Ideal.exp (e i) := rfl

/-- The new normalizer: a · l + Σ_j exp(e_j). -/
theorem pay2_apply (a : FVec Ideal S1x8x1 .f32) (e : FVec Ideal S1x8x1024 .f32) (l : Vec Ideal S1x8x1 .f32) (q : Fin 8) :
    k1_pay2 (F := Ideal) a e l (ix3 (0 : Fin 1) q (0 : Fin 1))
      = (a (ix3 (0 : Fin 1) q (0 : Fin 1)) : EReal) * l (ix3 (0 : Fin 1) q (0 : Fin 1)) + ∑ j : Fin 1024, Ideal.exp (e (ix3 (0 : Fin 1) q j)) := by
  unfold k1_pay2
  rw [shapeCast_self, addf_apply, mulf_apply]
  refine congrArg (fun x : EReal => (a (ix3 (0 : Fin 1) q (0 : Fin 1)) : EReal) * l (ix3 (0 : Fin 1) q (0 : Fin 1)) + x) ?_
  refine (shapeCast_ab_ab1_apply _ _ (0 : Fin 1) q (0 : Fin 1)).trans ?_
  exact multiReduction_add_last3_apply _ _ _ _ (0 : Fin 1) q

/-- The new weighted sum: a · acc + Σ_j exp(e_j) · v_j. -/
theorem pay3_apply (Vt : Vec Ideal S1x1024x1024 .f32) (a : FVec Ideal S1x8x1 .f32) (e : FVec Ideal S1x8x1024 .f32)
    (acc : Vec Ideal S1x8x1024 .f32) (q : Fin 8) (f : Fin 1024) :
    k1_pay3 (F := Ideal) Vt a e acc (ix3 (0 : Fin 1) q f)
      = (a (ix3 (0 : Fin 1) q (0 : Fin 1)) : EReal) * acc (ix3 (0 : Fin 1) q f)
        + ∑ j : Fin 1024, Ideal.exp (e (ix3 (0 : Fin 1) q j)) * Vt (ix3 (0 : Fin 1) j f) := by
  unfold k1_pay3
  rw [shapeCast_self, addf_apply, mulf_apply, broadcastTo_ab1_abc_apply]
  exact congrArg (fun x : EReal => (a (ix3 (0 : Fin 1) q (0 : Fin 1)) : EReal) * acc (ix3 (0 : Fin 1) q f) + x)
    (Cert.LibDotBatch.matmul_ix3 dims_pv_tile (some .fp32) (k1_pay1 (F := Ideal) e) Vt (0 : Fin 1) q f)

/-! ## Same-shape casts, the resets and the closing quotient -/

section AnyInstance
variable {F : FTy → Type} [FloatOps F]

theorem pay4_eq (v : FVec F S1x8x1 .f32) : k1_pay4 v = v := shapeCast_self _ _
theorem pay5_eq (v : FVec F S1x8x1024 .f32) : k1_pay5 v = v := shapeCast_self _ _
theorem pay6_eq (v : FVec F S1x8x1 .f32) : k1_pay6 v = v := shapeCast_self _ _
theorem pay17_eq (v : Vec F S1x8x1024 .f32) : k1_pay17 v = v := shapeCast_self _ _
theorem k0_pay1_eq (v : Vec F S256x1024 .f32) : k0_pay1 v = v := shapeCast_self _ _
theorem k2_pay1_eq (v : Vec F S1x8x1024 .f32) : k2_pay1 v = v := shapeCast_self _ _
theorem k2_pay2_eq (v : Vec F S1x8x1024 .f32) : k2_pay2 v = v := shapeCast_self _ _

end AnyInstance

/-- The running maximum is reset to −∞ … -/
theorem pay14_apply (i : S1x8x1.Idx) : k1_pay14 (F := Ideal) i = (⊥ : EReal) := by
  unfold k1_pay14
  rw [shapeCast_self, broadcast_apply]
  exact ofBits_neg_inf

/-- … the normalizer to 0 … -/
theorem pay15_apply (i : S1x8x1.Idx) : k1_pay15 (F := Ideal) i = (0 : EReal) := by
  unfold k1_pay15
  rw [shapeCast_self, broadcast_apply]
  exact Ideal.ofBits_zero_f32

/-- … and the weighted sum to 0. -/
theorem pay16_apply (i : S1x8x1024.Idx) : k1_pay16 (F := Ideal) i = (0 : EReal) := by
  unfold k1_pay16
  rw [shapeCast_self, broadcast_apply]
  exact Ideal.ofBits_zero_f32

/-- The closing quotient acc / l. -/
theorem pay7_apply (acc : Vec Ideal S1x8x1024 .f32) (l : Vec Ideal S1x8x1 .f32) (q : Fin 8) (f : Fin 1024) :
    k1_pay7 (F := Ideal) acc l (ix3 (0 : Fin 1) q f) = Ideal.div (acc (ix3 (0 : Fin 1) q f)) (l (ix3 (0 : Fin 1) q (0 : Fin 1))) := by
  unfold k1_pay7
  rw [divf_apply, broadcastTo_ab1_abc_apply]

/-! ## The tail step (the 8 new keys) -/

/-- The scaled scores of the new rows. -/
theorem pay8_apply (Qb : FVec Ideal S1x8x1024 .f32) (Kn : Vec Ideal S1x8x1024 .f32) (q j : Fin 8) :
    k1_pay8 (F := Ideal) Qb Kn (ix3 (0 : Fin 1) q j)
      = (∑ d : Fin 1024, Qb (ix3 (0 : Fin 1) q d) * Kn (ix3 (0 : Fin 1) j d)) * Ideal.ofBits .f32 0x3D000000#32 := by
  unfold k1_pay8
  rw [mulf_apply, broadcast_apply, shapeCast_self]
  exact congrArg (· * Ideal.ofBits .f32 0x3D000000#32)
    (Cert.LibDotBatchT.matmul_ix3 dims_scores_tail (some .fp32) Qb Kn (0 : Fin 1) q j)

/-- The new running maximum. -/
theorem pay9_apply (Qb : FVec Ideal S1x8x1024 .f32) (Kn : Vec Ideal S1x8x1024 .f32) (m : Vec Ideal S1x8x1 .f32)
    (q : Fin 8) :
    k1_pay9 (F := Ideal) Qb Kn m (ix3 (0 : Fin 1) q (0 : Fin 1))
      = max (m (ix3 (0 : Fin 1) q (0 : Fin 1)) : EReal)
          ((Finset.univ : Finset (Fin 8)).fold max (⊥ : EReal)
            fun j => (k1_pay8 (F := Ideal) Qb Kn (ix3 (0 : Fin 1) q j) : EReal)) := by
  unfold k1_pay9
  rw [maximumf_apply]
  refine congrArg (max (m (ix3 (0 : Fin 1) q (0 : Fin 1)) : EReal)) ?_
  refine (shapeCast_ab_ab1_apply _ _ (0 : Fin 1) q (0 : Fin 1)).trans ?_
  refine (multiReduction_max_last_apply _ _ _ _ _ (0 : Fin 1) q).trans ?_
  rw [ofBits_neg_inf]

/-- The rescaling factor. -/
theorem pay10_apply (Qb : FVec Ideal S1x8x1024 .f32) (Kn : Vec Ideal S1x8x1024 .f32) (m m' : Vec Ideal S1x8x1 .f32)
    (q : Fin 8) :
    k1_pay10 (F := Ideal) Qb Kn m m' (ix3 (0 : Fin 1) q (0 : Fin 1))
      = Ideal.exp ((m' (ix3 (0 : Fin 1) q (0 : Fin 1)) : EReal) - k1_pay9 (F := Ideal) Qb Kn m (ix3 (0 : Fin 1) q (0 : Fin 1))) := rfl

/-- The exponentials of the shifted scores. -/
theorem pay11_apply (Qb : FVec Ideal S1x8x1024 .f32) (Kn : Vec Ideal S1x8x1024 .f32) (m : Vec Ideal S1x8x1 .f32)
    (q j : Fin 8) :
    k1_pay11 (F := Ideal) Qb Kn m (ix3 (0 : Fin 1) q j)
      = Ideal.exp ((k1_pay8 (F := Ideal) Qb Kn (ix3 (0 : Fin 1) q j) : EReal)
          - k1_pay9 (F := Ideal) Qb Kn m (ix3 (0 : Fin 1) q (0 : Fin 1))) := by
  unfold k1_pay11
  rw [expv_apply, subf_apply, broadcastTo_ab1_abc_apply]

/-- The new normalizer. -/
theorem pay12_apply (Qb : FVec Ideal S1x8x1024 .f32) (Kn : Vec Ideal S1x8x1024 .f32) (m m' l : Vec Ideal S1x8x1 .f32)
    (q : Fin 8) :
    k1_pay12 (F := Ideal) Qb Kn m m' l (ix3 (0 : Fin 1) q (0 : Fin 1))
      = (k1_pay10 (F := Ideal) Qb Kn m m' (ix3 (0 : Fin 1) q (0 : Fin 1)) : EReal) * l (ix3 (0 : Fin 1) q (0 : Fin 1))
        + ∑ j : Fin 8, (k1_pay11 (F := Ideal) Qb Kn m (ix3 (0 : Fin 1) q j) : EReal) := by
  unfold k1_pay12
  rw [shapeCast_self, addf_apply, mulf_apply]
  refine congrArg (fun x : EReal =>
    (k1_pay10 (F := Ideal) Qb Kn m m' (ix3 (0 : Fin 1) q (0 : Fin 1)) : EReal) * l (ix3 (0 : Fin 1) q (0 : Fin 1)) + x) ?_
  refine (shapeCast_ab_ab1_apply _ _ (0 : Fin 1) q (0 : Fin 1)).trans ?_
  exact multiReduction_add_last3_apply _ _ _ _ (0 : Fin 1) q

/-- The new weighted sum. -/
theorem pay13_apply (Qb : FVec Ideal S1x8x1024 .f32) (Kn Vn : Vec Ideal S1x8x1024 .f32) (m m' : Vec Ideal S1x8x1 .f32)
    (acc : Vec Ideal S1x8x1024 .f32) (q : Fin 8) (f : Fin 1024) :
    k1_pay13 (F := Ideal) Qb Kn Vn m m' acc (ix3 (0 : Fin 1) q f)
      = (k1_pay10 (F := Ideal) Qb Kn m m' (ix3 (0 : Fin 1) q (0 : Fin 1)) : EReal) * acc (ix3 (0 : Fin 1) q f)
        + ∑ j : Fin 8, (k1_pay11 (F := Ideal) Qb Kn m (ix3 (0 : Fin 1) q j) : EReal) * Vn (ix3 (0 : Fin 1) j f) := by
  unfold k1_pay13
  rw [addf_apply, mulf_apply, broadcastTo_ab1_abc_apply, shapeCast_self]
  exact congrArg (fun x : EReal =>
      (k1_pay10 (F := Ideal) Qb Kn m m' (ix3 (0 : Fin 1) q (0 : Fin 1)) : EReal) * acc (ix3 (0 : Fin 1) q f) + x)
    (Cert.LibDotBatch.matmul_ix3 dims_pv_tail (some .fp32) (k1_pay11 (F := Ideal) Qb Kn m) Vn (0 : Fin 1) q f)

/-! ## The projections -/

/-- A projection: the rows of x against the columns of W, plus the bias row. -/
theorem k0_pay2_apply (x : Vec Ideal S256x1024 .f32) (W : Vec Ideal S1024x1024 .f32) (b : Vec Ideal S1x1024 .f32)
    (r : Fin 256) (f : Fin 1024) :
    k0_pay2 (F := Ideal) x W b (ix2 r f)
      = (∑ d : Fin 1024, x (ix2 r d) * W (ix2 d f)) + b (ix2 (0 : Fin 1) f) := by
  unfold k0_pay2 k0_pay1
  rw [addf_apply, shapeCast_self, shapeCast_self, broadcastTo_1b_ab_apply]
  exact congrArg (fun y : EReal => y + (b (ix2 (0 : Fin 1) f) : EReal))
    (Cert.LibDot.matmul_ix2 dims_proj (some .fp32) x W r f)

/-- The second projection. -/
theorem k0_pay3_apply (x : Vec Ideal S256x1024 .f32) (W : Vec Ideal S1024x1024 .f32) (b : Vec Ideal S1x1024 .f32)
    (r : Fin 256) (f : Fin 1024) :
    k0_pay3 (F := Ideal) x W b (ix2 r f)
      = (∑ d : Fin 1024, x (ix2 r d) * W (ix2 d f)) + b (ix2 (0 : Fin 1) f) := by
  unfold k0_pay3 k0_pay1
  rw [addf_apply, shapeCast_self, shapeCast_self, broadcastTo_1b_ab_apply]
  exact congrArg (fun y : EReal => y + (b (ix2 (0 : Fin 1) f) : EReal))
    (Cert.LibDot.matmul_ix2 dims_proj (some .fp32) x W r f)

/-- The third projection. -/
theorem k0_pay4_apply (x : Vec Ideal S256x1024 .f32) (W : Vec Ideal S1024x1024 .f32) (b : Vec Ideal S1x1024 .f32)
    (r : Fin 256) (f : Fin 1024) :
    k0_pay4 (F := Ideal) x W b (ix2 r f)
      = (∑ d : Fin 1024, x (ix2 r d) * W (ix2 d f)) + b (ix2 (0 : Fin 1) f) := by
  unfold k0_pay4 k0_pay1
  rw [addf_apply, shapeCast_self, shapeCast_self, broadcastTo_1b_ab_apply]
  exact congrArg (fun y : EReal => y + (b (ix2 (0 : Fin 1) f) : EReal))
    (Cert.LibDot.matmul_ix2 dims_proj (some .fp32) x W r f)

end Cert.Proof.PayIdeal
-- ==== Proof.SpecDefs.lean ====
/- The attention block's formulas over plain arrays of extended reals, and the constants they use: the projections
   x·W + b, the concatenation of a cache with the new rows, the scaled scores q·kᵀ·(1/√1024), the softmax shift
   (the maximum over the keys, taken from −∞). No program is mentioned here. -/
import Idealize.ShloMosaic.Lib.ValueIdx
import Idealize.ShloMosaic.PureOps.Ideal.Laws

noncomputable section

namespace Cert.Proof.RefValue

open Idealize.ShloMosaic Idealize.ShloMosaic.ValueIdx

/-! ## The formulas -/

/-- A projection: row (bb, s) of x times column f of W, plus the bias at f. -/
def proj (x : (⟨3, ![32, 8, 1024]⟩ : Shape).Idx → EReal) (W : (⟨2, ![1024, 1024]⟩ : Shape).Idx → EReal)
    (b : (⟨1, ![1024]⟩ : Shape).Idx → EReal) (bb : Fin 32) (s : Fin 8) (f : Fin 1024) : EReal :=
  (∑ d : Fin 1024, x (ix3 bb s d) * W (ix2 d f)) + b (ix1 f)

/-- The cache followed by the eight new rows, along the middle axis. -/
def catAt (cache : (⟨3, ![32, 4096, 1024]⟩ : Shape).Idx → EReal) (new : Fin 32 → Fin 8 → Fin 1024 → EReal)
    (bb : Fin 32) (j : Fin 4104) (f : Fin 1024) : EReal :=
  if h : j.val < 4096 then cache (ix3 bb ⟨j.val, h⟩ f) else new bb ⟨j.val - 4096, by have := j.isLt; omega⟩ f

/-- The keys: the key cache followed by the new key rows. -/
abbrev keysAt := catAt
/-- The values: the value cache followed by the new value rows. -/
abbrev valsAt := catAt

/-- The reference's scale factor, 1 / sqrt 1024, as its program spells it. -/
def scale : EReal := Ideal.div (Ideal.ofBits .f32 0x3F800000#32) (Ideal.sqrt (Ideal.ofBits .f32 0x44800000#32))

/-- A scaled score: query row (bb, q) against key row (bb, j). -/
def score (Q : Fin 32 → Fin 8 → Fin 1024 → EReal) (K : Fin 32 → Fin 4104 → Fin 1024 → EReal)
    (bb : Fin 32) (q : Fin 8) (j : Fin 4104) : EReal :=
  (∑ d : Fin 1024, Q bb q d * K bb j d) * scale

/-- The reference softmax's shift for one row of scores: the maximum of −∞ with the maximum folded from −∞. -/
def Mx (sc : Fin 4104 → EReal) : EReal :=
  max (Ideal.ofBits .f32 0xFF800000#32) ((Finset.univ : Finset (Fin 4104)).fold max (Ideal.ofBits .f32 0xFF800000#32) sc)

/-! ## The constants -/

/-- The pattern of −∞ denotes the bottom element. -/
theorem ofBits_neg_inf : Ideal.ofBits .f32 0xFF800000#32 = ⊥ := by simp [Ideal.ofBits, Ideal.ieee]

/-- The pattern of 1.0 denotes the extended real one. -/
theorem ofBits_one : Ideal.ofBits .f32 0x3F800000#32 = 1 := by
  rw [show (1 : EReal) = ((1 : ℝ) : EReal) by norm_cast]
  simp [Ideal.ofBits, Ideal.ieee, -EReal.coe_mul]; norm_num

/-- The pattern of 1024.0 denotes the real 1024. -/
theorem ofBits_1024 : Ideal.ofBits .f32 0x44800000#32 = ((1024 : ℝ) : EReal) := by
  simp [Ideal.ofBits, Ideal.ieee, -EReal.coe_mul]; norm_num

/-- The pattern 0x3D000000 denotes the real 2⁻⁵ = 1/32. -/
theorem ofBits_inv32 : Ideal.ofBits .f32 0x3D000000#32 = (((1 : ℝ) / 32 : ℝ) : EReal) := by
  simp [Ideal.ofBits, Ideal.ieee, -EReal.coe_mul]; norm_num

/-- The reference's scale 1 / sqrt 1024 is the real 1/32, since 1024 = 32². -/
theorem scale_real : scale = (((1 : ℝ) / 32 : ℝ) : EReal) := by
  unfold scale
  rw [ofBits_1024, ofBits_one, Ideal.sqrt_coe, if_neg (by norm_num),
    show (1024 : ℝ) = 32 ^ 2 by norm_num, Real.sqrt_sq (by norm_num), Ideal.div_coe (by norm_num), one_mul]

/-- … which is what the kernel's scale literal denotes. -/
theorem scale_eq : scale = Ideal.ofBits .f32 0x3D000000#32 := by rw [scale_real, ofBits_inv32]

/-- The reference's shift, with −∞ written as the bottom element. -/
theorem Mx_eq (sc : Fin 4104 → EReal) : Mx sc = max ⊥ ((Finset.univ : Finset (Fin 4104)).fold max ⊥ sc) := by
  unfold Mx; rw [ofBits_neg_inf]

end Cert.Proof.RefValue

end
-- ==== Proof.LibFlatten.lean ====
/-
  Two row-major reshapes read at an index given by coordinates.
  • MERGING the two leading axes, [a, b, c] → [n, c] with n = a · b: entry (j, k) of the result is entry
    (j / b, j % b, k) of the operand.
  • SPLITTING the last axis, [n, d] → [n, b, c] with d = b · c: entry (i, p, q) of the result is entry
    (i, p · c + q) of the operand.
  Both are the library's `shapeCast_apply` with the row-major positions written out.
-/
import Idealize.ShloMosaic.Lib.Pipeline.Value
import Idealize.ShloMosaic.Lib.ValueIdx

namespace Idealize.ShloMosaic.ValueIdx

open Idealize.ShloMosaic

variable {α : Type}

/-- `[a, b, c]` viewed as `[n, c]`, `n = a · b`: at `(j, k)` the operand at `(j / b, j % b, k)`. -/
theorem shapeCast_abc_nc_apply {a b c n : ℕ} (hn : n = a * b) (hb : 0 < b) (x : (⟨3, ![a, b, c]⟩ : Shape).Idx → α)
    (h : (⟨3, ![a, b, c]⟩ : Shape).ShapeCasts ⟨2, ![n, c]⟩) (j : Fin n) (k : Fin c) :
    shapeCast ⟨2, ![n, c]⟩ x h (ix2 j k)
      = x (ix3 (⟨j.val / b, Nat.div_lt_of_lt_mul (lt_of_lt_of_eq j.isLt (hn.trans (Nat.mul_comm a b)))⟩ : Fin a)
          (⟨j.val % b, Nat.mod_lt _ hb⟩ : Fin b) k) :=
  shapeCast_apply x h _ _ (by
    rw [Shape.rowMajor_val_three, Shape.rowMajor_val_two]
    show (j.val / b * b + j.val % b) * c + k.val = j.val * c + k.val
    rw [Nat.div_add_mod'])

/-- `[n, d]` viewed as `[n, b, c]`, `d = b · c`: at `(i, p, q)` the operand at `(i, p · c + q)`. -/
theorem shapeCast_nd_nbc_apply {n b c d : ℕ} (hd : d = b * c) (x : (⟨2, ![n, d]⟩ : Shape).Idx → α)
    (h : (⟨2, ![n, d]⟩ : Shape).ShapeCasts ⟨3, ![n, b, c]⟩) (i : Fin n) (p : Fin b) (q : Fin c) :
    shapeCast ⟨3, ![n, b, c]⟩ x h (ix3 i p q)
      = x (ix2 i (⟨p.val * c + q.val, by
            rw [hd]
            calc p.val * c + q.val < p.val * c + c := Nat.add_lt_add_left q.isLt _
              _ = (p.val + 1) * c := by rw [Nat.add_mul, Nat.one_mul]
              _ ≤ b * c := Nat.mul_le_mul_right c p.isLt⟩ : Fin d)) :=
  shapeCast_apply x h _ _ (by
    rw [Shape.rowMajor_val_three, Shape.rowMajor_val_two]
    show i.val * d + (p.val * c + q.val) = (i.val * b + p.val) * c + q.val
    rw [hd, Nat.add_mul, Nat.mul_assoc, Nat.add_assoc])

end Idealize.ShloMosaic.ValueIdx
-- ==== Proof.KI_ValHost.lean ====
/-
  The kernel program's values at the ideal instance, from the launch memory to the attention launch's entry.
  The first host stretch lays the input out as [256, 1024] rows (row 8·b + s is row s of batch b) and each bias as a
  [1, 1024] row; the projection launch writes x·W + b for the three weight matrices; the second host stretch views
  those [256, 1024] results as [32, 8, 1024] again.  So the attention launch finds k_new, v_new and q_new at the three
  projections of the input, and the two caches as launched.
-/
import proofs.«107194_j39247411150862_2_alg».proof.Proof.KI_Halves
import proofs.«107194_j39247411150862_2_alg».proof.Proof.KI_Val0
import proofs.«107194_j39247411150862_2_alg».proof.Proof.PayIdeal
import proofs.«107194_j39247411150862_2_alg».proof.Proof.SpecDefs
import proofs.«107194_j39247411150862_2_alg».proof.Proof.LibFlatten
import proofs.«107194_j39247411150862_2_alg».proof.Proof.LibReshape
import Idealize.ShloMosaic.Lib.ValueLayout
import Idealize.ShloMosaic.Lib.StableHlo.Run

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## After the first host stretch -/

theorem V1_v0_apply (r : Fin 256) (d : Fin 1024) :
    (V1 m ρ c main_v0 : Vec Ideal S256x1024 .f32) (ix2 r d)
      = m ((c.tc : Thread nD τ).loc main_arg0) (ix3 (⟨r.val / 8, by have := r.isLt; omega⟩ : Fin 32) (⟨r.val % 8, Nat.mod_lt _ (by norm_num)⟩ : Fin 8) d) := by
  have e : (V1 m ρ c main_v0 : Vec Ideal S256x1024 .f32)
      = shapeCast S256x1024 (m ((c.tc : Thread nD τ).loc main_arg0) : Vec Ideal S32x8x1024 .f32) shapeCasts_S32x8x1024_S256x1024 := by
    show StableHlo.after hostOps0 (W0 m ρ c) (Proc.devRef .tc main_v0) = _
    after_results; rfl
  rw [e]
  exact shapeCast_abc_nc_apply (a := 32) (b := 8) (c := 1024) (n := 256) rfl (by norm_num) _ _ r d

theorem V1_main_v1_apply (f : Fin 1024) :
    (V1 m ρ c main_v1 : Vec Ideal S1x1024 .f32) (ix2 (0 : Fin 1) f) = m ((c.tc : Thread nD τ).loc main_arg4) (ix1 f) := by
  have e : (V1 m ρ c main_v1 : Vec Ideal S1x1024 .f32)
      = shapeCast S1x1024 (m ((c.tc : Thread nD τ).loc main_arg4) : Vec Ideal S1024 .f32) shapeCasts_S1024_S1x1024 := by
    show StableHlo.after hostOps0 (W0 m ρ c) (Proc.devRef .tc main_v1) = _
    after_results; rfl
  rw [e]
  exact shapeCast_a_1a_apply _ _ (0 : Fin 1) f

theorem V1_main_v2_apply (f : Fin 1024) :
    (V1 m ρ c main_v2 : Vec Ideal S1x1024 .f32) (ix2 (0 : Fin 1) f) = m ((c.tc : Thread nD τ).loc main_arg6) (ix1 f) := by
  have e : (V1 m ρ c main_v2 : Vec Ideal S1x1024 .f32)
      = shapeCast S1x1024 (m ((c.tc : Thread nD τ).loc main_arg6) : Vec Ideal S1024 .f32) shapeCasts_S1024_S1x1024 := by
    show StableHlo.after hostOps0 (W0 m ρ c) (Proc.devRef .tc main_v2) = _
    after_results; rfl
  rw [e]
  exact shapeCast_a_1a_apply _ _ (0 : Fin 1) f

theorem V1_main_v3_apply (f : Fin 1024) :
    (V1 m ρ c main_v3 : Vec Ideal S1x1024 .f32) (ix2 (0 : Fin 1) f) = m ((c.tc : Thread nD τ).loc main_arg8) (ix1 f) := by
  have e : (V1 m ρ c main_v3 : Vec Ideal S1x1024 .f32)
      = shapeCast S1x1024 (m ((c.tc : Thread nD τ).loc main_arg8) : Vec Ideal S1024 .f32) shapeCasts_S1024_S1x1024 := by
    show StableHlo.after hostOps0 (W0 m ρ c) (Proc.devRef .tc main_v3) = _
    after_results; rfl
  rw [e]
  exact shapeCast_a_1a_apply _ _ (0 : Fin 1) f

theorem V1_main_arg3 : V1 m ρ c main_arg3 = m ((c.tc : Thread nD τ).loc main_arg3) := W1_keep m ρ c main_arg3 (by decide)
theorem V1_main_arg5 : V1 m ρ c main_arg5 = m ((c.tc : Thread nD τ).loc main_arg5) := W1_keep m ρ c main_arg5 (by decide)
theorem V1_main_arg7 : V1 m ρ c main_arg7 = m ((c.tc : Thread nD τ).loc main_arg7) := W1_keep m ρ c main_arg7 (by decide)

/-! ## After the projection launch and the second host stretch -/

theorem V2_main_v4_0_apply (r : Fin 256) (f : Fin 1024) :
    (V2 dat0 m ρ c main_v4_0 : Vec Ideal S256x1024 .f32) (ix2 r f)
      = Cert.Proof.RefValue.proj (m ((c.tc : Thread nD τ).loc main_arg0)) (m ((c.tc : Thread nD τ).loc main_arg3)) (m ((c.tc : Thread nD τ).loc main_arg4))
          ⟨r.val / 8, by have := r.isLt; omega⟩ ⟨r.val % 8, Nat.mod_lt _ (by norm_num)⟩ f := by
  rw [show (V2 dat0 m ρ c main_v4_0 : Vec Ideal S256x1024 .f32) = G0_7 (V1 m ρ) c from (W2_arr dat0 m ρ c 7).trans (arrAt0_7 (V1 m ρ) c)]
  unfold G0_7
  rw [Cert.Proof.PayIdeal.k0_pay2_apply]
  unfold Cert.Proof.RefValue.proj
  exact congrArg₂ (fun a b : EReal => a + b)
    (Finset.sum_congr rfl fun d _ => by rw [V1_v0_apply m ρ c r d, V1_main_arg3 m ρ c]) (V1_main_v1_apply m ρ c f)

theorem V3_main_v5_apply (b : Fin 32) (s : Fin 8) (f : Fin 1024) :
    (V3 dat0 m ρ c main_v5 : Vec Ideal S32x8x1024 .f32) (ix3 b s f)
      = Cert.Proof.RefValue.proj (m ((c.tc : Thread nD τ).loc main_arg0)) (m ((c.tc : Thread nD τ).loc main_arg3)) (m ((c.tc : Thread nD τ).loc main_arg4)) b s f := by
  have e : (V3 dat0 m ρ c main_v5 : Vec Ideal S32x8x1024 .f32)
      = shapeCast S32x8x1024 (V2 dat0 m ρ c main_v4_0 : Vec Ideal S256x1024 .f32) shapeCasts_S256x1024_S32x8x1024 := by
    show StableHlo.after hostOps1 (W2 dat0 m ρ c) (Proc.devRef .tc main_v5) = _
    after_results; rfl
  rw [e, shapeCast_nc_abc_apply (a := 32) (b := 8) (c := 1024) (n := 256) rfl, V2_main_v4_0_apply]
  have hb : (⟨(b.val * 8 + s.val) / 8, by have := b.isLt; have := s.isLt; omega⟩ : Fin 32) = b := Fin.ext (by have := s.isLt; show (b.val * 8 + s.val) / 8 = b.val; omega)
  have hs : (⟨(b.val * 8 + s.val) % 8, Nat.mod_lt _ (by norm_num)⟩ : Fin 8) = s := Fin.ext (by have := s.isLt; show (b.val * 8 + s.val) % 8 = s.val; omega)
  exact congrArg₂ (fun (p : Fin 32) (q : Fin 8) => Cert.Proof.RefValue.proj _ _ _ p q f) hb hs

theorem V2_main_v4_1_apply (r : Fin 256) (f : Fin 1024) :
    (V2 dat0 m ρ c main_v4_1 : Vec Ideal S256x1024 .f32) (ix2 r f)
      = Cert.Proof.RefValue.proj (m ((c.tc : Thread nD τ).loc main_arg0)) (m ((c.tc : Thread nD τ).loc main_arg5)) (m ((c.tc : Thread nD τ).loc main_arg6))
          ⟨r.val / 8, by have := r.isLt; omega⟩ ⟨r.val % 8, Nat.mod_lt _ (by norm_num)⟩ f := by
  rw [show (V2 dat0 m ρ c main_v4_1 : Vec Ideal S256x1024 .f32) = G0_8 (V1 m ρ) c from (W2_arr dat0 m ρ c 8).trans (arrAt0_8 (V1 m ρ) c)]
  unfold G0_8
  rw [Cert.Proof.PayIdeal.k0_pay3_apply]
  unfold Cert.Proof.RefValue.proj
  exact congrArg₂ (fun a b : EReal => a + b)
    (Finset.sum_congr rfl fun d _ => by rw [V1_v0_apply m ρ c r d, V1_main_arg5 m ρ c]) (V1_main_v2_apply m ρ c f)

theorem V3_main_v6_apply (b : Fin 32) (s : Fin 8) (f : Fin 1024) :
    (V3 dat0 m ρ c main_v6 : Vec Ideal S32x8x1024 .f32) (ix3 b s f)
      = Cert.Proof.RefValue.proj (m ((c.tc : Thread nD τ).loc main_arg0)) (m ((c.tc : Thread nD τ).loc main_arg5)) (m ((c.tc : Thread nD τ).loc main_arg6)) b s f := by
  have e : (V3 dat0 m ρ c main_v6 : Vec Ideal S32x8x1024 .f32)
      = shapeCast S32x8x1024 (V2 dat0 m ρ c main_v4_1 : Vec Ideal S256x1024 .f32) shapeCasts_S256x1024_S32x8x1024 := by
    show StableHlo.after hostOps1 (W2 dat0 m ρ c) (Proc.devRef .tc main_v6) = _
    after_results; rfl
  rw [e, shapeCast_nc_abc_apply (a := 32) (b := 8) (c := 1024) (n := 256) rfl, V2_main_v4_1_apply]
  have hb : (⟨(b.val * 8 + s.val) / 8, by have := b.isLt; have := s.isLt; omega⟩ : Fin 32) = b := Fin.ext (by have := s.isLt; show (b.val * 8 + s.val) / 8 = b.val; omega)
  have hs : (⟨(b.val * 8 + s.val) % 8, Nat.mod_lt _ (by norm_num)⟩ : Fin 8) = s := Fin.ext (by have := s.isLt; show (b.val * 8 + s.val) % 8 = s.val; omega)
  exact congrArg₂ (fun (p : Fin 32) (q : Fin 8) => Cert.Proof.RefValue.proj _ _ _ p q f) hb hs

theorem V2_main_v4_2_apply (r : Fin 256) (f : Fin 1024) :
    (V2 dat0 m ρ c main_v4_2 : Vec Ideal S256x1024 .f32) (ix2 r f)
      = Cert.Proof.RefValue.proj (m ((c.tc : Thread nD τ).loc main_arg0)) (m ((c.tc : Thread nD τ).loc main_arg7)) (m ((c.tc : Thread nD τ).loc main_arg8))
          ⟨r.val / 8, by have := r.isLt; omega⟩ ⟨r.val % 8, Nat.mod_lt _ (by norm_num)⟩ f := by
  rw [show (V2 dat0 m ρ c main_v4_2 : Vec Ideal S256x1024 .f32) = G0_9 (V1 m ρ) c from (W2_arr dat0 m ρ c 9).trans (arrAt0_9 (V1 m ρ) c)]
  unfold G0_9
  rw [Cert.Proof.PayIdeal.k0_pay4_apply]
  unfold Cert.Proof.RefValue.proj
  exact congrArg₂ (fun a b : EReal => a + b)
    (Finset.sum_congr rfl fun d _ => by rw [V1_v0_apply m ρ c r d, V1_main_arg7 m ρ c]) (V1_main_v3_apply m ρ c f)

theorem V3_main_v7_apply (b : Fin 32) (s : Fin 8) (f : Fin 1024) :
    (V3 dat0 m ρ c main_v7 : Vec Ideal S32x8x1024 .f32) (ix3 b s f)
      = Cert.Proof.RefValue.proj (m ((c.tc : Thread nD τ).loc main_arg0)) (m ((c.tc : Thread nD τ).loc main_arg7)) (m ((c.tc : Thread nD τ).loc main_arg8)) b s f := by
  have e : (V3 dat0 m ρ c main_v7 : Vec Ideal S32x8x1024 .f32)
      = shapeCast S32x8x1024 (V2 dat0 m ρ c main_v4_2 : Vec Ideal S256x1024 .f32) shapeCasts_S256x1024_S32x8x1024 := by
    show StableHlo.after hostOps1 (W2 dat0 m ρ c) (Proc.devRef .tc main_v7) = _
    after_results; rfl
  rw [e, shapeCast_nc_abc_apply (a := 32) (b := 8) (c := 1024) (n := 256) rfl, V2_main_v4_2_apply]
  have hb : (⟨(b.val * 8 + s.val) / 8, by have := b.isLt; have := s.isLt; omega⟩ : Fin 32) = b := Fin.ext (by have := s.isLt; show (b.val * 8 + s.val) / 8 = b.val; omega)
  have hs : (⟨(b.val * 8 + s.val) % 8, Nat.mod_lt _ (by norm_num)⟩ : Fin 8) = s := Fin.ext (by have := s.isLt; show (b.val * 8 + s.val) % 8 = s.val; omega)
  exact congrArg₂ (fun (p : Fin 32) (q : Fin 8) => Cert.Proof.RefValue.proj _ _ _ p q f) hb hs

/-- The caches reach the attention launch as launched. -/
theorem V3_main_arg1 : V3 dat0 m ρ c main_arg1 = m ((c.tc : Thread nD τ).loc main_arg1) :=
  (W3_keep dat0 m ρ c main_arg1 (by decide)).trans <| (W2_keep dat0 m ρ half0 c main_arg1 (by decide)).trans <| W1_keep m ρ c main_arg1 (by decide)
theorem V3_main_arg2 : V3 dat0 m ρ c main_arg2 = m ((c.tc : Thread nD τ).loc main_arg2) :=
  (W3_keep dat0 m ρ c main_arg2 (by decide)).trans <| (W2_keep dat0 m ρ half0 c main_arg2 (by decide)).trans <| W1_keep m ρ c main_arg2 (by decide)

end Cert.KernelIdeal.HandV

end
-- ==== Proof.KI_Val2.lean ====
import proofs.«107194_j39247411150862_2_alg».proof.Proof.KI_R2
import Idealize.ShloMosaic.Lib.Pipeline.Value
import Idealize.ShloMosaic.Lib.ValueIdx
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The arrays the tail region leaves: the 8 new rows of each batch behind the 4096 cache rows -/

theorem hz3_tail : (![0, 0, 0] : Fin 3 → Nat) = fun _ => 0 := funext fun a => by fin_cases a <;> rfl

/-- The block index maps in closed form (decided over the grid): at point `t` the inputs' block is batch `t`; the
    outputs' block is batch `t`, block-row 512 (rows 4096 … 4103). -/
theorem idx2_closed : ∀ t : Fin cfg2.N, win2_0.index t (0 : Fin 3) = t.val
    ∧ win2_0.index t (1 : Fin 3) = 0
    ∧ win2_0.index t (2 : Fin 3) = 0
    ∧ win2_1.index t (0 : Fin 3) = t.val
    ∧ win2_1.index t (1 : Fin 3) = 0
    ∧ win2_1.index t (2 : Fin 3) = 0
    ∧ win2_2.index t (0 : Fin 3) = t.val
    ∧ win2_2.index t (1 : Fin 3) = 512
    ∧ win2_2.index t (2 : Fin 3) = 0
    ∧ win2_3.index t (0 : Fin 3) = t.val
    ∧ win2_3.index t (1 : Fin 3) = 512
    ∧ win2_3.index t (2 : Fin 3) = 0 :=
  (by decide +kernel : ∀ t : Fin grid2.N, _)

/-- The row of the source (8 rows per batch) that row `j` of the destination (4104 rows per batch) takes when `j ≥ 4096`. -/
def newRow (j : Fin 4104) : Fin 8 := ⟨j.val - 4096, by omega⟩

/-- The payload of window 2's store is a same-shape cast: the loaded block itself. -/
theorem pay2_2_eq (x : Vec F S1x8x1024 .f32) : k2_pay1 x = x := by
  unfold k2_pay1
  exact shapeCast_self _ _

/-- What window 2's array holds on the rows the region writes (rows 4096 and up of each batch): the new rows,
    row `r` of batch `b` from row `r - 4096` of batch `b` of the source array. -/
def G2_2 (c : Dev nD) : Vec F S32x4104x1024 .f32 :=
  fun i => V c main_v5 (ValueIdx.ix3 (i 0) (newRow (i 1)) (i 2))

/-- What point `t` writes back is block `t` of `G2_2`. -/
theorem flushed2_2_eq (c : Dev nD) (t : Fin cfg2.N) :
    (dat2 V c).flushed 2 t = ((cfg2.win 2).blk t).view.read (Elt F) (G2_2 V c) := by
  show (cfg2.win 2).cut (grid2.coords t) ((dat2 V c).after 2 t) = _
  rw [after2_2]
  unfold out2_2
  rw [View.canon_unit_zero hz3_tail]
  simp only [View.ld_unit_zero (S := S1x8x1024) hz3_tail]
  rw [pay2_2_eq]
  obtain ⟨e0_0, e0_1, e0_2, e1_0, e1_1, e1_2, e2_0, e2_1, e2_2, e3_0, e3_1, e3_2⟩ := idx2_closed t
  funext j
  show V c main_v5 (((cfg2.win 0).blk t).view.emb j) = V c main_v5 (ValueIdx.ix3 ((((cfg2.win 2).blk t).view.emb j) 0) (newRow ((((cfg2.win 2).blk t).view.emb j) 1)) ((((cfg2.win 2).blk t).view.emb j) 2))
  refine congrArg _ ?_
  have hj1 : (j 1).val < 8 := (j 1).isLt
  funext a; apply Fin.ext
  match a with
  | ⟨0, _⟩ => show win2_0.index t (0 : Fin 3) * 1 + 1 * (j 0).val = win2_2.index t (0 : Fin 3) * 1 + 1 * (j 0).val; omega
  | ⟨1, _⟩ => show win2_0.index t (1 : Fin 3) * 8 + 1 * (j 1).val = (win2_2.index t (1 : Fin 3) * 8 + 1 * (j 1).val) - 4096; omega
  | ⟨2, _⟩ => show win2_0.index t (2 : Fin 3) * 1024 + 1 * (j 2).val = win2_2.index t (2 : Fin 3) * 1024 + 1 * (j 2).val; omega

/-- An index of the array is in point `t`'s block iff each coordinate is in the block's range on its axis. -/
theorem mem_blk2_2 (t : Fin cfg2.N) (i : S32x4104x1024.Idx) :
    i ∈ ((cfg2.win 2).blk t).view.set ↔ ∀ a : Fin 3, win2_2.index t a * S1x8x1024.size a ≤ (i a).val ∧ (i a).val < win2_2.index t a * S1x8x1024.size a + S1x8x1024.size a := by
  show i ∈ ((View.whole main_v9_0).slice (win2_2.rect t)).set ↔ _
  rw [View.set_slice_whole, Rect.mem_set_unit]
  exact Iff.rfl

/-- The covered indices: in some point's block iff the row is one of the 8 new rows (4096 and up). -/
theorem covered_iff2_2 (i : S32x4104x1024.Idx) :
    (∃ t : Fin cfg2.N, (cfg2.win 2).flush t = true ∧ i ∈ ((cfg2.win 2).blk t).view.set) ↔ 4096 ≤ (i 1).val := by
  have hi0 : (i 0).val < 32 := (i 0).isLt
  have hi1 : (i 1).val < 4104 := (i 1).isLt
  have hi2 : (i 2).val < 1024 := (i 2).isLt
  constructor
  · rintro ⟨t, -, hi⟩
    rw [mem_blk2_2] at hi
    have b1 : win2_2.index t (1 : Fin 3) * 8 ≤ (i 1).val ∧ (i 1).val < win2_2.index t (1 : Fin 3) * 8 + 8 := hi 1
    obtain ⟨e0_0, e0_1, e0_2, e1_0, e1_1, e1_2, e2_0, e2_1, e2_2, e3_0, e3_1, e3_2⟩ := idx2_closed t
    omega
  · intro h
    have hN : cfg2.N = 32 := N_2
    let t : Fin cfg2.N := ⟨(i 0).val, by rw [hN]; exact hi0⟩
    have htv : t.val = (i 0).val := rfl
    refine ⟨t, flush2_2 t, ?_⟩
    rw [mem_blk2_2]
    obtain ⟨e0_0, e0_1, e0_2, e1_0, e1_1, e1_2, e2_0, e2_1, e2_2, e3_0, e3_1, e3_2⟩ := idx2_closed t
    intro a
    match a with
    | ⟨0, _⟩ => show win2_2.index t (0 : Fin 3) * 1 ≤ (i 0).val ∧ (i 0).val < win2_2.index t (0 : Fin 3) * 1 + 1; omega
    | ⟨1, _⟩ => show win2_2.index t (1 : Fin 3) * 8 ≤ (i 1).val ∧ (i 1).val < win2_2.index t (1 : Fin 3) * 8 + 8; omega
    | ⟨2, _⟩ => show win2_2.index t (2 : Fin 3) * 1024 ≤ (i 2).val ∧ (i 2).val < win2_2.index t (2 : Fin 3) * 1024 + 1024; omega

/-- The array window 2 leaves after the region, at an index: the new rows behind the cache rows, which keep the
    entry contents. -/
theorem arrAt2_2_apply (c : Dev nD) (b : Fin 32) (j : Fin 4104) (f : Fin 1024) :
    (dat2 V c).arrAt 2 cfg2.N (ValueIdx.ix3 b j f)
      = if h : 4096 ≤ j.val then V c main_v5 (ValueIdx.ix3 b ⟨j.val - 4096, by omega⟩ f) else V c main_v9_0 (ValueIdx.ix3 b j f) := by
  rw [(dat2 V c).arrAt_eq_piecewise 2 (G2_2 V c) (fun t _ => flushed2_2_eq V c t) (ValueIdx.ix3 b j f), A_eq2]
  by_cases h : 4096 ≤ j.val
  · rw [if_pos ((covered_iff2_2 (ValueIdx.ix3 b j f)).mpr h), dif_pos h]
    rfl
  · rw [if_neg (fun hc => h ((covered_iff2_2 (ValueIdx.ix3 b j f)).mp hc)), dif_neg h]

/-- The payload of window 3's store is a same-shape cast: the loaded block itself. -/
theorem pay2_3_eq (x : Vec F S1x8x1024 .f32) : k2_pay2 x = x := by
  unfold k2_pay2
  exact shapeCast_self _ _

/-- What window 3's array holds on the rows the region writes (rows 4096 and up of each batch): the new rows,
    row `r` of batch `b` from row `r - 4096` of batch `b` of the source array. -/
def G2_3 (c : Dev nD) : Vec F S32x4104x1024 .f32 :=
  fun i => V c main_v6 (ValueIdx.ix3 (i 0) (newRow (i 1)) (i 2))

/-- What point `t` writes back is block `t` of `G2_3`. -/
theorem flushed2_3_eq (c : Dev nD) (t : Fin cfg2.N) :
    (dat2 V c).flushed 3 t = ((cfg2.win 3).blk t).view.read (Elt F) (G2_3 V c) := by
  show (cfg2.win 3).cut (grid2.coords t) ((dat2 V c).after 3 t) = _
  rw [after2_3]
  unfold out2_3
  rw [View.canon_unit_zero hz3_tail]
  simp only [View.ld_unit_zero (S := S1x8x1024) hz3_tail]
  rw [pay2_3_eq]
  obtain ⟨e0_0, e0_1, e0_2, e1_0, e1_1, e1_2, e2_0, e2_1, e2_2, e3_0, e3_1, e3_2⟩ := idx2_closed t
  funext j
  show V c main_v6 (((cfg2.win 1).blk t).view.emb j) = V c main_v6 (ValueIdx.ix3 ((((cfg2.win 3).blk t).view.emb j) 0) (newRow ((((cfg2.win 3).blk t).view.emb j) 1)) ((((cfg2.win 3).blk t).view.emb j) 2))
  refine congrArg _ ?_
  have hj1 : (j 1).val < 8 := (j 1).isLt
  funext a; apply Fin.ext
  match a with
  | ⟨0, _⟩ => show win2_1.index t (0 : Fin 3) * 1 + 1 * (j 0).val = win2_3.index t (0 : Fin 3) * 1 + 1 * (j 0).val; omega
  | ⟨1, _⟩ => show win2_1.index t (1 : Fin 3) * 8 + 1 * (j 1).val = (win2_3.index t (1 : Fin 3) * 8 + 1 * (j 1).val) - 4096; omega
  | ⟨2, _⟩ => show win2_1.index t (2 : Fin 3) * 1024 + 1 * (j 2).val = win2_3.index t (2 : Fin 3) * 1024 + 1 * (j 2).val; omega

/-- An index of the array is in point `t`'s block iff each coordinate is in the block's range on its axis. -/
theorem mem_blk2_3 (t : Fin cfg2.N) (i : S32x4104x1024.Idx) :
    i ∈ ((cfg2.win 3).blk t).view.set ↔ ∀ a : Fin 3, win2_3.index t a * S1x8x1024.size a ≤ (i a).val ∧ (i a).val < win2_3.index t a * S1x8x1024.size a + S1x8x1024.size a := by
  show i ∈ ((View.whole main_v9_1).slice (win2_3.rect t)).set ↔ _
  rw [View.set_slice_whole, Rect.mem_set_unit]
  exact Iff.rfl

/-- The covered indices: in some point's block iff the row is one of the 8 new rows (4096 and up). -/
theorem covered_iff2_3 (i : S32x4104x1024.Idx) :
    (∃ t : Fin cfg2.N, (cfg2.win 3).flush t = true ∧ i ∈ ((cfg2.win 3).blk t).view.set) ↔ 4096 ≤ (i 1).val := by
  have hi0 : (i 0).val < 32 := (i 0).isLt
  have hi1 : (i 1).val < 4104 := (i 1).isLt
  have hi2 : (i 2).val < 1024 := (i 2).isLt
  constructor
  · rintro ⟨t, -, hi⟩
    rw [mem_blk2_3] at hi
    have b1 : win2_3.index t (1 : Fin 3) * 8 ≤ (i 1).val ∧ (i 1).val < win2_3.index t (1 : Fin 3) * 8 + 8 := hi 1
    obtain ⟨e0_0, e0_1, e0_2, e1_0, e1_1, e1_2, e2_0, e2_1, e2_2, e3_0, e3_1, e3_2⟩ := idx2_closed t
    omega
  · intro h
    have hN : cfg2.N = 32 := N_2
    let t : Fin cfg2.N := ⟨(i 0).val, by rw [hN]; exact hi0⟩
    have htv : t.val = (i 0).val := rfl
    refine ⟨t, flush2_3 t, ?_⟩
    rw [mem_blk2_3]
    obtain ⟨e0_0, e0_1, e0_2, e1_0, e1_1, e1_2, e2_0, e2_1, e2_2, e3_0, e3_1, e3_2⟩ := idx2_closed t
    intro a
    match a with
    | ⟨0, _⟩ => show win2_3.index t (0 : Fin 3) * 1 ≤ (i 0).val ∧ (i 0).val < win2_3.index t (0 : Fin 3) * 1 + 1; omega
    | ⟨1, _⟩ => show win2_3.index t (1 : Fin 3) * 8 ≤ (i 1).val ∧ (i 1).val < win2_3.index t (1 : Fin 3) * 8 + 8; omega
    | ⟨2, _⟩ => show win2_3.index t (2 : Fin 3) * 1024 ≤ (i 2).val ∧ (i 2).val < win2_3.index t (2 : Fin 3) * 1024 + 1024; omega

/-- The array window 3 leaves after the region, at an index: the new rows behind the cache rows, which keep the
    entry contents. -/
theorem arrAt2_3_apply (c : Dev nD) (b : Fin 32) (j : Fin 4104) (f : Fin 1024) :
    (dat2 V c).arrAt 3 cfg2.N (ValueIdx.ix3 b j f)
      = if h : 4096 ≤ j.val then V c main_v6 (ValueIdx.ix3 b ⟨j.val - 4096, by omega⟩ f) else V c main_v9_1 (ValueIdx.ix3 b j f) := by
  rw [(dat2 V c).arrAt_eq_piecewise 3 (G2_3 V c) (fun t _ => flushed2_3_eq V c t) (ValueIdx.ix3 b j f), A_eq2]
  by_cases h : 4096 ≤ j.val
  · rw [if_pos ((covered_iff2_3 (ValueIdx.ix3 b j f)).mpr h), dif_pos h]
    rfl
  · rw [if_neg (fun hc => h ((covered_iff2_3 (ValueIdx.ix3 b j f)).mp hc)), dif_neg h]

end Cert.KernelIdeal.Hand

end
-- ==== Proof.KI_Val1Copy.lean ====
import proofs.«107194_j39247411150862_2_alg».proof.Proof.KI_R1
import Idealize.ShloMosaic.Lib.Pipeline.Value
import Idealize.ShloMosaic.Lib.ValueIdx
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # The arrays the attention region's two copy windows leave: the cache rows, copied tile by tile -/

theorem hz3c : (![0, 0, 0] : Fin 3 → Nat) = fun _ => 0 := funext fun a => by fin_cases a <;> rfl

/-- The block index maps of the two cache inputs and the two copy outputs agree at every point, stay in range, and no
    block of the copy outputs is cut at the array's end (decided over the grid). -/
theorem idx1_copy : ∀ t : Fin cfg1.N,
    win1_1.index t (0 : Fin 3) = win1_6.index t (0 : Fin 3) ∧ win1_1.index t (1 : Fin 3) = win1_6.index t (1 : Fin 3) ∧ win1_1.index t (2 : Fin 3) = win1_6.index t (2 : Fin 3)
    ∧ win1_2.index t (0 : Fin 3) = win1_7.index t (0 : Fin 3) ∧ win1_2.index t (1 : Fin 3) = win1_7.index t (1 : Fin 3) ∧ win1_2.index t (2 : Fin 3) = win1_7.index t (2 : Fin 3)
    ∧ win1_6.index t (0 : Fin 3) ≤ 31 ∧ win1_6.index t (1 : Fin 3) ≤ 3 ∧ win1_6.index t (2 : Fin 3) = 0
    ∧ win1_7.index t (0 : Fin 3) ≤ 31 ∧ win1_7.index t (1 : Fin 3) ≤ 3 ∧ win1_7.index t (2 : Fin 3) = 0
    ∧ win1_6.xsize (grid1.coords t) (0 : Fin 3) = 1 ∧ win1_6.xsize (grid1.coords t) (1 : Fin 3) = 1024 ∧ win1_6.xsize (grid1.coords t) (2 : Fin 3) = 1024
    ∧ win1_7.xsize (grid1.coords t) (0 : Fin 3) = 1 ∧ win1_7.xsize (grid1.coords t) (1 : Fin 3) = 1024 ∧ win1_7.xsize (grid1.coords t) (2 : Fin 3) = 1024 :=
  (by decide +kernel : ∀ t : Fin grid1.N, _)

/-! ## The found pieces of the copy windows, case by case -/

/-- Case A: the one piece stored into window 6's buffer is the loaded key tile, whole. -/
theorem out1_A_6_eq (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) :
    out1_A_6 c i arg2 harg2 arg3 harg3 arg4 harg4 arg5 harg5 arg6 harg6 arg7 harg7 arg8 harg8 arg9 harg9 arg10 harg10 arg11 harg11 arg12 harg12 hc0 hc1 x0 x1 x2 x3 x4 = x1 := by
  unfold out1_A_6
  rw [View.read_writes_eq_canon _ _ _ (cover1_A_6 c i arg2 harg2 arg3 harg3 arg4 harg4 arg5 harg5 arg6 harg6 arg7 harg7 arg8 harg8 arg9 harg9 arg10 harg10 arg11 harg11 arg12 harg12 hc0 hc1 x0 x1 x2 x3 x4)]
  unfold kernelRun1_A
  dsimp only
  sl_unfold_words
  rw [View.canon_unit_zero hz3c]
  simp only [View.readAt_eq_ld, harg3.read_unread, View.ld_unit_zero (S := S1x1024x1024) hz3c]

/-- Case A: the one piece stored into window 7's buffer is the loaded value tile, whole. -/
theorem out1_A_7_eq (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) :
    out1_A_7 c i arg2 harg2 arg3 harg3 arg4 harg4 arg5 harg5 arg6 harg6 arg7 harg7 arg8 harg8 arg9 harg9 arg10 harg10 arg11 harg11 arg12 harg12 hc0 hc1 x0 x1 x2 x3 x4 = x2 := by
  unfold out1_A_7
  rw [View.read_writes_eq_canon _ _ _ (cover1_A_7 c i arg2 harg2 arg3 harg3 arg4 harg4 arg5 harg5 arg6 harg6 arg7 harg7 arg8 harg8 arg9 harg9 arg10 harg10 arg11 harg11 arg12 harg12 hc0 hc1 x0 x1 x2 x3 x4)]
  unfold kernelRun1_A
  dsimp only
  sl_unfold_words
  rw [View.canon_unit_zero hz3c]
  simp only [View.readAt_eq_ld, harg4.read_unread, View.ld_unit_zero (S := S1x1024x1024) hz3c]

/-- Case B: the one piece stored into window 6's buffer is the loaded key tile, whole. -/
theorem out1_B_6_eq (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) :
    out1_B_6 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = x1 := by
  unfold out1_B_6
  rw [View.read_writes_eq_canon _ _ _ (cover1_B_6 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun1_B
  dsimp only
  sl_unfold_words
  rw [View.canon_unit_zero hz3c]
  simp only [View.readAt_eq_ld, harg3.read_unread, View.ld_unit_zero (S := S1x1024x1024) hz3c]

/-- Case B: the one piece stored into window 7's buffer is the loaded value tile, whole. -/
theorem out1_B_7_eq (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) :
    out1_B_7 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = x2 := by
  unfold out1_B_7
  rw [View.read_writes_eq_canon _ _ _ (cover1_B_7 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun1_B
  dsimp only
  sl_unfold_words
  rw [View.canon_unit_zero hz3c]
  simp only [View.readAt_eq_ld, harg4.read_unread, View.ld_unit_zero (S := S1x1024x1024) hz3c]

/-- Case C: the one piece stored into window 6's buffer is the loaded key tile, whole. -/
theorem out1_C_6_eq (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) :
    out1_C_6 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = x1 := by
  unfold out1_C_6
  rw [View.read_writes_eq_canon _ _ _ (cover1_C_6 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun1_C
  dsimp only
  sl_unfold_words
  rw [View.canon_unit_zero hz3c]
  simp only [View.readAt_eq_ld, harg3.read_unread, View.ld_unit_zero (S := S1x1024x1024) hz3c]

/-- Case C: the one piece stored into window 7's buffer is the loaded value tile, whole. -/
theorem out1_C_7_eq (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) :
    out1_C_7 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = x2 := by
  unfold out1_C_7
  rw [View.read_writes_eq_canon _ _ _ (cover1_C_7 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun1_C
  dsimp only
  sl_unfold_words
  rw [View.canon_unit_zero hz3c]
  simp only [View.readAt_eq_ld, harg4.read_unread, View.ld_unit_zero (S := S1x1024x1024) hz3c]

/-! ## What every point leaves in the copy windows -/

/-- At every point, whatever the case, window 6's buffer is left holding the key cache tile the point fetched. -/
theorem outs1_6 (c : Dev nD) (t : Fin cfg1.N) : ((outsAt1 V c t.val t.isLt).2.1 : Vec F S1x1024x1024 .f32) = iblk1 V c 1 t := by
  by_cases h0 : t.val % 4 = 0
  · have h1 : ¬t.val % 4 = 3 := by omega
    rw [outsAt1_A V c t h0 h1]
    dsimp only [pt1_A]
    exact out1_A_6_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)
  · by_cases h1 : t.val % 4 = 3
    · rw [outsAt1_C V c t h0 h1]
      generalize (outsAt1 V c (t.val - 1) (Nat.lt_of_le_of_lt (Nat.sub_le _ _) t.isLt)) = p
      dsimp only [pt1_C]
      exact out1_C_6_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.2.2.1 p.2.2.2.2.1 p.2.2.2.2.2
    · rw [outsAt1_B V c t h0 h1]
      generalize (outsAt1 V c (t.val - 1) (Nat.lt_of_le_of_lt (Nat.sub_le _ _) t.isLt)) = p
      dsimp only [pt1_B]
      exact out1_B_6_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.2.2.1 p.2.2.2.2.1 p.2.2.2.2.2

/-- At every point, whatever the case, window 7's buffer is left holding the value cache tile the point fetched. -/
theorem outs1_7 (c : Dev nD) (t : Fin cfg1.N) : ((outsAt1 V c t.val t.isLt).2.2.1 : Vec F S1x1024x1024 .f32) = iblk1 V c 2 t := by
  by_cases h0 : t.val % 4 = 0
  · have h1 : ¬t.val % 4 = 3 := by omega
    rw [outsAt1_A V c t h0 h1]
    dsimp only [pt1_A]
    exact out1_A_7_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)
  · by_cases h1 : t.val % 4 = 3
    · rw [outsAt1_C V c t h0 h1]
      generalize (outsAt1 V c (t.val - 1) (Nat.lt_of_le_of_lt (Nat.sub_le _ _) t.isLt)) = p
      dsimp only [pt1_C]
      exact out1_C_7_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.2.2.1 p.2.2.2.2.1 p.2.2.2.2.2
    · rw [outsAt1_B V c t h0 h1]
      generalize (outsAt1 V c (t.val - 1) (Nat.lt_of_le_of_lt (Nat.sub_le _ _) t.isLt)) = p
      dsimp only [pt1_B]
      exact out1_B_7_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.2.2.1 p.2.2.2.2.1 p.2.2.2.2.2

/-- The cache row that row `j` of the destination (4104 rows per batch) takes when `j < 4096`. -/
def cacheRow (j : Fin 4104) : Fin 4096 := ⟨j.val % 4096, Nat.mod_lt _ (by decide)⟩

/-- Every (batch, tile) pair is some point's block index for window 6. -/
theorem idx1_onto_6 : ∀ (q0 : Fin 32) (q1 : Fin 4), ∃ t : Fin cfg1.N, win1_6.index t = ![q0.val, q1.val, 0] :=
  (by decide +kernel : ∀ (q0 : Fin 32) (q1 : Fin 4), ∃ t : Fin grid1.N, win1_6.index t = ![q0.val, q1.val, 0])

/-- What window 6's array holds on the rows the region writes (rows below 4096 of each batch): the cache. -/
def G1_6 (c : Dev nD) : Vec F S32x4104x1024 .f32 :=
  fun i => V c main_arg1 (ValueIdx.ix3 (i 0) (cacheRow (i 1)) (i 2))

/-- What point `t` writes back is block `t` of `G1_6`. -/
theorem flushed1_6_eq (c : Dev nD) (t : Fin cfg1.N) :
    (dat1 V c).flushed 6 t = ((cfg1.win 6).blk t).view.read (Elt F) (G1_6 V c) := by
  show (cfg1.win 6).cut (grid1.coords t) ((dat1 V c).after 6 t) = _
  rw [after1_6, outs1_6]
  obtain ⟨k0, k1, k2, v0, v1, v2, b60, b61, b62, b70, b71, b72, x60, x61, x62, x70, x71, x72⟩ := idx1_copy t
  funext j
  have hj1 : (j 1).val < win1_6.xsize (grid1.coords t) (1 : Fin 3) := (j 1).isLt
  show V c main_arg1 (((cfg1.win 1).blk t).view.emb ((cfg1.win 6).xinj (grid1.coords t) j)) = V c main_arg1 (ValueIdx.ix3 ((((cfg1.win 6).blk t).view.emb j) 0) (cacheRow ((((cfg1.win 6).blk t).view.emb j) 1)) ((((cfg1.win 6).blk t).view.emb j) 2))
  refine congrArg _ ?_
  funext a; apply Fin.ext
  match a with
  | ⟨0, _⟩ => show win1_1.index t (0 : Fin 3) * 1 + 1 * (j 0).val = win1_6.index t (0 : Fin 3) * 1 + 1 * (j 0).val; omega
  | ⟨1, _⟩ => show win1_1.index t (1 : Fin 3) * 1024 + 1 * (j 1).val = (win1_6.index t (1 : Fin 3) * 1024 + 1 * (j 1).val) % 4096; omega
  | ⟨2, _⟩ => show win1_1.index t (2 : Fin 3) * 1024 + 1 * (j 2).val = win1_6.index t (2 : Fin 3) * 1024 + 1 * (j 2).val; omega

/-- An index of the array is in point `t`'s block iff each coordinate is in the block's range on its axis. -/
theorem mem_blk1_6 (t : Fin cfg1.N) (i : S32x4104x1024.Idx) :
    i ∈ ((cfg1.win 6).blk t).view.set ↔ ∀ a : Fin 3, win1_6.index t a * S1x1024x1024.size a ≤ (i a).val ∧ (i a).val < win1_6.index t a * S1x1024x1024.size a + win1_6.xsize (grid1.coords t) a := by
  show i ∈ ((View.whole main_v8_1).slice (win1_6.rect t)).set ↔ _
  rw [View.set_slice_whole, Rect.mem_set_unit]
  exact Iff.rfl

/-- The covered indices: in some point's block iff the row is a cache row (below 4096). -/
theorem covered_iff1_6 (i : S32x4104x1024.Idx) :
    (∃ t : Fin cfg1.N, (cfg1.win 6).flush t = true ∧ i ∈ ((cfg1.win 6).blk t).view.set) ↔ (i 1).val < 4096 := by
  have hi0 : (i 0).val < 32 := (i 0).isLt
  have hi1 : (i 1).val < 4104 := (i 1).isLt
  have hi2 : (i 2).val < 1024 := (i 2).isLt
  constructor
  · rintro ⟨t, -, hi⟩
    rw [mem_blk1_6] at hi
    have b1 : win1_6.index t (1 : Fin 3) * 1024 ≤ (i 1).val ∧ (i 1).val < win1_6.index t (1 : Fin 3) * 1024 + win1_6.xsize (grid1.coords t) (1 : Fin 3) := hi 1
    obtain ⟨k0, k1, k2, v0, v1, v2, b60, b61, b62, b70, b71, b72, x60, x61, x62, x70, x71, x72⟩ := idx1_copy t
    omega
  · intro h
    obtain ⟨t, ht⟩ := idx1_onto_6 ⟨(i 0).val, hi0⟩ ⟨(i 1).val / 1024, by omega⟩
    have q0 : win1_6.index t (0 : Fin 3) = (i 0).val := congrFun ht 0
    have q1 : win1_6.index t (1 : Fin 3) = (i 1).val / 1024 := congrFun ht 1
    have q2 : win1_6.index t (2 : Fin 3) = 0 := congrFun ht 2
    refine ⟨t, flush1_6 t, ?_⟩
    rw [mem_blk1_6]
    obtain ⟨k0, k1, k2, v0, v1, v2, b60, b61, b62, b70, b71, b72, x60, x61, x62, x70, x71, x72⟩ := idx1_copy t
    intro a
    match a with
    | ⟨0, _⟩ => show win1_6.index t (0 : Fin 3) * 1 ≤ (i 0).val ∧ (i 0).val < win1_6.index t (0 : Fin 3) * 1 + win1_6.xsize (grid1.coords t) (0 : Fin 3); omega
    | ⟨1, _⟩ => show win1_6.index t (1 : Fin 3) * 1024 ≤ (i 1).val ∧ (i 1).val < win1_6.index t (1 : Fin 3) * 1024 + win1_6.xsize (grid1.coords t) (1 : Fin 3); omega
    | ⟨2, _⟩ => show win1_6.index t (2 : Fin 3) * 1024 ≤ (i 2).val ∧ (i 2).val < win1_6.index t (2 : Fin 3) * 1024 + win1_6.xsize (grid1.coords t) (2 : Fin 3); omega

/-- The array window 6 leaves after the region, at an index: the cache rows copied, the 8 last rows of each batch at
    their entry contents. -/
theorem arrAt1_6_apply (c : Dev nD) (b : Fin 32) (j : Fin 4104) (f : Fin 1024) :
    (dat1 V c).arrAt 6 cfg1.N (ValueIdx.ix3 b j f)
      = if h : j.val < 4096 then V c main_arg1 (ValueIdx.ix3 b ⟨j.val, h⟩ f) else V c main_v8_1 (ValueIdx.ix3 b j f) := by
  rw [(dat1 V c).arrAt_eq_piecewise 6 (G1_6 V c) (fun t _ => flushed1_6_eq V c t) (ValueIdx.ix3 b j f), A_eq1]
  by_cases h : j.val < 4096
  · rw [if_pos ((covered_iff1_6 (ValueIdx.ix3 b j f)).mpr h), dif_pos h]
    show V c main_arg1 (ValueIdx.ix3 b (cacheRow j) f) = V c main_arg1 (ValueIdx.ix3 b ⟨j.val, h⟩ f)
    have e : cacheRow j = ⟨j.val, h⟩ := Fin.ext (Nat.mod_eq_of_lt h)
    rw [e]
  · rw [if_neg (fun hc => h ((covered_iff1_6 (ValueIdx.ix3 b j f)).mp hc)), dif_neg h]

/-- Every (batch, tile) pair is some point's block index for window 7. -/
theorem idx1_onto_7 : ∀ (q0 : Fin 32) (q1 : Fin 4), ∃ t : Fin cfg1.N, win1_7.index t = ![q0.val, q1.val, 0] :=
  (by decide +kernel : ∀ (q0 : Fin 32) (q1 : Fin 4), ∃ t : Fin grid1.N, win1_7.index t = ![q0.val, q1.val, 0])

/-- What window 7's array holds on the rows the region writes (rows below 4096 of each batch): the cache. -/
def G1_7 (c : Dev nD) : Vec F S32x4104x1024 .f32 :=
  fun i => V c main_arg2 (ValueIdx.ix3 (i 0) (cacheRow (i 1)) (i 2))

/-- What point `t` writes back is block `t` of `G1_7`. -/
theorem flushed1_7_eq (c : Dev nD) (t : Fin cfg1.N) :
    (dat1 V c).flushed 7 t = ((cfg1.win 7).blk t).view.read (Elt F) (G1_7 V c) := by
  show (cfg1.win 7).cut (grid1.coords t) ((dat1 V c).after 7 t) = _
  rw [after1_7, outs1_7]
  obtain ⟨k0, k1, k2, v0, v1, v2, b60, b61, b62, b70, b71, b72, x60, x61, x62, x70, x71, x72⟩ := idx1_copy t
  funext j
  have hj1 : (j 1).val < win1_7.xsize (grid1.coords t) (1 : Fin 3) := (j 1).isLt
  show V c main_arg2 (((cfg1.win 2).blk t).view.emb ((cfg1.win 7).xinj (grid1.coords t) j)) = V c main_arg2 (ValueIdx.ix3 ((((cfg1.win 7).blk t).view.emb j) 0) (cacheRow ((((cfg1.win 7).blk t).view.emb j) 1)) ((((cfg1.win 7).blk t).view.emb j) 2))
  refine congrArg _ ?_
  funext a; apply Fin.ext
  match a with
  | ⟨0, _⟩ => show win1_2.index t (0 : Fin 3) * 1 + 1 * (j 0).val = win1_7.index t (0 : Fin 3) * 1 + 1 * (j 0).val; omega
  | ⟨1, _⟩ => show win1_2.index t (1 : Fin 3) * 1024 + 1 * (j 1).val = (win1_7.index t (1 : Fin 3) * 1024 + 1 * (j 1).val) % 4096; omega
  | ⟨2, _⟩ => show win1_2.index t (2 : Fin 3) * 1024 + 1 * (j 2).val = win1_7.index t (2 : Fin 3) * 1024 + 1 * (j 2).val; omega

/-- An index of the array is in point `t`'s block iff each coordinate is in the block's range on its axis. -/
theorem mem_blk1_7 (t : Fin cfg1.N) (i : S32x4104x1024.Idx) :
    i ∈ ((cfg1.win 7).blk t).view.set ↔ ∀ a : Fin 3, win1_7.index t a * S1x1024x1024.size a ≤ (i a).val ∧ (i a).val < win1_7.index t a * S1x1024x1024.size a + win1_7.xsize (grid1.coords t) a := by
  show i ∈ ((View.whole main_v8_2).slice (win1_7.rect t)).set ↔ _
  rw [View.set_slice_whole, Rect.mem_set_unit]
  exact Iff.rfl

/-- The covered indices: in some point's block iff the row is a cache row (below 4096). -/
theorem covered_iff1_7 (i : S32x4104x1024.Idx) :
    (∃ t : Fin cfg1.N, (cfg1.win 7).flush t = true ∧ i ∈ ((cfg1.win 7).blk t).view.set) ↔ (i 1).val < 4096 := by
  have hi0 : (i 0).val < 32 := (i 0).isLt
  have hi1 : (i 1).val < 4104 := (i 1).isLt
  have hi2 : (i 2).val < 1024 := (i 2).isLt
  constructor
  · rintro ⟨t, -, hi⟩
    rw [mem_blk1_7] at hi
    have b1 : win1_7.index t (1 : Fin 3) * 1024 ≤ (i 1).val ∧ (i 1).val < win1_7.index t (1 : Fin 3) * 1024 + win1_7.xsize (grid1.coords t) (1 : Fin 3) := hi 1
    obtain ⟨k0, k1, k2, v0, v1, v2, b60, b61, b62, b70, b71, b72, x60, x61, x62, x70, x71, x72⟩ := idx1_copy t
    omega
  · intro h
    obtain ⟨t, ht⟩ := idx1_onto_7 ⟨(i 0).val, hi0⟩ ⟨(i 1).val / 1024, by omega⟩
    have q0 : win1_7.index t (0 : Fin 3) = (i 0).val := congrFun ht 0
    have q1 : win1_7.index t (1 : Fin 3) = (i 1).val / 1024 := congrFun ht 1
    have q2 : win1_7.index t (2 : Fin 3) = 0 := congrFun ht 2
    refine ⟨t, flush1_7 t, ?_⟩
    rw [mem_blk1_7]
    obtain ⟨k0, k1, k2, v0, v1, v2, b60, b61, b62, b70, b71, b72, x60, x61, x62, x70, x71, x72⟩ := idx1_copy t
    intro a
    match a with
    | ⟨0, _⟩ => show win1_7.index t (0 : Fin 3) * 1 ≤ (i 0).val ∧ (i 0).val < win1_7.index t (0 : Fin 3) * 1 + win1_7.xsize (grid1.coords t) (0 : Fin 3); omega
    | ⟨1, _⟩ => show win1_7.index t (1 : Fin 3) * 1024 ≤ (i 1).val ∧ (i 1).val < win1_7.index t (1 : Fin 3) * 1024 + win1_7.xsize (grid1.coords t) (1 : Fin 3); omega
    | ⟨2, _⟩ => show win1_7.index t (2 : Fin 3) * 1024 ≤ (i 2).val ∧ (i 2).val < win1_7.index t (2 : Fin 3) * 1024 + win1_7.xsize (grid1.coords t) (2 : Fin 3); omega

/-- The array window 7 leaves after the region, at an index: the cache rows copied, the 8 last rows of each batch at
    their entry contents. -/
theorem arrAt1_7_apply (c : Dev nD) (b : Fin 32) (j : Fin 4104) (f : Fin 1024) :
    (dat1 V c).arrAt 7 cfg1.N (ValueIdx.ix3 b j f)
      = if h : j.val < 4096 then V c main_arg2 (ValueIdx.ix3 b ⟨j.val, h⟩ f) else V c main_v8_2 (ValueIdx.ix3 b j f) := by
  rw [(dat1 V c).arrAt_eq_piecewise 7 (G1_7 V c) (fun t _ => flushed1_7_eq V c t) (ValueIdx.ix3 b j f), A_eq1]
  by_cases h : j.val < 4096
  · rw [if_pos ((covered_iff1_7 (ValueIdx.ix3 b j f)).mpr h), dif_pos h]
    show V c main_arg2 (ValueIdx.ix3 b (cacheRow j) f) = V c main_arg2 (ValueIdx.ix3 b ⟨j.val, h⟩ f)
    have e : cacheRow j = ⟨j.val, h⟩ := Fin.ext (Nat.mod_eq_of_lt h)
    rw [e]
  · rw [if_neg (fun hc => h ((covered_iff1_7 (ValueIdx.ix3 b j f)).mp hc)), dif_neg h]

end Cert.KernelIdeal.Hand

end
-- ==== Proof.KI_ValKV.lean ====
/-
  keys and values at the ideal instance.  The attention launch copies every cache tile into rows 0..4095 of its two
  pass-through outputs; the host copies those buffers into the results' own; the tail launch writes the eight new rows
  (the k and v projections of the input) behind them.  So keys = [key_cache ; k_new] and values = [value_cache ; v_new].
-/
import proofs.«107194_j39247411150862_2_alg».proof.Proof.KI_ValHost
import proofs.«107194_j39247411150862_2_alg».proof.Proof.KI_Val2
import proofs.«107194_j39247411150862_2_alg».proof.Proof.KI_Val1Copy
import proofs.«107194_j39247411150862_2_alg».proof.Proof.KI_Half1

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem Idealize.ShloMosaic.StableHlo
open Idealize.ShloMosaic.Pipeline (Dat)
open Cert.Proof.RefValue (proj catAt)

/-- The three launches' proof data at the ideal instance. -/
abbrev D0 := dat0 (F := Ideal)
abbrev D1 := dat1 (F := Ideal)
abbrev D2 := dat2 (F := Ideal)

variable (m : (ℓ : Loc nD τ sig) → Buf (Elt Ideal) ℓ) (ρ : Dev nD → PrngReg) (c : Dev nD)

theorem V5_main_v5_apply (b : Fin 32) (s : Fin 8) (f : Fin 1024) :
    (V5 D0 D1 m ρ c main_v5 : Vec Ideal S32x8x1024 .f32) (ix3 b s f)
      = proj (m ((c.tc : Thread nD τ).loc main_arg0)) (m ((c.tc : Thread nD τ).loc main_arg3)) (m ((c.tc : Thread nD τ).loc main_arg4)) b s f := by
  rw [show V5 D0 D1 m ρ c main_v5 = V3 D0 m ρ c main_v5 from
    (W5_keep D0 D1 m ρ c main_v5 (by decide)).trans (W4_keep D0 D1 m ρ half1 c main_v5 (by decide))]
  exact V3_main_v5_apply m ρ c b s f

theorem V5_main_v9_0 : V5 D0 D1 m ρ c main_v9_0 = V4 D0 D1 m ρ c main_v8_1 := by
  show StableHlo.after hostOps2 (W4 D0 D1 m ρ c) (Proc.devRef .tc main_v9_0) = _
  after_results; rfl

theorem V4_main_v8_1_apply (b : Fin 32) (j : Fin 4104) (f : Fin 1024) (h : j.val < 4096) :
    (V4 D0 D1 m ρ c main_v8_1 : Vec Ideal S32x4104x1024 .f32) (ix3 b j f)
      = m ((c.tc : Thread nD τ).loc main_arg1) (ix3 b ⟨j.val, h⟩ f) := by
  rw [show (V4 D0 D1 m ρ c main_v8_1 : Vec Ideal S32x4104x1024 .f32) = (D1 (V3 D0 m ρ) c).arrAt 6 cfg1.N from W4_arr D0 D1 m ρ c 6,
    arrAt1_6_apply, dif_pos h, V3_main_arg1 m ρ c]

/-- keys: the cache rows, then the eight new rows. -/
theorem final_keys (b : Fin 32) (j : Fin 4104) (f : Fin 1024) :
    (W6 D0 D1 D2 m ρ c (Proc.devRef .tc main_v9_0) : Vec Ideal S32x4104x1024 .f32) (ix3 b j f)
      = catAt (m ((c.tc : Thread nD τ).loc main_arg1))
          (proj (m ((c.tc : Thread nD τ).loc main_arg0)) (m ((c.tc : Thread nD τ).loc main_arg3)) (m ((c.tc : Thread nD τ).loc main_arg4))) b j f := by
  rw [show (W6 D0 D1 D2 m ρ c (Proc.devRef .tc main_v9_0) : Vec Ideal S32x4104x1024 .f32) = (D2 (V5 D0 D1 m ρ) c).arrAt 2 cfg2.N from W6_arr D0 D1 D2 m ρ c 2,
    arrAt2_2_apply]
  unfold catAt
  by_cases h : j.val < 4096
  · rw [dif_neg (by omega), dif_pos h, V5_main_v9_0 m ρ c, V4_main_v8_1_apply m ρ c b j f h]
  · rw [dif_pos (by omega), dif_neg h]
    exact V5_main_v5_apply m ρ c b _ f

theorem V5_main_v6_apply (b : Fin 32) (s : Fin 8) (f : Fin 1024) :
    (V5 D0 D1 m ρ c main_v6 : Vec Ideal S32x8x1024 .f32) (ix3 b s f)
      = proj (m ((c.tc : Thread nD τ).loc main_arg0)) (m ((c.tc : Thread nD τ).loc main_arg5)) (m ((c.tc : Thread nD τ).loc main_arg6)) b s f := by
  rw [show V5 D0 D1 m ρ c main_v6 = V3 D0 m ρ c main_v6 from
    (W5_keep D0 D1 m ρ c main_v6 (by decide)).trans (W4_keep D0 D1 m ρ half1 c main_v6 (by decide))]
  exact V3_main_v6_apply m ρ c b s f

theorem V5_main_v9_1 : V5 D0 D1 m ρ c main_v9_1 = V4 D0 D1 m ρ c main_v8_2 := by
  show StableHlo.after hostOps2 (W4 D0 D1 m ρ c) (Proc.devRef .tc main_v9_1) = _
  after_results; rfl

theorem V4_main_v8_2_apply (b : Fin 32) (j : Fin 4104) (f : Fin 1024) (h : j.val < 4096) :
    (V4 D0 D1 m ρ c main_v8_2 : Vec Ideal S32x4104x1024 .f32) (ix3 b j f)
      = m ((c.tc : Thread nD τ).loc main_arg2) (ix3 b ⟨j.val, h⟩ f) := by
  rw [show (V4 D0 D1 m ρ c main_v8_2 : Vec Ideal S32x4104x1024 .f32) = (D1 (V3 D0 m ρ) c).arrAt 7 cfg1.N from W4_arr D0 D1 m ρ c 7,
    arrAt1_7_apply, dif_pos h, V3_main_arg2 m ρ c]

/-- vals: the cache rows, then the eight new rows. -/
theorem final_vals (b : Fin 32) (j : Fin 4104) (f : Fin 1024) :
    (W6 D0 D1 D2 m ρ c (Proc.devRef .tc main_v9_1) : Vec Ideal S32x4104x1024 .f32) (ix3 b j f)
      = catAt (m ((c.tc : Thread nD τ).loc main_arg2))
          (proj (m ((c.tc : Thread nD τ).loc main_arg0)) (m ((c.tc : Thread nD τ).loc main_arg5)) (m ((c.tc : Thread nD τ).loc main_arg6))) b j f := by
  rw [show (W6 D0 D1 D2 m ρ c (Proc.devRef .tc main_v9_1) : Vec Ideal S32x4104x1024 .f32) = (D2 (V5 D0 D1 m ρ) c).arrAt 3 cfg2.N from W6_arr D0 D1 D2 m ρ c 3,
    arrAt2_3_apply]
  unfold catAt
  by_cases h : j.val < 4096
  · rw [dif_neg (by omega), dif_pos h, V5_main_v9_1 m ρ c, V4_main_v8_2_apply m ρ c b j f h]
  · rw [dif_pos (by omega), dif_neg h]
    exact V5_main_v6_apply m ρ c b _ f

end Cert.KernelIdeal.HandV

end
-- ==== Proof.KI_R1Pieces.lean ====
import proofs.«107194_j39247411150862_2_alg».proof.Proof.KI_R1
import Idealize.ShloMosaic.Lib.Pipeline.Value
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

theorem hz3 : (![0, 0, 0] : Fin 3 → Nat) = fun _ => 0 := funext fun a => by fin_cases a <;> rfl

/-! ## What case B (cache tiles 1 and 2) leaves in the three scratch buffers: one online-softmax step on the tile,
    from the running maximum `xs0`, running sum `xs1` and accumulator `xs2` the point before left -/

theorem sout1_B_0_eq (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) :
    sout1_B_0 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k1_pay4 (k1_pay19 x0 x1 xs0) := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun1_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x8x1) hz3, View.ld_unit_zero (S := S1x8x1024) hz3, View.ld_unit_zero (S := S1x1024x1024) hz3]

theorem sout1_B_1_eq (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) :
    sout1_B_1 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k1_pay2 (k1_pay20 x0 x1 xs0 xs0) (k1_pay21 x0 x1 xs0) xs1 := by
  unfold sout1_B_1
  rw [View.read_writes_eq_canon _ _ _ (scover1_B_1 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun1_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x8x1) hz3, View.ld_unit_zero (S := S1x8x1024) hz3, View.ld_unit_zero (S := S1x1024x1024) hz3]

theorem sout1_B_2_eq (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) :
    sout1_B_2 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2 = k1_pay3 x2 (k1_pay20 x0 x1 xs0 xs0) (k1_pay21 x0 x1 xs0) xs2 := by
  unfold sout1_B_2
  rw [View.read_writes_eq_canon _ _ _ (scover1_B_2 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun1_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x8x1) hz3, View.ld_unit_zero (S := S1x8x1024) hz3, View.ld_unit_zero (S := S1x1024x1024) hz3]

/-! ## What case A (cache tile 0) leaves there: the same step from the reset values (maximum -inf, sum 0,
    accumulator 0), which the case stores first and reads back -/

theorem sout1_A_0_eq (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) :
    sout1_A_0 c i arg2 harg2 arg3 harg3 arg4 harg4 arg5 harg5 arg6 harg6 arg7 harg7 arg8 harg8 arg9 harg9 arg10 harg10 arg11 harg11 arg12 harg12 hc0 hc1 x0 x1 x2 x3 x4 = k1_pay4 (k1_pay19 x0 x1 k1_pay14) := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 arg12 harg12 hc0 hc1 x0 x1 x2 x3 x4)]
  unfold kernelRun1_A
  dsimp only
  sl_unfold_words
  rw [View.canon_cons_unit_zero (S := S1x8x1) hz3]
  simp only [View.readCov_unit_zero (S := S1x8x1) _ hz3, View.readCov_unit_zero (S := S1x8x1024) _ hz3, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x8x1) hz3, View.ld_unit_zero (S := S1x8x1024) hz3, View.ld_unit_zero (S := S1x1024x1024) hz3]

theorem sout1_A_1_eq (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) :
    sout1_A_1 c i arg2 harg2 arg3 harg3 arg4 harg4 arg5 harg5 arg6 harg6 arg7 harg7 arg8 harg8 arg9 harg9 arg10 harg10 arg11 harg11 arg12 harg12 hc0 hc1 x0 x1 x2 x3 x4 = k1_pay2 (k1_pay20 x0 x1 k1_pay14 k1_pay14) (k1_pay21 x0 x1 k1_pay14) k1_pay15 := by
  unfold sout1_A_1
  rw [View.read_writes_eq_canon _ _ _ (scover1_A_1 c i arg2 harg2 arg3 harg3 arg4 harg4 arg5 harg5 arg6 harg6 arg7 harg7 arg8 harg8 arg9 harg9 arg10 harg10 arg11 harg11 arg12 harg12 hc0 hc1 x0 x1 x2 x3 x4)]
  unfold kernelRun1_A
  dsimp only
  sl_unfold_words
  rw [View.canon_cons_unit_zero (S := S1x8x1) hz3]
  simp only [View.readCov_unit_zero (S := S1x8x1) _ hz3, View.readCov_unit_zero (S := S1x8x1024) _ hz3, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x8x1) hz3, View.ld_unit_zero (S := S1x8x1024) hz3, View.ld_unit_zero (S := S1x1024x1024) hz3]

theorem sout1_A_2_eq (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : cond1_0 i) (hc1 : ¬cond1_1 i)
    (x0 : Vec F S1x8x1024 .f32) (x1 : Vec F S1x1024x1024 .f32) (x2 : Vec F S1x1024x1024 .f32) (x3 : Vec F S1x8x1024 .f32) (x4 : Vec F S1x8x1024 .f32) :
    sout1_A_2 c i arg2 harg2 arg3 harg3 arg4 harg4 arg5 harg5 arg6 harg6 arg7 harg7 arg8 harg8 arg9 harg9 arg10 harg10 arg11 harg11 arg12 harg12 hc0 hc1 x0 x1 x2 x3 x4 = k1_pay3 x2 (k1_pay20 x0 x1 k1_pay14 k1_pay14) (k1_pay21 x0 x1 k1_pay14) k1_pay16 := by
  unfold sout1_A_2
  rw [View.read_writes_eq_canon _ _ _ (scover1_A_2 c i arg2 harg2 arg3 harg3 arg4 harg4 arg5 harg5 arg6 harg6 arg7 harg7 arg8 harg8 arg9 harg9 arg10 harg10 arg11 harg11 arg12 harg12 hc0 hc1 x0 x1 x2 x3 x4)]
  unfold kernelRun1_A
  dsimp only
  sl_unfold_words
  rw [View.canon_cons_unit_zero (S := S1x8x1024) hz3]
  simp only [View.readCov_unit_zero (S := S1x8x1) _ hz3, View.readCov_unit_zero (S := S1x8x1024) _ hz3, View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x8x1) hz3, View.ld_unit_zero (S := S1x8x1024) hz3, View.ld_unit_zero (S := S1x1024x1024) hz3]

end Cert.KernelIdeal.Hand

end
-- ==== Proof.LibSoftmaxShift.lean ====
/-
  A softmax-weighted average does not depend on the shift.  For real logits `e j` and real values `w j` over a
  nonempty finite index set, and any two real shifts `m`, `M`,

      (Σ_j exp(e j − m) · w j) / (Σ_j exp(e j − m))  =  Σ_j (exp(e j − M) / Σ_k exp(e k − M)) · w j ,

  since exp(e j − m) = exp(M − m) · exp(e j − M) and the common positive factor cancels.  Stated over the reals and then
  over the extended reals for real-valued data (the exponential, the quotient and the sums of the ideal float
  instance), with two companions: a sum over `a·b` consecutive indices taken `b` at a time, and the maximum of a
  nonempty finite family of reals folded from −∞, which is a real.
-/
import Idealize.ShloMosaic.PureOps.Ideal.Laws

namespace Cert.LibSoftmaxShift

open Idealize.ShloMosaic

/-! ## Over the reals -/

theorem shift_real {J : Type*} [Fintype J] [Nonempty J] (e w : J → ℝ) (m M : ℝ) :
    (∑ j, Real.exp (e j - m) * w j) / (∑ j, Real.exp (e j - m))
      = ∑ j, Real.exp (e j - M) / (∑ k, Real.exp (e k - M)) * w j := by
  have hS : 0 < ∑ k, Real.exp (e k - M) := Finset.sum_pos (fun j _ => Real.exp_pos _) Finset.univ_nonempty
  have hκ : Real.exp (M - m) ≠ 0 := (Real.exp_pos _).ne'
  have key : ∀ j, Real.exp (e j - m) = Real.exp (M - m) * Real.exp (e j - M) := fun j => by
    rw [← Real.exp_add]; congr 1; ring
  have hnum : ∑ j, Real.exp (e j - m) * w j = Real.exp (M - m) * ∑ j, Real.exp (e j - M) * w j := by
    rw [Finset.mul_sum]; exact Finset.sum_congr rfl fun j _ => by rw [key j, mul_assoc]
  have hden : ∑ j, Real.exp (e j - m) = Real.exp (M - m) * ∑ j, Real.exp (e j - M) := by
    rw [Finset.mul_sum]; exact Finset.sum_congr rfl fun j _ => key j
  rw [hnum, hden, mul_div_mul_left _ _ hκ, Finset.sum_div]
  exact Finset.sum_congr rfl fun j _ => by rw [div_mul_eq_mul_div]

/-! ## Reals inside the extended reals -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe_coe (x y : ℝ) (hy : y ≠ 0) : Ideal.div (x : EReal) (y : EReal) = ((x / y : ℝ) : EReal) := by
  rw [Ideal.div_coe hy, ← EReal.coe_mul, mul_one_div]

theorem exp_sub_coe (x y : ℝ) : Ideal.exp ((x : EReal) - (y : EReal)) = ((Real.exp (x - y) : ℝ) : EReal) := by
  rw [← EReal.coe_sub, Ideal.exp_coe]

/-- The weighted average over the extended reals, for real data: the shift `m` against any real shift `Mx`, the
    second normalizer written from zero as a host sum is. -/
theorem shift_ereal {J : Type*} [Fintype J] [Nonempty J] (e w : J → ℝ) (m : ℝ) (Mx : EReal) (hM : ∃ r : ℝ, Mx = (r : EReal)) :
    Ideal.div (∑ j, Ideal.exp ((e j : EReal) - (m : EReal)) * (w j : EReal)) (∑ j, Ideal.exp ((e j : EReal) - (m : EReal)))
      = ∑ j, Ideal.div (Ideal.exp ((e j : EReal) - Mx)) (0 + ∑ k, Ideal.exp ((e k : EReal) - Mx)) * (w j : EReal) := by
  obtain ⟨M, rfl⟩ := hM
  have hS : ∀ μ : ℝ, (∑ k, Real.exp (e k - μ)) ≠ 0 := fun μ =>
    (Finset.sum_pos (fun j _ => Real.exp_pos _) Finset.univ_nonempty).ne'
  simp only [exp_sub_coe, ← EReal.coe_mul, coe_sum, zero_add]
  rw [div_coe_coe _ _ (hS m)]
  have : ∀ j, Ideal.div ((Real.exp (e j - M) : ℝ) : EReal) ((∑ k, Real.exp (e k - M) : ℝ) : EReal) * (w j : EReal)
      = ((Real.exp (e j - M) / (∑ k, Real.exp (e k - M)) * w j : ℝ) : EReal) := fun j => by
    rw [div_coe_coe _ _ (hS M), ← EReal.coe_mul]
  simp only [this, coe_sum]
  exact congrArg _ (shift_real e w m M)

/-! ## A maximum folded from −∞ over real entries -/

theorem fold_max_bot_real {ι : Type*} (s : Finset ι) (hs : s.Nonempty) (f : ι → ℝ) :
    ∃ r : ℝ, s.fold max (⊥ : EReal) (fun i => (f i : EReal)) = (r : EReal) := by
  classical
  induction s using Finset.induction_on with
  | empty => exact absurd hs Finset.not_nonempty_empty
  | insert a s ha ih =>
    rw [Finset.fold_insert ha]
    rcases s.eq_empty_or_nonempty with rfl | hne
    · exact ⟨f a, by simp⟩
    · obtain ⟨r, hr⟩ := ih hne
      exact ⟨max (f a) r, by rw [hr]; exact (EReal.coe_strictMono.monotone.map_max).symm⟩

/-! ## A sum taken in consecutive runs -/

theorem sum_runs {M : Type*} [AddCommMonoid M] (b : ℕ) (f : ℕ → M) : ∀ a : ℕ,
    ∑ k ∈ Finset.range a, ∑ j ∈ Finset.range b, f (b * k + j) = ∑ n ∈ Finset.range (a * b), f n
  | 0 => by simp
  | a + 1 => by
    rw [Finset.sum_range_succ, sum_runs b f a, Nat.succ_mul, Finset.sum_range_add, Nat.mul_comm a b]

end Cert.LibSoftmaxShift
-- ==== Proof.LibOnlineSoftmax.lean ====
/-
  The online (streaming) softmax.  Keys come in chunks; a running triple `(m, l, acc)` is updated per chunk `C` by

      m'   = any real shift (in practice max m (max_{j ∈ C} e j)),
      l'   = exp(m − m') · l   + Σ_{j ∈ C} exp(e j − m'),
      acc' = exp(m − m') · acc + Σ_{j ∈ C} exp(e j − m') · w j,

  started from `(−∞, 0, 0)`, and the result is `acc / l`.  For real logits `e` and real values `w` the triple after the
  keys in `S` is, for the current real shift `μ = m`,

      l = Σ_{j ∈ S} exp(e j − μ),      acc = Σ_{j ∈ S} exp(e j − μ) · w j,

  because exp(μ − μ') · exp(e j − μ) = exp(e j − μ'): re-basing the old sums onto the new shift is exact, whatever the new
  shift is — it need not be a maximum.  The first chunk is the same step: the old sums are zero, so the factor
  exp(−∞ − μ') multiplies zero.  Once every key has been taken, `acc / l` is a softmax-weighted average at shift `μ`,
  which does not depend on the shift; so it equals the one-shot softmax's  Σ_j (exp(e j − M) / Σ_k exp(e k − M)) · w j
  for any real `M`.  All of it over the extended reals of the ideal float instance, for real data.
-/
import Idealize.ShloMosaic.PureOps.Ideal.Laws
import proofs.«107194_j39247411150862_2_alg».proof.Proof.LibSoftmaxShift

namespace Cert.LibOnlineSoftmax

open Idealize.ShloMosaic Cert.LibSoftmaxShift

variable {J : Type*} [DecidableEq J]

/-- The running triple after the keys in `S`: either nothing has been taken and it is the start `(−∞, 0, 0)`, or the
    shift is a real `μ` and the two sums are the exponentials at that shift over `S`. -/
def Holds (e w : J → ℝ) (S : Finset J) (m l acc : EReal) : Prop :=
  (S = ∅ ∧ m = ⊥ ∧ l = 0 ∧ acc = 0) ∨
    ∃ μ : ℝ, m = (μ : EReal) ∧ l = ((∑ j ∈ S, Real.exp (e j - μ) : ℝ) : EReal)
      ∧ acc = ((∑ j ∈ S, Real.exp (e j - μ) * w j : ℝ) : EReal)

/-- The start. -/
theorem Holds.init (e w : J → ℝ) : Holds e w ∅ ⊥ 0 0 := Or.inl ⟨rfl, rfl, rfl, rfl⟩

/-- The running shift is −∞ or a real. -/
theorem Holds.shift {e w : J → ℝ} {S : Finset J} {m l acc : EReal} (h : Holds e w S m l acc) :
    m = ⊥ ∨ ∃ μ : ℝ, m = (μ : EReal) := by
  rcases h with ⟨-, hm, -, -⟩ | ⟨μ, hm, -, -⟩
  · exact Or.inl hm
  · exact Or.inr ⟨μ, hm⟩

/-- Re-basing a sum of exponentials from the shift `μ` onto `μ'`. -/
theorem rebase (e : J → ℝ) (S : Finset J) (μ μ' : ℝ) :
    Real.exp (μ - μ') * ∑ j ∈ S, Real.exp (e j - μ) = ∑ j ∈ S, Real.exp (e j - μ') := by
  rw [Finset.mul_sum]
  exact Finset.sum_congr rfl fun j _ => by rw [← Real.exp_add]; congr 1; ring

/-- The same with weights. -/
theorem rebase_weighted (e w : J → ℝ) (S : Finset J) (μ μ' : ℝ) :
    Real.exp (μ - μ') * ∑ j ∈ S, Real.exp (e j - μ) * w j = ∑ j ∈ S, Real.exp (e j - μ') * w j := by
  rw [Finset.mul_sum]
  exact Finset.sum_congr rfl fun j _ => by rw [← mul_assoc, ← Real.exp_add]; congr 2; ring

/-- A chunk's sum of exponentials at a real shift is a real. -/
theorem chunk_sum (e : J → ℝ) (C : Finset J) (μ' : ℝ) :
    ∑ j ∈ C, Ideal.exp ((e j : EReal) - (μ' : EReal)) = ((∑ j ∈ C, Real.exp (e j - μ') : ℝ) : EReal) := by
  simp only [exp_sub_coe, coe_sum]

/-- The same with weights. -/
theorem chunk_sum_weighted (e w : J → ℝ) (C : Finset J) (μ' : ℝ) :
    ∑ j ∈ C, Ideal.exp ((e j : EReal) - (μ' : EReal)) * (w j : EReal)
      = ((∑ j ∈ C, Real.exp (e j - μ') * w j : ℝ) : EReal) := by
  simp only [exp_sub_coe, ← EReal.coe_mul, coe_sum]

/-- ONE STEP: taking a fresh chunk `C` of keys at any real new shift `m'`. -/
theorem Holds.step {e w : J → ℝ} {S C : Finset J} {m l acc : EReal} (h : Holds e w S m l acc)
    (hd : Disjoint S C) (m' : EReal) (hm' : ∃ μ' : ℝ, m' = (μ' : EReal)) :
    Holds e w (S ∪ C) m'
      (Ideal.exp (m - m') * l + ∑ j ∈ C, Ideal.exp ((e j : EReal) - m'))
      (Ideal.exp (m - m') * acc + ∑ j ∈ C, Ideal.exp ((e j : EReal) - m') * (w j : EReal)) := by
  obtain ⟨μ', rfl⟩ := hm'
  rw [chunk_sum, chunk_sum_weighted]
  rcases h with ⟨rfl, -, rfl, rfl⟩ | ⟨μ, rfl, rfl, rfl⟩
  · exact Or.inr ⟨μ', rfl, by rw [mul_zero, zero_add, Finset.empty_union],
      by rw [mul_zero, zero_add, Finset.empty_union]⟩
  · refine Or.inr ⟨μ', rfl, ?_, ?_⟩
    · rw [exp_sub_coe, ← EReal.coe_mul, ← EReal.coe_add, rebase, Finset.sum_union hd]
    · rw [exp_sub_coe, ← EReal.coe_mul, ← EReal.coe_add, rebase_weighted, Finset.sum_union hd]

/-- The shift a kernel takes — the old one against the chunk's maximum folded from −∞ — is a real when the chunk is
    not empty. -/
theorem max_fold_real (e : J → ℝ) {C : Finset J} (hC : C.Nonempty) {m : EReal} (hm : m = ⊥ ∨ ∃ μ : ℝ, m = (μ : EReal)) :
    ∃ μ' : ℝ, max m (C.fold max (⊥ : EReal) fun j => (e j : EReal)) = (μ' : EReal) := by
  obtain ⟨r, hr⟩ := fold_max_bot_real C hC e
  rw [hr]
  rcases hm with rfl | ⟨μ, rfl⟩
  · exact ⟨r, by simp⟩
  · exact ⟨max μ r, (EReal.coe_strictMono.monotone.map_max).symm⟩

/-- THE END: once every key has been taken, `acc / l` is the one-shot softmax-weighted average, at any real shift
    `Mx` of the one-shot side, whose normalizer is written from zero as a host sum is. -/
theorem Holds.final [Fintype J] [Nonempty J] {e w : J → ℝ} {m l acc : EReal} (h : Holds e w Finset.univ m l acc)
    (Mx : EReal) (hM : ∃ r : ℝ, Mx = (r : EReal)) :
    Ideal.div acc l
      = ∑ j, Ideal.div (Ideal.exp ((e j : EReal) - Mx)) (0 + ∑ k, Ideal.exp ((e k : EReal) - Mx)) * (w j : EReal) := by
  rcases h with ⟨h0, -, -, -⟩ | ⟨μ, -, rfl, rfl⟩
  · exact absurd h0 Finset.univ_nonempty.ne_empty
  · rw [← chunk_sum, ← chunk_sum_weighted]
    exact shift_ereal e w μ Mx hM

end Cert.LibOnlineSoftmax
-- ==== Proof.StepHolds.lean ====
/-
  One step of the streaming softmax keeps the running triple.

  For a fixed query row and output column, with real scores e and real values w over the whole key range, the
  triple (m, l, acc) after the keys in S satisfies  l = Σ_{j∈S} exp(e j − m),  acc = Σ_{j∈S} exp(e j − m)·w j
  (or is the start (−∞, 0, 0) when S is empty).  A step reads a chunk of n fresh keys, placed in the key range by an
  injective map κ; its scores and values are the reals e (κ j), w (κ j).  The kernel's new shift is
  m' = max m (max_j score j), a real; its new sums are exp(m − m')·l + Σ_j exp(score j − m') and
  exp(m − m')·acc + Σ_j exp(score j − m')·value j.  Sums and the maximum over the chunk's n positions are sums and the
  maximum over the image of κ, so the triple after S ∪ κ(chunk) holds.  Once every key is taken the closing quotient
  acc / l is the one-shot softmax-weighted average.
-/
import proofs.«107194_j39247411150862_2_alg».proof.Proof.PayIdeal
import proofs.«107194_j39247411150862_2_alg».proof.Proof.LibOnlineSoftmax

namespace Cert.Proof.StepHolds

open Idealize.ShloMosaic Idealize.ShloMosaic.ValueIdx Cert.KernelIdeal Cert.KernelIdeal.Gen Cert.LibOnlineSoftmax
  Cert.Proof.PayIdeal

variable {J : Type*} [DecidableEq J]

/-- The step on a chunk of `n` positions, over plain families: the scores `s` and values `v` of the chunk are the
    reals `e (κ j)`, `w (κ j)`. -/
theorem holds_chunk {n : ℕ} (hn : 0 < n) {e w : J → ℝ} {S : Finset J} (κ : Fin n → J) (hκ : Function.Injective κ)
    (hd : Disjoint S (Finset.univ.map ⟨κ, hκ⟩)) {m l acc : EReal} (hold : Holds e w S m l acc)
    (s v : Fin n → EReal) (hs : ∀ j, s j = ((e (κ j) : ℝ) : EReal)) (hv : ∀ j, v j = ((w (κ j) : ℝ) : EReal)) :
    Holds e w (S ∪ Finset.univ.map ⟨κ, hκ⟩)
      (max m ((Finset.univ : Finset (Fin n)).fold max (⊥ : EReal) s))
      (Ideal.exp (m - max m ((Finset.univ : Finset (Fin n)).fold max (⊥ : EReal) s)) * l
        + ∑ j : Fin n, Ideal.exp (s j - max m ((Finset.univ : Finset (Fin n)).fold max (⊥ : EReal) s)))
      (Ideal.exp (m - max m ((Finset.univ : Finset (Fin n)).fold max (⊥ : EReal) s)) * acc
        + ∑ j : Fin n, Ideal.exp (s j - max m ((Finset.univ : Finset (Fin n)).fold max (⊥ : EReal) s)) * v j) := by
  have hC : (Finset.univ.map (⟨κ, hκ⟩ : Fin n ↪ J)).Nonempty :=
    ⟨κ ⟨0, hn⟩, Finset.mem_map.mpr ⟨⟨0, hn⟩, Finset.mem_univ _, rfl⟩⟩
  have hfold : (Finset.univ : Finset (Fin n)).fold max (⊥ : EReal) s
      = (Finset.univ.map (⟨κ, hκ⟩ : Fin n ↪ J)).fold max (⊥ : EReal) fun i => ((e i : ℝ) : EReal) := by
    rw [Finset.fold_map]
    exact Finset.fold_congr fun j _ => hs j
  have hM := max_fold_real e hC hold.shift
  have key := hold.step hd _ hM
  rw [Finset.sum_map, Finset.sum_map] at key
  rw [hfold]
  have e1 : ∀ j : Fin n, s j = ((e ((⟨κ, hκ⟩ : Fin n ↪ J) j) : ℝ) : EReal) := hs
  have e2 : ∀ j : Fin n, v j = ((w ((⟨κ, hκ⟩ : Fin n ↪ J) j) : ℝ) : EReal) := hv
  simp only [e1, e2]
  exact key

/-! ## The tile step and the tail step of the kernel -/

/-- The tile step: 1024 cached keys. `m'` is the second reading of the running maximum. -/
theorem step_tile {e w : J → ℝ} {S : Finset J} (κ : Fin 1024 → J) (hκ : Function.Injective κ)
    (hd : Disjoint S (Finset.univ.map ⟨κ, hκ⟩))
    (Qb : Vec Ideal S1x8x1024 .f32) (Kt Vt : Vec Ideal S1x1024x1024 .f32) (m m' l : Vec Ideal S1x8x1 .f32)
    (acc : Vec Ideal S1x8x1024 .f32) (q : Fin 8) (f : Fin 1024)
    (hmm : m' (ix3 (0 : Fin 1) q (0 : Fin 1)) = m (ix3 (0 : Fin 1) q (0 : Fin 1)))
    (hold : Holds e w S (m (ix3 (0 : Fin 1) q (0 : Fin 1)) : EReal) (l (ix3 (0 : Fin 1) q (0 : Fin 1))) (acc (ix3 (0 : Fin 1) q f)))
    (hs : ∀ j : Fin 1024, k1_pay18 (F := Ideal) Qb Kt (ix3 (0 : Fin 1) q j) = ((e (κ j) : ℝ) : EReal))
    (hv : ∀ j : Fin 1024, Vt (ix3 (0 : Fin 1) j f) = ((w (κ j) : ℝ) : EReal)) :
    Holds e w (S ∪ Finset.univ.map ⟨κ, hκ⟩)
      (k1_pay19 (F := Ideal) Qb Kt m (ix3 (0 : Fin 1) q (0 : Fin 1)))
      (k1_pay2 (F := Ideal) (k1_pay20 (F := Ideal) Qb Kt m m') (k1_pay21 (F := Ideal) Qb Kt m) l (ix3 (0 : Fin 1) q (0 : Fin 1)))
      (k1_pay3 (F := Ideal) Vt (k1_pay20 (F := Ideal) Qb Kt m m') (k1_pay21 (F := Ideal) Qb Kt m) acc
        (ix3 (0 : Fin 1) q f)) := by
  have key := holds_chunk (by norm_num : 0 < 1024) κ hκ hd hold
    (fun j => (k1_pay18 (F := Ideal) Qb Kt (ix3 (0 : Fin 1) q j) : EReal)) (fun j => (Vt (ix3 (0 : Fin 1) j f) : EReal)) hs hv
  rw [← pay19_apply Qb Kt m q] at key
  have h2 : k1_pay2 (F := Ideal) (k1_pay20 (F := Ideal) Qb Kt m m') (k1_pay21 (F := Ideal) Qb Kt m) l
        (ix3 (0 : Fin 1) q (0 : Fin 1))
      = Ideal.exp ((m (ix3 (0 : Fin 1) q (0 : Fin 1)) : EReal) - k1_pay19 (F := Ideal) Qb Kt m (ix3 (0 : Fin 1) q (0 : Fin 1))) * l (ix3 (0 : Fin 1) q (0 : Fin 1))
        + ∑ j : Fin 1024, Ideal.exp ((k1_pay18 (F := Ideal) Qb Kt (ix3 (0 : Fin 1) q j) : EReal)
            - k1_pay19 (F := Ideal) Qb Kt m (ix3 (0 : Fin 1) q (0 : Fin 1))) := by
    rw [pay2_apply, pay20_apply, hmm]
    refine congrArg (fun x : EReal => Ideal.exp ((m (ix3 (0 : Fin 1) q (0 : Fin 1)) : EReal)
      - k1_pay19 (F := Ideal) Qb Kt m (ix3 (0 : Fin 1) q (0 : Fin 1))) * l (ix3 (0 : Fin 1) q (0 : Fin 1)) + x) ?_
    exact Finset.sum_congr rfl fun j _ => congrArg Ideal.exp (pay21_apply Qb Kt m q j)
  have h3 : k1_pay3 (F := Ideal) Vt (k1_pay20 (F := Ideal) Qb Kt m m') (k1_pay21 (F := Ideal) Qb Kt m) acc
        (ix3 (0 : Fin 1) q f)
      = Ideal.exp ((m (ix3 (0 : Fin 1) q (0 : Fin 1)) : EReal) - k1_pay19 (F := Ideal) Qb Kt m (ix3 (0 : Fin 1) q (0 : Fin 1))) * acc (ix3 (0 : Fin 1) q f)
        + ∑ j : Fin 1024, Ideal.exp ((k1_pay18 (F := Ideal) Qb Kt (ix3 (0 : Fin 1) q j) : EReal)
            - k1_pay19 (F := Ideal) Qb Kt m (ix3 (0 : Fin 1) q (0 : Fin 1))) * Vt (ix3 (0 : Fin 1) j f) := by
    rw [pay3_apply, pay20_apply, hmm]
    refine congrArg (fun x : EReal => Ideal.exp ((m (ix3 (0 : Fin 1) q (0 : Fin 1)) : EReal)
      - k1_pay19 (F := Ideal) Qb Kt m (ix3 (0 : Fin 1) q (0 : Fin 1))) * acc (ix3 (0 : Fin 1) q f) + x) ?_
    exact Finset.sum_congr rfl fun j _ =>
      congrArg (fun x : EReal => Ideal.exp x * Vt (ix3 (0 : Fin 1) j f)) (pay21_apply Qb Kt m q j)
  rw [h2, h3]
  exact key

/-- The tail step: the 8 new keys. `m'` is the second reading of the running maximum. -/
theorem step_tail {e w : J → ℝ} {S : Finset J} (κ : Fin 8 → J) (hκ : Function.Injective κ)
    (hd : Disjoint S (Finset.univ.map ⟨κ, hκ⟩))
    (Qb : FVec Ideal S1x8x1024 .f32) (Kn Vn : Vec Ideal S1x8x1024 .f32) (m m' l : Vec Ideal S1x8x1 .f32)
    (acc : Vec Ideal S1x8x1024 .f32) (q : Fin 8) (f : Fin 1024)
    (hmm : m' (ix3 (0 : Fin 1) q (0 : Fin 1)) = m (ix3 (0 : Fin 1) q (0 : Fin 1)))
    (hold : Holds e w S (m (ix3 (0 : Fin 1) q (0 : Fin 1)) : EReal) (l (ix3 (0 : Fin 1) q (0 : Fin 1))) (acc (ix3 (0 : Fin 1) q f)))
    (hs : ∀ j : Fin 8, k1_pay8 (F := Ideal) Qb Kn (ix3 (0 : Fin 1) q j) = ((e (κ j) : ℝ) : EReal))
    (hv : ∀ j : Fin 8, Vn (ix3 (0 : Fin 1) j f) = ((w (κ j) : ℝ) : EReal)) :
    Holds e w (S ∪ Finset.univ.map ⟨κ, hκ⟩)
      (k1_pay9 (F := Ideal) Qb Kn m (ix3 (0 : Fin 1) q (0 : Fin 1)))
      (k1_pay12 (F := Ideal) Qb Kn m m' l (ix3 (0 : Fin 1) q (0 : Fin 1)))
      (k1_pay13 (F := Ideal) Qb Kn Vn m m' acc (ix3 (0 : Fin 1) q f)) := by
  have key := holds_chunk (by norm_num : 0 < 8) κ hκ hd hold
    (fun j => (k1_pay8 (F := Ideal) Qb Kn (ix3 (0 : Fin 1) q j) : EReal)) (fun j => (Vn (ix3 (0 : Fin 1) j f) : EReal)) hs hv
  rw [← pay9_apply Qb Kn m q] at key
  have h12 : k1_pay12 (F := Ideal) Qb Kn m m' l (ix3 (0 : Fin 1) q (0 : Fin 1))
      = Ideal.exp ((m (ix3 (0 : Fin 1) q (0 : Fin 1)) : EReal) - k1_pay9 (F := Ideal) Qb Kn m (ix3 (0 : Fin 1) q (0 : Fin 1))) * l (ix3 (0 : Fin 1) q (0 : Fin 1))
        + ∑ j : Fin 8, Ideal.exp ((k1_pay8 (F := Ideal) Qb Kn (ix3 (0 : Fin 1) q j) : EReal)
            - k1_pay9 (F := Ideal) Qb Kn m (ix3 (0 : Fin 1) q (0 : Fin 1))) := by
    rw [pay12_apply, pay10_apply, hmm]
    refine congrArg (fun x : EReal => Ideal.exp ((m (ix3 (0 : Fin 1) q (0 : Fin 1)) : EReal)
      - k1_pay9 (F := Ideal) Qb Kn m (ix3 (0 : Fin 1) q (0 : Fin 1))) * l (ix3 (0 : Fin 1) q (0 : Fin 1)) + x) ?_
    exact Finset.sum_congr rfl fun j _ => pay11_apply Qb Kn m q j
  have h13 : k1_pay13 (F := Ideal) Qb Kn Vn m m' acc (ix3 (0 : Fin 1) q f)
      = Ideal.exp ((m (ix3 (0 : Fin 1) q (0 : Fin 1)) : EReal) - k1_pay9 (F := Ideal) Qb Kn m (ix3 (0 : Fin 1) q (0 : Fin 1))) * acc (ix3 (0 : Fin 1) q f)
        + ∑ j : Fin 8, Ideal.exp ((k1_pay8 (F := Ideal) Qb Kn (ix3 (0 : Fin 1) q j) : EReal)
            - k1_pay9 (F := Ideal) Qb Kn m (ix3 (0 : Fin 1) q (0 : Fin 1))) * Vn (ix3 (0 : Fin 1) j f) := by
    rw [pay13_apply, pay10_apply, hmm]
    refine congrArg (fun x : EReal => Ideal.exp ((m (ix3 (0 : Fin 1) q (0 : Fin 1)) : EReal)
      - k1_pay9 (F := Ideal) Qb Kn m (ix3 (0 : Fin 1) q (0 : Fin 1))) * acc (ix3 (0 : Fin 1) q f) + x) ?_
    exact Finset.sum_congr rfl fun j _ =>
      congrArg (fun x : EReal => x * Vn (ix3 (0 : Fin 1) j f)) (pay11_apply Qb Kn m q j)
  rw [h12, h13]
  exact key

/-! ## The end -/

/-- Once every key has been taken, the closing quotient is the one-shot softmax-weighted average at any real shift
    `Mx` of the one-shot side, whose normalizer is written from zero. -/
theorem final_quotient [Fintype J] [Nonempty J] {e w : J → ℝ} {m0 : EReal} (acc : Vec Ideal S1x8x1024 .f32)
    (l : Vec Ideal S1x8x1 .f32) (q : Fin 8) (f : Fin 1024)
    (hold : Holds e w Finset.univ m0 (l (ix3 (0 : Fin 1) q (0 : Fin 1)) : EReal) (acc (ix3 (0 : Fin 1) q f)))
    (Mx : EReal) (hM : ∃ r : ℝ, Mx = (r : EReal)) :
    k1_pay7 (F := Ideal) acc l (ix3 (0 : Fin 1) q f)
      = ∑ j, Ideal.div (Ideal.exp ((e j : EReal) - Mx)) (0 + ∑ k, Ideal.exp ((e k : EReal) - Mx)) * (w j : EReal) := by
  rw [pay7_apply]
  exact hold.final Mx hM

end Cert.Proof.StepHolds
-- ==== Proof.KI_Val1Pure.lean ====
/-
  The attention region's points, one at a time, over the extended reals.

  The region runs 4 points per batch b; each folds one cache tile of 1024 key/value rows into the running triple
  (m, l, acc) of the streaming softmax, and the last one also folds in the 8 new rows and stores acc / l.  Here: what
  the last point's stores hold in terms of the payloads of its loads; the blocks of a point read off the entry arrays
  (point t is batch t / 4, tile t % 4); the keys, values and scaled scores of a batch, real-valued when the entry
  arrays are; and the invariant of the running triple over the keys taken so far, kept by a tile step and by the
  tail step, whose closing quotient is the softmax-weighted average of the values.
-/
import proofs.«107194_j39247411150862_2_alg».proof.Proof.KI_R1
import proofs.«107194_j39247411150862_2_alg».proof.Proof.KI_R1Pieces
import proofs.«107194_j39247411150862_2_alg».proof.Proof.StepHolds
import proofs.«107194_j39247411150862_2_alg».proof.Proof.PayIdeal
import proofs.«107194_j39247411150862_2_alg».proof.Proof.SpecDefs
import Idealize.ShloMosaic.Lib.Pipeline.Value
import Idealize.ShloMosaic.Lib.ValueIdx
set_option maxRecDepth 16384
noncomputable section
namespace Cert.KernelIdeal.HandV
open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.LibOnlineSoftmax Cert.LibSoftmaxShift Cert.Proof.PayIdeal Cert.Proof.StepHolds Cert.Proof.RefValue
/-! ## What the last point of a batch leaves: its found pieces are the payloads of its loads

The last point runs a tile step and then the tail step; each scratch buffer is stored twice and read back in between,
and the result block is stored once from the final scratch. -/

section Pieces
variable {F : FTy → Type} [FloatOps F]

theorem hz1 : (![0, 0, 0] : Fin 3 → Nat) = fun _ => 0 := funext fun a => by fin_cases a <;> rfl

/-- The running maximum after the last point. -/
theorem sout1_C_0_eq (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) :
    sout1_C_0 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2
      = (k1_pay6 (k1_pay9 (k1_pay17 x0) x3 (k1_pay4 (k1_pay19 x0 x1 xs0)))) := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun1_C
  dsimp only
  sl_unfold_words
  rw [View.canon_cons_unit_zero (S := S1x8x1) hz1]
  simp only [View.readCov_cons_toLoadRect, View.readAt_eq_ld, harg2.read_unread, harg3.read_unread, harg4.read_unread, harg5.read_unread, harg6.read_unread, harg10.read_unread, harg11.read_unread, harg12.read_unread, View.ld_unit_zero (S := S1x8x1024) hz1, View.ld_unit_zero (S := S1x1024x1024) hz1, View.ld_unit_zero (S := S1x8x1) hz1]

/-- The normalizer after the last point. -/
theorem sout1_C_1_eq (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) :
    sout1_C_1 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2
      = (k1_pay12 (k1_pay17 x0) x3 (k1_pay4 (k1_pay19 x0 x1 xs0)) (k1_pay4 (k1_pay19 x0 x1 xs0)) (k1_pay2 (k1_pay20 x0 x1 xs0 xs0) (k1_pay21 x0 x1 xs0) xs1)) := by
  unfold sout1_C_1
  rw [View.read_writes_eq_canon _ _ _ (scover1_C_1 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun1_C
  dsimp only
  sl_unfold_words
  rw [View.canon_cons_unit_zero (S := S1x8x1) hz1]
  simp only [View.readCov_cons_toLoadRect, View.readAt_eq_ld, harg2.read_unread, harg3.read_unread, harg4.read_unread, harg5.read_unread, harg6.read_unread, harg10.read_unread, harg11.read_unread, harg12.read_unread, View.ld_unit_zero (S := S1x8x1024) hz1, View.ld_unit_zero (S := S1x1024x1024) hz1, View.ld_unit_zero (S := S1x8x1) hz1]

/-- The weighted sum after the last point. -/
theorem sout1_C_2_eq (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) :
    sout1_C_2 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2
      = (k1_pay5 (k1_pay13 (k1_pay17 x0) x3 x4 (k1_pay4 (k1_pay19 x0 x1 xs0)) (k1_pay4 (k1_pay19 x0 x1 xs0)) (k1_pay3 x2 (k1_pay20 x0 x1 xs0 xs0) (k1_pay21 x0 x1 xs0) xs2))) := by
  unfold sout1_C_2
  rw [View.read_writes_eq_canon _ _ _ (scover1_C_2 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun1_C
  dsimp only
  sl_unfold_words
  rw [View.canon_cons_unit_zero (S := S1x8x1024) hz1]
  simp only [View.readCov_cons_toLoadRect, View.readAt_eq_ld, harg2.read_unread, harg3.read_unread, harg4.read_unread, harg5.read_unread, harg6.read_unread, harg10.read_unread, harg11.read_unread, harg12.read_unread, View.ld_unit_zero (S := S1x8x1024) hz1, View.ld_unit_zero (S := S1x1024x1024) hz1, View.ld_unit_zero (S := S1x8x1) hz1]

/-- The result block the last point stores: the closing quotient of the final weighted sum by the final normalizer. -/
theorem out1_C_5_eq (c : Dev nD) (i : grid1.Coords) (arg2 : Memref sig .tc .vmem S1x8x1024 .f32) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x8x1024 .f32) (harg5 : arg5.IsWhole) (arg6 : Memref sig .tc .vmem S1x8x1024 .f32) (harg6 : arg6.IsWhole) (arg7 : Memref sig .tc .vmem S1x8x1024 .f32) (harg7 : arg7.IsWhole) (arg8 : Memref sig .tc .vmem S1x1024x1024 .f32) (harg8 : arg8.IsWhole) (arg9 : Memref sig .tc .vmem S1x1024x1024 .f32) (harg9 : arg9.IsWhole) (arg10 : Memref sig .tc .vmem S1x8x1 .f32) (harg10 : arg10.IsWhole) (arg11 : Memref sig .tc .vmem S1x8x1 .f32) (harg11 : arg11.IsWhole) (arg12 : Memref sig .tc .vmem S1x8x1024 .f32) (harg12 : arg12.IsWhole) (hc0 : ¬cond1_0 i) (hc1 : cond1_1 i)
    (x0 : Vec F S1x8x1024 .f32) (x1 : Vec F S1x1024x1024 .f32) (x2 : Vec F S1x1024x1024 .f32) (x3 : Vec F S1x8x1024 .f32) (x4 : Vec F S1x8x1024 .f32) (xs0 : Vec F S1x8x1 .f32) (xs1 : Vec F S1x8x1 .f32) (xs2 : Vec F S1x8x1024 .f32) :
    out1_C_5 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2
      = k1_pay7 (k1_pay5 (k1_pay13 (k1_pay17 x0) x3 x4 (k1_pay4 (k1_pay19 x0 x1 xs0)) (k1_pay4 (k1_pay19 x0 x1 xs0)) (k1_pay3 x2 (k1_pay20 x0 x1 xs0 xs0) (k1_pay21 x0 x1 xs0) xs2))) (k1_pay12 (k1_pay17 x0) x3 (k1_pay4 (k1_pay19 x0 x1 xs0)) (k1_pay4 (k1_pay19 x0 x1 xs0)) (k1_pay2 (k1_pay20 x0 x1 xs0 xs0) (k1_pay21 x0 x1 xs0) xs1)) := by
  unfold out1_C_5
  rw [View.read_writes_eq_canon _ _ _ (cover1_C_5 c i arg2 harg2 arg3 harg3 arg4 harg4 arg5 harg5 arg6 harg6 arg7 harg7 arg8 harg8 arg9 harg9 arg10 harg10 arg11 harg11 arg12 harg12 hc0 hc1 x0 x1 x2 x3 x4 xs0 xs1 xs2)]
  unfold kernelRun1_C
  dsimp only
  sl_unfold_words
  rw [View.canon_cons_unit_zero (S := S1x8x1024) hz1]
  simp only [View.readCov_cons_toLoadRect, View.readAt_eq_ld, harg2.read_unread, harg3.read_unread, harg4.read_unread, harg5.read_unread, harg6.read_unread, harg10.read_unread, harg11.read_unread, harg12.read_unread, View.ld_unit_zero (S := S1x8x1024) hz1, View.ld_unit_zero (S := S1x1024x1024) hz1, View.ld_unit_zero (S := S1x8x1) hz1]

end Pieces

variable (V : (c : Dev nD) → (b : Ref sig .tc) → Buf (Elt Ideal) ((c : Thread nD τ).loc b))

/-! ## The blocks of a point, read off the entry arrays -/

/-- The block index maps in closed form (decided over the grid): point `t` is batch `t / 4`, cache tile `t % 4`. -/
theorem idx1_closed : ∀ t : Fin cfg1.N, win1_0.index t (0 : Fin 3) = t.val / 4
    ∧ win1_0.index t (1 : Fin 3) = 0
    ∧ win1_0.index t (2 : Fin 3) = 0
    ∧ win1_1.index t (0 : Fin 3) = t.val / 4
    ∧ win1_1.index t (1 : Fin 3) = t.val % 4
    ∧ win1_1.index t (2 : Fin 3) = 0
    ∧ win1_2.index t (0 : Fin 3) = t.val / 4
    ∧ win1_2.index t (1 : Fin 3) = t.val % 4
    ∧ win1_2.index t (2 : Fin 3) = 0
    ∧ win1_3.index t (0 : Fin 3) = t.val / 4
    ∧ win1_3.index t (1 : Fin 3) = 0
    ∧ win1_3.index t (2 : Fin 3) = 0
    ∧ win1_4.index t (0 : Fin 3) = t.val / 4
    ∧ win1_4.index t (1 : Fin 3) = 0
    ∧ win1_4.index t (2 : Fin 3) = 0
    ∧ win1_5.index t (0 : Fin 3) = t.val / 4
    ∧ win1_5.index t (1 : Fin 3) = 0
    ∧ win1_5.index t (2 : Fin 3) = 0 :=
  (by decide +kernel : ∀ t : Fin grid1.N, _)

/-- The batch of a point. -/
def batchOf (t : Fin cfg1.N) : Fin 32 := ⟨t.val / 4, by have h := t.isLt; have hN : cfg1.N = 128 := N_1; omega⟩

/-- The key row a tile position of a point reads. -/
def tileRow (t : Fin cfg1.N) (j : Fin 1024) : Fin 4096 := ⟨1024 * (t.val % 4) + j.val, by have := j.isLt; omega⟩

/-- The query block of a point is the batch's eight query rows. -/
theorem blk0_apply (c : Dev nD) (t : Fin cfg1.N) (q : Fin 8) (d : Fin 1024) :
    (iblk1 V c 0 t : Vec Ideal S1x8x1024 .f32) (ix3 (0 : Fin 1) q d) = V c main_v7 (ix3 (batchOf t) q d) := by
  obtain ⟨e0_0, e0_1, e0_2, -⟩ := idx1_closed t
  show V c main_v7 (((cfg1.win 0).blk t).view.emb (ix3 (0 : Fin 1) q d)) = _
  refine congrArg _ ?_
  funext a; apply Fin.ext
  match a with
  | ⟨0, _⟩ => show win1_0.index t (0 : Fin 3) * 1 + 1 * 0 = t.val / 4; omega
  | ⟨1, _⟩ => show win1_0.index t (1 : Fin 3) * 8 + 1 * q.val = q.val; omega
  | ⟨2, _⟩ => show win1_0.index t (2 : Fin 3) * 1024 + 1 * d.val = d.val; omega

/-- The key-cache tile of a point: rows 1024·(t % 4) … of the batch's cache. -/
theorem blk1_apply (c : Dev nD) (t : Fin cfg1.N) (j d : Fin 1024) :
    (iblk1 V c 1 t : Vec Ideal S1x1024x1024 .f32) (ix3 (0 : Fin 1) j d)
      = V c main_arg1 (ix3 (batchOf t) (tileRow t j) d) := by
  obtain ⟨-, -, -, e1_0, e1_1, e1_2, -⟩ := idx1_closed t
  show V c main_arg1 (((cfg1.win 1).blk t).view.emb (ix3 (0 : Fin 1) j d)) = _
  refine congrArg _ ?_
  funext a; apply Fin.ext
  match a with
  | ⟨0, _⟩ => show win1_1.index t (0 : Fin 3) * 1 + 1 * 0 = t.val / 4; omega
  | ⟨1, _⟩ => show win1_1.index t (1 : Fin 3) * 1024 + 1 * j.val = 1024 * (t.val % 4) + j.val; omega
  | ⟨2, _⟩ => show win1_1.index t (2 : Fin 3) * 1024 + 1 * d.val = d.val; omega

/-- The value-cache tile of a point. -/
theorem blk2_apply (c : Dev nD) (t : Fin cfg1.N) (j f : Fin 1024) :
    (iblk1 V c 2 t : Vec Ideal S1x1024x1024 .f32) (ix3 (0 : Fin 1) j f)
      = V c main_arg2 (ix3 (batchOf t) (tileRow t j) f) := by
  obtain ⟨-, -, -, -, -, -, e2_0, e2_1, e2_2, -⟩ := idx1_closed t
  show V c main_arg2 (((cfg1.win 2).blk t).view.emb (ix3 (0 : Fin 1) j f)) = _
  refine congrArg _ ?_
  funext a; apply Fin.ext
  match a with
  | ⟨0, _⟩ => show win1_2.index t (0 : Fin 3) * 1 + 1 * 0 = t.val / 4; omega
  | ⟨1, _⟩ => show win1_2.index t (1 : Fin 3) * 1024 + 1 * j.val = 1024 * (t.val % 4) + j.val; omega
  | ⟨2, _⟩ => show win1_2.index t (2 : Fin 3) * 1024 + 1 * f.val = f.val; omega

/-- The new key rows of a point's batch. -/
theorem blk3_apply (c : Dev nD) (t : Fin cfg1.N) (j : Fin 8) (d : Fin 1024) :
    (iblk1 V c 3 t : Vec Ideal S1x8x1024 .f32) (ix3 (0 : Fin 1) j d) = V c main_v5 (ix3 (batchOf t) j d) := by
  obtain ⟨-, -, -, -, -, -, -, -, -, e3_0, e3_1, e3_2, -⟩ := idx1_closed t
  show V c main_v5 (((cfg1.win 3).blk t).view.emb (ix3 (0 : Fin 1) j d)) = _
  refine congrArg _ ?_
  funext a; apply Fin.ext
  match a with
  | ⟨0, _⟩ => show win1_3.index t (0 : Fin 3) * 1 + 1 * 0 = t.val / 4; omega
  | ⟨1, _⟩ => show win1_3.index t (1 : Fin 3) * 8 + 1 * j.val = j.val; omega
  | ⟨2, _⟩ => show win1_3.index t (2 : Fin 3) * 1024 + 1 * d.val = d.val; omega

/-- The new value rows of a point's batch. -/
theorem blk4_apply (c : Dev nD) (t : Fin cfg1.N) (j : Fin 8) (f : Fin 1024) :
    (iblk1 V c 4 t : Vec Ideal S1x8x1024 .f32) (ix3 (0 : Fin 1) j f) = V c main_v6 (ix3 (batchOf t) j f) := by
  obtain ⟨-, -, -, -, -, -, -, -, -, -, -, -, e4_0, e4_1, e4_2, -⟩ := idx1_closed t
  show V c main_v6 (((cfg1.win 4).blk t).view.emb (ix3 (0 : Fin 1) j f)) = _
  refine congrArg _ ?_
  funext a; apply Fin.ext
  match a with
  | ⟨0, _⟩ => show win1_4.index t (0 : Fin 3) * 1 + 1 * 0 = t.val / 4; omega
  | ⟨1, _⟩ => show win1_4.index t (1 : Fin 3) * 8 + 1 * j.val = j.val; omega
  | ⟨2, _⟩ => show win1_4.index t (2 : Fin 3) * 1024 + 1 * f.val = f.val; omega

/-! ## The keys, the values and the scores of a batch; real-valued entry arrays -/

/-- The keys of batch `b`: the key cache followed by the eight new key rows. -/
def Kf (c : Dev nD) (b : Fin 32) (j : Fin 4104) (d : Fin 1024) : EReal :=
  catAt (V c main_arg1) (fun b s f => V c main_v5 (ix3 b s f)) b j d

/-- The values of batch `b`: the value cache followed by the eight new value rows. -/
def Vf (c : Dev nD) (b : Fin 32) (j : Fin 4104) (f : Fin 1024) : EReal :=
  catAt (V c main_arg2) (fun b s f => V c main_v6 (ix3 b s f)) b j f

/-- The queries of batch `b`. -/
def Qf (c : Dev nD) (b : Fin 32) (q : Fin 8) (d : Fin 1024) : EReal := V c main_v7 (ix3 b q d)

/-- The scaled score of query row (b, q) against key row (b, j). -/
def sK (c : Dev nD) (b : Fin 32) (q : Fin 8) (j : Fin 4104) : EReal :=
  (∑ d : Fin 1024, Qf V c b q d * Kf V c b j d) * Ideal.ofBits .f32 0x3D000000#32

/-- The five entry arrays the region reads hold reals. -/
structure RealIn (c : Dev nD) : Prop where
  hQ : ∀ i, ∃ r : ℝ, (V c main_v7 : Vec Ideal S32x8x1024 .f32) i = (r : EReal)
  hK : ∀ i, ∃ r : ℝ, (V c main_arg1 : Vec Ideal S32x4096x1024 .f32) i = (r : EReal)
  hV : ∀ i, ∃ r : ℝ, (V c main_arg2 : Vec Ideal S32x4096x1024 .f32) i = (r : EReal)
  hKn : ∀ i, ∃ r : ℝ, (V c main_v5 : Vec Ideal S32x8x1024 .f32) i = (r : EReal)
  hVn : ∀ i, ∃ r : ℝ, (V c main_v6 : Vec Ideal S32x8x1024 .f32) i = (r : EReal)

variable {V}

theorem Kf_real {c : Dev nD} (h : RealIn V c) (b : Fin 32) (j : Fin 4104) (d : Fin 1024) :
    ∃ r : ℝ, Kf V c b j d = (r : EReal) := by
  unfold Kf catAt
  split
  · exact h.hK _
  · exact h.hKn _

theorem Vf_real {c : Dev nD} (h : RealIn V c) (b : Fin 32) (j : Fin 4104) (f : Fin 1024) :
    ∃ r : ℝ, Vf V c b j f = (r : EReal) := by
  unfold Vf catAt
  split
  · exact h.hV _
  · exact h.hVn _

theorem sK_real {c : Dev nD} (h : RealIn V c) (b : Fin 32) (q : Fin 8) (j : Fin 4104) :
    ∃ r : ℝ, sK V c b q j = (r : EReal) := by
  have hQ' : ∀ d : Fin 1024, ∃ r : ℝ, Qf V c b q d = (r : EReal) := fun d => h.hQ (ix3 b q d)
  choose qr hq using hQ'
  choose kr hk using fun d : Fin 1024 => Kf_real h b j d
  refine ⟨(∑ d : Fin 1024, qr d * kr d) * (1 / 32), ?_⟩
  unfold sK
  rw [ofBits_inv32, EReal.coe_mul, ← coe_sum]
  refine congrArg (· * (((1 : ℝ) / 32 : ℝ) : EReal)) (Finset.sum_congr rfl fun d _ => ?_)
  rw [hq d, hk d, EReal.coe_mul]

/-- The real scores of query row (b, q). -/
def eR {c : Dev nD} (h : RealIn V c) (b : Fin 32) (q : Fin 8) (j : Fin 4104) : ℝ := Classical.choose (sK_real h b q j)
theorem eR_spec {c : Dev nD} (h : RealIn V c) (b : Fin 32) (q : Fin 8) (j : Fin 4104) :
    sK V c b q j = ((eR h b q j : ℝ) : EReal) := Classical.choose_spec (sK_real h b q j)

/-- The real values of output column (b, f). -/
def wR {c : Dev nD} (h : RealIn V c) (b : Fin 32) (f : Fin 1024) (j : Fin 4104) : ℝ := Classical.choose (Vf_real h b j f)
theorem wR_spec {c : Dev nD} (h : RealIn V c) (b : Fin 32) (f : Fin 1024) (j : Fin 4104) :
    Vf V c b j f = ((wR h b f j : ℝ) : EReal) := Classical.choose_spec (Vf_real h b j f)

/-! ## The keys taken so far -/

/-- The keys below row `n`. -/
def keysBelow (n : ℕ) : Finset (Fin 4104) := Finset.univ.filter fun j => j.val < n

/-- The `k` keys from row `n` on. -/
def keysFrom (n k : ℕ) (h : n + k ≤ 4104) : Fin k → Fin 4104 := fun j => ⟨n + j.val, by have := j.isLt; omega⟩

theorem keysFrom_injective (n k : ℕ) (h : n + k ≤ 4104) : Function.Injective (keysFrom n k h) := fun a b hab => by
  have : n + a.val = n + b.val := congrArg Fin.val hab
  exact Fin.ext (by omega)

theorem keysBelow_zero : keysBelow 0 = ∅ := by
  unfold keysBelow
  exact Finset.filter_false_of_mem fun j _ => Nat.not_lt_zero _

theorem keysBelow_all : keysBelow 4104 = Finset.univ := by
  unfold keysBelow
  exact Finset.filter_true_of_mem fun j _ => j.isLt

theorem keysBelow_disjoint (n k : ℕ) (h : n + k ≤ 4104) :
    Disjoint (keysBelow n) (Finset.univ.map ⟨keysFrom n k h, keysFrom_injective n k h⟩) := by
  rw [Finset.disjoint_left]
  intro j hj hj'
  have h1 : j.val < n := (Finset.mem_filter.mp hj).2
  obtain ⟨i, -, rfl⟩ := Finset.mem_map.mp hj'
  have : n + i.val < n := h1
  omega

theorem keysBelow_union (n k : ℕ) (h : n + k ≤ 4104) :
    keysBelow n ∪ Finset.univ.map ⟨keysFrom n k h, keysFrom_injective n k h⟩ = keysBelow (n + k) := by
  ext j
  rw [Finset.mem_union, Finset.mem_map]
  unfold keysBelow
  rw [Finset.mem_filter, Finset.mem_filter]
  constructor
  · rintro (⟨-, h1⟩ | ⟨i, -, rfl⟩)
    · exact ⟨Finset.mem_univ _, by omega⟩
    · exact ⟨Finset.mem_univ _, by have := i.isLt; show n + i.val < n + k; omega⟩
  · rintro ⟨-, h1⟩
    by_cases h2 : j.val < n
    · exact Or.inl ⟨Finset.mem_univ _, h2⟩
    · exact Or.inr ⟨⟨j.val - n, by omega⟩, Finset.mem_univ _, Fin.ext (by show n + (j.val - n) = j.val; omega)⟩

/-! ## The invariant of a batch's running triple, and what each kind of point does to it -/

/-- The running triple of batch `b` after the keys in `S`: for every query row and output column, the streaming
    softmax's invariant over the real scores and values. -/
def Inv {c : Dev nD} (h : RealIn V c) (b : Fin 32) (S : Finset (Fin 4104)) (m l : Vec Ideal S1x8x1 .f32)
    (acc : Vec Ideal S1x8x1024 .f32) : Prop :=
  ∀ (q : Fin 8) (f : Fin 1024), Holds (eR h b q) (wR h b f) S
    (m (ix3 (0 : Fin 1) q (0 : Fin 1)) : EReal) (l (ix3 (0 : Fin 1) q (0 : Fin 1))) (acc (ix3 (0 : Fin 1) q f))

/-- The reset triple holds the invariant over no keys. -/
theorem inv_reset {c : Dev nD} (h : RealIn V c) (b : Fin 32) :
    Inv h b (keysBelow 0) (k1_pay14 (F := Ideal)) (k1_pay15 (F := Ideal)) (k1_pay16 (F := Ideal)) := by
  intro q f
  rw [keysBelow_zero, pay14_apply, pay15_apply, pay16_apply]
  exact Holds.init _ _

/-- A tile step: cache tile `kv` of batch `b`, over the keys below row 1024·kv. -/
theorem inv_tile {c : Dev nD} (h : RealIn V c) (b : Fin 32) (kv : ℕ) (hkv : kv < 4)
    (x0 : Vec Ideal S1x8x1024 .f32) (x1 x2 : Vec Ideal S1x1024x1024 .f32)
    (hx0 : ∀ (q : Fin 8) (d : Fin 1024), x0 (ix3 (0 : Fin 1) q d) = V c main_v7 (ix3 b q d))
    (hx1 : ∀ (j d : Fin 1024), x1 (ix3 (0 : Fin 1) j d)
      = V c main_arg1 (ix3 b (⟨1024 * kv + j.val, by have := j.isLt; omega⟩ : Fin 4096) d))
    (hx2 : ∀ (j f : Fin 1024), x2 (ix3 (0 : Fin 1) j f)
      = V c main_arg2 (ix3 b (⟨1024 * kv + j.val, by have := j.isLt; omega⟩ : Fin 4096) f))
    (m l : Vec Ideal S1x8x1 .f32) (acc : Vec Ideal S1x8x1024 .f32) (hinv : Inv h b (keysBelow (1024 * kv)) m l acc) :
    Inv h b (keysBelow (1024 * kv + 1024))
      (k1_pay4 (F := Ideal) (k1_pay19 (F := Ideal) x0 x1 m))
      (k1_pay2 (F := Ideal) (k1_pay20 (F := Ideal) x0 x1 m m) (k1_pay21 (F := Ideal) x0 x1 m) l)
      (k1_pay3 (F := Ideal) x2 (k1_pay20 (F := Ideal) x0 x1 m m) (k1_pay21 (F := Ideal) x0 x1 m) acc) := by
  intro q f
  have hle : 1024 * kv + 1024 ≤ 4104 := by omega
  have hs : ∀ j : Fin 1024, k1_pay18 (F := Ideal) x0 x1 (ix3 (0 : Fin 1) q j)
      = ((eR h b q (keysFrom (1024 * kv) 1024 hle j) : ℝ) : EReal) := fun j => by
    have hj := j.isLt
    rw [pay18_apply, ← eR_spec]
    unfold sK
    refine congrArg (· * Ideal.ofBits .f32 0x3D000000#32) (Finset.sum_congr rfl fun d _ => ?_)
    have e1 : (x0 (ix3 (0 : Fin 1) q d) : EReal) = Qf V c b q d := hx0 q d
    have e2 : (x1 (ix3 (0 : Fin 1) j d) : EReal) = Kf V c b (keysFrom (1024 * kv) 1024 hle j) d := by
      rw [hx1 j d]
      unfold Kf catAt
      rw [dif_pos (show (keysFrom (1024 * kv) 1024 hle j).val < 4096 by show 1024 * kv + j.val < 4096; omega)]
      rfl
    rw [e1, e2]
  have hv : ∀ j : Fin 1024, x2 (ix3 (0 : Fin 1) j f)
      = ((wR h b f (keysFrom (1024 * kv) 1024 hle j) : ℝ) : EReal) := fun j => by
    have hj := j.isLt
    rw [← wR_spec, hx2 j f]
    unfold Vf catAt
    rw [dif_pos (show (keysFrom (1024 * kv) 1024 hle j).val < 4096 by show 1024 * kv + j.val < 4096; omega)]
    rfl
  have key := step_tile (keysFrom (1024 * kv) 1024 hle) (keysFrom_injective _ _ hle) (keysBelow_disjoint _ _ hle)
    x0 x1 x2 m m l acc q f rfl (hinv q f) hs hv
  rw [keysBelow_union] at key
  rw [pay4_eq]
  exact key

/-- The tail step: the eight new rows, over the keys below row 4096. -/
theorem inv_tail {c : Dev nD} (h : RealIn V c) (b : Fin 32)
    (x0 : Vec Ideal S1x8x1024 .f32) (x3 x4 : Vec Ideal S1x8x1024 .f32)
    (hx0 : ∀ (q : Fin 8) (d : Fin 1024), x0 (ix3 (0 : Fin 1) q d) = V c main_v7 (ix3 b q d))
    (hx3 : ∀ (j : Fin 8) (d : Fin 1024), x3 (ix3 (0 : Fin 1) j d) = V c main_v5 (ix3 b j d))
    (hx4 : ∀ (j : Fin 8) (f : Fin 1024), x4 (ix3 (0 : Fin 1) j f) = V c main_v6 (ix3 b j f))
    (m l : Vec Ideal S1x8x1 .f32) (acc : Vec Ideal S1x8x1024 .f32) (hinv : Inv h b (keysBelow 4096) m l acc) :
    Inv h b Finset.univ
      (k1_pay6 (F := Ideal) (k1_pay9 (F := Ideal) (k1_pay17 (F := Ideal) x0) x3 m))
      (k1_pay12 (F := Ideal) (k1_pay17 (F := Ideal) x0) x3 m m l)
      (k1_pay5 (F := Ideal) (k1_pay13 (F := Ideal) (k1_pay17 (F := Ideal) x0) x3 x4 m m acc)) := by
  intro q f
  have hle : 4096 + 8 ≤ 4104 := by omega
  have hs : ∀ j : Fin 8, k1_pay8 (F := Ideal) (k1_pay17 (F := Ideal) x0) x3 (ix3 (0 : Fin 1) q j)
      = ((eR h b q (keysFrom 4096 8 hle j) : ℝ) : EReal) := fun j => by
    have hj := j.isLt
    rw [pay8_apply, ← eR_spec, pay17_eq]
    unfold sK
    refine congrArg (· * Ideal.ofBits .f32 0x3D000000#32) (Finset.sum_congr rfl fun d _ => ?_)
    have e1 : (x0 (ix3 (0 : Fin 1) q d) : EReal) = Qf V c b q d := hx0 q d
    have e2 : (x3 (ix3 (0 : Fin 1) j d) : EReal) = Kf V c b (keysFrom 4096 8 hle j) d := by
      rw [hx3 j d]
      unfold Kf catAt
      rw [dif_neg (show ¬(keysFrom 4096 8 hle j).val < 4096 by show ¬4096 + j.val < 4096; omega)]
      exact congrArg (fun r : Fin 8 => V c main_v5 (ix3 b r d)) (Fin.ext (by show j.val = 4096 + j.val - 4096; omega))
    rw [e1, e2]
  have hv : ∀ j : Fin 8, x4 (ix3 (0 : Fin 1) j f) = ((wR h b f (keysFrom 4096 8 hle j) : ℝ) : EReal) := fun j => by
    have hj := j.isLt
    rw [← wR_spec, hx4 j f]
    unfold Vf catAt
    rw [dif_neg (show ¬(keysFrom 4096 8 hle j).val < 4096 by show ¬4096 + j.val < 4096; omega)]
    exact congrArg (fun r : Fin 8 => V c main_v6 (ix3 b r f)) (Fin.ext (by show j.val = 4096 + j.val - 4096; omega))
  have key := step_tail (keysFrom 4096 8 hle) (keysFrom_injective _ _ hle) (keysBelow_disjoint _ _ hle)
    (k1_pay17 (F := Ideal) x0) x3 x4 m m l acc q f rfl (hinv q f) hs hv
  rw [keysBelow_union, keysBelow_all] at key
  rw [pay6_eq, pay5_eq]
  exact key

/-- The stored quotient, once every key has been taken: the softmax-weighted average of the values. -/
theorem out_of_inv {c : Dev nD} (h : RealIn V c) (b : Fin 32) (m l : Vec Ideal S1x8x1 .f32)
    (acc : Vec Ideal S1x8x1024 .f32) (hinv : Inv h b Finset.univ m l acc) (q : Fin 8) (f : Fin 1024)
    (Mx : EReal) (hM : ∃ r : ℝ, Mx = (r : EReal)) :
    k1_pay7 (F := Ideal) acc l (ix3 (0 : Fin 1) q f)
      = ∑ j : Fin 4104, Ideal.div (Ideal.exp (sK V c b q j - Mx)) (0 + ∑ k : Fin 4104, Ideal.exp (sK V c b q k - Mx))
          * Vf V c b j f := by
  rw [final_quotient acc l q f (hinv q f) Mx hM]
  simp only [← eR_spec, ← wR_spec]

end Cert.KernelIdeal.HandV

end
-- ==== Proof.KI_Val1Out.lean ====
/-
  What the attention region leaves in its result array, over the extended reals.

  The region runs 4 points per batch b: at each, one cache tile of 1024 key/value rows is folded into the running
  triple (m, l, acc) of the streaming softmax, which the first point of a batch resets to (−∞, 0, 0); at the last
  point the 8 new rows are folded in as well and acc / l is stored to the result block of the batch.  For real-valued
  entry arrays the triple after point 4·b + kv satisfies, for every query row q and output column f, the streaming
  softmax's invariant over the keys taken so far (the first 1024·(kv+1) rows, and all 4104 after the new rows); so
  the stored block is the softmax-weighted average of the values, and those blocks tile the result array.
-/
import proofs.«107194_j39247411150862_2_alg».proof.Proof.KI_Val1Pure
set_option maxRecDepth 16384
noncomputable section
namespace Cert.KernelIdeal.HandV
open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.LibOnlineSoftmax Cert.LibSoftmaxShift Cert.Proof.PayIdeal Cert.Proof.StepHolds Cert.Proof.RefValue
variable (V : (c : Dev nD) → (b : Ref sig .tc) → Buf (Elt Ideal) ((c : Thread nD τ).loc b))

/-! ## The three kinds of point -/

/-- The first point of a batch: the reset triple, then the batch's first tile. -/
theorem inv_A {c : Dev nD} (h : RealIn V c) (t : Fin cfg1.N) (h0 : t.val % 4 = 0) (h1 : ¬t.val % 4 = 3) :
    Inv h (batchOf t) (keysBelow (1024 * (t.val % 4) + 1024))
      (pt1_A V c t h0 h1).2.2.2.1 (pt1_A V c t h0 h1).2.2.2.2.1 (pt1_A V c t h0 h1).2.2.2.2.2 := by
  dsimp only [pt1_A]
  rw [sout1_A_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t),
    sout1_A_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t),
    sout1_A_2_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t)]
  exact inv_tile h (batchOf t) (t.val % 4) (by omega) (iblk1 V c 0 t) (iblk1 V c 1 t) (iblk1 V c 2 t)
    (blk0_apply V c t) (blk1_apply V c t) (blk2_apply V c t) (k1_pay14 (F := Ideal)) (k1_pay15 (F := Ideal)) (k1_pay16 (F := Ideal))
    (by rw [h0]; exact inv_reset h (batchOf t))

/-- A middle point of a batch: one more tile. -/
theorem inv_B {c : Dev nD} (h : RealIn V c) (t : Fin cfg1.N) (h0 : ¬t.val % 4 = 0) (h1 : ¬t.val % 4 = 3) (p : Tup1 Ideal)
    (hp : Inv h (batchOf t) (keysBelow (1024 * (t.val % 4))) p.2.2.2.1 p.2.2.2.2.1 p.2.2.2.2.2) :
    Inv h (batchOf t) (keysBelow (1024 * (t.val % 4) + 1024))
      (pt1_B V c t h0 h1 p).2.2.2.1 (pt1_B V c t h0 h1 p).2.2.2.2.1 (pt1_B V c t h0 h1 p).2.2.2.2.2 := by
  dsimp only [pt1_B]
  rw [sout1_B_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.2.2.1 p.2.2.2.2.1 p.2.2.2.2.2,
    sout1_B_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.2.2.1 p.2.2.2.2.1 p.2.2.2.2.2,
    sout1_B_2_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.2.2.1 p.2.2.2.2.1 p.2.2.2.2.2]
  exact inv_tile h (batchOf t) (t.val % 4) (by omega) (iblk1 V c 0 t) (iblk1 V c 1 t) (iblk1 V c 2 t)
    (blk0_apply V c t) (blk1_apply V c t) (blk2_apply V c t) p.2.2.2.1 p.2.2.2.2.1 p.2.2.2.2.2 hp

/-- The last point of a batch: the last tile, then the eight new rows; every key has been taken. -/
theorem inv_C {c : Dev nD} (h : RealIn V c) (t : Fin cfg1.N) (h0 : ¬t.val % 4 = 0) (h1 : t.val % 4 = 3) (p : Tup1 Ideal)
    (hp : Inv h (batchOf t) (keysBelow (1024 * (t.val % 4))) p.2.2.2.1 p.2.2.2.2.1 p.2.2.2.2.2) :
    Inv h (batchOf t) Finset.univ
      (pt1_C V c t h0 h1 p).2.2.2.1 (pt1_C V c t h0 h1 p).2.2.2.2.1 (pt1_C V c t h0 h1 p).2.2.2.2.2 := by
  dsimp only [pt1_C]
  rw [sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.2.2.1 p.2.2.2.2.1 p.2.2.2.2.2,
    sout1_C_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.2.2.1 p.2.2.2.2.1 p.2.2.2.2.2,
    sout1_C_2_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.2.2.1 p.2.2.2.2.1 p.2.2.2.2.2]
  have ht := inv_tile h (batchOf t) (t.val % 4) (by omega) (iblk1 V c 0 t) (iblk1 V c 1 t) (iblk1 V c 2 t)
    (blk0_apply V c t) (blk1_apply V c t) (blk2_apply V c t) p.2.2.2.1 p.2.2.2.2.1 p.2.2.2.2.2 hp
  rw [h1] at ht
  exact inv_tail h (batchOf t) (iblk1 V c 0 t) (iblk1 V c 3 t) (iblk1 V c 4 t) (blk0_apply V c t) (blk3_apply V c t) (blk4_apply V c t)
    (k1_pay4 (F := Ideal) (k1_pay19 (F := Ideal) (iblk1 V c 0 t) (iblk1 V c 1 t) p.2.2.2.1)) (k1_pay2 (F := Ideal) (k1_pay20 (F := Ideal) (iblk1 V c 0 t) (iblk1 V c 1 t) p.2.2.2.1 p.2.2.2.1) (k1_pay21 (F := Ideal) (iblk1 V c 0 t) (iblk1 V c 1 t) p.2.2.2.1) p.2.2.2.2.1) (k1_pay3 (F := Ideal) (iblk1 V c 2 t) (k1_pay20 (F := Ideal) (iblk1 V c 0 t) (iblk1 V c 1 t) p.2.2.2.1 p.2.2.2.1) (k1_pay21 (F := Ideal) (iblk1 V c 0 t) (iblk1 V c 1 t) p.2.2.2.1) p.2.2.2.2.2) ht

/-- What the last point of a batch stores to the result block: the closing quotient of its final triple. -/
theorem out_C {c : Dev nD} (t : Fin cfg1.N) (h0 : ¬t.val % 4 = 0) (h1 : t.val % 4 = 3) (p : Tup1 Ideal) :
    (pt1_C V c t h0 h1 p).1
      = k1_pay7 (F := Ideal) (pt1_C V c t h0 h1 p).2.2.2.2.2 (pt1_C V c t h0 h1 p).2.2.2.2.1 := by
  dsimp only [pt1_C]
  rw [sout1_C_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.2.2.1 p.2.2.2.2.1 p.2.2.2.2.2,
    sout1_C_2_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.2.2.1 p.2.2.2.2.1 p.2.2.2.2.2]
  exact out1_C_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.2.2.1 p.2.2.2.2.1 p.2.2.2.2.2

/-! ## The running triple after every point -/

/-- The keys taken after a point whose cache tile is `kv`. -/
def takenAfter (kv : ℕ) : Finset (Fin 4104) := if kv = 3 then Finset.univ else keysBelow (1024 * kv + 1024)

/-- The running triple after point `n` holds the invariant of its batch over the keys taken so far. -/
def InvAfter {c : Dev nD} (h : RealIn V c) (n : ℕ) (hn : n < cfg1.N) : Prop :=
  Inv h (batchOf ⟨n, hn⟩) (takenAfter (n % 4))
    (outsAt1 V c n hn).2.2.2.1 (outsAt1 V c n hn).2.2.2.2.1 (outsAt1 V c n hn).2.2.2.2.2

theorem invAfter_A {c : Dev nD} (h : RealIn V c) (t : Fin cfg1.N) (h0 : t.val % 4 = 0) : InvAfter V h t.val t.isLt := by
  have h1 : ¬t.val % 4 = 3 := by omega
  unfold InvAfter takenAfter
  rw [outsAt1_A V c t h0 h1, if_neg h1]
  exact inv_A V h t h0 h1

/-- The point before a point that is not the first of its batch is in the same batch, one tile earlier. -/
theorem prev_facts (t : Fin cfg1.N) (h0 : ¬t.val % 4 = 0) (hlt : t.val - 1 < cfg1.N) :
    batchOf (⟨t.val - 1, hlt⟩ : Fin cfg1.N) = batchOf t ∧ takenAfter ((t.val - 1) % 4) = keysBelow (1024 * (t.val % 4)) := by
  constructor
  · exact Fin.ext (by show (t.val - 1) / 4 = t.val / 4; omega)
  · unfold takenAfter
    rw [if_neg (by omega)]
    exact congrArg keysBelow (by omega)

theorem invAfter_B {c : Dev nD} (h : RealIn V c) (t : Fin cfg1.N) (h0 : ¬t.val % 4 = 0) (h1 : ¬t.val % 4 = 3)
    (hprev : InvAfter V h (t.val - 1) (Nat.lt_of_le_of_lt (Nat.sub_le _ _) t.isLt)) : InvAfter V h t.val t.isLt := by
  obtain ⟨hb, hk⟩ := prev_facts t h0 (Nat.lt_of_le_of_lt (Nat.sub_le _ _) t.isLt)
  unfold InvAfter at hprev
  rw [hb, hk] at hprev
  unfold InvAfter takenAfter
  rw [outsAt1_B V c t h0 h1, if_neg h1]
  exact inv_B V h t h0 h1 _ hprev

theorem invAfter_C {c : Dev nD} (h : RealIn V c) (t : Fin cfg1.N) (h0 : ¬t.val % 4 = 0) (h1 : t.val % 4 = 3)
    (hprev : InvAfter V h (t.val - 1) (Nat.lt_of_le_of_lt (Nat.sub_le _ _) t.isLt)) : InvAfter V h t.val t.isLt := by
  obtain ⟨hb, hk⟩ := prev_facts t h0 (Nat.lt_of_le_of_lt (Nat.sub_le _ _) t.isLt)
  unfold InvAfter at hprev
  rw [hb, hk] at hprev
  unfold InvAfter takenAfter
  rw [outsAt1_C V c t h0 h1, if_pos h1]
  exact inv_C V h t h0 h1 _ hprev

/-- By recursion over the points: the first point of a batch starts afresh, the others continue the point before. -/
theorem inv_at {c : Dev nD} (h : RealIn V c) : ∀ (n : ℕ) (hn : n < cfg1.N), InvAfter V h n hn := by
  intro n
  induction n with
  | zero => intro hn; exact invAfter_A V h ⟨0, hn⟩ (Nat.zero_mod 4)
  | succ n ih =>
    intro hn
    by_cases h0 : (n + 1) % 4 = 0
    · exact invAfter_A V h ⟨n + 1, hn⟩ h0
    · by_cases h1 : (n + 1) % 4 = 3
      · exact invAfter_C V h ⟨n + 1, hn⟩ h0 h1 (ih _)
      · exact invAfter_B V h ⟨n + 1, hn⟩ h0 h1 (ih _)

/-! ## The result array -/

/-- The softmax-weighted average of the values of batch `b` for query row `q` at output column `f`, at the shift `Mx`. -/
def avgAt (c : Dev nD) (Mx : Fin 32 → Fin 8 → EReal) (b : Fin 32) (q : Fin 8) (f : Fin 1024) : EReal :=
  ∑ j : Fin 4104, Ideal.div (Ideal.exp (sK V c b q j - Mx b q)) (0 + ∑ k : Fin 4104, Ideal.exp (sK V c b q k - Mx b q))
    * Vf V c b j f

/-- The result array: the averages, entry by entry. -/
def G1_5 (c : Dev nD) (Mx : Fin 32 → Fin 8 → EReal) : Vec Ideal S32x8x1024 .f32 := fun i => avgAt V c Mx (i 0) (i 1) (i 2)

/-- What the last point of a batch writes back is that batch's block of the averages. -/
theorem flushed1_5_eq {c : Dev nD} (h : RealIn V c) (Mx : Fin 32 → Fin 8 → EReal) (hMx : ∀ b q, ∃ r : ℝ, Mx b q = (r : EReal))
    (t : Fin cfg1.N) (hf : (cfg1.win 5).flush t = true) :
    (dat1 V c).flushed 5 t = ((cfg1.win 5).blk t).view.read (Elt Ideal) (G1_5 V c Mx) := by
  have h1 : t.val % 4 = 3 := (flush1_5 t).mp hf
  have h0 : ¬t.val % 4 = 0 := by omega
  have hinv := inv_at V h t.val t.isLt
  unfold InvAfter takenAfter at hinv
  rw [if_pos h1, outsAt1_C V c t h0 h1] at hinv
  show (cfg1.win 5).cut (grid1.coords t) ((dat1 V c).after 5 t) = _
  rw [after1_5, outsAt1_C V c t h0 h1, out_C V t h0 h1]
  obtain ⟨-, -, -, -, -, -, -, -, -, -, -, -, -, -, -, e5_0, e5_1, e5_2⟩ := idx1_closed t
  funext j
  have hj0 : (j 0).val < 1 := (j 0).isLt
  have hj1 : (j 1).val < 8 := (j 1).isLt
  have hj2 : (j 2).val < 1024 := (j 2).isLt
  have ej : (ix3 (0 : Fin 1) (⟨(j 1).val, hj1⟩ : Fin 8) (⟨(j 2).val, hj2⟩ : Fin 1024) : S1x8x1024.Idx) = j := by
    funext a; apply Fin.ext
    match a with
    | ⟨0, _⟩ => show 0 = (j 0).val; omega
    | ⟨1, _⟩ => rfl
    | ⟨2, _⟩ => rfl
  have e := out_of_inv h (batchOf t) _ _ _ hinv (⟨(j 1).val, hj1⟩ : Fin 8) (⟨(j 2).val, hj2⟩ : Fin 1024)
    (Mx (batchOf t) ⟨(j 1).val, hj1⟩) (hMx _ _)
  rw [ej] at e
  refine e.trans ?_
  show avgAt V c Mx (batchOf t) ⟨(j 1).val, hj1⟩ ⟨(j 2).val, hj2⟩
    = avgAt V c Mx ((((cfg1.win 5).blk t).view.emb j) 0) ((((cfg1.win 5).blk t).view.emb j) 1) ((((cfg1.win 5).blk t).view.emb j) 2)
  have c0 : (batchOf t : Fin 32) = (((cfg1.win 5).blk t).view.emb j) 0 :=
    Fin.ext (by show t.val / 4 = win1_5.index t (0 : Fin 3) * 1 + 1 * (j 0).val; omega)
  have c1 : (⟨(j 1).val, hj1⟩ : Fin 8) = (((cfg1.win 5).blk t).view.emb j) 1 :=
    Fin.ext (by show (j 1).val = win1_5.index t (1 : Fin 3) * 8 + 1 * (j 1).val; omega)
  have c2 : (⟨(j 2).val, hj2⟩ : Fin 1024) = (((cfg1.win 5).blk t).view.emb j) 2 :=
    Fin.ext (by show (j 2).val = win1_5.index t (2 : Fin 3) * 1024 + 1 * (j 2).val; omega)
  exact congr (congr (congrArg (avgAt V c Mx) c0) c1) c2

/-- An index of the result array is in point `t`'s block iff each coordinate is in the block's range on its axis. -/
theorem mem_blk1_5 (t : Fin cfg1.N) (i : S32x8x1024.Idx) :
    i ∈ ((cfg1.win 5).blk t).view.set ↔ ∀ a : Fin 3, win1_5.index t a * S1x8x1024.size a ≤ (i a).val ∧ (i a).val < win1_5.index t a * S1x8x1024.size a + S1x8x1024.size a := by
  show i ∈ ((View.whole main_v8_0).slice (win1_5.rect t)).set ↔ _
  rw [View.set_slice_whole, Rect.mem_set_unit]
  exact Iff.rfl

/-- The last points' blocks tile the result array: index (b, q, f) is in the block of point 4·b + 3. -/
theorem cover1_5 (i : S32x8x1024.Idx) :
    ∃ t : Fin cfg1.N, (cfg1.win 5).flush t = true ∧ i ∈ ((cfg1.win 5).blk t).view.set := by
  have hi0 : (i 0).val < 32 := (i 0).isLt
  have hi1 : (i 1).val < 8 := (i 1).isLt
  have hi2 : (i 2).val < 1024 := (i 2).isLt
  have hN : cfg1.N = 128 := N_1
  let t : Fin cfg1.N := ⟨4 * (i 0).val + 3, by rw [hN]; omega⟩
  have htv : t.val = 4 * (i 0).val + 3 := rfl
  refine ⟨t, (flush1_5 t).mpr (by rw [htv]; omega), ?_⟩
  rw [mem_blk1_5]
  obtain ⟨-, -, -, -, -, -, -, -, -, -, -, -, -, -, -, e5_0, e5_1, e5_2⟩ := idx1_closed t
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 8 ≤ (i 1).val ∧ (i 1).val < win1_5.index t (1 : Fin 3) * 8 + 8; omega
  | ⟨2, _⟩ => show win1_5.index t (2 : Fin 3) * 1024 ≤ (i 2).val ∧ (i 2).val < win1_5.index t (2 : Fin 3) * 1024 + 1024; omega

/-- THE RESULT ARRAY after the region, at an entry: the softmax-weighted average of the batch's values, at any real
    shift `Mx` of the exponentials. -/
theorem arrAt1_5_apply {c : Dev nD} (h : RealIn V c) (b : Fin 32) (q : Fin 8) (f : Fin 1024) (Mx : EReal)
    (hM : ∃ r : ℝ, Mx = (r : EReal)) :
    (dat1 V c).arrAt 5 cfg1.N (ix3 b q f)
      = ∑ j : Fin 4104, Ideal.div (Ideal.exp (sK V c b q j - Mx)) (0 + ∑ k : Fin 4104, Ideal.exp (sK V c b q k - Mx))
          * Vf V c b j f := by
  exact (congrFun ((dat1 V c).arrAt_eq_of_cover 5 (G1_5 V c fun _ _ => Mx)
    (fun t hf => flushed1_5_eq V h (fun _ _ => Mx) (fun _ _ => hM) t hf) cover1_5) (ix3 b q f)).trans rfl

end Cert.KernelIdeal.HandV

end
-- ==== Proof.KI_Results.lean ====
/-
  The run with the three results named: every execution of the three-launch program terminates with each result buffer
  at the fold's last contents and every argument as launched.
-/
import proofs.«107194_j39247411150862_2_alg».proof.Proof.KI_Half1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The last contents of the fold, with the three launches' proof data. -/
abbrev Wend (c : Dev nD) : Valuation τ sig (Elt F) := W6 (dat0 (F := F)) (dat1 (F := F)) (dat2 (F := F)) m ρ c

theorem run_results : θ_run defs (onTc (τ := τ) (main (F := F))) ⟨m, fun _ => 0, ρ⟩ (fun r => ∀ c : Dev nD,
      r.2.mem ((c.tc : Thread nD τ).loc main_v8_0) = Wend m ρ c (Proc.devRef .tc main_v8_0)
      ∧ r.2.mem ((c.tc : Thread nD τ).loc main_v9_0) = Wend m ρ c (Proc.devRef .tc main_v9_0)
      ∧ r.2.mem ((c.tc : Thread nD τ).loc main_v9_1) = Wend m ρ c (Proc.devRef .tc main_v9_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨
      h c _ (mem_uc main_v8_0 (by decide)), h c _ (mem_uc main_v9_0 (by decide)), h c _ (mem_uc main_v9_1 (by decide)),
      (h c _ (mem_uc main_arg0 (by decide))).trans (W6_untouched dat0 dat1 dat2 m ρ half0 half1 half2 c main_arg0 (by decide) (by decide) (by decide) (by decide) (by decide) (by decide)),
      (h c _ (mem_uc main_arg1 (by decide))).trans (W6_untouched dat0 dat1 dat2 m ρ half0 half1 half2 c main_arg1 (by decide) (by decide) (by decide) (by decide) (by decide) (by decide)),
      (h c _ (mem_uc main_arg2 (by decide))).trans (W6_untouched dat0 dat1 dat2 m ρ half0 half1 half2 c main_arg2 (by decide) (by decide) (by decide) (by decide) (by decide) (by decide)),
      (h c _ (mem_uc main_arg3 (by decide))).trans (W6_untouched dat0 dat1 dat2 m ρ half0 half1 half2 c main_arg3 (by decide) (by decide) (by decide) (by decide) (by decide) (by decide)),
      (h c _ (mem_uc main_arg4 (by decide))).trans (W6_untouched dat0 dat1 dat2 m ρ half0 half1 half2 c main_arg4 (by decide) (by decide) (by decide) (by decide) (by decide) (by decide)),
      (h c _ (mem_uc main_arg5 (by decide))).trans (W6_untouched dat0 dat1 dat2 m ρ half0 half1 half2 c main_arg5 (by decide) (by decide) (by decide) (by decide) (by decide) (by decide)),
      (h c _ (mem_uc main_arg6 (by decide))).trans (W6_untouched dat0 dat1 dat2 m ρ half0 half1 half2 c main_arg6 (by decide) (by decide) (by decide) (by decide) (by decide) (by decide)),
      (h c _ (mem_uc main_arg7 (by decide))).trans (W6_untouched dat0 dat1 dat2 m ρ half0 half1 half2 c main_arg7 (by decide) (by decide) (by decide) (by decide) (by decide) (by decide)),
      (h c _ (mem_uc main_arg8 (by decide))).trans (W6_untouched dat0 dat1 dat2 m ρ half0 half1 half2 c main_arg8 (by decide) (by decide) (by decide) (by decide) (by decide) (by decide))⟩)
    (run_all (dat0 (F := F)) (dat1 (F := F)) (dat2 (F := F)) m ρ half0 half1 half2)

end Cert.KernelIdeal.Hand

end
-- ==== Proof.Finite.lean ====
/- From the precondition (the printed predicate "every argument's absolute value is below +inf, at every index" is
   all ones) to: every entry of each of the nine argument arrays is a real number. -/
import proofs.«107194_j39247411150862_2_alg».proof.Defs
import proofs.«107194_j39247411150862_2_alg».proof.Proof.Gen.Pre_finite_inputs
import Idealize.ShloMosaic.Lib.ReduceAll
import Idealize.ShloMosaic.Lib.ValueIdx
import Idealize.ShloMosaic.PureOps.Ideal.Laws

noncomputable section

namespace Cert.Proof.Finite

open Idealize.ShloMosaic Cert.Pre_finite_inputs

instance : Subsingleton S_.Idx := ⟨fun a b => funext fun d => d.elim0⟩

/-- The bit pattern of +inf denotes the top element. -/
theorem ofBits_inf : Ideal.ofBits .f32 0x7F800000#32 = ⊤ := by simp [Ideal.ofBits, Ideal.ieee]

/-- An extended real whose absolute value max x (-x) is below the top element is a real. -/
theorem real_of_abs_lt_top (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | top => simp [Ideal.cmp] at h
  | coe r => exact ⟨r, rfl⟩

/-- One conjunct of the predicate, read at an index: the comparison of the absolute value with the splat of +inf. -/
theorem real_of_all {s : Shape} {axes : List (Fin s.rank)} (x : FVec Ideal s .f32) (bc : S_.BroadcastsInDim s (![] : Fin 0 → Fin s.rank))
    (hr : s.ReducesTo axes S_) (hu : 0 < S_.numel) (init : IVec S_ 1)
    (h : Host.reduce IntOp.andi (cmpf .olt (Host.absf x) (broadcastInDim s ![] bc (constant S_ .f32 0x7F800000#32))) init hr hu ValueIdx.ix0 = 1#1)
    (i : s.Idx) : ∃ r : ℝ, x i = (r : EReal) :=
  real_of_abs_lt_top (x i) (Host.reduce_andi_all _ init hr hu ValueIdx.ix0 h i)

variable (a0 : FVec Ideal S32x8x1024 .f32) (a1 a2 : FVec Ideal S32x4096x1024 .f32) (a3 : FVec Ideal S1024x1024 .f32)
  (a4 : FVec Ideal S1024 .f32) (a5 : FVec Ideal S1024x1024 .f32) (a6 : FVec Ideal S1024 .f32) (a7 : FVec Ideal S1024x1024 .f32)
  (a8 : FVec Ideal S1024 .f32)

/-- The predicate all ones: every entry of every argument is a real. -/
theorem finite_of_fn (h : Cert.Pre_finite_inputs.fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) ∧ (∀ i, ∃ r : ℝ, a8 i = (r : EReal)) := by
  have h0 := congrFun h ValueIdx.ix0
  dsimp only [Cert.Pre_finite_inputs.fn, Cert.Pre_finite_inputs.fn_part1, Cert.Pre_finite_inputs.fn_part2] at h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨real_of_all a0 _ _ _ _ h0, real_of_all a1 _ _ _ _ h1, real_of_all a2 _ _ _ _ h2, real_of_all a3 _ _ _ _ h3,
    real_of_all a4 _ _ _ _ h4, real_of_all a5 _ _ _ _ h5, real_of_all a6 _ _ _ _ h6, real_of_all a7 _ _ _ _ h7,
    real_of_all a8 _ _ _ _ h8⟩

open Idealize.SL.Sem in
/-- The same from the certificate's precondition on a memory: on every device, every entry of each argument buffer is a real. -/
theorem finite_of_pre (m : (ℓ : Loc Cert.KernelIdeal.nD Cert.KernelIdeal.τ Cert.KernelIdeal.sig) → Buf (Elt Ideal) ℓ)
    (hm : Cert.Pre_KernelIdeal m) (c : Dev Cert.KernelIdeal.nD) :
    (∀ i, ∃ r : ℝ, (m ((c.tc : Thread Cert.KernelIdeal.nD Cert.KernelIdeal.τ).loc Cert.KernelIdeal.main_arg0)) i = (r : EReal))
    ∧ (∀ i, ∃ r : ℝ, (m ((c.tc : Thread Cert.KernelIdeal.nD Cert.KernelIdeal.τ).loc Cert.KernelIdeal.main_arg1)) i = (r : EReal))
    ∧ (∀ i, ∃ r : ℝ, (m ((c.tc : Thread Cert.KernelIdeal.nD Cert.KernelIdeal.τ).loc Cert.KernelIdeal.main_arg2)) i = (r : EReal))
    ∧ (∀ i, ∃ r : ℝ, (m ((c.tc : Thread Cert.KernelIdeal.nD Cert.KernelIdeal.τ).loc Cert.KernelIdeal.main_arg3)) i = (r : EReal))
    ∧ (∀ i, ∃ r : ℝ, (m ((c.tc : Thread Cert.KernelIdeal.nD Cert.KernelIdeal.τ).loc Cert.KernelIdeal.main_arg4)) i = (r : EReal))
    ∧ (∀ i, ∃ r : ℝ, (m ((c.tc : Thread Cert.KernelIdeal.nD Cert.KernelIdeal.τ).loc Cert.KernelIdeal.main_arg5)) i = (r : EReal))
    ∧ (∀ i, ∃ r : ℝ, (m ((c.tc : Thread Cert.KernelIdeal.nD Cert.KernelIdeal.τ).loc Cert.KernelIdeal.main_arg6)) i = (r : EReal))
    ∧ (∀ i, ∃ r : ℝ, (m ((c.tc : Thread Cert.KernelIdeal.nD Cert.KernelIdeal.τ).loc Cert.KernelIdeal.main_arg7)) i = (r : EReal))
    ∧ (∀ i, ∃ r : ℝ, (m ((c.tc : Thread Cert.KernelIdeal.nD Cert.KernelIdeal.τ).loc Cert.KernelIdeal.main_arg8)) i = (r : EReal)) :=
  finite_of_fn _ _ _ _ _ _ _ _ _ (hm c)

end Cert.Proof.Finite

end
-- ==== Proof.SpecReal.lean ====
/- With every array entry a real number, the attention block's formulas take real values: the projections, the
   concatenations, the scaled scores, and the softmax shift (a maximum over a nonempty set of reals). -/
import proofs.«107194_j39247411150862_2_alg».proof.Proof.SpecDefs
import proofs.«107194_j39247411150862_2_alg».proof.Proof.LibSoftmaxShift

noncomputable section

namespace Cert.Proof.RefValue

open Idealize.ShloMosaic Idealize.ShloMosaic.ValueIdx Cert.LibSoftmaxShift

/-- A projection of real arrays is a real. -/
theorem proj_real {x : (⟨3, ![32, 8, 1024]⟩ : Shape).Idx → EReal} {W : (⟨2, ![1024, 1024]⟩ : Shape).Idx → EReal}
    {b : (⟨1, ![1024]⟩ : Shape).Idx → EReal} (hx : ∀ i, ∃ r : ℝ, x i = (r : EReal)) (hW : ∀ i, ∃ r : ℝ, W i = (r : EReal))
    (hb : ∀ i, ∃ r : ℝ, b i = (r : EReal)) (bb : Fin 32) (s : Fin 8) (f : Fin 1024) :
    ∃ r : ℝ, proj x W b bb s f = (r : EReal) := by
  choose fx hfx using hx
  choose fW hfW using hW
  choose fb hfb using hb
  refine ⟨(∑ d : Fin 1024, fx (ix3 bb s d) * fW (ix2 d f)) + fb (ix1 f), ?_⟩
  unfold proj
  simp only [hfx, hfW, hfb, ← EReal.coe_mul, coe_sum, ← EReal.coe_add]

/-- A real cache followed by real new rows is real everywhere. -/
theorem catAt_real {cache : (⟨3, ![32, 4096, 1024]⟩ : Shape).Idx → EReal} {new : Fin 32 → Fin 8 → Fin 1024 → EReal}
    (hc : ∀ i, ∃ r : ℝ, cache i = (r : EReal)) (hn : ∀ bb s f, ∃ r : ℝ, new bb s f = (r : EReal))
    (bb : Fin 32) (j : Fin 4104) (f : Fin 1024) : ∃ r : ℝ, catAt cache new bb j f = (r : EReal) := by
  unfold catAt
  split
  · exact hc _
  · exact hn _ _ _

/-- A scaled score of real queries and keys is a real. -/
theorem score_real {Q : Fin 32 → Fin 8 → Fin 1024 → EReal} {K : Fin 32 → Fin 4104 → Fin 1024 → EReal}
    (hQ : ∀ bb q d, ∃ r : ℝ, Q bb q d = (r : EReal)) (hK : ∀ bb j d, ∃ r : ℝ, K bb j d = (r : EReal))
    (bb : Fin 32) (q : Fin 8) (j : Fin 4104) : ∃ r : ℝ, score Q K bb q j = (r : EReal) := by
  choose fQ hfQ using hQ
  choose fK hfK using hK
  refine ⟨(∑ d : Fin 1024, fQ bb q d * fK bb j d) * (1 / 32), ?_⟩
  unfold score
  rw [scale_real]
  simp only [hfQ, hfK, ← EReal.coe_mul, coe_sum]

/-- The shift of a row of real scores is a real: the maximum over the 4104 keys. -/
theorem Mx_real {sc : Fin 4104 → EReal} (hs : ∀ j, ∃ r : ℝ, sc j = (r : EReal)) : ∃ r : ℝ, Mx sc = (r : EReal) := by
  choose e he using hs
  obtain ⟨r, hr⟩ := fold_max_bot_real (Finset.univ : Finset (Fin 4104)) Finset.univ_nonempty e
  refine ⟨r, ?_⟩
  rw [Mx_eq, show sc = fun j => (e j : EReal) from funext he, hr]
  exact max_eq_right bot_le

end Cert.Proof.RefValue

end
-- ==== Proof.KI_ValOut.lean ====
/-
  The out result at the ideal instance.  The attention launch's out array is, row by row, the streaming
  softmax-weighted average over the 4104 keys of a batch — the 4096 cached rows then the 8 new ones — of the scores
  q·k·2⁻⁵, with the queries, new keys and new values the three projections of the input.  That streaming form equals
  the one-shot one at any real shift; the shift taken here is the reference's (a maximum of real scores, real), and the
  kernel's scale literal 2⁻⁵ is the reference's 1 / sqrt 1024.  Every entry involved is real because the inputs are
  finite.  No later item of the host program writes the out array.
-/
import proofs.«107194_j39247411150862_2_alg».proof.Proof.KI_ValKV
import proofs.«107194_j39247411150862_2_alg».proof.Proof.KI_Val1Out
import proofs.«107194_j39247411150862_2_alg».proof.Proof.KI_Results
import proofs.«107194_j39247411150862_2_alg».proof.Proof.Finite
import proofs.«107194_j39247411150862_2_alg».proof.Proof.SpecReal

set_option maxRecDepth 16384

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem Idealize.ShloMosaic.StableHlo
open Idealize.ShloMosaic.Pipeline (Dat)
open Cert.Proof.RefValue (proj catAt keysAt valsAt score scale Mx)

variable (m : (ℓ : Loc nD τ sig) → Buf (Elt Ideal) ℓ) (ρ : Dev nD → PrngReg) (c : Dev nD)

/-- The queries, keys and values as the reference's formulas of the launch memory. -/
abbrev Qs : Fin 32 → Fin 8 → Fin 1024 → EReal :=
  proj (m ((c.tc : Thread nD τ).loc main_arg0)) (m ((c.tc : Thread nD τ).loc main_arg7)) (m ((c.tc : Thread nD τ).loc main_arg8))
abbrev Ks : Fin 32 → Fin 4104 → Fin 1024 → EReal :=
  keysAt (m ((c.tc : Thread nD τ).loc main_arg1))
    (proj (m ((c.tc : Thread nD τ).loc main_arg0)) (m ((c.tc : Thread nD τ).loc main_arg3)) (m ((c.tc : Thread nD τ).loc main_arg4)))
abbrev Vs : Fin 32 → Fin 4104 → Fin 1024 → EReal :=
  valsAt (m ((c.tc : Thread nD τ).loc main_arg2))
    (proj (m ((c.tc : Thread nD τ).loc main_arg0)) (m ((c.tc : Thread nD τ).loc main_arg5)) (m ((c.tc : Thread nD τ).loc main_arg6)))

theorem Kf_eq : Kf (V3 D0 m ρ) c = Ks m c := by
  funext b j d
  unfold Kf
  rw [V3_main_arg1 m ρ c]
  exact congrArg (fun n => catAt _ n b j d) (funext fun b => funext fun s => funext fun f => V3_main_v5_apply m ρ c b s f)

theorem Vf_eq : Vf (V3 D0 m ρ) c = Vs m c := by
  funext b j f
  unfold Vf
  rw [V3_main_arg2 m ρ c]
  exact congrArg (fun n => catAt _ n b j f) (funext fun b => funext fun s => funext fun f => V3_main_v6_apply m ρ c b s f)

theorem sK_eq (b : Fin 32) (q : Fin 8) (j : Fin 4104) : sK (V3 D0 m ρ) c b q j = score (Qs m c) (Ks m c) b q j := by
  unfold sK score
  rw [Kf_eq m ρ c, ← Cert.Proof.RefValue.scale_eq]
  exact congrArg (· * scale) (Finset.sum_congr rfl fun d _ => congrArg (· * _) (V3_main_v7_apply m ρ c b q d))

variable (hpre : Cert.Pre_KernelIdeal m)
include hpre

/-- The five arrays the attention launch reads hold reals. -/
theorem realIn : RealIn (V3 D0 m ρ) c := by
  obtain ⟨h0, h1, h2, h3, h4, h5, h6, h7, h8⟩ := Cert.Proof.Finite.finite_of_pre m hpre c
  have k7 : ∀ (b : Fin 32) (s : Fin 8) (f : Fin 1024), ∃ r : ℝ, (V3 D0 m ρ c main_v7 : Vec Ideal S32x8x1024 .f32) (ix3 b s f) = (r : EReal) :=
    fun b s f => by
      obtain ⟨r, hr⟩ := Cert.Proof.RefValue.proj_real h0 h7 h8 b s f
      exact ⟨r, (V3_main_v7_apply m ρ c b s f).trans hr⟩
  have k5 : ∀ (b : Fin 32) (s : Fin 8) (f : Fin 1024), ∃ r : ℝ, (V3 D0 m ρ c main_v5 : Vec Ideal S32x8x1024 .f32) (ix3 b s f) = (r : EReal) :=
    fun b s f => by
      obtain ⟨r, hr⟩ := Cert.Proof.RefValue.proj_real h0 h3 h4 b s f
      exact ⟨r, (V3_main_v5_apply m ρ c b s f).trans hr⟩
  have k6 : ∀ (b : Fin 32) (s : Fin 8) (f : Fin 1024), ∃ r : ℝ, (V3 D0 m ρ c main_v6 : Vec Ideal S32x8x1024 .f32) (ix3 b s f) = (r : EReal) :=
    fun b s f => by
      obtain ⟨r, hr⟩ := Cert.Proof.RefValue.proj_real h0 h5 h6 b s f
      exact ⟨r, (V3_main_v6_apply m ρ c b s f).trans hr⟩
  refine ⟨fun i => ?_, fun i => ?_, fun i => ?_, fun i => ?_, fun i => ?_⟩
  · exact (congrArg (fun j : S32x8x1024.Idx => ∃ r : ℝ, (V3 D0 m ρ c main_v7 : Vec Ideal S32x8x1024 .f32) j = (r : EReal))
      (eq_ix3 (n0 := 32) (n1 := 8) (n2 := 1024) i)).mpr (k7 (i 0) (i 1) (i 2))
  · rw [V3_main_arg1 m ρ c]; exact h1 i
  · rw [V3_main_arg2 m ρ c]; exact h2 i
  · exact (congrArg (fun j : S32x8x1024.Idx => ∃ r : ℝ, (V3 D0 m ρ c main_v5 : Vec Ideal S32x8x1024 .f32) j = (r : EReal))
      (eq_ix3 (n0 := 32) (n1 := 8) (n2 := 1024) i)).mpr (k5 (i 0) (i 1) (i 2))
  · exact (congrArg (fun j : S32x8x1024.Idx => ∃ r : ℝ, (V3 D0 m ρ c main_v6 : Vec Ideal S32x8x1024 .f32) j = (r : EReal))
      (eq_ix3 (n0 := 32) (n1 := 8) (n2 := 1024) i)).mpr (k6 (i 0) (i 1) (i 2))

/-- The reference's shift for a row of scores is a real. -/
theorem Mx_row_real (b : Fin 32) (q : Fin 8) : ∃ r : ℝ, Mx (score (Qs m c) (Ks m c) b q) = (r : EReal) := by
  obtain ⟨h0, h1, h2, h3, h4, h5, h6, h7, h8⟩ := Cert.Proof.Finite.finite_of_pre m hpre c
  refine Cert.Proof.RefValue.Mx_real fun j => Cert.Proof.RefValue.score_real (fun bb qq d => Cert.Proof.RefValue.proj_real h0 h7 h8 bb qq d)
    (fun bb jj d => Cert.Proof.RefValue.catAt_real h1 (fun bb s f => Cert.Proof.RefValue.proj_real h0 h3 h4 bb s f) bb jj d) b q j

/-- out: the one-shot softmax-weighted average of the values, as the reference spells it. -/
theorem final_out (b : Fin 32) (q : Fin 8) (f : Fin 1024) :
    (Wend m ρ c (Proc.devRef .tc main_v8_0) : Vec Ideal S32x8x1024 .f32) (ix3 b q f)
      = ∑ j : Fin 4104, Ideal.div (Ideal.exp (score (Qs m c) (Ks m c) b q j - Mx (score (Qs m c) (Ks m c) b q)))
            (0 + ∑ k : Fin 4104, Ideal.exp (score (Qs m c) (Ks m c) b q k - Mx (score (Qs m c) (Ks m c) b q))) * Vs m c b j f := by
  rw [show (Wend m ρ c (Proc.devRef .tc main_v8_0) : Vec Ideal S32x8x1024 .f32) = (D1 (V3 D0 m ρ) c).arrAt 5 cfg1.N from
    (W6_keep D0 D1 D2 m ρ half2 c main_v8_0 (by decide)).trans <| (W5_keep D0 D1 m ρ c main_v8_0 (by decide)).trans (W4_arr D0 D1 m ρ c 5),
    arrAt1_5_apply (V3 D0 m ρ) (realIn m ρ c hpre) b q f _ (Mx_row_real m c hpre b q), Vf_eq m ρ c]
  simp only [sK_eq m ρ c]

end Cert.KernelIdeal.HandV

end
-- ==== Proof.RefValue.lean ====
/- The reference program's three results read at an index, as the formulas of Proof/SpecDefs.lean applied to its nine
   argument arrays: the three projections, the two concatenations, the scaled scores, the softmax with its own shift
   (the maximum over the keys), and the probabilities times the values. -/
import proofs.«107194_j39247411150862_2_alg».proof.Proof.RefReadP
import proofs.«107194_j39247411150862_2_alg».proof.Proof.SpecDefs
import Idealize.ShloMosaic.Lib.ValueIdx
import Idealize.ShloMosaic.Lib.Pipeline.Value
import Idealize.ShloMosaic.PureOps.Ideal.Laws

noncomputable section

namespace Cert.Proof.RefValue

open Idealize.ShloMosaic Idealize.ShloMosaic.ValueIdx Cert.ReferenceIdeal Cert.ReferenceIdeal.Gen Cert.ReferenceIdeal.ReadP

variable (a0 : (⟨S32x8x1024, .f32⟩ : BufTy).Contents (Elt Ideal)) (a1 a2 : (⟨S32x4096x1024, .f32⟩ : BufTy).Contents (Elt Ideal))
  (a3 : (⟨S1024x1024, .f32⟩ : BufTy).Contents (Elt Ideal)) (a4 : (⟨S1024, .f32⟩ : BufTy).Contents (Elt Ideal))
  (a5 : (⟨S1024x1024, .f32⟩ : BufTy).Contents (Elt Ideal)) (a6 : (⟨S1024, .f32⟩ : BufTy).Contents (Elt Ideal))
  (a7 : (⟨S1024x1024, .f32⟩ : BufTy).Contents (Elt Ideal)) (a8 : (⟨S1024, .f32⟩ : BufTy).Contents (Elt Ideal))

/-! ## The three projections -/

/-- The projection main_v3 at (bb, s, f). -/
theorem val_main_v3_ix (x : (⟨S32x8x1024, .f32⟩ : BufTy).Contents (Elt Ideal)) (W : (⟨S1024x1024, .f32⟩ : BufTy).Contents (Elt Ideal))
    (b : (⟨S1024, .f32⟩ : BufTy).Contents (Elt Ideal)) (bb : Fin 32) (s : Fin 8) (f : Fin 1024) :
    val_main_v3 (F := Ideal) x W b (ix3 bb s f) = proj x W b bb s f := by
  have el : ∀ k : Fin 1024, lidx_main_v0 (ix3 bb s f) k = ix3 bb s k := fun k =>
    funext fun a => Fin.ext (by match a with | ⟨0, _⟩ => rfl | ⟨1, _⟩ => rfl | ⟨2, _⟩ => rfl)
  have er : ∀ k : Fin 1024, ridx_main_v0 (ix3 bb s f) k = ix2 k f := fun k =>
    funext fun a => Fin.ext (by match a with | ⟨0, _⟩ => rfl | ⟨1, _⟩ => rfl)
  have eb : idx_main_v1 (idx_main_v2 (ix3 bb s f)) = ix1 f :=
    funext fun a => Fin.ext (by match a with | ⟨0, _⟩ => rfl)
  rw [val_main_v3_apply, val_main_v0_apply, val_main_v2_apply, val_main_v1_apply]
  simp only [el, er, eb, Ideal.addf_def]
  rfl

/-- The projection main_v7 at (bb, s, f). -/
theorem val_main_v7_ix (x : (⟨S32x8x1024, .f32⟩ : BufTy).Contents (Elt Ideal)) (W : (⟨S1024x1024, .f32⟩ : BufTy).Contents (Elt Ideal))
    (b : (⟨S1024, .f32⟩ : BufTy).Contents (Elt Ideal)) (bb : Fin 32) (s : Fin 8) (f : Fin 1024) :
    val_main_v7 (F := Ideal) x W b (ix3 bb s f) = proj x W b bb s f := by
  have el : ∀ k : Fin 1024, lidx_main_v4 (ix3 bb s f) k = ix3 bb s k := fun k =>
    funext fun a => Fin.ext (by match a with | ⟨0, _⟩ => rfl | ⟨1, _⟩ => rfl | ⟨2, _⟩ => rfl)
  have er : ∀ k : Fin 1024, ridx_main_v4 (ix3 bb s f) k = ix2 k f := fun k =>
    funext fun a => Fin.ext (by match a with | ⟨0, _⟩ => rfl | ⟨1, _⟩ => rfl)
  have eb : idx_main_v5 (idx_main_v6 (ix3 bb s f)) = ix1 f :=
    funext fun a => Fin.ext (by match a with | ⟨0, _⟩ => rfl)
  rw [val_main_v7_apply, val_main_v4_apply, val_main_v6_apply, val_main_v5_apply]
  simp only [el, er, eb, Ideal.addf_def]
  rfl

/-- The projection main_v11 at (bb, s, f). -/
theorem val_main_v11_ix (x : (⟨S32x8x1024, .f32⟩ : BufTy).Contents (Elt Ideal)) (W : (⟨S1024x1024, .f32⟩ : BufTy).Contents (Elt Ideal))
    (b : (⟨S1024, .f32⟩ : BufTy).Contents (Elt Ideal)) (bb : Fin 32) (s : Fin 8) (f : Fin 1024) :
    val_main_v11 (F := Ideal) x W b (ix3 bb s f) = proj x W b bb s f := by
  have el : ∀ k : Fin 1024, lidx_main_v8 (ix3 bb s f) k = ix3 bb s k := fun k =>
    funext fun a => Fin.ext (by match a with | ⟨0, _⟩ => rfl | ⟨1, _⟩ => rfl | ⟨2, _⟩ => rfl)
  have er : ∀ k : Fin 1024, ridx_main_v8 (ix3 bb s f) k = ix2 k f := fun k =>
    funext fun a => Fin.ext (by match a with | ⟨0, _⟩ => rfl | ⟨1, _⟩ => rfl)
  have eb : idx_main_v9 (idx_main_v10 (ix3 bb s f)) = ix1 f :=
    funext fun a => Fin.ext (by match a with | ⟨0, _⟩ => rfl)
  rw [val_main_v11_apply, val_main_v8_apply, val_main_v10_apply, val_main_v9_apply]
  simp only [el, er, eb, Ideal.addf_def]
  rfl

/-! ## The two concatenations -/

/-- The concatenation main_v12 at (bb, j, f): the cache below row 4096, the new rows from there. -/
theorem val_main_v12_ix (x : (⟨S32x8x1024, .f32⟩ : BufTy).Contents (Elt Ideal)) (cache : (⟨S32x4096x1024, .f32⟩ : BufTy).Contents (Elt Ideal))
    (W : (⟨S1024x1024, .f32⟩ : BufTy).Contents (Elt Ideal)) (b : (⟨S1024, .f32⟩ : BufTy).Contents (Elt Ideal))
    (bb : Fin 32) (j : Fin 4104) (f : Fin 1024) :
    val_main_v12 (F := Ideal) x cache W b (ix3 bb j f) = catAt cache (proj x W b) bb j f := by
  unfold val_main_v12 catAt
  by_cases h : j.val < 4096
  · rw [dif_pos h]
    exact concatenate_pair_apply_left _ cache (val_main_v3 (F := Ideal) x W b) _ (ix3 bb j f) rfl (ix3 bb ⟨j.val, h⟩ f)
      (fun a => by match a with | ⟨0, _⟩ => rfl | ⟨1, _⟩ => rfl | ⟨2, _⟩ => rfl)
  · rw [dif_neg h, ← val_main_v3_ix]
    have hj := j.isLt
    exact concatenate_pair_apply_right _ cache (val_main_v3 (F := Ideal) x W b) _ (ix3 bb j f) rfl rfl
      (ix3 bb ⟨j.val - 4096, by omega⟩ f)
      (fun a ha => by match a with | ⟨0, _⟩ => rfl | ⟨1, _⟩ => exact absurd rfl ha | ⟨2, _⟩ => rfl)
      (by show j.val - 4096 + 4096 = j.val; omega)

/-- The concatenation main_v13 at (bb, j, f): the cache below row 4096, the new rows from there. -/
theorem val_main_v13_ix (x : (⟨S32x8x1024, .f32⟩ : BufTy).Contents (Elt Ideal)) (cache : (⟨S32x4096x1024, .f32⟩ : BufTy).Contents (Elt Ideal))
    (W : (⟨S1024x1024, .f32⟩ : BufTy).Contents (Elt Ideal)) (b : (⟨S1024, .f32⟩ : BufTy).Contents (Elt Ideal))
    (bb : Fin 32) (j : Fin 4104) (f : Fin 1024) :
    val_main_v13 (F := Ideal) x cache W b (ix3 bb j f) = catAt cache (proj x W b) bb j f := by
  unfold val_main_v13 catAt
  by_cases h : j.val < 4096
  · rw [dif_pos h]
    exact concatenate_pair_apply_left _ cache (val_main_v7 (F := Ideal) x W b) _ (ix3 bb j f) rfl (ix3 bb ⟨j.val, h⟩ f)
      (fun a => by match a with | ⟨0, _⟩ => rfl | ⟨1, _⟩ => rfl | ⟨2, _⟩ => rfl)
  · rw [dif_neg h, ← val_main_v7_ix]
    have hj := j.isLt
    exact concatenate_pair_apply_right _ cache (val_main_v7 (F := Ideal) x W b) _ (ix3 bb j f) rfl rfl
      (ix3 bb ⟨j.val - 4096, by omega⟩ f)
      (fun a ha => by match a with | ⟨0, _⟩ => rfl | ⟨1, _⟩ => exact absurd rfl ha | ⟨2, _⟩ => rfl)
      (by show j.val - 4096 + 4096 = j.val; omega)

/-! ## The scores and the softmax -/

/-- The scaled scores main_v18 at (bb, q, j). -/
theorem val_main_v18_ix (bb : Fin 32) (q : Fin 8) (j : Fin 4104) :
    val_main_v18 (F := Ideal) a0 a1 a3 a4 a7 a8 (ix3 bb q j) = score (proj a0 a7 a8) (keysAt a1 (proj a0 a3 a4)) bb q j := by
  have el : ∀ k : Fin 1024, lidx_main_v16 (ix3 bb q j) k = ix3 bb q k := fun k =>
    funext fun a => Fin.ext (by match a with | ⟨0, _⟩ => rfl | ⟨1, _⟩ => rfl | ⟨2, _⟩ => rfl)
  have er : ∀ k : Fin 1024, ridx_main_v16 (ix3 bb q j) k = ix3 bb j k := fun k =>
    funext fun a => Fin.ext (by match a with | ⟨0, _⟩ => rfl | ⟨1, _⟩ => rfl | ⟨2, _⟩ => rfl)
  rw [val_main_v18_apply, val_main_v16_apply, val_main_v17_apply, val_main_v15_apply, val_main_v14_apply,
    val_main_cst_apply, val_main_cst_0_apply]
  simp only [el, er, val_main_v11_ix, val_main_v12_ix, Ideal.mulf_def, Ideal.hostDivf_def, Ideal.hostUnary_sqrt_def,
    Ideal.ofBits_def]
  rfl

/-- The scores' shape reduces along its last axis to the rows' shape. -/
theorem reduces_last : S32x8x4104.Reduces [2] S32x8 := by decide

/-- The row index (bb, q) with k inserted on the reduced axis is (bb, q, k). -/
theorem lift_ix (bb : Fin 32) (q : Fin 8) (k : Fin 4104) : reduces_last.lift (ix2 bb q) k = ix3 bb q k :=
  funext fun a => Fin.ext (by match a with | ⟨0, _⟩ => rfl | ⟨1, _⟩ => rfl | ⟨2, _⟩ => rfl)

/-- The row maximum main_v19 at (bb, q): the fold of max from −∞ over the keys. -/
theorem val_main_v19_ix (bb : Fin 32) (q : Fin 8) :
    val_main_v19 (F := Ideal) a0 a1 a3 a4 a7 a8 (ix2 bb q)
      = (Finset.univ : Finset (Fin 4104)).fold max (Ideal.ofBits .f32 0xFF800000#32)
          (score (proj a0 a7 a8) (keysAt a1 (proj a0 a3 a4)) bb q) := by
  unfold val_main_v19
  rw [Host.reduce_eq_fold_single FloatOps.maximumf _ _ _ reduces_last]
  exact Finset.fold_congr (fun k _ => (congrArg (val_main_v18 (F := Ideal) a0 a1 a3 a4 a7 a8) (lift_ix bb q k)).trans
    (val_main_v18_ix a0 a1 a3 a4 a7 a8 bb q k))

/-- The shift main_v21 at (bb, q). -/
theorem val_main_v21_ix (bb : Fin 32) (q : Fin 8) :
    val_main_v21 (F := Ideal) a0 a1 a3 a4 a7 a8 (ix2 bb q) = Mx (score (proj a0 a7 a8) (keysAt a1 (proj a0 a3 a4)) bb q) := by
  rw [val_main_v21_apply, val_main_v20_apply, val_main_cst_2_apply, val_main_v19_ix]
  rfl

/-- The exponentials main_v25 at (bb, q, j). -/
theorem val_main_v25_ix (bb : Fin 32) (q : Fin 8) (j : Fin 4104) :
    val_main_v25 (F := Ideal) a0 a1 a3 a4 a7 a8 (ix3 bb q j)
      = Ideal.exp (score (proj a0 a7 a8) (keysAt a1 (proj a0 a3 a4)) bb q j - Mx (score (proj a0 a7 a8) (keysAt a1 (proj a0 a3 a4)) bb q)) := by
  have e : idx_main_v22 (idx_main_v23 (ix3 bb q j)) = ix2 bb q :=
    funext fun a => Fin.ext (by match a with | ⟨0, _⟩ => rfl | ⟨1, _⟩ => rfl)
  rw [val_main_v25_apply, val_main_v24_apply, val_main_v23_apply, val_main_v22_apply, e, val_main_v18_ix, val_main_v21_ix]
  rfl

/-- The normalizer main_v26 at (bb, q): zero plus the sum of the exponentials. -/
theorem val_main_v26_ix (bb : Fin 32) (q : Fin 8) :
    val_main_v26 (F := Ideal) a0 a1 a3 a4 a7 a8 (ix2 bb q)
      = 0 + ∑ k : Fin 4104, Ideal.exp (score (proj a0 a7 a8) (keysAt a1 (proj a0 a3 a4)) bb q k - Mx (score (proj a0 a7 a8) (keysAt a1 (proj a0 a3 a4)) bb q)) := by
  have e : ∀ k : Fin 4104, idx_main_v26 (ix2 bb q) k = ix3 bb q k := fun k =>
    funext fun a => Fin.ext (by match a with | ⟨0, _⟩ => rfl | ⟨1, _⟩ => rfl | ⟨2, _⟩ => rfl)
  rw [val_main_v26_apply]
  simp only [e, val_main_v25_ix]
  exact congrArg (· + _) Ideal.ofBits_zero_f32

/-- The probabilities main_v29 at (bb, q, j). -/
theorem val_main_v29_ix (bb : Fin 32) (q : Fin 8) (j : Fin 4104) :
    val_main_v29 (F := Ideal) a0 a1 a3 a4 a7 a8 (ix3 bb q j)
      = Ideal.div (Ideal.exp (score (proj a0 a7 a8) (keysAt a1 (proj a0 a3 a4)) bb q j - Mx (score (proj a0 a7 a8) (keysAt a1 (proj a0 a3 a4)) bb q)))
          (0 + ∑ k : Fin 4104, Ideal.exp (score (proj a0 a7 a8) (keysAt a1 (proj a0 a3 a4)) bb q k - Mx (score (proj a0 a7 a8) (keysAt a1 (proj a0 a3 a4)) bb q))) := by
  have e : idx_main_v27 (idx_main_v28 (ix3 bb q j)) = ix2 bb q :=
    funext fun a => Fin.ext (by match a with | ⟨0, _⟩ => rfl | ⟨1, _⟩ => rfl)
  rw [val_main_v29_apply, val_main_v28_apply, val_main_v27_apply, e, val_main_v25_ix, val_main_v26_ix]
  rfl

/-! ## The three results -/

/-- The attention output at (bb, q, f): the softmax of the row of scores, with the reference's own shift, times the values. -/
theorem ref_out_val (bb : Fin 32) (q : Fin 8) (f : Fin 1024) :
    val_main_v30 (F := Ideal) a0 a1 a2 a3 a4 a5 a6 a7 a8 (ix3 bb q f)
      = ∑ j : Fin 4104, Ideal.div (Ideal.exp (score (proj a0 a7 a8) (keysAt a1 (proj a0 a3 a4)) bb q j - Mx (score (proj a0 a7 a8) (keysAt a1 (proj a0 a3 a4)) bb q)))
          (0 + ∑ k : Fin 4104, Ideal.exp (score (proj a0 a7 a8) (keysAt a1 (proj a0 a3 a4)) bb q k - Mx (score (proj a0 a7 a8) (keysAt a1 (proj a0 a3 a4)) bb q))) * (valsAt a2 (proj a0 a5 a6)) bb j f := by
  have el : ∀ k : Fin 4104, lidx_main_v30 (ix3 bb q f) k = ix3 bb q k := fun k =>
    funext fun a => Fin.ext (by match a with | ⟨0, _⟩ => rfl | ⟨1, _⟩ => rfl | ⟨2, _⟩ => rfl)
  have er : ∀ k : Fin 4104, ridx_main_v30 (ix3 bb q f) k = ix3 bb k f := fun k =>
    funext fun a => Fin.ext (by match a with | ⟨0, _⟩ => rfl | ⟨1, _⟩ => rfl | ⟨2, _⟩ => rfl)
  rw [val_main_v30_apply]
  simp only [el, er, val_main_v29_ix, val_main_v13_ix]

/-- The keys result (the term the reference's run states for main_v12) at (bb, j, f). -/
theorem ref_keys_apply (bb : Fin 32) (j : Fin 4104) (f : Fin 1024) :
    (concatenate S32x4104x1024 1 [⟨S32x4096x1024, (a1)⟩, ⟨S32x8x1024, (addf (F := Ideal) (Host.dotGeneral (φ₁ := .f32) (φ₂ := .f32) dot_S32x8x1024_S1024x1024_S32x8x1024_2_0_01_1_n_n none (a0 : FVec Ideal S32x8x1024 .f32) (a3 : FVec Ideal S1024x1024 .f32)) (broadcastInDim S32x8x1024 ![0, 1, 2] bcast_S1x1x1024_S32x8x1024_0_1_2 (broadcastInDim S1x1x1024 ![2] bcast_S1024_S1x1x1024_2 (a4 : FVec Ideal S1024 .f32))))⟩] concatenates_S32x4096x1024_S32x8x1024_S32x4104x1024_d1 : (⟨S32x4104x1024, .f32⟩ : BufTy).Contents (Elt Ideal)) (ix3 bb j f)
      = keysAt a1 (proj a0 a3 a4) bb j f :=
  (congrFun (val_main_v12_eq (F := Ideal) a0 a1 a3 a4) _).trans (val_main_v12_ix a0 a1 a3 a4 bb j f)

/-- The values result (the term the reference's run states for main_v13) at (bb, j, f). -/
theorem ref_vals_apply (bb : Fin 32) (j : Fin 4104) (f : Fin 1024) :
    (concatenate S32x4104x1024 1 [⟨S32x4096x1024, (a2)⟩, ⟨S32x8x1024, (addf (F := Ideal) (Host.dotGeneral (φ₁ := .f32) (φ₂ := .f32) dot_S32x8x1024_S1024x1024_S32x8x1024_2_0_01_1_n_n none (a0 : FVec Ideal S32x8x1024 .f32) (a5 : FVec Ideal S1024x1024 .f32)) (broadcastInDim S32x8x1024 ![0, 1, 2] bcast_S1x1x1024_S32x8x1024_0_1_2 (broadcastInDim S1x1x1024 ![2] bcast_S1024_S1x1x1024_2 (a6 : FVec Ideal S1024 .f32))))⟩] concatenates_S32x4096x1024_S32x8x1024_S32x4104x1024_d1 : (⟨S32x4104x1024, .f32⟩ : BufTy).Contents (Elt Ideal)) (ix3 bb j f)
      = valsAt a2 (proj a0 a5 a6) bb j f :=
  (congrFun (val_main_v13_eq (F := Ideal) a0 a2 a5 a6) _).trans (val_main_v13_ix a0 a2 a5 a6 bb j f)

open Idealize.SL.Sem Idealize.ShloMosaic.TcCoe Idealize.ShloMosaic.StableHlo in
/-- The attention output as the reference's run names it, from a memory m on device c, at (bb, q, f). -/
theorem ref_out_apply (m : (ℓ : Loc nD τ sig) → Buf (Elt Ideal) ℓ) (c : Dev nD) (bb : Fin 32) (q : Fin 8) (f : Fin 1024) :
    Cert.ReferenceIdeal.ValueP.res_main_v30 m c (ix3 bb q f)
      = ∑ j : Fin 4104, Ideal.div (Ideal.exp (score (proj (m ((c.tc : Thread nD τ).loc main_arg0)) (m ((c.tc : Thread nD τ).loc main_arg7)) (m ((c.tc : Thread nD τ).loc main_arg8))) (keysAt (m ((c.tc : Thread nD τ).loc main_arg1)) (proj (m ((c.tc : Thread nD τ).loc main_arg0)) (m ((c.tc : Thread nD τ).loc main_arg3)) (m ((c.tc : Thread nD τ).loc main_arg4)))) bb q j - Mx (score (proj (m ((c.tc : Thread nD τ).loc main_arg0)) (m ((c.tc : Thread nD τ).loc main_arg7)) (m ((c.tc : Thread nD τ).loc main_arg8))) (keysAt (m ((c.tc : Thread nD τ).loc main_arg1)) (proj (m ((c.tc : Thread nD τ).loc main_arg0)) (m ((c.tc : Thread nD τ).loc main_arg3)) (m ((c.tc : Thread nD τ).loc main_arg4)))) bb q)))
          (0 + ∑ k : Fin 4104, Ideal.exp (score (proj (m ((c.tc : Thread nD τ).loc main_arg0)) (m ((c.tc : Thread nD τ).loc main_arg7)) (m ((c.tc : Thread nD τ).loc main_arg8))) (keysAt (m ((c.tc : Thread nD τ).loc main_arg1)) (proj (m ((c.tc : Thread nD τ).loc main_arg0)) (m ((c.tc : Thread nD τ).loc main_arg3)) (m ((c.tc : Thread nD τ).loc main_arg4)))) bb q k - Mx (score (proj (m ((c.tc : Thread nD τ).loc main_arg0)) (m ((c.tc : Thread nD τ).loc main_arg7)) (m ((c.tc : Thread nD τ).loc main_arg8))) (keysAt (m ((c.tc : Thread nD τ).loc main_arg1)) (proj (m ((c.tc : Thread nD τ).loc main_arg0)) (m ((c.tc : Thread nD τ).loc main_arg3)) (m ((c.tc : Thread nD τ).loc main_arg4)))) bb q))) * (valsAt (m ((c.tc : Thread nD τ).loc main_arg2)) (proj (m ((c.tc : Thread nD τ).loc main_arg0)) (m ((c.tc : Thread nD τ).loc main_arg5)) (m ((c.tc : Thread nD τ).loc main_arg6)))) bb j f := by
  rw [val_main_v30_eq]
  exact ref_out_val _ _ _ _ _ _ _ _ _ bb q f

end Cert.Proof.RefValue

end
-- ==== Proof.Alg.lean ====
/-
  The two idealized programs agree.  Run from memories agreeing on the nine arguments, the kernel program ends with its
  three results at the contents the three launches leave, and the reference ends with its three results at its
  operations' composed terms; read at an index, both are the same formulas of the arguments: out the softmax-weighted
  average of the values over the 4104 keys, keys and values the caches followed by the new rows.
-/
import proofs.«107194_j39247411150862_2_alg».proof.Defs
import proofs.«107194_j39247411150862_2_alg».proof.Proof.KI_ValOut
import proofs.«107194_j39247411150862_2_alg».proof.Proof.RefValue
import proofs.«107194_j39247411150862_2_alg».proof.Proof.Gen.Kernel
import proofs.«107194_j39247411150862_2_alg».proof.Proof.Gen.KernelIdeal
import proofs.«107194_j39247411150862_2_alg».proof.Proof.Gen.ReferenceIdeal
import proofs.«107194_j39247411150862_2_alg».proof.Proof.Gen.Pre_finite_inputs

set_option maxRecDepth 16384

noncomputable section

namespace Cert.Proof.Alg

open Cert.KernelIdeal Cert.KernelIdeal.Gen Cert.KernelIdeal.Hand Cert.KernelIdeal.HandV
open Idealize.ShloMosaic Idealize.ShloMosaic.TcCoe Idealize.ShloMosaic.ValueIdx Idealize.SL.Sem

theorem algebraic : Cert.algebraic_KernelIdeal_ReferenceIdeal := by
  intro m ρ m' ρ' hpre hagree
  refine ⟨fun c => Wend m ρ c (Proc.devRef .tc main_v8_0), fun c => Wend m ρ c (Proc.devRef .tc main_v9_0),
    fun c => Wend m ρ c (Proc.devRef .tc main_v9_1), run_results (F := Ideal) m ρ, ?_⟩
  refine (θ_run Cert.ReferenceIdeal.defs _ _).mono (fun r h c => ⟨(h c).1.trans ?_, (h c).2.1.trans ?_, (h c).2.2.1.trans ?_, (h c).2.2.2⟩)
    (Cert.ReferenceIdeal.ValueP.run (F := Ideal) m' ρ')
  · obtain ⟨e0, e1, e2, e3, e4, e5, e6, e7, e8⟩ := hagree c
    funext i
    obtain ⟨b, q, f, rfl⟩ : ∃ (b : Fin 32) (q : Fin 8) (f : Fin 1024), i = ix3 b q f := ⟨i 0, i 1, i 2, eq_ix3 i⟩
    rw [Cert.Proof.RefValue.ref_out_apply m' c b q f, e0, e1, e2, e3, e4, e5, e6, e7, e8]
    exact (final_out m ρ c hpre b q f).symm
  · obtain ⟨e0, e1, e2, e3, e4, e5, e6, e7, e8⟩ := hagree c
    funext i
    obtain ⟨b, j, f, rfl⟩ : ∃ (b : Fin 32) (j : Fin 4104) (f : Fin 1024), i = ix3 b j f := ⟨i 0, i 1, i 2, eq_ix3 i⟩
    rw [e0, e1, e3, e4]
    exact (Cert.Proof.RefValue.ref_keys_apply _ _ _ _ b j f).trans (final_keys m ρ c b j f).symm
  · obtain ⟨e0, e1, e2, e3, e4, e5, e6, e7, e8⟩ := hagree c
    funext i
    obtain ⟨b, j, f, rfl⟩ : ∃ (b : Fin 32) (j : Fin 4104) (f : Fin 1024), i = ix3 b j f := ⟨i 0, i 1, i 2, eq_ix3 i⟩
    rw [e0, e2, e5, e6]
    exact (Cert.Proof.RefValue.ref_vals_apply _ _ _ _ b j f).trans (final_vals m ρ c b j f).symm

end Cert.Proof.Alg

end
-- ==== Proof.lean ====
/-
  The certificate's five claims for the fused projection + attention-over-a-cache kernel against its jnp reference.

  Both programs compute, per batch b and query row q, with the keys K = [key_cache ; x·Wk + bk] and the values
  V = [value_cache ; x·Wv + bv] (4096 cached rows followed by the 8 new ones) and the queries Q = x·Wq + bq:

      out[b,q,:] = Σ_j softmax_j(Q[b,q,:]·K[b,j,:] / 32) · V[b,j,:],      keys = K,   values = V.

  The reference takes the softmax in one shot over all 4104 keys (its scale 1/sqrt(1024) is 1/32 exactly, the
  kernel's literal 2⁻⁵).  The kernel is three launches: the three projections on the input laid out as [256, 1024];
  the attention, which streams the keys in five chunks (four cache tiles of 1024 rows, then the 8 new rows) through a
  running triple (m, l, acc) kept in scratch across the four grid points of a batch, divides at the last one, and
  copies every cache tile through to keys / values on the way; and the tail, which writes the new rows behind the
  copied cache.  Proof/LibOnlineSoftmax.lean proves that the streaming form equals the one-shot weighted average for
  real data, which is where the precondition (finite inputs) enters.

  The frames: the three launches' run (Proof/KI_Run.lean, from each launch's proof data: Proof/KI_R0.lean,
  Proof/KI_R1*.lean, Proof/KI_R2.lean) terminates, faults nowhere and leaves every unscoped buffer at a known
  contents; the arguments are written by nothing (Proof/KI_Post.lean).  The same text at the word level is
  Proof/KW_*.lean.  The reference is host operations only; its run is read back (Proof/RefRunP.lean).
  preserves: the idealization rewrote no operation.  algebraic: Proof/Alg.lean, from the kernel's three results read
  at an index (Proof/KI_Val*.lean) and the reference's (Proof/RefValue.lean).
-/
import proofs.«107194_j39247411150862_2_alg».proof.Defs
import proofs.«107194_j39247411150862_2_alg».proof.Proof.Gen.Kernel
import proofs.«107194_j39247411150862_2_alg».proof.Proof.Gen.Kernel.Skeleton
import proofs.«107194_j39247411150862_2_alg».proof.Proof.Gen.Kernel.Launch
import proofs.«107194_j39247411150862_2_alg».proof.Proof.Gen.Kernel.Regions
import proofs.«107194_j39247411150862_2_alg».proof.Proof.Gen.Kernel.Points
import proofs.«107194_j39247411150862_2_alg».proof.Proof.Gen.KernelIdeal
import proofs.«107194_j39247411150862_2_alg».proof.Proof.Gen.KernelIdeal.Skeleton
import proofs.«107194_j39247411150862_2_alg».proof.Proof.Gen.KernelIdeal.Launch
import proofs.«107194_j39247411150862_2_alg».proof.Proof.Gen.KernelIdeal.Regions
import proofs.«107194_j39247411150862_2_alg».proof.Proof.Gen.KernelIdeal.Points
import proofs.«107194_j39247411150862_2_alg».proof.Proof.Gen.ReferenceIdeal
import proofs.«107194_j39247411150862_2_alg».proof.Proof.Gen.Pre_finite_inputs
import proofs.«107194_j39247411150862_2_alg».proof.Proof.RefRunP
import proofs.«107194_j39247411150862_2_alg».proof.Proof.KI_Half1
import proofs.«107194_j39247411150862_2_alg».proof.Proof.KW_Half1
import proofs.«107194_j39247411150862_2_alg».proof.Proof.Alg
import Idealize.ShloMosaic.Adequacy
import Idealize.ShloMosaic.Init

noncomputable section

namespace Cert.Proof

open Idealize.ShloMosaic Idealize.SL.Sem

/-- The three launches' run at the word level: every execution terminates and the arguments end as launched. -/
theorem frame_p : Cert.frame_Kernel := fun m ρ _ => Cert.Kernel.Hand.frame (F := Bits) m ρ

/-- The same run read at the ideal instance. -/
theorem frame_pi : Cert.frame_KernelIdeal := fun m ρ _ => Cert.KernelIdeal.Hand.frame (F := Ideal) m ρ

/-- The reference is host operations only: its run, read back, leaves every argument as launched. -/
theorem frame_ri : Cert.frame_ReferenceIdeal := fun m ρ _ =>
  (θ_run Cert.ReferenceIdeal.defs _ _).mono (fun _ h c => (h c).2.2.2) (Cert.ReferenceIdeal.ValueP.run (F := Ideal) m ρ)

/-- The idealization rewrote no operation: nothing to preserve. -/
theorem preserves : Cert.preserves_Kernel_KernelIdeal := trivial

/-- The kernel's three results against the reference's, index by index, at the ideal instance. -/
theorem algebraic : Cert.algebraic_KernelIdeal_ReferenceIdeal := Cert.Proof.Alg.algebraic

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
